-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S256x256 : Shape := ⟨2, ![256, 256]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4x256x64x64 .f32) (main_arg1 : FVec F S4x256x64x64 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S4x256x64x64 .f32 := Host.absf main_arg1
  let main_cst_0 : FVec F S_ .f32 := constant S_ .f32 0x7F800000#32
  let main_v5 : FVec F S4x256x64x64 .f32 := broadcastInDim S4x256x64x64 ![] bcast_S_S4x256x64x64 main_cst_0
  let main_v6 : IVec S4x256x64x64 1 := cmpf .olt main_v4 main_v5
  let main_c_1 : IVec S_ 1 := constantI S_ 1 1#1
  let main_v7 : IVec S_ 1 := (fun x v => Host.reduce IntOp.andi x v reducesTo_S4x256x64x64_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S4x256x64x64 : Shape := ⟨4, ![4, 256, 64, 64]⟩
abbrev S256x256 : Shape := ⟨2, ![256, 256]⟩
abbrev S256 : Shape := ⟨1, ![256]⟩
abbrev S4x256x4096 : Shape := ⟨3, ![4, 256, 4096]⟩
abbrev S768x256 : Shape := ⟨2, ![768, 256]⟩
abbrev S768 : Shape := ⟨1, ![768]⟩
abbrev S4x4096x768 : Shape := ⟨3, ![4, 4096, 768]⟩
abbrev S1x256x512 : Shape := ⟨3, ![1, 256, 512]⟩
abbrev S1x512x768 : Shape := ⟨3, ![1, 512, 768]⟩
abbrev S256x512 : Shape := ⟨2, ![256, 512]⟩
abbrev S512x768 : Shape := ⟨2, ![512, 768]⟩
abbrev S1x768 : Shape := ⟨2, ![1, 768]⟩
abbrev S4x512x256 : Shape := ⟨3, ![4, 512, 256]⟩
abbrev S4x256x256 : Shape := ⟨3, ![4, 256, 256]⟩
abbrev S4x256x512 : Shape := ⟨3, ![4, 256, 512]⟩
abbrev S4x512x1 : Shape := ⟨3, ![4, 512, 1]⟩
abbrev S4x512 : Shape := ⟨2, ![4, 512]⟩

abbrev nBuf : Space → Nat
  | .hbm => 18
  | .vmem => 34
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x256x4096, .f32⟩
  | .hbm, ⟨9, _⟩ => ⟨S4x256x4096, .f32⟩
  | .hbm, ⟨10, _⟩ => ⟨S768x256, .f32⟩
  | .hbm, ⟨11, _⟩ => ⟨S768, .f32⟩
  | .hbm, ⟨12, _⟩ => ⟨S4x4096x768, .bf16⟩
  | .hbm, ⟨13, _⟩ => ⟨S4x4096x768, .bf16⟩
  | .hbm, ⟨14, _⟩ => ⟨S4x256x4096, .f32⟩
  | .hbm, ⟨15, _⟩ => ⟨S4x256x4096, .f32⟩
  | .hbm, ⟨16, _⟩ => ⟨S4x256x64x64, .f32⟩
  | .hbm, ⟨17, _⟩ => ⟨S4x256x64x64, .f32⟩
  | .local _ .vmem, ⟨0, _⟩ => ⟨S1x256x512, .f32⟩
  | .local _ .vmem, ⟨1, _⟩ => ⟨S1x256x512, .f32⟩
  | .local _ .vmem, ⟨2, _⟩ => ⟨S768x256, .f32⟩
  | .local _ .vmem, ⟨3, _⟩ => ⟨S768, .f32⟩
  | .local _ .vmem, ⟨4, _⟩ => ⟨S1x512x768, .bf16⟩
  | .local _ .vmem, ⟨5, _⟩ => ⟨S1x512x768, .bf16⟩
  | .local _ .vmem, ⟨6, _⟩ => ⟨S1x256x512, .f32⟩
  | .local _ .vmem, ⟨7, _⟩ => ⟨S1x256x512, .f32⟩
  | .local _ .vmem, ⟨8, _⟩ => ⟨S768x256, .f32⟩
  | .local _ .vmem, ⟨9, _⟩ => ⟨S768, .f32⟩
  | .local _ .vmem, ⟨10, _⟩ => ⟨S1x512x768, .bf16⟩
  | .local _ .vmem, ⟨11, _⟩ => ⟨S1x512x768, .bf16⟩
  | .local _ .vmem, ⟨12, _⟩ => ⟨S4x512x256, .bf16⟩
  | .local _ .vmem, ⟨13, _⟩ => ⟨S4x512x256, .bf16⟩
  | .local _ .vmem, ⟨14, _⟩ => ⟨S4x256x256, .bf16⟩
  | .local _ .vmem, ⟨15, _⟩ => ⟨S4x256x256, .bf16⟩
  | .local _ .vmem, ⟨16, _⟩ => ⟨S4x256x256, .bf16⟩
  | .local _ .vmem, ⟨17, _⟩ => ⟨S4x256x256, .bf16⟩
  | .local _ .vmem, ⟨18, _⟩ => ⟨S4x512x256, .bf16⟩
  | .local _ .vmem, ⟨19, _⟩ => ⟨S4x512x256, .bf16⟩
  | .local _ .vmem, ⟨20, _⟩ => ⟨S4x256x256, .bf16⟩
  | .local _ .vmem, ⟨21, _⟩ => ⟨S4x256x256, .bf16⟩
  | .local _ .vmem, ⟨22, _⟩ => ⟨S4x256x256, .bf16⟩
  | .local _ .vmem, ⟨23, _⟩ => ⟨S4x256x256, .bf16⟩
  | .local _ .vmem, ⟨24, _⟩ => ⟨S4x256x512, .f32⟩
  | .local _ .vmem, ⟨25, _⟩ => ⟨S4x256x512, .f32⟩
  | .local _ .vmem, ⟨26, _⟩ => ⟨S4x256x512, .f32⟩
  | .local _ .vmem, ⟨27, _⟩ => ⟨S4x256x512, .f32⟩
  | .local _ .vmem, ⟨28, _⟩ => ⟨S4x512x1, .f32⟩
  | .local _ .vmem, ⟨29, _⟩ => ⟨S4x512x1, .f32⟩
  | .local _ .vmem, ⟨30, _⟩ => ⟨S4x512x256, .f32⟩
  | .local _ .vmem, ⟨31, _⟩ => ⟨S4x512x1, .f32⟩
  | .local _ .vmem, ⟨32, _⟩ => ⟨S4x512x1, .f32⟩
  | .local _ .vmem, ⟨33, _⟩ => ⟨S4x512x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc2_scratch3 : Ref sig .tc := ⟨.vmem, 31, rfl⟩
abbrev cc2_scratch4 : Ref sig .tc := ⟨.vmem, 32, rfl⟩
abbrev cc2_scratch5 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v77 : BitVec 1 := Scalar.cmpi .eq arg1 c15_i32
  let v78 : BitVec 32 := Scalar.extui v77
  let c0_i32_67 : BitVec 32 := 0#32
  let v79 : BitVec 1 := Scalar.cmpi .ne v78 c0_i32_67
  v79

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg1.toNat, c1_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg1.toNat, c2_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg1.toNat, c1_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, arg1.toNat, c2_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S4x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4x256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4x256x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4x512x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4x256x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S4x256x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S4x256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S4x256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  shapeCasts_S4x256x64x64_S4x256x4096 : S4x256x64x64.ShapeCasts S4x256x4096
  concatenates_S256x256_S256x256_S256x256_S768x256_d0 : Shape.Concatenates [S256x256, S256x256, S256x256] S768x256 0
  concatenates_S256_S256_S256_S768_d0 : Shape.Concatenates [S256, S256, S256] S768 0
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S768_S768_0 : ∀ a, (![0] : Fin 1 → Nat) a + S768.size a ≤ S768.size a
  h_S768 : 0 < S768.numel
  shapeCasts_S768_S768 : S768.ShapeCasts S768
  shapeCasts_S768_S1x768 : S768.ShapeCasts S1x768
  broadcasts_S1x768_S512x768 : S1x768.Broadcasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  reduces_S4x512x256_S4x512 : S4x512x256.Reduces [2] S4x512
  shapeCasts_S4x512_S4x512x1 : S4x512.ShapeCasts S4x512x1
  broadcasts_S4x512x1_S4x512x256 : S4x512x1.Broadcasts S4x512x256
  transposes_S4x512x256_p0_2_1_S4x256x512 : S4x512x256.Transposes [0, 2, 1] S4x256x512
  inb_S4x256x512_S4x256x512_0_0_0 : ∀ a, (![0, 0, 0] : Fin 3 → Nat) a + S4x256x512.size a ≤ S4x256x512.size a
  h_S4x256x512 : 0 < S4x256x512.numel
  shapeCasts_S4x256x4096_S4x256x64x64 : S4x256x4096.ShapeCasts S4x256x64x64
  dot_S256x512_S768x256_S512x768_0_1_1_0_n_n_wf : DotDims.WF S256x512 S768x256 S512x768 [0] [1] [1] [0] [] []
  dot_S4x512x256_S4x256x256_S4x512x256_2_2_1_1_0_0_wf : DotDims.WF S4x512x256 S4x256x256 S4x512x256 [2] [2] [1] [1] [0] [0]
  dot_S4x512x256_S4x256x256_S4x512x256_2_1_1_2_0_0_wf : DotDims.WF S4x512x256 S4x256x256 S4x512x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x4096.size a
  hwx0_0 : ∀ i : grid0.Coords, EltTy.bits .f32 = 32 ∨ (Rect.block (s := S4x256x4096) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S4x4096x768.size a
  hwx0_3 : ∀ i : grid0.Coords, EltTy.bits .bf16 = 32 ∨ (Rect.block (s := S4x4096x768) S1x512x768.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x256x4096.size a
  hwx1_0 : ∀ i : grid1.Coords, EltTy.bits .f32 = 32 ∨ (Rect.block (s := S4x256x4096) S1x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x256.size a ≤ S768x256.size a
  hwx1_1 : ∀ i : grid1.Coords, EltTy.bits .f32 = 32 ∨ (Rect.block (s := S768x256) S768x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x768.size a ≤ S4x4096x768.size a
  hwx1_3 : ∀ i : grid1.Coords, EltTy.bits .bf16 = 32 ∨ (Rect.block (s := S4x4096x768) S1x512x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x512x256.size a ≤ S4x4096x768.size a
  hwx2_0 : ∀ i : grid2.Coords, EltTy.bits .bf16 = 32 ∨ (Rect.block (s := S4x4096x768) S4x512x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x256x256.size a ≤ S4x4096x768.size a
  hwx2_1 : ∀ i : grid2.Coords, EltTy.bits .bf16 = 32 ∨ (Rect.block (s := S4x4096x768) S4x256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x256x256.size a ≤ S4x4096x768.size a
  hwx2_2 : ∀ i : grid2.Coords, EltTy.bits .bf16 = 32 ∨ (Rect.block (s := S4x4096x768) S4x256x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4x512x256.size a ≤ S4x4096x768.size a
  hwx2_3 : ∀ i : grid2.Coords, EltTy.bits .bf16 = 32 ∨ (Rect.block (s := S4x4096x768) S4x512x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4x256x256.size a ≤ S4x4096x768.size a
  hwx2_4 : ∀ i : grid2.Coords, EltTy.bits .bf16 = 32 ∨ (Rect.block (s := S4x4096x768) S4x256x256.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x256x256.size a ≤ S4x4096x768.size a
  hwx2_5 : ∀ i : grid2.Coords, EltTy.bits .bf16 = 32 ∨ (Rect.block (s := S4x4096x768) S4x256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4x256x512.size a ≤ S4x256x4096.size a
  hwx2_6 : ∀ i : grid2.Coords, EltTy.bits .f32 = 32 ∨ (Rect.block (s := S4x256x4096) S4x256x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4x256x512.size a ≤ S4x256x4096.size a
  hwx2_7 : ∀ i : grid2.Coords, EltTy.bits .f32 = 32 ∨ (Rect.block (s := S4x256x4096) S4x256x512.size (cc2_transform_7 i) (hinb2_7 i)).WholeWords (EltTy.packing .f32)

variable [Facts₀]

def dot_S256x512_S768x256_S512x768_0_1_1_0_n_n : DotDims S256x512 S768x256 S512x768 where
  lhsContracting := [0]
  rhsContracting := [1]
  lhsNonContracting := [1]
  rhsNonContracting := [0]
  lhsBatch := []
  rhsBatch := []
  wf := dot_S256x512_S768x256_S512x768_0_1_1_0_n_n_wf
def dot_S4x512x256_S4x256x256_S4x512x256_2_2_1_1_0_0 : DotDims S4x512x256 S4x256x256 S4x512x256 where
  lhsContracting := [2]
  rhsContracting := [2]
  lhsNonContracting := [1]
  rhsNonContracting := [1]
  lhsBatch := [0]
  rhsBatch := [0]
  wf := dot_S4x512x256_S4x256x256_S4x512x256_2_2_1_1_0_0_wf
def dot_S4x512x256_S4x256x256_S4x512x256_2_1_1_2_0_0 : DotDims S4x512x256 S4x256x256 S4x512x256 where
  lhsContracting := [2]
  rhsContracting := [1]
  lhsNonContracting := [1]
  rhsNonContracting := [2]
  lhsBatch := [0]
  rhsBatch := [0]
  wf := dot_S4x512x256_S4x256x256_S4x512x256_2_1_1_2_0_0_wf

abbrev win0_0 : Pipeline.Window sig grid0 :=
  Pipeline.Window.ofSpec (Memref.whole main_v0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S768x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S4x512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4x256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S4x256x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S4x512x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S4x256x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5) S4x256x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6_0) S4x256x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v6_1) S4x256x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S256x256 : Shape := ⟨2, ![256, 256]⟩
abbrev S256 : Shape := ⟨1, ![256]⟩
abbrev S4x256x4096 : Shape := ⟨3, ![4, 256, 4096]⟩
abbrev S4x4096x256 : Shape := ⟨3, ![4, 4096, 256]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S4x256x64x64, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4x256x4096, .f32⟩
  | .hbm, ⟨9, _⟩ => ⟨S4x4096x256, .f32⟩
  | .hbm, ⟨10, _⟩ => ⟨S4x256x4096, .f32⟩
  | .hbm, ⟨11, _⟩ => ⟨S4x4096x256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S1x1x256, .f32⟩
  | .hbm, ⟨22, _⟩ => ⟨S4x4096x256, .f32⟩
  | .hbm, ⟨23, _⟩ => ⟨S4x4096x256, .f32⟩
  | .hbm, ⟨24, _⟩ => ⟨S4x4096x256, .f32⟩
  | .hbm, ⟨25, _⟩ => ⟨S1x1x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S1x1x256, .f32⟩
  | .hbm, ⟨30, _⟩ => ⟨S4x4096x256, .f32⟩
  | .hbm, ⟨31, _⟩ => ⟨S4x4096x256, .f32⟩
  | .hbm, ⟨32, _⟩ => ⟨S4x4096x256, .f32⟩
  | .hbm, ⟨33, _⟩ => ⟨S1x1x256, .f32⟩
  | .hbm, ⟨34, _⟩ => ⟨S4x4096x256, .f32⟩
  | .hbm, ⟨35, _⟩ => ⟨S4x4096x256, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x4096x1, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S4x4096x256, .f32⟩
  | .hbm, ⟨67, _⟩ => ⟨S4x4096x256, .f32⟩
  | .hbm, ⟨68, _⟩ => ⟨S4x256x4096, .f32⟩
  | .hbm, ⟨69, _⟩ => ⟨S4x256x64x64, .f32⟩
  | .hbm, ⟨70, _⟩ => ⟨S4x256x4096, .f32⟩
  | .hbm, ⟨71, _⟩ => ⟨S4x256x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  transposes_S4x256x4096_S4x4096x256_0_2_1 : S4x256x4096.Transposes [0, 2, 1] S4x4096x256
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x256_S4x256x4096_0_2_1 : S4x4096x256.Transposes [0, 2, 1] S4x256x4096
  shapeCasts_S4x256x4096_S4x256x64x64 : S4x256x4096.ShapeCasts S4x256x64x64
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.LinearB.lean ====
/- The frame data of the two linear-projection kernels (pipelines 0 and 1), at any float instance `F` and
   at a PARAMETER `V`, the TensorCore's buffer contents when the region is entered. Per region: each window's
   block at a grid point; what the body leaves in the output window's buffer as a closed function of the three
   input blocks (`outK_3`: the one whole store of the payload `truncf (x0ᵀ · x1ᵀ + broadcast x2)`); the body's
   separation-logic triple; the pipeline's proof data `datK`; and the body obligation. The weight and bias
   windows have a constant block index and are fetched at the first point only: at a later point the staging
   buffer still holds the block, because the index has not moved. -/
import proofs.«168839_j16673063043431_2_alg».proof.Proof.Gen.Kernel.Launch
import proofs.«168839_j16673063043431_2_alg».proof.Proof.Gen.Kernel.Skeleton
import proofs.«168839_j16673063043431_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter both regions' data are stated at
variable (V : (c : Dev nD) → (b : Ref sig .tc) → Buf (Elt F) ((c : Thread nD τ).loc b))

/-! # Region 0: the linear kernel of pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activation block, fetched at every point): its current staging buffer holds its block at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole weight, block index constant, fetched at the first point only): where it is not
    fetched its block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole bias, block index constant, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1x256x512 := Rect.unit (s := S1x256x512) ![0, 0, 0] S1x256x512.size inb_S1x256x512_S1x256x512_0_0_0
abbrev r0_1 : Rect S768x256 := Rect.unit (s := S768x256) ![0, 0] S768x256.size inb_S768x256_S768x256_0_0
abbrev r0_2 : Rect S768 := Rect.unit (s := S768) ![0] S768.size inb_S768_S768_0
abbrev r0_3 : Rect S1x512x768 := Rect.unit (s := S1x512x768) ![0, 0, 0] S1x512x768.size inb_S1x512x768_S1x512x768_0_0_0

/-! ## What the body leaves in the output window's buffer -/

/-- The output window's staging buffer after the body, from the three input blocks: its one store, of the
    payload (the projected block plus the bias, rounded) of the three whole loads, over the whole buffer. -/
def out0_3 (x0 : Vec F S1x256x512 .f32) (x1 : Vec F S768x256 .f32) (x2 : Vec F S768 .f32) : Vec F S1x512x768 .bf16 :=
  View.canon [⟨r0_3, k0_pay1 (View.ld x0 r0_0) (View.ld x1 r0_1) (View.ld x2 r0_2)⟩]

/-- The one store's rectangle is the whole buffer, so it covers it. -/
theorem cover0_3 (p0 : Vec F S1x512x768 .bf16) (y : S1x512x768.Idx) :
    ∃ pc ∈ ([⟨r0_3, p0⟩] : List (View.Piece (Elt F) S1x512x768 .bf16)), y ∈ pc.1.set :=
  View.cover_of_tiled [⟨r0_3, p0⟩] S1x512x768.size (by rfl) y

/-! ## The body's triple -/

set_option maxHeartbeats 1000000 in
/-- The kernel body on whole staging memrefs, the inputs' at read contents `x0 x1 x2` and the output's at anything,
    runs to the continuation holding the inputs' as they were and the output's at `out0_3` of the inputs. The
    load of the output buffer before the store is dead: its value reaches no store. -/
theorem sound_kernel0 (c : Dev nD) (E : Set ℕ) (i : grid0.Coords) (arg2 : Memref sig .tc .vmem S1x256x512 .f32) (harg2 : arg2.IsWhole) (arg3 : Memref sig .tc .vmem S768x256 .f32) (harg3 : arg3.IsWhole) (arg4 : Memref sig .tc .vmem S768 .f32) (harg4 : arg4.IsWhole) (arg5 : Memref sig .tc .vmem S1x512x768 .bf16) (harg5 : arg5.IsWhole)
    (x0 : Vec F S1x256x512 .f32) (x1 : Vec F S768x256 .f32) (x2 : Vec F S768 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the linear kernel of pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the activation block, fetched at every point): its current staging buffer holds its block at
    every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole weight, block index constant, fetched at the first point only): where it is not
    fetched its block index has not moved, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole bias, block index constant, fetched at the first point only): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x256x512 := Rect.unit (s := S1x256x512) ![0, 0, 0] S1x256x512.size inb_S1x256x512_S1x256x512_0_0_0
abbrev r1_1 : Rect S768x256 := Rect.unit (s := S768x256) ![0, 0] S768x256.size inb_S768x256_S768x256_0_0
abbrev r1_2 : Rect S768 := Rect.unit (s := S768) ![0] S768.size inb_S768_S768_0
abbrev r1_3 : Rect S1x512x768 := Rect.unit (s := S1x512x768) ![0, 0, 0] S1x512x768.size inb_S1x512x768_S1x512x768_0_0_0

/-! ## What the body leaves in the output window's buffer -/

/-- The output window's staging buffer after the body, from the three input blocks: its one store, of the
    payload (the projected block plus the bias, rounded) of the three whole loads, over the whole buffer. -/
def out1_3 (x0 : Vec F S1x256x512 .f32) (x1 : Vec F S768x256 .f32) (x2 : Vec F S768 .f32) : Vec F S1x512x768 .bf16 :=
  View.canon [⟨r1_3, k1_pay1 (View.ld x0 r1_0) (View.ld x1 r1_1) (View.ld x2 r1_2)⟩]

/-- The one store's rectangle is the whole buffer, so it covers it. -/
theorem cover1_3 (p0 : Vec F S1x512x768 .bf16) (y : S1x512x768.Idx) :
    ∃ pc ∈ ([⟨r1_3, p0⟩] : List (View.Piece (Elt F) S1x512x768 .bf16)), y ∈ pc.1.set :=
  View.cover_of_tiled [⟨r1_3, p0⟩] S1x512x768.size (by rfl) y

/-! ## The body's triple -/

set_option maxHeartbeats 1000000 in
/-- The kernel body on whole staging memrefs, the inputs' at read contents `x0 x1 x2` and the output's at anything,
    runs to the continuation holding the inputs' as they were and the output's at `out1_3` of the inputs. The
    load of the output buffer before the store is dead: its value reaches no store. -/
theorem sound_kernel1 (c : Dev nD) (E : Set ℕ) (i : grid1.Coords) (arg2 : Memref sig .tc .vmem S1x256x512 .f32) (harg2 : arg2.IsWhole) (arg3 : Memref sig .tc .vmem S768x256 .f32) (harg3 : arg3.IsWhole) (arg4 : Memref sig .tc .vmem S768 .f32) (harg4 : arg4.IsWhole) (arg5 : Memref sig .tc .vmem S1x512x768 .bf16) (harg5 : arg5.IsWhole)
    (x0 : Vec F S1x256x512 .f32) (x1 : Vec F S768x256 .f32) (x2 : Vec F S768 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Lin

end
-- ==== Proof.AttnRunsB.lean ====
/-
  The attention kernel's body as a triple, once per control case. The grid is (8 query tiles) × (16 key
  tiles), the key axis innermost; the body resets its six accumulators (running maximum, denominator and
  numerator of each of the two streams) at the first key tile of a query tile, updates them at every key
  tile, and at the last key tile divides the numerators by the denominators and stores the two output
  tiles. So a point is in one of three cases: first key tile (reset, no output), a middle one, the last
  one (output). In each case the body runs to its end on whole staging buffers; what every buffer it
  stores into ends with is recorded as the list of pieces stored.
-/
import proofs.«168839_j16673063043431_2_alg».proof.Proof.Gen.Kernel.Launch
import proofs.«168839_j16673063043431_2_alg».proof.Proof.Gen.Kernel.Skeleton
import proofs.«168839_j16673063043431_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The point is at the first key tile of its query tile. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The point is at the last key tile of its query tile. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

set_option maxHeartbeats 4000000 in
/-- First key tile: the accumulators are reset and then updated; the outputs are left as they are. -/
noncomputable def kernelRun2_A (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (xi6 xi7 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- A middle key tile: the accumulators are updated from what the point before left. -/
noncomputable def kernelRun2_B (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (xi6 xi7 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- Last key tile: the accumulators are updated and the two output tiles stored. -/
noncomputable def kernelRun2_C (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Attn

end
-- ==== Proof.AttnFrameB.lean ====
/-
  The attention kernel's region: what its two outputs and its six accumulators hold after every grid
  point, the pipeline's proof data, and the body obligation. The grid is (8 query tiles) x (16 key tiles),
  the key axis innermost. A point is at the first key tile of its query tile (the accumulators are reset,
  then updated), at a middle one (updated from what the point before left) or at the last one (updated, and
  the two output tiles stored). The accumulators are scratch buffers the kernel carries from point to point,
  so the region invariant names what each of them holds after every point; the outputs are idle except at
  the last key tile, where their blocks are written back.
  Everything is stated at a parameter `V`: the buffer contents the region finds when it is entered.
-/
import proofs.«168839_j16673063043431_2_alg».proof.Proof.AttnRunsB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## Where the windows are idle -/

/-- Input window 0 is never idle. -/
theorem liveAt2_0 : ∀ t : Fin cfg2.N, cfg2.idle 0 (grid2.coords t) = false := fun _ => rfl
/-- Input window 1 is never idle. -/
theorem liveAt2_1 : ∀ t : Fin cfg2.N, cfg2.idle 1 (grid2.coords t) = false := fun _ => rfl
/-- Input window 2 is never idle. -/
theorem liveAt2_2 : ∀ t : Fin cfg2.N, cfg2.idle 2 (grid2.coords t) = false := fun _ => rfl
/-- Input window 3 is never idle. -/
theorem liveAt2_3 : ∀ t : Fin cfg2.N, cfg2.idle 3 (grid2.coords t) = false := fun _ => rfl
/-- Input window 4 is never idle. -/
theorem liveAt2_4 : ∀ t : Fin cfg2.N, cfg2.idle 4 (grid2.coords t) = false := fun _ => rfl
/-- Input window 5 is never idle. -/
theorem liveAt2_5 : ∀ t : Fin cfg2.N, cfg2.idle 5 (grid2.coords t) = false := fun _ => rfl
/-- Output window 6 is idle at every point but the last key tile's, -/
theorem idleAt2_6 : ∀ t : Fin cfg2.N, ¬t.val % 16 = 15 → cfg2.idle 6 (grid2.coords t) = true :=
  (by decide +kernel : ∀ t : Fin grid2.N, ¬t.val % 16 = 15 → idle2 6 (grid2.coords t) = true)
/-- live there, -/
theorem liveAt2_6 : ∀ t : Fin cfg2.N, t.val % 16 = 15 → cfg2.idle 6 (grid2.coords t) = false :=
  (by decide +kernel : ∀ t : Fin grid2.N, t.val % 16 = 15 → idle2 6 (grid2.coords t) = false)
/-- and not written back anywhere else. -/
theorem noFlush2_6 (t : Fin cfg2.N) (h1 : ¬t.val % 16 = 15) : (cfg2.win 6).flush t = false := by
  cases hf : (cfg2.win 6).flush t with
  | false => rfl
  | true => exact absurd ((flush2_6 t).mp hf) h1
/-- Output window 7 is idle at every point but the last key tile's, -/
theorem idleAt2_7 : ∀ t : Fin cfg2.N, ¬t.val % 16 = 15 → cfg2.idle 7 (grid2.coords t) = true :=
  (by decide +kernel : ∀ t : Fin grid2.N, ¬t.val % 16 = 15 → idle2 7 (grid2.coords t) = true)
/-- live there, -/
theorem liveAt2_7 : ∀ t : Fin cfg2.N, t.val % 16 = 15 → cfg2.idle 7 (grid2.coords t) = false :=
  (by decide +kernel : ∀ t : Fin grid2.N, t.val % 16 = 15 → idle2 7 (grid2.coords t) = false)
/-- and not written back anywhere else. -/
theorem noFlush2_7 (t : Fin cfg2.N) (h1 : ¬t.val % 16 = 15) : (cfg2.win 7).flush t = false := by
  cases hf : (cfg2.win 7).flush t with
  | false => rfl
  | true => exact absurd ((flush2_7 t).mp hf) h1

/-! ## The memrefs the body is called with -/

/-- Each window's current staging memref at point `t`, as the pipeline passes it, and its wholeness. -/
abbrev ms2_0 (t : Fin cfg2.N) : Memref sig .tc .vmem S4x512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x512x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x256x256 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S4x256x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S4x256x512 .f32 := win2_7.stage (cfg2.slots t 7)
abbrev hs2_7 (t : Fin cfg2.N) : (ms2_7 t).IsWhole := hstage2_7 ((cfg2.slots t 7).cast nbuf2_7)
/-- The six accumulators: whole scoped buffers of the kernel's own, passed beside the windows; and each as a view,
    through which what it holds is stated. -/
abbrev scM2_0 : Memref sig .tc .vmem S4x512x1 .f32 := Memref.whole cc2_scratch0
abbrev VS2_0 : View sig .tc .vmem S4x512x1 .f32 := scM2_0.view
abbrev scM2_1 : Memref sig .tc .vmem S4x512x1 .f32 := Memref.whole cc2_scratch1
abbrev VS2_1 : View sig .tc .vmem S4x512x1 .f32 := scM2_1.view
abbrev scM2_2 : Memref sig .tc .vmem S4x512x256 .f32 := Memref.whole cc2_scratch2
abbrev VS2_2 : View sig .tc .vmem S4x512x256 .f32 := scM2_2.view
abbrev scM2_3 : Memref sig .tc .vmem S4x512x1 .f32 := Memref.whole cc2_scratch3
abbrev VS2_3 : View sig .tc .vmem S4x512x1 .f32 := scM2_3.view
abbrev scM2_4 : Memref sig .tc .vmem S4x512x1 .f32 := Memref.whole cc2_scratch4
abbrev VS2_4 : View sig .tc .vmem S4x512x1 .f32 := scM2_4.view
abbrev scM2_5 : Memref sig .tc .vmem S4x512x256 .f32 := Memref.whole cc2_scratch5
abbrev VS2_5 : View sig .tc .vmem S4x512x256 .f32 := scM2_5.view
/-- One staging buffer of each output window, through which its contents are stated (the choice does not matter). -/
abbrev VO2_6 : View sig .tc .vmem S4x256x512 .f32 := (Memref.whole cc2_stg6_0 : Memref sig .tc .vmem S4x256x512 .f32).view
abbrev VO2_7 : View sig .tc .vmem S4x256x512 .f32 := (Memref.whole cc2_stg7_0 : Memref sig .tc .vmem S4x256x512 .f32).view

/-! ## The region invariant's parts -/

/-- The core's scoped buffers that are neither this kernel's staging buffers nor its accumulators (the staging
    buffers of the two other kernels), each at some contents. -/
def Rest12 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulators as memrefs owned at some contents. -/
theorem PhiA2_eq (c : Dev nD) :
    (Pipeline.ΦA spec2 c : sProp 𝕄)
      = iprop(iprop(Rest12 (F := F) c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d) ∗ (∃ d, owns (c : Thread nD τ) scM2_4 fullShare d) ∗ (∃ d, owns (c : Thread nD τ) scM2_5 fullShare d)) ∗ (∃ r, prngReg c r)) := by
  unfold Pipeline.ΦA Rest12; rw [scopedRest2_eq]; simp only [scM2_0, scM2_1, scM2_2, scM2_3, scM2_4, scM2_5, owns_whole]
  refine Idealize.SL.BI.Entails.antisymm (show _ ⊢ (_ : sProp 𝕄) from ?_) (show _ ⊢ (_ : sProp 𝕄) from ?_)
  · iintro ⟨⟨A0, A1, A2, A3, A4, A5, A6, A7, A8, A9, A10, A11, S0, S1, S2, S3, S4, S5⟩, Hg⟩
    isplitr [Hg]
    · isplitl [A0 A1 A2 A3 A4 A5 A6 A7 A8 A9 A10 A11]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      isplitl [S0]; · iexact S0
      isplitl [S1]; · iexact S1
      isplitl [S2]; · iexact S2
      isplitl [S3]; · iexact S3
      isplitl [S4]; · iexact S4
      iexact S5
    iexact Hg
  · iintro ⟨⟨⟨A0, A1, A2, A3, A4, A5, A6, A7, A8, A9, A10, A11⟩, S0, S1, S2, S3, S4, S5⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [S0]; · iexact S0
      isplitl [S1]; · iexact S1
      isplitl [S2]; · iexact S2
      isplitl [S3]; · iexact S3
      isplitl [S4]; · iexact S4
      iexact S5
    iexact Hg

/-! ## What each case leaves in the accumulators and the outputs -/

/-- Case A's pieces for accumulator 0 cover it (whole stores). -/
theorem scover2_A_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1 S4x512x1.size (by sl_kernel_rfl) y

/-- What case A leaves in accumulator 0: its pieces read back over junk. -/
def sout2_A_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1)

/-- Case A's pieces for accumulator 1 cover it (whole stores). -/
theorem scover2_A_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1 S4x512x1.size (by sl_kernel_rfl) y

/-- What case A leaves in accumulator 1: its pieces read back over junk. -/
def sout2_A_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1)

/-- Case A's pieces for accumulator 2 cover it (whole stores). -/
theorem scover2_A_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1 S4x512x256.size (by sl_kernel_rfl) y

/-- What case A leaves in accumulator 2: its pieces read back over junk. -/
def sout2_A_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x256 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1)

/-- Case A's pieces for accumulator 3 cover it (whole stores). -/
theorem scover2_A_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1 S4x512x1.size (by sl_kernel_rfl) y

/-- What case A leaves in accumulator 3: its pieces read back over junk. -/
def sout2_A_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1)

/-- Case A's pieces for accumulator 4 cover it (whole stores). -/
theorem scover2_A_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1 S4x512x1.size (by sl_kernel_rfl) y

/-- What case A leaves in accumulator 4: its pieces read back over junk. -/
def sout2_A_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_4.read (Elt F) (VS2_4.writes (Elt F) VS2_4.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1)

/-- Case A's pieces for accumulator 5 cover it (whole stores). -/
theorem scover2_A_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1 S4x512x256.size (by sl_kernel_rfl) y

/-- What case A leaves in accumulator 5: its pieces read back over junk. -/
def sout2_A_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x256 .f32 :=
  VS2_5.read (Elt F) (VS2_5.writes (Elt F) VS2_5.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1)

/-- Case B's pieces for accumulator 0 cover it (whole stores). -/
theorem scover2_B_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S4x512x1.size (by sl_kernel_rfl) y

/-- What case B leaves in accumulator 0: its pieces read back over junk. -/
def sout2_B_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case B's pieces for accumulator 1 cover it (whole stores). -/
theorem scover2_B_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S4x512x1.size (by sl_kernel_rfl) y

/-- What case B leaves in accumulator 1: its pieces read back over junk. -/
def sout2_B_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case B's pieces for accumulator 2 cover it (whole stores). -/
theorem scover2_B_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S4x512x256.size (by sl_kernel_rfl) y

/-- What case B leaves in accumulator 2: its pieces read back over junk. -/
def sout2_B_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case B's pieces for accumulator 3 cover it (whole stores). -/
theorem scover2_B_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S4x512x1.size (by sl_kernel_rfl) y

/-- What case B leaves in accumulator 3: its pieces read back over junk. -/
def sout2_B_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_3.read (Elt F) (VS2_3.writes (Elt F) VS2_3.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case B's pieces for accumulator 4 cover it (whole stores). -/
theorem scover2_B_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S4x512x1.size (by sl_kernel_rfl) y

/-- What case B leaves in accumulator 4: its pieces read back over junk. -/
def sout2_B_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_4.read (Elt F) (VS2_4.writes (Elt F) VS2_4.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case B's pieces for accumulator 5 cover it (whole stores). -/
theorem scover2_B_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S4x512x256.size (by sl_kernel_rfl) y

/-- What case B leaves in accumulator 5: its pieces read back over junk. -/
def sout2_B_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_5.read (Elt F) (VS2_5.writes (Elt F) VS2_5.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- The last key tile's pieces for output 6 tile its block (one whole store), so they cover it. -/
theorem cover2_C_6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x256x512.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1 S4x256x512.size (by sl_kernel_rfl) y

/-- What the last key tile leaves in output 6's staging buffer: its pieces read back over junk. -/
def out2_C_6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x256x512 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1)

/-- The last key tile's pieces for output 7 tile its block (one whole store), so they cover it. -/
theorem cover2_C_7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x256x512.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1 S4x256x512.size (by sl_kernel_rfl) y

/-- What the last key tile leaves in output 7's staging buffer: its pieces read back over junk. -/
def out2_C_7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x256x512 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1)

/-- Case C's pieces for accumulator 0 cover it (whole stores). -/
theorem scover2_C_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S4x512x1.size (by sl_kernel_rfl) y

/-- What case C leaves in accumulator 0: its pieces read back over junk. -/
def sout2_C_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case C's pieces for accumulator 1 cover it (whole stores). -/
theorem scover2_C_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S4x512x1.size (by sl_kernel_rfl) y

/-- What case C leaves in accumulator 1: its pieces read back over junk. -/
def sout2_C_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case C's pieces for accumulator 2 cover it (whole stores). -/
theorem scover2_C_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S4x512x256.size (by sl_kernel_rfl) y

/-- What case C leaves in accumulator 2: its pieces read back over junk. -/
def sout2_C_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case C's pieces for accumulator 3 cover it (whole stores). -/
theorem scover2_C_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S4x512x1.size (by sl_kernel_rfl) y

/-- What case C leaves in accumulator 3: its pieces read back over junk. -/
def sout2_C_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case C's pieces for accumulator 4 cover it (whole stores). -/
theorem scover2_C_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S4x512x1.size (by sl_kernel_rfl) y

/-- What case C leaves in accumulator 4: its pieces read back over junk. -/
def sout2_C_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_4.read (Elt F) (VS2_4.writes (Elt F) VS2_4.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case C's pieces for accumulator 5 cover it (whole stores). -/
theorem scover2_C_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S4x512x256.size (by sl_kernel_rfl) y

/-- What case C leaves in accumulator 5: its pieces read back over junk. -/
def sout2_C_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_5.read (Elt F) (VS2_5.writes (Elt F) VS2_5.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- What an output's component of the accumulation is at a point that stores nothing into it: junk read back. A
    placeholder nothing consults: at these points the window is neither written back nor read at the next point. -/
def outIdle2 : Vec F S4x256x512 .f32 := VO2_6.read (Elt F) VO2_6.junk

/-- The accumulation's carrier: the two outputs' staging buffers, then the six accumulators. -/
abbrev Outs2 (F : FTy → Type) [FloatOps F] : Type :=
  Vec F S4x256x512 .f32 × Vec F S4x256x512 .f32 × Vec F S4x512x1 .f32 × Vec F S4x512x1 .f32 × Vec F S4x512x256 .f32 × Vec F S4x512x1 .f32 × Vec F S4x512x1 .f32 × Vec F S4x512x256 .f32

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The shares the arrays are held at: windows 0, 1, 2 read one array and windows 3, 4, 5 another, so each of the
    three holds a part of it; an output's array is held whole. -/
abbrev q2 : Fin 8 → PosShare TreeShare := fun w => match w with
  | ⟨0, _⟩ => fullShare.left | ⟨1, _⟩ => fullShare.right.left | ⟨2, _⟩ => fullShare.right.right
  | ⟨3, _⟩ => fullShare.left | ⟨4, _⟩ => fullShare.right.left | ⟨5, _⟩ => fullShare.right.right
  | ⟨6, _⟩ => fullShare | ⟨7, _⟩ => fullShare

/-! ## What the outputs and the accumulators hold after each point -/

/-- THE ACCUMULATION. What the two outputs' staging buffers and the six accumulators hold after the body at position
    `n`: the case the point is in, run at the point's memrefs and input blocks; a middle or last key tile reads the
    accumulators at what position `n - 1` left; a first key tile resets them and depends on nothing before. -/
def outsAt2 (c : Dev nD) : (n : ℕ) → n < cfg2.N → Outs2 F
  | 0, hn => (outIdle2, outIdle2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : (n + 1) % 16 = 15 then
        False.elim (by omega)
      else
        (outIdle2, outIdle2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 16 = 15 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2)
      else
        (outIdle2, outIdle2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2)

/-- `outsAt2` at a first key tile: that case's contents. -/
theorem outsAt2_A (c : Dev nD) (t : Fin cfg2.N) (h0 : t.val % 16 = 0) (h1 : ¬t.val % 16 = 15) :
    outsAt2 V c t.val t.isLt = (outIdle2, outIdle2, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle key tile: that case's contents, over what the point before left. -/
theorem outsAt2_B (c : Dev nD) (t : Fin cfg2.N) (h0 : ¬t.val % 16 = 0) (h1 : ¬t.val % 16 = 15) :
    outsAt2 V c t.val t.isLt = (outIdle2, outIdle2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last key tile: that case's contents, over what the point before left. -/
theorem outsAt2_C (c : Dev nD) (t : Fin cfg2.N) (h0 : ¬t.val % 16 = 0) (h1 : t.val % 16 = 15) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this kernel at anything, the generator register at some state); afterwards the other kernels'
    staging buffers at anything, each accumulator at what the point before left in it, and the generator register. -/
def PhiS2 (c : Dev nD) : (n : ℕ) → n ≤ cfg2.N → sProp 𝕄
  | 0, _ => Pipeline.ΦA spec2 c
  | n + 1, hn => iprop(iprop(Rest12 (F := F) c ∗ owns (c : Thread nD τ) scM2_0 fullShare ((outsAt2 V c n hn).2.2.1) ∗ owns (c : Thread nD τ) scM2_1 fullShare ((outsAt2 V c n hn).2.2.2.1) ∗ owns (c : Thread nD τ) scM2_2 fullShare ((outsAt2 V c n hn).2.2.2.2.1) ∗ owns (c : Thread nD τ) scM2_3 fullShare ((outsAt2 V c n hn).2.2.2.2.2.1) ∗ owns (c : Thread nD τ) scM2_4 fullShare ((outsAt2 V c n hn).2.2.2.2.2.2.1) ∗ owns (c : Thread nD τ) scM2_5 fullShare ((outsAt2 V c n hn).2.2.2.2.2.2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(Rest12 (F := F) c ∗ owns (c : Thread nD τ) scM2_0 fullShare ((outsAt2 V c n hn).2.2.1) ∗ owns (c : Thread nD τ) scM2_1 fullShare ((outsAt2 V c n hn).2.2.2.1) ∗ owns (c : Thread nD τ) scM2_2 fullShare ((outsAt2 V c n hn).2.2.2.2.1) ∗ owns (c : Thread nD τ) scM2_3 fullShare ((outsAt2 V c n hn).2.2.2.2.2.1) ∗ owns (c : Thread nD τ) scM2_4 fullShare ((outsAt2 V c n hn).2.2.2.2.2.2.1) ∗ owns (c : Thread nD τ) scM2_5 fullShare ((outsAt2 V c n hn).2.2.2.2.2.2.2)) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(Rest12 (F := F) c ∗ owns (c : Thread nD τ) scM2_0 fullShare ((outsAt2 V c (n - 1) (by omega)).2.2.1) ∗ owns (c : Thread nD τ) scM2_1 fullShare ((outsAt2 V c (n - 1) (by omega)).2.2.2.1) ∗ owns (c : Thread nD τ) scM2_2 fullShare ((outsAt2 V c (n - 1) (by omega)).2.2.2.2.1) ∗ owns (c : Thread nD τ) scM2_3 fullShare ((outsAt2 V c (n - 1) (by omega)).2.2.2.2.2.1) ∗ owns (c : Thread nD τ) scM2_4 fullShare ((outsAt2 V c (n - 1) (by omega)).2.2.2.2.2.2.1) ∗ owns (c : Thread nD τ) scM2_5 fullShare ((outsAt2 V c (n - 1) (by omega)).2.2.2.2.2.2.2)) ∗ (∃ r, prngReg c r)) := by
  cases n with
  | zero => exact absurd rfl hz
  | succ n => rfl

/-! ## The pipeline's proof data -/

/-- The proof data of the attention kernel's pipeline on core `c`: the arrays as the region finds them (`V`); after
    the body at point `t` each input's buffer at its block and the outputs' at `outsAt2`; the invariant `PhiS2`;
    nothing owed; the shares `q2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q := q2
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Region

end Cert.Kernel.Attn

end
-- ==== Proof.AttnBodyDefsB.lean ====
/-
  The attention kernel's body obligation, stated window by window: what the body is called with at a grid
  point and what it returns.
-/
import proofs.«168839_j16673063043431_2_alg».proof.Proof.AttnFrameB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

end Region

end Cert.Kernel.Attn

end
-- ==== Proof.AttnBodyCaseFB.lean ====
/-
  The attention kernel's body at the region's first point (the first key tile of the first query tile).
-/
import proofs.«168839_j16673063043431_2_alg».proof.Proof.AttnBodyDefsB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at the region's first point (a first key tile): the invariant is the class's, every accumulator at
    anything; the body resets them, and they are taken back at this point's contents (the case's pieces cover each);
    the outputs are handed back untouched; the core owes nothing throughout. -/
theorem sound_body2_A0 (c : Dev nD) (t : Fin cfg2.N) (h0 : t.val % 16 = 0) (h1 : ¬t.val % 16 = 15) (hz : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_A V c t h0 h1]
  unfold sout2_A_0 sout2_A_1 sout2_A_2 sout2_A_3 sout2_A_4 sout2_A_5; (try dsimp only)
  rw [PhiS2_castSucc V c t, PhiS2_zero V c _ _ hz, PhiA2_eq]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.Kernel.Attn

end
-- ==== Proof.AttnBodyCaseAB.lean ====
/-
  The attention kernel's body at the first key tile of a later query tile.
-/
import proofs.«168839_j16673063043431_2_alg».proof.Proof.AttnBodyDefsB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a later first key tile: the accumulators come at what the point before left, which the reset forgets. -/
theorem sound_body2_A (c : Dev nD) (t : Fin cfg2.N) (h0 : t.val % 16 = 0) (h1 : ¬t.val % 16 = 15) (hz : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_A V c t h0 h1]
  unfold sout2_A_0 sout2_A_1 sout2_A_2 sout2_A_3 sout2_A_4 sout2_A_5; (try dsimp only)
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.Kernel.Attn

end
-- ==== Proof.AttnBodyCaseMB.lean ====
/-
  The attention kernel's body at a middle key tile.
-/
import proofs.«168839_j16673063043431_2_alg».proof.Proof.AttnBodyDefsB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a middle key tile: the accumulators come at what the point before left and are updated. -/
theorem sound_body2_B (c : Dev nD) (t : Fin cfg2.N) (h0 : ¬t.val % 16 = 0) (h1 : ¬t.val % 16 = 15) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_B V c t h0 h1]
  unfold sout2_B_0 sout2_B_1 sout2_B_2 sout2_B_3 sout2_B_4 sout2_B_5; (try dsimp only)
  have hz : t.val ≠ 0 := by omega
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_B c (grid2.coords t) _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _ _ _ _).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_B_1 c _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_B_2 c _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_B_3 c _ _ _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_B_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_B_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.Kernel.Attn

end
-- ==== Proof.AttnBodyCaseLB.lean ====
/-
  The attention kernel's body at the last key tile of a query tile.
-/
import proofs.«168839_j16673063043431_2_alg».proof.Proof.AttnBodyDefsB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a last key tile: the accumulators are updated and the two outputs stored whole (the case's pieces
    cover each output's block). -/
theorem sound_body2_C (c : Dev nD) (t : Fin cfg2.N) (h0 : ¬t.val % 16 = 0) (h1 : t.val % 16 = 15) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t h1], after2_6]
  rw [show (dat2 V c).leavesExact 7 t = owns (c : Thread nD τ) (ms2_7 t) fullShare ((dat2 V c).after 7 t) from by
    unfold Dat.leavesExact; rw [liveAt2_7 t h1], after2_7]
  rw [outsAt2_C V c t h0 h1]
  unfold out2_C_6 out2_C_7 sout2_C_0 sout2_C_1 sout2_C_2 sout2_C_3 sout2_C_4 sout2_C_5; (try dsimp only)
  have hz : t.val ≠ 0 := by omega
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_C c (grid2.coords t) _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _ _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_C_1 c _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_C_2 c _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_C_3 c _ _ _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_C_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_C_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_C_6 c _ _ _ _ _ _ _ _ _ _ _ _ _ _ _ _ _ _ _ _ _ _ _ _ _ _ _ _ _ _ _ _ _ _ _ _ _ _ _ _ _ _ _)
  unfold owns; iexists _; isplitr
  swap; · iexact H7
  ipureintro; exact View.read_writes_of_cover _ _ _ _ _ (cover2_C_7 c _ _ _ _ _ _ _ _ _ _ _ _ _ _ _ _ _ _ _ _ _ _ _ _ _ _ _ _ _ _ _ _ _ _ _ _ _ _ _ _ _ _ _)

end Region

end Cert.Kernel.Attn

end
-- ==== Proof.AttnBodyB.lean ====
/-
  The attention kernel's body obligation: at every grid point, from the region invariant and the windows'
  staging buffers at what they then hold, the body runs to the invariant at the next point and the buffers at
  what the proof data says it leaves; and the invariant's two ends.
-/
import proofs.«168839_j16673063043431_2_alg».proof.Proof.AttnBodyCaseFB
import proofs.«168839_j16673063043431_2_alg».proof.Proof.AttnBodyCaseAB
import proofs.«168839_j16673063043431_2_alg».proof.Proof.AttnBodyCaseMB
import proofs.«168839_j16673063043431_2_alg».proof.Proof.AttnBodyCaseLB

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- The body at any point: its position in its query tile says which case it is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 16 = 0
  · by_cases h1 : t.val % 16 = 15
    · exfalso; omega
    · by_cases hz : t.val = 0
      · exact sound_body2_A0 V c t h0 h1 hz
      · exact sound_body2_A V c t h0 h1 hz
  · by_cases h1 : t.val % 16 = 15
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1, HS2, HS3, HS4, HS5⟩, Hg⟩
  isplitr [Hg]
  · isplitl [HR]; · iexact HR
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region

end Cert.Kernel.Attn

end
-- ==== Proof.Run3B.lean ====
/- The run of the three-kernel program: @main is a stretch of host operations, the two linear-projection regions,
   the attention region, and a last stretch of host operations. This module names the buffer contents at every
   boundary as a fold from the launch memory, states each region as a segment over the thread state "every unscoped
   buffer at the boundary's contents", and launches the list of segments: every weakly fair execution terminates,
   nothing faulting, with every unscoped buffer at the last boundary's contents. The attention region's six input
   windows read two buffers, three windows each; its entry splits each buffer's full share three ways and its exit
   joins them. -/
import proofs.«168839_j16673063043431_2_alg».proof.Proof.LinearB
import proofs.«168839_j16673063043431_2_alg».proof.Proof.AttnFrameB
import proofs.«168839_j16673063043431_2_alg».proof.Proof.AttnBodyB
import proofs.«168839_j16673063043431_2_alg».proof.Proof.Gen.Kernel.Regions

set_option maxRecDepth 16384

noncomputable section

namespace Cert.Kernel.Run3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 2's arrays: two buffers read through three windows each

Region 2's input windows 0, 1, 2 read `main_v4` and 3, 4, 5 read `main_v5`; the proof data hold each window's array
at a share of its own (the left half, and the two halves of the right half), so the full share of a buffer is split
three ways on entry and joined again on exit. -/

section Shares

variable {c : Dev nD} (dat : Dat τ (Elt F) Unit ℕ (UR sig nD τ) ℕ cfg2 c)

/-- The buffers behind region 2's windows. -/
theorem image_arrRef2 : Finset.univ.image (Pipeline.arrRef spec2) = {main_v4, main_v5, main_v6_0, main_v6_1} := by decide

/-- The buffers behind the windows, one by one. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v4) ↦{fullShare} V main_v4) ∗ (((c : Thread nD τ).loc main_v5) ↦{fullShare} V main_v5)
          ∗ (((c : Thread nD τ).loc main_v6_0) ↦{fullShare} V main_v6_0) ∗ (((c : Thread nD τ).loc main_v6_1) ↦{fullShare} V main_v6_1)) := by
  unfold Pipeline.arrBufs
  rw [image_arrRef2, bigSep_insert (by decide), bigSep_insert (by decide), bigSep_insert (by decide), bigSep_singleton]
  rfl

/-- Eight separating conjuncts equal one by one. -/
theorem sep_congr8 {M : Type} [URA M] {a0 a1 a2 a3 a4 a5 a6 a7 b0 b1 b2 b3 b4 b5 b6 b7 : sProp M}
    (h0 : a0 = b0) (h1 : a1 = b1) (h2 : a2 = b2) (h3 : a3 = b3) (h4 : a4 = b4) (h5 : a5 = b5) (h6 : a6 = b6) (h7 : a7 = b7) :
    iprop(a0 ∗ a1 ∗ a2 ∗ a3 ∗ a4 ∗ a5 ∗ a6 ∗ a7) = iprop(b0 ∗ b1 ∗ b2 ∗ b3 ∗ b4 ∗ b5 ∗ b6 ∗ b7) := by
  rw [h0, h1, h2, h3, h4, h5, h6, h7]

/-- The proof data's arrays, window by window, each whole at its share. -/
theorem arrays2_eq (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (G : (w : Fin cfg2.W) → Buf (Elt F) ((cfg2.win w).arr.view.loc (c : Thread nD τ))) :
    dat.arrays G
      = iprop((((c : Thread nD τ).loc main_v4) ↦{fullShare.left} G 0) ∗ (((c : Thread nD τ).loc main_v4) ↦{fullShare.right.left} G 1)
          ∗ (((c : Thread nD τ).loc main_v4) ↦{fullShare.right.right} G 2)
          ∗ (((c : Thread nD τ).loc main_v5) ↦{fullShare.left} G 3) ∗ (((c : Thread nD τ).loc main_v5) ↦{fullShare.right.left} G 4)
          ∗ (((c : Thread nD τ).loc main_v5) ↦{fullShare.right.right} G 5)
          ∗ (((c : Thread nD τ).loc main_v6_0) ↦{fullShare} G 6) ∗ (((c : Thread nD τ).loc main_v6_1) ↦{fullShare} G 7)) := by
  have s0 : dat.share 0 = fullShare.left := (show dat.share 0 = dat.q 0 from rfl).trans hq0
  have s1 : dat.share 1 = fullShare.right.left := (show dat.share 1 = dat.q 1 from rfl).trans hq1
  have s2 : dat.share 2 = fullShare.right.right := (show dat.share 2 = dat.q 2 from rfl).trans hq2
  have s3 : dat.share 3 = fullShare.left := (show dat.share 3 = dat.q 3 from rfl).trans hq3
  have s4 : dat.share 4 = fullShare.right.left := (show dat.share 4 = dat.q 4 from rfl).trans hq4
  have s5 : dat.share 5 = fullShare.right.right := (show dat.share 5 = dat.q 5 from rfl).trans hq5
  have s6 : dat.share 6 = fullShare := rfl
  have s7 : dat.share 7 = fullShare := rfl
  unfold Pipeline.Dat.arrays
  rw [bigSep_W2]
  refine sep_congr8 ?_ ?_ ?_ ?_ ?_ ?_ ?_ ?_
  · rw [(arr_whole2 0).set_eq_univ, s0]
  · rw [(arr_whole2 1).set_eq_univ, s1]
  · rw [(arr_whole2 2).set_eq_univ, s2]
  · rw [(arr_whole2 3).set_eq_univ, s3]
  · rw [(arr_whole2 4).set_eq_univ, s4]
  · rw [(arr_whole2 5).set_eq_univ, s5]
  · rw [(arr_whole2 6).set_eq_univ, s6]
  · rw [(arr_whole2 7).set_eq_univ, s7]

end Shares

section Shares2

variable {c : Dev nD} (dat : Dat τ (Elt F) Unit ℕ (UR sig nD τ) ℕ cfg2 c)

/-- A buffer whole at the full share is the same buffer at the three shares the windows hold, and back. -/
theorem pointsTo_three {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H' := (pointsTo_share (PosShare.mem_left_op_right fullShare)).1 $$ H
    icases H' with ⟨Ha, Hr⟩
    ihave Hr' := (pointsTo_share (PosShare.mem_left_op_right fullShare.right)).1 $$ Hr
    icases Hr' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- ENTRY: the buffers behind the windows, each whole at the full share at contents `V`, make the proof data's arrays
    at the contents read off `V`. -/
theorem arrays_of_arrBufs2 (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊢ dat.arrays G := by
  rw [arrBufs2_eq, arrays2_eq dat hq0 hq1 hq2 hq3 hq4 hq5, hG 0, hG 1, hG 2, hG 3, hG 4, hG 5, hG 6, hG 7]
  iintro ⟨H4, H5, H60, H61⟩
  ihave H4' := (pointsTo_three (F := F) _).1 $$ H4
  icases H4' with ⟨H4a, H4b, H4c⟩
  ihave H5' := (pointsTo_three (F := F) _).1 $$ H5
  icases H5' with ⟨H5a, H5b, H5c⟩
  isplitl [H4a]; · iexact H4a
  isplitl [H4b]; · iexact H4b
  isplitl [H4c]; · iexact H4c
  isplitl [H5a]; · iexact H5a
  isplitl [H5b]; · iexact H5b
  isplitl [H5c]; · iexact H5c
  isplitl [H60]; · iexact H60
  iexact H61

/-- EXIT: the proof data's arrays at contents that are those of a valuation `V` — the windows on one buffer hold equal
    contents — are the buffers behind the windows, each whole at the full share at `V`. -/
theorem arrBufs_of_arrays2 (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    dat.arrays G ⊢ (Pipeline.arrBufs (Ix := Unit) (Name := ℕ) (U := UR sig nD τ) (Lvl := ℕ) spec2 c V : sProp 𝕄) := by
  rw [arrBufs2_eq, arrays2_eq dat hq0 hq1 hq2 hq3 hq4 hq5, hG 0, hG 1, hG 2, hG 3, hG 4, hG 5, hG 6, hG 7]
  iintro ⟨H4a, H4b, H4c, H5a, H5b, H5c, H60, H61⟩
  isplitl [H4a H4b H4c]
  · iapply (pointsTo_three (F := F) _).2
    isplitl [H4a]; · iexact H4a
    isplitl [H4b]; · iexact H4b
    iexact H4c
  isplitl [H5a H5b H5c]
  · iapply (pointsTo_three (F := F) _).2
    isplitl [H5a]; · iexact H5a
    isplitl [H5b]; · iexact H5b
    iexact H5c
  isplitl [H60]; · iexact H60
  iexact H61

end Shares2

/-! # The buffer contents at each boundary of @main: a fold from the launch memory

@main is a stretch of host operations, three kernel regions one after the other, and a last stretch of host
operations. `W0` is the launch memory; `W1` what the first stretch leaves (region 0's entry); `W2`, `W3`, `W4` what
regions 0, 1, 2 leave (each the entry of what follows); `W5` what the last stretch leaves. -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Lin.dat0 (V1 m ρ) c).arrAt w cfg0.N
theorem W2_arr (c : Dev nD) (w : Fin cfg0.W) :
    W2 m ρ c (Proc.devRef .tc (Pipeline.arrRef spec0 w)) = (Lin.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit and region 1's entry contents). -/
abbrev V2 : (c : Dev nD) → (b : Ref sig .tc) → Buf (Elt F) ((c : Thread nD τ).loc b) := fun c b => W2 m ρ c b
theorem hF0 (c : Dev nD) (w : Fin cfg0.W) : (Lin.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (Lin.dat1 (V2 m ρ) c).arrAt w cfg1.N
theorem W3_arr (c : Dev nD) (w : Fin cfg1.W) :
    W3 m ρ c (Proc.devRef .tc (Pipeline.arrRef spec1 w)) = (Lin.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit and region 2's entry contents). -/
abbrev V3 : (c : Dev nD) → (b : Ref sig .tc) → Buf (Elt F) ((c : Thread nD τ).loc b) := fun c b => W3 m ρ c b
theorem hF1 (c : Dev nD) (w : Fin cfg1.W) : (Lin.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its two output arrays at what the pipeline leaves, every other buffer as entered (its
    input windows read `main_v4` and `main_v5`, three windows each, and never write them). -/
def W4 (c : Dev nD) : Valuation τ sig (Elt F) :=
  Function.update (Function.update (W3 m ρ c) (Proc.devRef .tc main_v6_0) ((Attn.dat2 (V3 m ρ) c).arrAt 6 cfg2.N))
    (Proc.devRef .tc main_v6_1) ((Attn.dat2 (V3 m ρ) c).arrAt 7 cfg2.N)
/-- The same read at the TensorCore's references. -/
abbrev V4 : (c : Dev nD) → (b : Ref sig .tc) → Buf (Elt F) ((c : Thread nD τ).loc b) := fun c b => W4 m ρ c b
/-- After the last host stretch. -/
abbrev W5 : Dev nD → Valuation τ sig (Elt F) := fun c => StableHlo.after hostOps3 (W4 m ρ c)

theorem W4_v6_1 (c : Dev nD) : W4 m ρ c (Proc.devRef .tc main_v6_1) = (Attn.dat2 (V3 m ρ) c).arrAt 7 cfg2.N := by
  unfold W4; exact Function.update_self ..
theorem W4_v6_0 (c : Dev nD) : W4 m ρ c (Proc.devRef .tc main_v6_0) = (Attn.dat2 (V3 m ρ) c).arrAt 6 cfg2.N := by
  unfold W4
  rw [Function.update_of_ne (StableHlo.devRef_ne_of_ne (by decide))]
  exact Function.update_self ..
theorem W4_of_ne (c : Dev nD) (b : Ref sig .tc) (h0 : b ≠ main_v6_0) (h1 : b ≠ main_v6_1) :
    W4 m ρ c (Proc.devRef .tc b) = W3 m ρ c (Proc.devRef .tc b) := by
  unfold W4
  rw [Function.update_of_ne (StableHlo.devRef_ne_of_ne h1), Function.update_of_ne (StableHlo.devRef_ne_of_ne h0)]

/-! ### What the regions pass on -/

/-- Region 2 reads, through windows 0, 1, 2, what region 0 left in its output array. -/
theorem V3_v4 (c : Dev nD) : V3 m ρ c main_v4 = (Lin.dat0 (V1 m ρ) c).arrAt 3 cfg0.N :=
  (W3_of_ne m ρ c main_v4 (by decide)).trans (W2_arr m ρ c 3)
/-- Region 2 reads, through windows 3, 4, 5, what region 1 left in its output array. -/
theorem V3_v5 (c : Dev nD) : V3 m ρ c main_v5 = (Lin.dat1 (V2 m ρ) c).arrAt 3 cfg1.N :=
  W3_arr m ρ c 3
/-- Region 0 changes its output array only: an input array ends as entered. -/
theorem V2_of_ne (c : Dev nD) (b : Ref sig .tc) (hb : b ≠ main_v4) : V2 m ρ c b = V1 m ρ c b := by
  by_cases h : ∃ w, Pipeline.arrRef spec0 w = b
  · obtain ⟨w, rfl⟩ := h
    have hin : ∀ w : Fin 4, Pipeline.arrRef spec0 w ≠ main_v4 → (cfg0.win w).isOut = false := by decide
    exact (W2_arr m ρ c w).trans (((Lin.dat0 (V1 m ρ) c).arrAt_in w (hin w hb) _).trans (Lin.A_eq0 (V1 m ρ) c w))
  · exact W2_of_ne m ρ c b fun w e => h ⟨w, e⟩

/-! ### The arguments end as launched -/

/-- `main_arg0` ends as launched: no host operation writes it and no region has it as a window's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and no region has it as a window's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and no region has it as a window's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and no region has it as a window's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and no region has it as a window's array. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and no region has it as a window's array. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it and no region has it as a window's array. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ hostOps3_writes (by decide)
    _ = W3 m ρ c (Proc.devRef .tc main_arg6) := W4_of_ne m ρ c main_arg6 (by decide) (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and no region has it as a window's array. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ hostOps3_writes (by decide)
    _ = W3 m ρ c (Proc.devRef .tc main_arg7) := W4_of_ne m ρ c main_arg7 (by decide) (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ### The results: the last host stretch reshapes region 2's two output arrays -/

theorem W5_v7 (c : Dev nD) : W5 m ρ c (Proc.devRef .tc main_v7)
    = shapeCast S4x256x64x64 (W4 m ρ c (Proc.devRef .tc main_v6_0)) shapeCasts_S4x256x4096_S4x256x64x64 := by
  dsimp only [W5]; after_results; rfl
theorem W5_v8 (c : Dev nD) : W5 m ρ c (Proc.devRef .tc main_v8)
    = shapeCast S4x256x64x64 (W4 m ρ c (Proc.devRef .tc main_v6_1)) shapeCasts_S4x256x4096_S4x256x64x64 := by
  dsimp only [W5]; after_results; rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Lin.dat0 (V1 m ρ) c
  | ⟨1, _⟩ => fun c => Lin.dat1 (V2 m ρ) c
  | ⟨2, _⟩ => fun c => Attn.dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- REGION 0 over the thread state: entered from every unscoped buffer at `W1`, left at `W2`. Its arrays are split out
    of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2` (what region 0 left: no host
    operation runs between the two), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: the unscoped buffers at its entry and at its exit -/

/-- At region 2's exit each window's array holds what the valuation `W4` says: an input window's array ends as entered
    (and `W4` keeps `W3` there), the two outputs end at their write-backs. -/
theorem hF2 (c : Dev nD) (w : Fin cfg2.W) :
    (Attn.dat2 (V3 m ρ) c).arrAt w cfg2.N = V4 m ρ c (Pipeline.arrRef spec2 w) := by
  have key : ∀ w : Fin 8, w = 6 ∨ w = 7 ∨ ((cfg2.win w).isOut = false ∧ Pipeline.arrRef spec2 w ≠ main_v6_0 ∧ Pipeline.arrRef spec2 w ≠ main_v6_1) := by
    decide
  rcases key w with rfl | rfl | ⟨h, h0, h1⟩
  · exact (W4_v6_0 m ρ c).symm
  · exact (W4_v6_1 m ρ c).symm
  · exact ((Attn.dat2 (V3 m ρ) c).arrAt_in w h _).trans ((Attn.A_eq2 (V3 m ρ) c w).trans (W4_of_ne m ρ c _ h0 h1).symm)
theorem hrest2 (c : Dev nD) : ∀ b, b ∉ Finset.univ.image (Pipeline.arrRef spec2) → V4 m ρ c b = V3 m ρ c b :=
  fun b hb => W4_of_ne m ρ c b (fun e => hb (e ▸ Finset.mem_image.mpr ⟨6, Finset.mem_univ _, rfl⟩))
    (fun e => hb (e ▸ Finset.mem_image.mpr ⟨7, Finset.mem_univ _, rfl⟩))

/-- ENTRY: every unscoped buffer at `W3` is region 2's arrays at the proof data's entry contents, each window at its
    share, and the unscoped buffers that are no window's array. -/
theorem entry2 (c : Dev nD) : (StableHlo.held (c : Thread nD τ) (Pipeline.ucRefs τ sig) (W3 m ρ c) : sProp 𝕄)
    ⊢ iprop((Attn.dat2 (V3 m ρ) c).arrays ((Attn.dat2 (V3 m ρ) c).arrAt · 0)
        ∗ Pipeline.unscopedRest (Ix := Unit) (Name := ℕ) (U := UR sig nD τ) (Lvl := ℕ) spec2 c (V3 m ρ c)) := by
  rw [← Pipeline.unscopedBufs_held (Ix := Unit) (Name := ℕ) (U := UR sig nD τ) (Lvl := ℕ) c (W3 m ρ c),
    Pipeline.unscopedBufs_split₀ cfgs 2 winFacts₀2.arr_unscoped c]
  exact sep_mono (arrays_of_arrBufs2 _ rfl rfl rfl rfl rfl rfl _ _ (fun w => Attn.A_eq2 (V3 m ρ) c w)) .rfl

/-- EXIT: region 2's arrays at their final contents and the unscoped buffers that are no window's array, as entered,
    are every unscoped buffer at `W4`. -/
theorem exit2 (c : Dev nD) :
    iprop((Attn.dat2 (V3 m ρ) c).arrays ((Attn.dat2 (V3 m ρ) c).arrAt · cfg2.N)
        ∗ Pipeline.unscopedRest (Ix := Unit) (Name := ℕ) (U := UR sig nD τ) (Lvl := ℕ) spec2 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 2 winFacts₀2.arr_unscoped c]
  refine sep_mono (arrBufs_of_arrays2 _ rfl rfl rfl rfl rfl rfl _ _ (hF2 m ρ c)) (Entails.of_eq ?_)
  unfold Pipeline.unscopedRest
  exact bigSep_congr fun b hb =>
    congrArg (fun f => (((c : Thread nD τ).loc b) ↦{fullShare} f : sProp 𝕄)) (hrest2 m ρ c b (Finset.mem_sdiff.mp hb).2).symm

set_option backward.isDefEq.respectTransparency.types false in
/-- REGION 2 over the thread state: entered from every unscoped buffer at `W3` (what region 1 left), left at `W4`.
    Its windows share arrays: the buffers behind them are split among the windows at the entry and joined at the
    exit, where the windows on one buffer hold equal contents. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Attn.body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin2 (V3 m ρ) c)
    unfold Pipeline.ΦA
    iintro ⟨Hp, -, Hr⟩
    isplitl [Hr]; · iexact Hr
    iexact Hp
  hout c := by
    rw [Pipeline.ownSems0_none]
    refine (Attn.hout2 (V3 m ρ) c).trans ?_
    unfold Pipeline.ΦA
    iintro ⟨Hr, Hp⟩
    isplitl [Hp]; · iexact Hp
    isplitr; · iempintro
    iexact Hr
  hexit c := by
    have hjoin := exit2 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! # @main as segments, and the launch -/

/-- @main's 5 segments in order: the first host stretch, the three regions, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents `W5`. -/
theorem run3 : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution of @main terminates, nothing faulting, and every argument array ends as
    launched. -/
theorem frame3 : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run3 m ρ)

end Cert.Kernel.Run3

end
-- ==== Proof.LinearI.lean ====
/- The frame data of the two linear-projection kernels (pipelines 0 and 1), at any float instance `F` and
   at a PARAMETER `V`, the TensorCore's buffer contents when the region is entered. Per region: each window's
   block at a grid point; what the body leaves in the output window's buffer as a closed function of the three
   input blocks (`outK_3`: the one whole store of the payload `truncf (x0ᵀ · x1ᵀ + broadcast x2)`); the body's
   separation-logic triple; the pipeline's proof data `datK`; and the body obligation. The weight and bias
   windows have a constant block index and are fetched at the first point only: at a later point the staging
   buffer still holds the block, because the index has not moved. -/
import proofs.«168839_j16673063043431_2_alg».proof.Proof.Gen.KernelIdeal.Launch
import proofs.«168839_j16673063043431_2_alg».proof.Proof.Gen.KernelIdeal.Skeleton
import proofs.«168839_j16673063043431_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: the parameter both regions' data are stated at
variable (V : (c : Dev nD) → (b : Ref sig .tc) → Buf (Elt F) ((c : Thread nD τ).loc b))

/-! # Region 0: the linear kernel of pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activation block, fetched at every point): its current staging buffer holds its block at
    every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the whole weight, block index constant, fetched at the first point only): where it is not
    fetched its block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the whole bias, block index constant, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1x256x512 := Rect.unit (s := S1x256x512) ![0, 0, 0] S1x256x512.size inb_S1x256x512_S1x256x512_0_0_0
abbrev r0_1 : Rect S768x256 := Rect.unit (s := S768x256) ![0, 0] S768x256.size inb_S768x256_S768x256_0_0
abbrev r0_2 : Rect S768 := Rect.unit (s := S768) ![0] S768.size inb_S768_S768_0
abbrev r0_3 : Rect S1x512x768 := Rect.unit (s := S1x512x768) ![0, 0, 0] S1x512x768.size inb_S1x512x768_S1x512x768_0_0_0

/-! ## What the body leaves in the output window's buffer -/

/-- The output window's staging buffer after the body, from the three input blocks: its one store, of the
    payload (the projected block plus the bias, rounded) of the three whole loads, over the whole buffer. -/
def out0_3 (x0 : Vec F S1x256x512 .f32) (x1 : Vec F S768x256 .f32) (x2 : Vec F S768 .f32) : Vec F S1x512x768 .bf16 :=
  View.canon [⟨r0_3, k0_pay1 (View.ld x0 r0_0) (View.ld x1 r0_1) (View.ld x2 r0_2)⟩]

/-- The one store's rectangle is the whole buffer, so it covers it. -/
theorem cover0_3 (p0 : Vec F S1x512x768 .bf16) (y : S1x512x768.Idx) :
    ∃ pc ∈ ([⟨r0_3, p0⟩] : List (View.Piece (Elt F) S1x512x768 .bf16)), y ∈ pc.1.set :=
  View.cover_of_tiled [⟨r0_3, p0⟩] S1x512x768.size (by rfl) y

/-! ## The body's triple -/

set_option maxHeartbeats 1000000 in
/-- The kernel body on whole staging memrefs, the inputs' at read contents `x0 x1 x2` and the output's at anything,
    runs to the continuation holding the inputs' as they were and the output's at `out0_3` of the inputs. The
    load of the output buffer before the store is dead: its value reaches no store. -/
theorem sound_kernel0 (c : Dev nD) (E : Set ℕ) (i : grid0.Coords) (arg2 : Memref sig .tc .vmem S1x256x512 .f32) (harg2 : arg2.IsWhole) (arg3 : Memref sig .tc .vmem S768x256 .f32) (harg3 : arg3.IsWhole) (arg4 : Memref sig .tc .vmem S768 .f32) (harg4 : arg4.IsWhole) (arg5 : Memref sig .tc .vmem S1x512x768 .bf16) (harg5 : arg5.IsWhole)
    (x0 : Vec F S1x256x512 .f32) (x1 : Vec F S768x256 .f32) (x2 : Vec F S768 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected; `V` is never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the linear kernel of pipeline 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the activation block, fetched at every point): its current staging buffer holds its block at
    every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the whole weight, block index constant, fetched at the first point only): where it is not
    fetched its block index has not moved, so the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the whole bias, block index constant, fetched at the first point only): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x256x512 := Rect.unit (s := S1x256x512) ![0, 0, 0] S1x256x512.size inb_S1x256x512_S1x256x512_0_0_0
abbrev r1_1 : Rect S768x256 := Rect.unit (s := S768x256) ![0, 0] S768x256.size inb_S768x256_S768x256_0_0
abbrev r1_2 : Rect S768 := Rect.unit (s := S768) ![0] S768.size inb_S768_S768_0
abbrev r1_3 : Rect S1x512x768 := Rect.unit (s := S1x512x768) ![0, 0, 0] S1x512x768.size inb_S1x512x768_S1x512x768_0_0_0

/-! ## What the body leaves in the output window's buffer -/

/-- The output window's staging buffer after the body, from the three input blocks: its one store, of the
    payload (the projected block plus the bias, rounded) of the three whole loads, over the whole buffer. -/
def out1_3 (x0 : Vec F S1x256x512 .f32) (x1 : Vec F S768x256 .f32) (x2 : Vec F S768 .f32) : Vec F S1x512x768 .bf16 :=
  View.canon [⟨r1_3, k1_pay1 (View.ld x0 r1_0) (View.ld x1 r1_1) (View.ld x2 r1_2)⟩]

/-- The one store's rectangle is the whole buffer, so it covers it. -/
theorem cover1_3 (p0 : Vec F S1x512x768 .bf16) (y : S1x512x768.Idx) :
    ∃ pc ∈ ([⟨r1_3, p0⟩] : List (View.Piece (Elt F) S1x512x768 .bf16)), y ∈ pc.1.set :=
  View.cover_of_tiled [⟨r1_3, p0⟩] S1x512x768.size (by rfl) y

/-! ## The body's triple -/

set_option maxHeartbeats 1000000 in
/-- The kernel body on whole staging memrefs, the inputs' at read contents `x0 x1 x2` and the output's at anything,
    runs to the continuation holding the inputs' as they were and the output's at `out1_3` of the inputs. The
    load of the output buffer before the store is dead: its value reaches no store. -/
theorem sound_kernel1 (c : Dev nD) (E : Set ℕ) (i : grid1.Coords) (arg2 : Memref sig .tc .vmem S1x256x512 .f32) (harg2 : arg2.IsWhole) (arg3 : Memref sig .tc .vmem S768x256 .f32) (harg3 : arg3.IsWhole) (arg4 : Memref sig .tc .vmem S768 .f32) (harg4 : arg4.IsWhole) (arg5 : Memref sig .tc .vmem S1x512x768 .bf16) (harg5 : arg5.IsWhole)
    (x0 : Vec F S1x256x512 .f32) (x1 : Vec F S768x256 .f32) (x2 : Vec F S768 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__linear_kernel i arg2 harg2 arg3 harg3 arg4 harg4 arg5 harg5) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Lin

end
-- ==== Proof.AttnRuns.lean ====
/-
  The attention kernel's body as a triple, once per control case. The grid is (8 query tiles) × (16 key
  tiles), the key axis innermost; the body resets its six accumulators (running maximum, denominator and
  numerator of each of the two streams) at the first key tile of a query tile, updates them at every key
  tile, and at the last key tile divides the numerators by the denominators and stores the two output
  tiles. So a point is in one of three cases: first key tile (reset, no output), a middle one, the last
  one (output). In each case the body runs to its end on whole staging buffers; what every buffer it
  stores into ends with is recorded as the list of pieces stored.
-/
import proofs.«168839_j16673063043431_2_alg».proof.Proof.Gen.KernelIdeal.Launch
import proofs.«168839_j16673063043431_2_alg».proof.Proof.Gen.KernelIdeal.Skeleton
import proofs.«168839_j16673063043431_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The point is at the first key tile of its query tile. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)
/-- The point is at the last key tile of its query tile. -/
abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

set_option maxHeartbeats 4000000 in
/-- First key tile: the accumulators are reset and then updated; the outputs are left as they are. -/
noncomputable def kernelRun2_A (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (xi6 xi7 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- A middle key tile: the accumulators are updated from what the point before left. -/
noncomputable def kernelRun2_B (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (xi6 xi7 : Vec F S4x256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, ?_, ?_, ?_, ?_, fun xi6 xi7 E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8; obtain rfl := harg9.eq_unread hf9; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]
    · iexists _; isplitr; · ipureintro; exact harg8.read_unread _
      iexact H8
    isplitl [H9]
    · iexists _; isplitr; · ipureintro; exact harg9.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

set_option maxHeartbeats 4000000 in
/-- Last key tile: the accumulators are updated and the two output tiles stored. -/
noncomputable def kernelRun2_C (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    Σ' (L6 : List (View.Piece (Elt F) S4x256x512 .f32)) (L7 : List (View.Piece (Elt F) S4x256x512 .f32)) (LS0 : List (View.Piece (Elt F) S4x512x1 .f32)) (LS1 : List (View.Piece (Elt F) S4x512x1 .f32)) (LS2 : List (View.Piece (Elt F) S4x512x256 .f32)) (LS3 : List (View.Piece (Elt F) S4x512x1 .f32)) (LS4 : List (View.Piece (Elt F) S4x512x1 .f32)), { LS5 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare xs4 ∗ owns (c : Thread nD τ) arg15 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc2__attn_kernel_eq_skeleton]; unfold cc2__attn_kernel_skel
    simp only [k2_part1_eq_skeleton, k2_part2_eq_skeleton]; unfold k2_part1_skel k2_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3; obtain rfl := harg14.eq_unread hfs4; obtain rfl := harg15.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Attn

end
-- ==== Proof.AttnFrame.lean ====
/-
  The attention kernel's region: what its two outputs and its six accumulators hold after every grid
  point, the pipeline's proof data, and the body obligation. The grid is (8 query tiles) x (16 key tiles),
  the key axis innermost. A point is at the first key tile of its query tile (the accumulators are reset,
  then updated), at a middle one (updated from what the point before left) or at the last one (updated, and
  the two output tiles stored). The accumulators are scratch buffers the kernel carries from point to point,
  so the region invariant names what each of them holds after every point; the outputs are idle except at
  the last key tile, where their blocks are written back.
  Everything is stated at a parameter `V`: the buffer contents the region finds when it is entered.
-/
import proofs.«168839_j16673063043431_2_alg».proof.Proof.AttnRuns

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## Where the windows are idle -/

/-- Input window 0 is never idle. -/
theorem liveAt2_0 : ∀ t : Fin cfg2.N, cfg2.idle 0 (grid2.coords t) = false := fun _ => rfl
/-- Input window 1 is never idle. -/
theorem liveAt2_1 : ∀ t : Fin cfg2.N, cfg2.idle 1 (grid2.coords t) = false := fun _ => rfl
/-- Input window 2 is never idle. -/
theorem liveAt2_2 : ∀ t : Fin cfg2.N, cfg2.idle 2 (grid2.coords t) = false := fun _ => rfl
/-- Input window 3 is never idle. -/
theorem liveAt2_3 : ∀ t : Fin cfg2.N, cfg2.idle 3 (grid2.coords t) = false := fun _ => rfl
/-- Input window 4 is never idle. -/
theorem liveAt2_4 : ∀ t : Fin cfg2.N, cfg2.idle 4 (grid2.coords t) = false := fun _ => rfl
/-- Input window 5 is never idle. -/
theorem liveAt2_5 : ∀ t : Fin cfg2.N, cfg2.idle 5 (grid2.coords t) = false := fun _ => rfl
/-- Output window 6 is idle at every point but the last key tile's, -/
theorem idleAt2_6 : ∀ t : Fin cfg2.N, ¬t.val % 16 = 15 → cfg2.idle 6 (grid2.coords t) = true :=
  (by decide +kernel : ∀ t : Fin grid2.N, ¬t.val % 16 = 15 → idle2 6 (grid2.coords t) = true)
/-- live there, -/
theorem liveAt2_6 : ∀ t : Fin cfg2.N, t.val % 16 = 15 → cfg2.idle 6 (grid2.coords t) = false :=
  (by decide +kernel : ∀ t : Fin grid2.N, t.val % 16 = 15 → idle2 6 (grid2.coords t) = false)
/-- and not written back anywhere else. -/
theorem noFlush2_6 (t : Fin cfg2.N) (h1 : ¬t.val % 16 = 15) : (cfg2.win 6).flush t = false := by
  cases hf : (cfg2.win 6).flush t with
  | false => rfl
  | true => exact absurd ((flush2_6 t).mp hf) h1
/-- Output window 7 is idle at every point but the last key tile's, -/
theorem idleAt2_7 : ∀ t : Fin cfg2.N, ¬t.val % 16 = 15 → cfg2.idle 7 (grid2.coords t) = true :=
  (by decide +kernel : ∀ t : Fin grid2.N, ¬t.val % 16 = 15 → idle2 7 (grid2.coords t) = true)
/-- live there, -/
theorem liveAt2_7 : ∀ t : Fin cfg2.N, t.val % 16 = 15 → cfg2.idle 7 (grid2.coords t) = false :=
  (by decide +kernel : ∀ t : Fin grid2.N, t.val % 16 = 15 → idle2 7 (grid2.coords t) = false)
/-- and not written back anywhere else. -/
theorem noFlush2_7 (t : Fin cfg2.N) (h1 : ¬t.val % 16 = 15) : (cfg2.win 7).flush t = false := by
  cases hf : (cfg2.win 7).flush t with
  | false => rfl
  | true => exact absurd ((flush2_7 t).mp hf) h1

/-! ## The memrefs the body is called with -/

/-- Each window's current staging memref at point `t`, as the pipeline passes it, and its wholeness. -/
abbrev ms2_0 (t : Fin cfg2.N) : Memref sig .tc .vmem S4x512x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x256x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x256x256 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4x512x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4x256x256 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4x256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S4x256x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S4x256x512 .f32 := win2_7.stage (cfg2.slots t 7)
abbrev hs2_7 (t : Fin cfg2.N) : (ms2_7 t).IsWhole := hstage2_7 ((cfg2.slots t 7).cast nbuf2_7)
/-- The six accumulators: whole scoped buffers of the kernel's own, passed beside the windows; and each as a view,
    through which what it holds is stated. -/
abbrev scM2_0 : Memref sig .tc .vmem S4x512x1 .f32 := Memref.whole cc2_scratch0
abbrev VS2_0 : View sig .tc .vmem S4x512x1 .f32 := scM2_0.view
abbrev scM2_1 : Memref sig .tc .vmem S4x512x1 .f32 := Memref.whole cc2_scratch1
abbrev VS2_1 : View sig .tc .vmem S4x512x1 .f32 := scM2_1.view
abbrev scM2_2 : Memref sig .tc .vmem S4x512x256 .f32 := Memref.whole cc2_scratch2
abbrev VS2_2 : View sig .tc .vmem S4x512x256 .f32 := scM2_2.view
abbrev scM2_3 : Memref sig .tc .vmem S4x512x1 .f32 := Memref.whole cc2_scratch3
abbrev VS2_3 : View sig .tc .vmem S4x512x1 .f32 := scM2_3.view
abbrev scM2_4 : Memref sig .tc .vmem S4x512x1 .f32 := Memref.whole cc2_scratch4
abbrev VS2_4 : View sig .tc .vmem S4x512x1 .f32 := scM2_4.view
abbrev scM2_5 : Memref sig .tc .vmem S4x512x256 .f32 := Memref.whole cc2_scratch5
abbrev VS2_5 : View sig .tc .vmem S4x512x256 .f32 := scM2_5.view
/-- One staging buffer of each output window, through which its contents are stated (the choice does not matter). -/
abbrev VO2_6 : View sig .tc .vmem S4x256x512 .f32 := (Memref.whole cc2_stg6_0 : Memref sig .tc .vmem S4x256x512 .f32).view
abbrev VO2_7 : View sig .tc .vmem S4x256x512 .f32 := (Memref.whole cc2_stg7_0 : Memref sig .tc .vmem S4x256x512 .f32).view

/-! ## The region invariant's parts -/

/-- The core's scoped buffers that are neither this kernel's staging buffers nor its accumulators (the staging
    buffers of the two other kernels), each at some contents. -/
def Rest12 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the accumulators as memrefs owned at some contents. -/
theorem PhiA2_eq (c : Dev nD) :
    (Pipeline.ΦA spec2 c : sProp 𝕄)
      = iprop(iprop(Rest12 (F := F) c ∗ (∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d) ∗ (∃ d, owns (c : Thread nD τ) scM2_4 fullShare d) ∗ (∃ d, owns (c : Thread nD τ) scM2_5 fullShare d)) ∗ (∃ r, prngReg c r)) := by
  unfold Pipeline.ΦA Rest12; rw [scopedRest2_eq]; simp only [scM2_0, scM2_1, scM2_2, scM2_3, scM2_4, scM2_5, owns_whole]
  refine Idealize.SL.BI.Entails.antisymm (show _ ⊢ (_ : sProp 𝕄) from ?_) (show _ ⊢ (_ : sProp 𝕄) from ?_)
  · iintro ⟨⟨A0, A1, A2, A3, A4, A5, A6, A7, A8, A9, A10, A11, S0, S1, S2, S3, S4, S5⟩, Hg⟩
    isplitr [Hg]
    · isplitl [A0 A1 A2 A3 A4 A5 A6 A7 A8 A9 A10 A11]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        iexact A11
      isplitl [S0]; · iexact S0
      isplitl [S1]; · iexact S1
      isplitl [S2]; · iexact S2
      isplitl [S3]; · iexact S3
      isplitl [S4]; · iexact S4
      iexact S5
    iexact Hg
  · iintro ⟨⟨⟨A0, A1, A2, A3, A4, A5, A6, A7, A8, A9, A10, A11⟩, S0, S1, S2, S3, S4, S5⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [S0]; · iexact S0
      isplitl [S1]; · iexact S1
      isplitl [S2]; · iexact S2
      isplitl [S3]; · iexact S3
      isplitl [S4]; · iexact S4
      iexact S5
    iexact Hg

/-! ## What each case leaves in the accumulators and the outputs -/

/-- Case A's pieces for accumulator 0 cover it (whole stores). -/
theorem scover2_A_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1 S4x512x1.size (by sl_kernel_rfl) y

/-- What case A leaves in accumulator 0: its pieces read back over junk. -/
def sout2_A_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1)

/-- Case A's pieces for accumulator 1 cover it (whole stores). -/
theorem scover2_A_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1 S4x512x1.size (by sl_kernel_rfl) y

/-- What case A leaves in accumulator 1: its pieces read back over junk. -/
def sout2_A_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1)

/-- Case A's pieces for accumulator 2 cover it (whole stores). -/
theorem scover2_A_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1 S4x512x256.size (by sl_kernel_rfl) y

/-- What case A leaves in accumulator 2: its pieces read back over junk. -/
def sout2_A_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x256 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1)

/-- Case A's pieces for accumulator 3 cover it (whole stores). -/
theorem scover2_A_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1 S4x512x1.size (by sl_kernel_rfl) y

/-- What case A leaves in accumulator 3: its pieces read back over junk. -/
def sout2_A_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1)

/-- Case A's pieces for accumulator 4 cover it (whole stores). -/
theorem scover2_A_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x1.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1 S4x512x1.size (by sl_kernel_rfl) y

/-- What case A leaves in accumulator 4: its pieces read back over junk. -/
def sout2_A_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x1 .f32 :=
  VS2_4.read (Elt F) (VS2_4.writes (Elt F) VS2_4.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1)

/-- Case A's pieces for accumulator 5 cover it (whole stores). -/
theorem scover2_A_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (y : S4x512x256.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1 S4x512x256.size (by sl_kernel_rfl) y

/-- What case A leaves in accumulator 5: its pieces read back over junk. -/
def sout2_A_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) : Vec F S4x512x256 .f32 :=
  VS2_5.read (Elt F) (VS2_5.writes (Elt F) VS2_5.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1)

/-- Case B's pieces for accumulator 0 cover it (whole stores). -/
theorem scover2_B_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S4x512x1.size (by sl_kernel_rfl) y

/-- What case B leaves in accumulator 0: its pieces read back over junk. -/
def sout2_B_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case B's pieces for accumulator 1 cover it (whole stores). -/
theorem scover2_B_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S4x512x1.size (by sl_kernel_rfl) y

/-- What case B leaves in accumulator 1: its pieces read back over junk. -/
def sout2_B_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case B's pieces for accumulator 2 cover it (whole stores). -/
theorem scover2_B_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S4x512x256.size (by sl_kernel_rfl) y

/-- What case B leaves in accumulator 2: its pieces read back over junk. -/
def sout2_B_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case B's pieces for accumulator 3 cover it (whole stores). -/
theorem scover2_B_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S4x512x1.size (by sl_kernel_rfl) y

/-- What case B leaves in accumulator 3: its pieces read back over junk. -/
def sout2_B_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_3.read (Elt F) (VS2_3.writes (Elt F) VS2_3.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case B's pieces for accumulator 4 cover it (whole stores). -/
theorem scover2_B_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S4x512x1.size (by sl_kernel_rfl) y

/-- What case B leaves in accumulator 4: its pieces read back over junk. -/
def sout2_B_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_4.read (Elt F) (VS2_4.writes (Elt F) VS2_4.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case B's pieces for accumulator 5 cover it (whole stores). -/
theorem scover2_B_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S4x512x256.size (by sl_kernel_rfl) y

/-- What case B leaves in accumulator 5: its pieces read back over junk. -/
def sout2_B_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_5.read (Elt F) (VS2_5.writes (Elt F) VS2_5.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- The last key tile's pieces for output 6 tile its block (one whole store), so they cover it. -/
theorem cover2_C_6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x256x512.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1 S4x256x512.size (by sl_kernel_rfl) y

/-- What the last key tile leaves in output 6's staging buffer: its pieces read back over junk. -/
def out2_C_6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x256x512 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1)

/-- The last key tile's pieces for output 7 tile its block (one whole store), so they cover it. -/
theorem cover2_C_7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x256x512.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1 S4x256x512.size (by sl_kernel_rfl) y

/-- What the last key tile leaves in output 7's staging buffer: its pieces read back over junk. -/
def out2_C_7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x256x512 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1)

/-- Case C's pieces for accumulator 0 cover it (whole stores). -/
theorem scover2_C_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1 S4x512x1.size (by sl_kernel_rfl) y

/-- What case C leaves in accumulator 0: its pieces read back over junk. -/
def sout2_C_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1)

/-- Case C's pieces for accumulator 1 cover it (whole stores). -/
theorem scover2_C_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1 S4x512x1.size (by sl_kernel_rfl) y

/-- What case C leaves in accumulator 1: its pieces read back over junk. -/
def sout2_C_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1)

/-- Case C's pieces for accumulator 2 cover it (whole stores). -/
theorem scover2_C_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1 S4x512x256.size (by sl_kernel_rfl) y

/-- What case C leaves in accumulator 2: its pieces read back over junk. -/
def sout2_C_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1)

/-- Case C's pieces for accumulator 3 cover it (whole stores). -/
theorem scover2_C_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1 S4x512x1.size (by sl_kernel_rfl) y

/-- What case C leaves in accumulator 3: its pieces read back over junk. -/
def sout2_C_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1)

/-- Case C's pieces for accumulator 4 cover it (whole stores). -/
theorem scover2_C_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x1.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1 S4x512x1.size (by sl_kernel_rfl) y

/-- What case C leaves in accumulator 4: its pieces read back over junk. -/
def sout2_C_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x1 .f32 :=
  VS2_4.read (Elt F) (VS2_4.writes (Elt F) VS2_4.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1)

/-- Case C's pieces for accumulator 5 cover it (whole stores). -/
theorem scover2_C_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) (y : S4x512x256.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1 S4x512x256.size (by sl_kernel_rfl) y

/-- What case C leaves in accumulator 5: its pieces read back over junk. -/
def sout2_C_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i)
    (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) : Vec F S4x512x256 .f32 :=
  VS2_5.read (Elt F) (VS2_5.writes (Elt F) VS2_5.junk (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1)

/-- What an output's component of the accumulation is at a point that stores nothing into it: junk read back. A
    placeholder nothing consults: at these points the window is neither written back nor read at the next point. -/
def outIdle2 : Vec F S4x256x512 .f32 := VO2_6.read (Elt F) VO2_6.junk

/-- The accumulation's carrier: the two outputs' staging buffers, then the six accumulators. -/
abbrev Outs2 (F : FTy → Type) [FloatOps F] : Type :=
  Vec F S4x256x512 .f32 × Vec F S4x256x512 .f32 × Vec F S4x512x1 .f32 × Vec F S4x512x1 .f32 × Vec F S4x512x256 .f32 × Vec F S4x512x1 .f32 × Vec F S4x512x1 .f32 × Vec F S4x512x256 .f32

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The shares the arrays are held at: windows 0, 1, 2 read one array and windows 3, 4, 5 another, so each of the
    three holds a part of it; an output's array is held whole. -/
abbrev q2 : Fin 8 → PosShare TreeShare := fun w => match w with
  | ⟨0, _⟩ => fullShare.left | ⟨1, _⟩ => fullShare.right.left | ⟨2, _⟩ => fullShare.right.right
  | ⟨3, _⟩ => fullShare.left | ⟨4, _⟩ => fullShare.right.left | ⟨5, _⟩ => fullShare.right.right
  | ⟨6, _⟩ => fullShare | ⟨7, _⟩ => fullShare

/-! ## What the outputs and the accumulators hold after each point -/

/-- THE ACCUMULATION. What the two outputs' staging buffers and the six accumulators hold after the body at position
    `n`: the case the point is in, run at the point's memrefs and input blocks; a middle or last key tile reads the
    accumulators at what position `n - 1` left; a first key tile resets them and depends on nothing before. -/
def outsAt2 (c : Dev nD) : (n : ℕ) → n < cfg2.N → Outs2 F
  | 0, hn => (outIdle2, outIdle2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : (n + 1) % 16 = 15 then
        False.elim (by omega)
      else
        (outIdle2, outIdle2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 16 = 15 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2)
      else
        (outIdle2, outIdle2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2, sout2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.1 (outsAt2 c n (Nat.lt_of_succ_lt hn)).2.2.2.1 (outsAt2 c n (Nat.lt_of_succ_lt hn)).2.2.2.2.1 (outsAt2 c n (Nat.lt_of_succ_lt hn)).2.2.2.2.2.1 (outsAt2 c n (Nat.lt_of_succ_lt hn)).2.2.2.2.2.2.1 (outsAt2 c n (Nat.lt_of_succ_lt hn)).2.2.2.2.2.2.2)

/-- `outsAt2` at a first key tile: that case's contents. -/
theorem outsAt2_A (c : Dev nD) (t : Fin cfg2.N) (h0 : t.val % 16 = 0) (h1 : ¬t.val % 16 = 15) :
    outsAt2 V c t.val t.isLt = (outIdle2, outIdle2, sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle key tile: that case's contents, over what the point before left. -/
theorem outsAt2_B (c : Dev nD) (t : Fin cfg2.N) (h0 : ¬t.val % 16 = 0) (h1 : ¬t.val % 16 = 15) :
    outsAt2 V c t.val t.isLt = (outIdle2, outIdle2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last key tile: that case's contents, over what the point before left. -/
theorem outsAt2_C (c : Dev nD) (t : Fin cfg2.N) (h0 : ¬t.val % 16 = 0) (h1 : t.val % 16 = 15) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2, sout2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.1 (outsAt2 V c (t.val - 1) (Nat.lt_of_le_of_lt (Nat.sub_le _ _) t.isLt)).2.2.2.1 (outsAt2 V c (t.val - 1) (Nat.lt_of_le_of_lt (Nat.sub_le _ _) t.isLt)).2.2.2.2.1 (outsAt2 V c (t.val - 1) (Nat.lt_of_le_of_lt (Nat.sub_le _ _) t.isLt)).2.2.2.2.2.1 (outsAt2 V c (t.val - 1) (Nat.lt_of_le_of_lt (Nat.sub_le _ _) t.isLt)).2.2.2.2.2.2.1 (outsAt2 V c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer of this kernel at anything, the generator register at some state); afterwards the other kernels'
    staging buffers at anything, each accumulator at what the point before left in it, and the generator register. -/
def PhiS2 (c : Dev nD) : (n : ℕ) → n ≤ cfg2.N → sProp 𝕄
  | 0, _ => Pipeline.ΦA spec2 c
  | n + 1, hn => iprop(iprop(Rest12 (F := F) c ∗ owns (c : Thread nD τ) scM2_0 fullShare ((outsAt2 V c n hn).2.2.1) ∗ owns (c : Thread nD τ) scM2_1 fullShare ((outsAt2 V c n hn).2.2.2.1) ∗ owns (c : Thread nD τ) scM2_2 fullShare ((outsAt2 V c n hn).2.2.2.2.1) ∗ owns (c : Thread nD τ) scM2_3 fullShare ((outsAt2 V c n hn).2.2.2.2.2.1) ∗ owns (c : Thread nD τ) scM2_4 fullShare ((outsAt2 V c n hn).2.2.2.2.2.2.1) ∗ owns (c : Thread nD τ) scM2_5 fullShare ((outsAt2 V c n hn).2.2.2.2.2.2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(Rest12 (F := F) c ∗ owns (c : Thread nD τ) scM2_0 fullShare ((outsAt2 V c n hn).2.2.1) ∗ owns (c : Thread nD τ) scM2_1 fullShare ((outsAt2 V c n hn).2.2.2.1) ∗ owns (c : Thread nD τ) scM2_2 fullShare ((outsAt2 V c n hn).2.2.2.2.1) ∗ owns (c : Thread nD τ) scM2_3 fullShare ((outsAt2 V c n hn).2.2.2.2.2.1) ∗ owns (c : Thread nD τ) scM2_4 fullShare ((outsAt2 V c n hn).2.2.2.2.2.2.1) ∗ owns (c : Thread nD τ) scM2_5 fullShare ((outsAt2 V c n hn).2.2.2.2.2.2.2)) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(Rest12 (F := F) c ∗ owns (c : Thread nD τ) scM2_0 fullShare ((outsAt2 V c (n - 1) (by omega)).2.2.1) ∗ owns (c : Thread nD τ) scM2_1 fullShare ((outsAt2 V c (n - 1) (by omega)).2.2.2.1) ∗ owns (c : Thread nD τ) scM2_2 fullShare ((outsAt2 V c (n - 1) (by omega)).2.2.2.2.1) ∗ owns (c : Thread nD τ) scM2_3 fullShare ((outsAt2 V c (n - 1) (by omega)).2.2.2.2.2.1) ∗ owns (c : Thread nD τ) scM2_4 fullShare ((outsAt2 V c (n - 1) (by omega)).2.2.2.2.2.2.1) ∗ owns (c : Thread nD τ) scM2_5 fullShare ((outsAt2 V c (n - 1) (by omega)).2.2.2.2.2.2.2)) ∗ (∃ r, prngReg c r)) := by
  cases n with
  | zero => exact absurd rfl hz
  | succ n => rfl

/-! ## The pipeline's proof data -/

/-- The proof data of the attention kernel's pipeline on core `c`: the arrays as the region finds them (`V`); after
    the body at point `t` each input's buffer at its block and the outputs' at `outsAt2`; the invariant `PhiS2`;
    nothing owed; the shares `q2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q := q2
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Region

end Cert.KernelIdeal.Attn

end
-- ==== Proof.AttnBodyDefs.lean ====
/-
  The attention kernel's body obligation, stated window by window: what the body is called with at a grid
  point and what it returns.
-/
import proofs.«168839_j16673063043431_2_alg».proof.Proof.AttnFrame

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

end Region

end Cert.KernelIdeal.Attn

end
-- ==== Proof.AttnBodyCaseF.lean ====
/-
  The attention kernel's body at the region's first point (the first key tile of the first query tile).
-/
import proofs.«168839_j16673063043431_2_alg».proof.Proof.AttnBodyDefs

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at the region's first point (a first key tile): the invariant is the class's, every accumulator at
    anything; the body resets them, and they are taken back at this point's contents (the case's pieces cover each);
    the outputs are handed back untouched; the core owes nothing throughout. -/
theorem sound_body2_A0 (c : Dev nD) (t : Fin cfg2.N) (h0 : t.val % 16 = 0) (h1 : ¬t.val % 16 = 15) (hz : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_A V c t h0 h1]
  unfold sout2_A_0 sout2_A_1 sout2_A_2 sout2_A_3 sout2_A_4 sout2_A_5; (try dsimp only)
  rw [PhiS2_castSucc V c t, PhiS2_zero V c _ _ hz, PhiA2_eq]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.KernelIdeal.Attn

end
-- ==== Proof.AttnBodyCaseA.lean ====
/-
  The attention kernel's body at the first key tile of a later query tile.
-/
import proofs.«168839_j16673063043431_2_alg».proof.Proof.AttnBodyDefs

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a later first key tile: the accumulators come at what the point before left, which the reset forgets. -/
theorem sound_body2_A (c : Dev nD) (t : Fin cfg2.N) (h0 : t.val % 16 = 0) (h1 : ¬t.val % 16 = 15) (hz : t.val ≠ 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_A V c t h0 h1]
  unfold sout2_A_0 sout2_A_1 sout2_A_2 sout2_A_3 sout2_A_4 sout2_A_5; (try dsimp only)
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c (grid2.coords t) _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_A_0 c _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_A_1 c _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_A_2 c _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_A_4 c _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_A_5 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.KernelIdeal.Attn

end
-- ==== Proof.AttnBodyCaseM.lean ====
/-
  The attention kernel's body at a middle key tile.
-/
import proofs.«168839_j16673063043431_2_alg».proof.Proof.AttnBodyDefs

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a middle key tile: the accumulators come at what the point before left and are updated. -/
theorem sound_body2_B (c : Dev nD) (t : Fin cfg2.N) (h0 : ¬t.val % 16 = 0) (h1 : ¬t.val % 16 = 15) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [Dat.leavesExact_idle (dat2 V c) 6 t (idleAt2_6 t h1) (noFlush2_6 t h1)]
  rw [Dat.leavesExact_idle (dat2 V c) 7 t (idleAt2_7 t h1) (noFlush2_7 t h1)]
  rw [outsAt2_B V c t h0 h1]
  unfold sout2_B_0 sout2_B_1 sout2_B_2 sout2_B_3 sout2_B_4 sout2_B_5; (try dsimp only)
  have hz : t.val ≠ 0 := by omega
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_B c (grid2.coords t) _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _ _ _ _).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_B_0 c _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_B_1 c _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_B_2 c _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_B_3 c _ _ _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_B_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_B_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexists _; iexact H7

end Region

end Cert.KernelIdeal.Attn

end
-- ==== Proof.AttnBodyCaseL.lean ====
/-
  The attention kernel's body at the last key tile of a query tile.
-/
import proofs.«168839_j16673063043431_2_alg».proof.Proof.AttnBodyDefs

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

set_option maxHeartbeats 16000000 in
/-- The body at a last key tile: the accumulators are updated and the two outputs stored whole (the case's pieces
    cover each output's block). -/
theorem sound_body2_C (c : Dev nD) (t : Fin cfg2.N) (h0 : ¬t.val % 16 = 0) (h1 : t.val % 16 = 15) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t h1], after2_6]
  rw [show (dat2 V c).leavesExact 7 t = owns (c : Thread nD τ) (ms2_7 t) fullShare ((dat2 V c).after 7 t) from by
    unfold Dat.leavesExact; rw [liveAt2_7 t h1], after2_7]
  rw [outsAt2_C V c t h0 h1]
  unfold out2_C_6 out2_C_7 sout2_C_0 sout2_C_1 sout2_C_2 sout2_C_3 sout2_C_4 sout2_C_5; (try dsimp only)
  have hz : t.val ≠ 0 := by omega
  rw [PhiS2_castSucc V c t, PhiS2_pos V c _ _ hz]
  iintro ⟨⟨⟨HR, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_C c (grid2.coords t) _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _ _ _ _ _).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, ⟨%es0, HS0⟩, ⟨%es1, HS1⟩, ⟨%es2, HS2⟩, ⟨%es3, HS3⟩, ⟨%es4, HS4⟩, ⟨%es5, HS5⟩⟩
  isplitl [HR HS0 HS1 HS2 HS3 HS4 HS5 Hg]
  · isplitr [Hg]
    · isplitl [HR]; · iexact HR
      isplitl [HS0]
      · unfold owns; iexists _; isplitr
        swap; · iexact HS0
        ipureintro; exact View.read_writes_of_cover _ _ _ _ _ (scover2_C_0 c _ _ _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover2_C_1 c _ _ _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover2_C_2 c _ _ _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; exact View.read_writes_of_cover _ _ _ _ _ (scover2_C_3 c _ _ _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; exact View.read_writes_of_cover _ _ _ _ _ (scover2_C_4 c _ _ _ _ _ _ _ _ _ _ _ _ _ _ _ _ _ _ _ _ _ _ _ _ _ _ _ _ _ _ _ _ _ _ _ _ _ _ _ _ _ _ _)
      unfold owns; iexists _; isplitr
      swap; · iexact HS5
      ipureintro; exact View.read_writes_of_cover _ _ _ _ _ (scover2_C_5 c _ _ _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover2_C_6 c _ _ _ _ _ _ _ _ _ _ _ _ _ _ _ _ _ _ _ _ _ _ _ _ _ _ _ _ _ _ _ _ _ _ _ _ _ _ _ _ _ _ _)
  unfold owns; iexists _; isplitr
  swap; · iexact H7
  ipureintro; exact View.read_writes_of_cover _ _ _ _ _ (cover2_C_7 c _ _ _ _ _ _ _ _ _ _ _ _ _ _ _ _ _ _ _ _ _ _ _ _ _ _ _ _ _ _ _ _ _ _ _ _ _ _ _ _ _ _ _)

end Region

end Cert.KernelIdeal.Attn

end
-- ==== Proof.AttnBody.lean ====
/-
  The attention kernel's body obligation: at every grid point, from the region invariant and the windows'
  staging buffers at what they then hold, the body runs to the invariant at the next point and the buffers at
  what the proof data says it leaves; and the invariant's two ends.
-/
import proofs.«168839_j16673063043431_2_alg».proof.Proof.AttnBodyCaseF
import proofs.«168839_j16673063043431_2_alg».proof.Proof.AttnBodyCaseA
import proofs.«168839_j16673063043431_2_alg».proof.Proof.AttnBodyCaseM
import proofs.«168839_j16673063043431_2_alg».proof.Proof.AttnBodyCaseL

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- The body at any point: its position in its query tile says which case it is in. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val % 16 = 0
  · by_cases h1 : t.val % 16 = 15
    · exfalso; omega
    · by_cases hz : t.val = 0
      · exact sound_body2_A0 V c t h0 h1 hz
      · exact sound_body2_A V c t h0 h1 hz
  · by_cases h1 : t.val % 16 = 15
    · exact sound_body2_C V c t h0 h1
    · exact sound_body2_B V c t h0 h1

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the accumulators hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0, HS1, HS2, HS3, HS4, HS5⟩, Hg⟩
  isplitr [Hg]
  · isplitl [HR]; · iexact HR
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region

end Cert.KernelIdeal.Attn

end
-- ==== Proof.Run3I.lean ====
/- The run of the three-kernel program: @main is a stretch of host operations, the two linear-projection regions,
   the attention region, and a last stretch of host operations. This module names the buffer contents at every
   boundary as a fold from the launch memory, states each region as a segment over the thread state "every unscoped
   buffer at the boundary's contents", and launches the list of segments: every weakly fair execution terminates,
   nothing faulting, with every unscoped buffer at the last boundary's contents. The attention region's six input
   windows read two buffers, three windows each; its entry splits each buffer's full share three ways and its exit
   joins them. -/
import proofs.«168839_j16673063043431_2_alg».proof.Proof.LinearI
import proofs.«168839_j16673063043431_2_alg».proof.Proof.AttnFrame
import proofs.«168839_j16673063043431_2_alg».proof.Proof.AttnBody
import proofs.«168839_j16673063043431_2_alg».proof.Proof.Gen.KernelIdeal.Regions

set_option maxRecDepth 16384

noncomputable section

namespace Cert.KernelIdeal.Run3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 2's arrays: two buffers read through three windows each

Region 2's input windows 0, 1, 2 read `main_v4` and 3, 4, 5 read `main_v5`; the proof data hold each window's array
at a share of its own (the left half, and the two halves of the right half), so the full share of a buffer is split
three ways on entry and joined again on exit. -/

section Shares

variable {c : Dev nD} (dat : Dat τ (Elt F) Unit ℕ (UR sig nD τ) ℕ cfg2 c)

/-- The buffers behind region 2's windows. -/
theorem image_arrRef2 : Finset.univ.image (Pipeline.arrRef spec2) = {main_v4, main_v5, main_v6_0, main_v6_1} := by decide

/-- The buffers behind the windows, one by one. -/
theorem arrBufs2_eq (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v4) ↦{fullShare} V main_v4) ∗ (((c : Thread nD τ).loc main_v5) ↦{fullShare} V main_v5)
          ∗ (((c : Thread nD τ).loc main_v6_0) ↦{fullShare} V main_v6_0) ∗ (((c : Thread nD τ).loc main_v6_1) ↦{fullShare} V main_v6_1)) := by
  unfold Pipeline.arrBufs
  rw [image_arrRef2, bigSep_insert (by decide), bigSep_insert (by decide), bigSep_insert (by decide), bigSep_singleton]
  rfl

/-- Eight separating conjuncts equal one by one. -/
theorem sep_congr8 {M : Type} [URA M] {a0 a1 a2 a3 a4 a5 a6 a7 b0 b1 b2 b3 b4 b5 b6 b7 : sProp M}
    (h0 : a0 = b0) (h1 : a1 = b1) (h2 : a2 = b2) (h3 : a3 = b3) (h4 : a4 = b4) (h5 : a5 = b5) (h6 : a6 = b6) (h7 : a7 = b7) :
    iprop(a0 ∗ a1 ∗ a2 ∗ a3 ∗ a4 ∗ a5 ∗ a6 ∗ a7) = iprop(b0 ∗ b1 ∗ b2 ∗ b3 ∗ b4 ∗ b5 ∗ b6 ∗ b7) := by
  rw [h0, h1, h2, h3, h4, h5, h6, h7]

/-- The proof data's arrays, window by window, each whole at its share. -/
theorem arrays2_eq (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (G : (w : Fin cfg2.W) → Buf (Elt F) ((cfg2.win w).arr.view.loc (c : Thread nD τ))) :
    dat.arrays G
      = iprop((((c : Thread nD τ).loc main_v4) ↦{fullShare.left} G 0) ∗ (((c : Thread nD τ).loc main_v4) ↦{fullShare.right.left} G 1)
          ∗ (((c : Thread nD τ).loc main_v4) ↦{fullShare.right.right} G 2)
          ∗ (((c : Thread nD τ).loc main_v5) ↦{fullShare.left} G 3) ∗ (((c : Thread nD τ).loc main_v5) ↦{fullShare.right.left} G 4)
          ∗ (((c : Thread nD τ).loc main_v5) ↦{fullShare.right.right} G 5)
          ∗ (((c : Thread nD τ).loc main_v6_0) ↦{fullShare} G 6) ∗ (((c : Thread nD τ).loc main_v6_1) ↦{fullShare} G 7)) := by
  have s0 : dat.share 0 = fullShare.left := (show dat.share 0 = dat.q 0 from rfl).trans hq0
  have s1 : dat.share 1 = fullShare.right.left := (show dat.share 1 = dat.q 1 from rfl).trans hq1
  have s2 : dat.share 2 = fullShare.right.right := (show dat.share 2 = dat.q 2 from rfl).trans hq2
  have s3 : dat.share 3 = fullShare.left := (show dat.share 3 = dat.q 3 from rfl).trans hq3
  have s4 : dat.share 4 = fullShare.right.left := (show dat.share 4 = dat.q 4 from rfl).trans hq4
  have s5 : dat.share 5 = fullShare.right.right := (show dat.share 5 = dat.q 5 from rfl).trans hq5
  have s6 : dat.share 6 = fullShare := rfl
  have s7 : dat.share 7 = fullShare := rfl
  unfold Pipeline.Dat.arrays
  rw [bigSep_W2]
  refine sep_congr8 ?_ ?_ ?_ ?_ ?_ ?_ ?_ ?_
  · rw [(arr_whole2 0).set_eq_univ, s0]
  · rw [(arr_whole2 1).set_eq_univ, s1]
  · rw [(arr_whole2 2).set_eq_univ, s2]
  · rw [(arr_whole2 3).set_eq_univ, s3]
  · rw [(arr_whole2 4).set_eq_univ, s4]
  · rw [(arr_whole2 5).set_eq_univ, s5]
  · rw [(arr_whole2 6).set_eq_univ, s6]
  · rw [(arr_whole2 7).set_eq_univ, s7]

end Shares

section Shares2

variable {c : Dev nD} (dat : Dat τ (Elt F) Unit ℕ (UR sig nD τ) ℕ cfg2 c)

/-- A buffer whole at the full share is the same buffer at the three shares the windows hold, and back. -/
theorem pointsTo_three {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H' := (pointsTo_share (PosShare.mem_left_op_right fullShare)).1 $$ H
    icases H' with ⟨Ha, Hr⟩
    ihave Hr' := (pointsTo_share (PosShare.mem_left_op_right fullShare.right)).1 $$ Hr
    icases Hr' with ⟨Hb, Hc⟩
    isplitl [Ha]; · iexact Ha
    isplitl [Hb]; · iexact Hb
    iexact Hc
  · iintro ⟨Ha, Hb, Hc⟩
    iapply (pointsTo_share (PosShare.mem_left_op_right fullShare)).2
    isplitl [Ha]; · iexact Ha
    iapply (pointsTo_share (PosShare.mem_left_op_right fullShare.right)).2
    isplitl [Hb]; · iexact Hb
    iexact Hc

/-- ENTRY: the buffers behind the windows, each whole at the full share at contents `V`, make the proof data's arrays
    at the contents read off `V`. -/
theorem arrays_of_arrBufs2 (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊢ dat.arrays G := by
  rw [arrBufs2_eq, arrays2_eq dat hq0 hq1 hq2 hq3 hq4 hq5, hG 0, hG 1, hG 2, hG 3, hG 4, hG 5, hG 6, hG 7]
  iintro ⟨H4, H5, H60, H61⟩
  ihave H4' := (pointsTo_three (F := F) _).1 $$ H4
  icases H4' with ⟨H4a, H4b, H4c⟩
  ihave H5' := (pointsTo_three (F := F) _).1 $$ H5
  icases H5' with ⟨H5a, H5b, H5c⟩
  isplitl [H4a]; · iexact H4a
  isplitl [H4b]; · iexact H4b
  isplitl [H4c]; · iexact H4c
  isplitl [H5a]; · iexact H5a
  isplitl [H5b]; · iexact H5b
  isplitl [H5c]; · iexact H5c
  isplitl [H60]; · iexact H60
  iexact H61

/-- EXIT: the proof data's arrays at contents that are those of a valuation `V` — the windows on one buffer hold equal
    contents — are the buffers behind the windows, each whole at the full share at `V`. -/
theorem arrBufs_of_arrays2 (hq0 : dat.q 0 = fullShare.left) (hq1 : dat.q 1 = fullShare.right.left) (hq2 : dat.q 2 = fullShare.right.right)
    (hq3 : dat.q 3 = fullShare.left) (hq4 : dat.q 4 = fullShare.right.left) (hq5 : dat.q 5 = fullShare.right.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    dat.arrays G ⊢ (Pipeline.arrBufs (Ix := Unit) (Name := ℕ) (U := UR sig nD τ) (Lvl := ℕ) spec2 c V : sProp 𝕄) := by
  rw [arrBufs2_eq, arrays2_eq dat hq0 hq1 hq2 hq3 hq4 hq5, hG 0, hG 1, hG 2, hG 3, hG 4, hG 5, hG 6, hG 7]
  iintro ⟨H4a, H4b, H4c, H5a, H5b, H5c, H60, H61⟩
  isplitl [H4a H4b H4c]
  · iapply (pointsTo_three (F := F) _).2
    isplitl [H4a]; · iexact H4a
    isplitl [H4b]; · iexact H4b
    iexact H4c
  isplitl [H5a H5b H5c]
  · iapply (pointsTo_three (F := F) _).2
    isplitl [H5a]; · iexact H5a
    isplitl [H5b]; · iexact H5b
    iexact H5c
  isplitl [H60]; · iexact H60
  iexact H61

end Shares2

/-! # The buffer contents at each boundary of @main: a fold from the launch memory

@main is a stretch of host operations, three kernel regions one after the other, and a last stretch of host
operations. `W0` is the launch memory; `W1` what the first stretch leaves (region 0's entry); `W2`, `W3`, `W4` what
regions 0, 1, 2 leave (each the entry of what follows); `W5` what the last stretch leaves. -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (Lin.dat0 (V1 m ρ) c).arrAt w cfg0.N
theorem W2_arr (c : Dev nD) (w : Fin cfg0.W) :
    W2 m ρ c (Proc.devRef .tc (Pipeline.arrRef spec0 w)) = (Lin.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit and region 1's entry contents). -/
abbrev V2 : (c : Dev nD) → (b : Ref sig .tc) → Buf (Elt F) ((c : Thread nD τ).loc b) := fun c b => W2 m ρ c b
theorem hF0 (c : Dev nD) (w : Fin cfg0.W) : (Lin.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (Lin.dat1 (V2 m ρ) c).arrAt w cfg1.N
theorem W3_arr (c : Dev nD) (w : Fin cfg1.W) :
    W3 m ρ c (Proc.devRef .tc (Pipeline.arrRef spec1 w)) = (Lin.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit and region 2's entry contents). -/
abbrev V3 : (c : Dev nD) → (b : Ref sig .tc) → Buf (Elt F) ((c : Thread nD τ).loc b) := fun c b => W3 m ρ c b
theorem hF1 (c : Dev nD) (w : Fin cfg1.W) : (Lin.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its two output arrays at what the pipeline leaves, every other buffer as entered (its
    input windows read `main_v4` and `main_v5`, three windows each, and never write them). -/
def W4 (c : Dev nD) : Valuation τ sig (Elt F) :=
  Function.update (Function.update (W3 m ρ c) (Proc.devRef .tc main_v6_0) ((Attn.dat2 (V3 m ρ) c).arrAt 6 cfg2.N))
    (Proc.devRef .tc main_v6_1) ((Attn.dat2 (V3 m ρ) c).arrAt 7 cfg2.N)
/-- The same read at the TensorCore's references. -/
abbrev V4 : (c : Dev nD) → (b : Ref sig .tc) → Buf (Elt F) ((c : Thread nD τ).loc b) := fun c b => W4 m ρ c b
/-- After the last host stretch. -/
abbrev W5 : Dev nD → Valuation τ sig (Elt F) := fun c => StableHlo.after hostOps3 (W4 m ρ c)

theorem W4_v6_1 (c : Dev nD) : W4 m ρ c (Proc.devRef .tc main_v6_1) = (Attn.dat2 (V3 m ρ) c).arrAt 7 cfg2.N := by
  unfold W4; exact Function.update_self ..
theorem W4_v6_0 (c : Dev nD) : W4 m ρ c (Proc.devRef .tc main_v6_0) = (Attn.dat2 (V3 m ρ) c).arrAt 6 cfg2.N := by
  unfold W4
  rw [Function.update_of_ne (StableHlo.devRef_ne_of_ne (by decide))]
  exact Function.update_self ..
theorem W4_of_ne (c : Dev nD) (b : Ref sig .tc) (h0 : b ≠ main_v6_0) (h1 : b ≠ main_v6_1) :
    W4 m ρ c (Proc.devRef .tc b) = W3 m ρ c (Proc.devRef .tc b) := by
  unfold W4
  rw [Function.update_of_ne (StableHlo.devRef_ne_of_ne h1), Function.update_of_ne (StableHlo.devRef_ne_of_ne h0)]

/-! ### What the regions pass on -/

/-- Region 2 reads, through windows 0, 1, 2, what region 0 left in its output array. -/
theorem V3_v4 (c : Dev nD) : V3 m ρ c main_v4 = (Lin.dat0 (V1 m ρ) c).arrAt 3 cfg0.N :=
  (W3_of_ne m ρ c main_v4 (by decide)).trans (W2_arr m ρ c 3)
/-- Region 2 reads, through windows 3, 4, 5, what region 1 left in its output array. -/
theorem V3_v5 (c : Dev nD) : V3 m ρ c main_v5 = (Lin.dat1 (V2 m ρ) c).arrAt 3 cfg1.N :=
  W3_arr m ρ c 3
/-- Region 0 changes its output array only: an input array ends as entered. -/
theorem V2_of_ne (c : Dev nD) (b : Ref sig .tc) (hb : b ≠ main_v4) : V2 m ρ c b = V1 m ρ c b := by
  by_cases h : ∃ w, Pipeline.arrRef spec0 w = b
  · obtain ⟨w, rfl⟩ := h
    have hin : ∀ w : Fin 4, Pipeline.arrRef spec0 w ≠ main_v4 → (cfg0.win w).isOut = false := by decide
    exact (W2_arr m ρ c w).trans (((Lin.dat0 (V1 m ρ) c).arrAt_in w (hin w hb) _).trans (Lin.A_eq0 (V1 m ρ) c w))
  · exact W2_of_ne m ρ c b fun w e => h ⟨w, e⟩

/-! ### The arguments end as launched -/

/-- `main_arg0` ends as launched: no host operation writes it and no region has it as a window's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide) (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and no region has it as a window's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and no region has it as a window's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and no region has it as a window's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide) (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` ends as launched: no host operation writes it and no region has it as a window's array. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (by decide)
    _ = W3 m ρ c (Proc.devRef .tc main_arg4) := W4_of_ne m ρ c main_arg4 (by decide) (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` ends as launched: no host operation writes it and no region has it as a window's array. -/
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps3 _ hostOps3_writes (by decide)
    _ = W3 m ρ c (Proc.devRef .tc main_arg5) := W4_of_ne m ρ c main_arg5 (by decide) (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- `main_arg6` ends as launched: no host operation writes it and no region has it as a window's array. -/
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps3 _ hostOps3_writes (by decide)
    _ = W3 m ρ c (Proc.devRef .tc main_arg6) := W4_of_ne m ρ c main_arg6 (by decide) (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- `main_arg7` ends as launched: no host operation writes it and no region has it as a window's array. -/
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps3 _ hostOps3_writes (by decide)
    _ = W3 m ρ c (Proc.devRef .tc main_arg7) := W4_of_ne m ρ c main_arg7 (by decide) (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ### The results: the last host stretch reshapes region 2's two output arrays -/

theorem W5_v7 (c : Dev nD) : W5 m ρ c (Proc.devRef .tc main_v7)
    = shapeCast S4x256x64x64 (W4 m ρ c (Proc.devRef .tc main_v6_0)) shapeCasts_S4x256x4096_S4x256x64x64 := by
  dsimp only [W5]; after_results; rfl
theorem W5_v8 (c : Dev nD) : W5 m ρ c (Proc.devRef .tc main_v8)
    = shapeCast S4x256x64x64 (W4 m ρ c (Proc.devRef .tc main_v6_1)) shapeCasts_S4x256x4096_S4x256x64x64 := by
  dsimp only [W5]; after_results; rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Lin.dat0 (V1 m ρ) c
  | ⟨1, _⟩ => fun c => Lin.dat1 (V2 m ρ) c
  | ⟨2, _⟩ => fun c => Attn.dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! # The regions as segments -/

set_option backward.isDefEq.respectTransparency.types false in
/-- REGION 0 over the thread state: entered from every unscoped buffer at `W1`, left at `W2`. Its arrays are split out
    of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2` (what region 0 left: no host
    operation runs between the two), left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Lin.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: the unscoped buffers at its entry and at its exit -/

/-- At region 2's exit each window's array holds what the valuation `W4` says: an input window's array ends as entered
    (and `W4` keeps `W3` there), the two outputs end at their write-backs. -/
theorem hF2 (c : Dev nD) (w : Fin cfg2.W) :
    (Attn.dat2 (V3 m ρ) c).arrAt w cfg2.N = V4 m ρ c (Pipeline.arrRef spec2 w) := by
  have key : ∀ w : Fin 8, w = 6 ∨ w = 7 ∨ ((cfg2.win w).isOut = false ∧ Pipeline.arrRef spec2 w ≠ main_v6_0 ∧ Pipeline.arrRef spec2 w ≠ main_v6_1) := by
    decide
  rcases key w with rfl | rfl | ⟨h, h0, h1⟩
  · exact (W4_v6_0 m ρ c).symm
  · exact (W4_v6_1 m ρ c).symm
  · exact ((Attn.dat2 (V3 m ρ) c).arrAt_in w h _).trans ((Attn.A_eq2 (V3 m ρ) c w).trans (W4_of_ne m ρ c _ h0 h1).symm)
theorem hrest2 (c : Dev nD) : ∀ b, b ∉ Finset.univ.image (Pipeline.arrRef spec2) → V4 m ρ c b = V3 m ρ c b :=
  fun b hb => W4_of_ne m ρ c b (fun e => hb (e ▸ Finset.mem_image.mpr ⟨6, Finset.mem_univ _, rfl⟩))
    (fun e => hb (e ▸ Finset.mem_image.mpr ⟨7, Finset.mem_univ _, rfl⟩))

/-- ENTRY: every unscoped buffer at `W3` is region 2's arrays at the proof data's entry contents, each window at its
    share, and the unscoped buffers that are no window's array. -/
theorem entry2 (c : Dev nD) : (StableHlo.held (c : Thread nD τ) (Pipeline.ucRefs τ sig) (W3 m ρ c) : sProp 𝕄)
    ⊢ iprop((Attn.dat2 (V3 m ρ) c).arrays ((Attn.dat2 (V3 m ρ) c).arrAt · 0)
        ∗ Pipeline.unscopedRest (Ix := Unit) (Name := ℕ) (U := UR sig nD τ) (Lvl := ℕ) spec2 c (V3 m ρ c)) := by
  rw [← Pipeline.unscopedBufs_held (Ix := Unit) (Name := ℕ) (U := UR sig nD τ) (Lvl := ℕ) c (W3 m ρ c),
    Pipeline.unscopedBufs_split₀ cfgs 2 winFacts₀2.arr_unscoped c]
  exact sep_mono (arrays_of_arrBufs2 _ rfl rfl rfl rfl rfl rfl _ _ (fun w => Attn.A_eq2 (V3 m ρ) c w)) .rfl

/-- EXIT: region 2's arrays at their final contents and the unscoped buffers that are no window's array, as entered,
    are every unscoped buffer at `W4`. -/
theorem exit2 (c : Dev nD) :
    iprop((Attn.dat2 (V3 m ρ) c).arrays ((Attn.dat2 (V3 m ρ) c).arrAt · cfg2.N)
        ∗ Pipeline.unscopedRest (Ix := Unit) (Name := ℕ) (U := UR sig nD τ) (Lvl := ℕ) spec2 c (V3 m ρ c))
      ⊢ (StableHlo.held (c : Thread nD τ) (Pipeline.ucRefs τ sig) (W4 m ρ c) : sProp 𝕄) := by
  rw [← Pipeline.unscopedBufs_held (Ix := Unit) (Name := ℕ) (U := UR sig nD τ) (Lvl := ℕ) c (W4 m ρ c),
    Pipeline.unscopedBufs_split₀ cfgs 2 winFacts₀2.arr_unscoped c]
  refine sep_mono (arrBufs_of_arrays2 _ rfl rfl rfl rfl rfl rfl _ _ (hF2 m ρ c)) (Entails.of_eq ?_)
  unfold Pipeline.unscopedRest
  exact bigSep_congr fun b hb =>
    congrArg (fun f => (((c : Thread nD τ).loc b) ↦{fullShare} f : sProp 𝕄)) (hrest2 m ρ c b (Finset.mem_sdiff.mp hb).2).symm

set_option backward.isDefEq.respectTransparency.types false in
/-- REGION 2 over the thread state: entered from every unscoped buffer at `W3` (what region 1 left), left at `W4`.
    Its windows share arrays: the buffers behind them are split among the windows at the entry and joined at the
    exit, where the windows on one buffer hold equal contents. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (Attn.body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := entry2 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin2 (V3 m ρ) c)
    unfold Pipeline.ΦA
    iintro ⟨Hp, -, Hr⟩
    isplitl [Hr]; · iexact Hr
    iexact Hp
  hout c := by
    rw [Pipeline.ownSems0_none]
    refine (Attn.hout2 (V3 m ρ) c).trans ?_
    unfold Pipeline.ΦA
    iintro ⟨Hr, Hp⟩
    isplitl [Hp]; · iexact Hp
    isplitr; · iempintro
    iexact Hr
  hexit c := by
    have hjoin := exit2 m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! # @main as segments, and the launch -/

/-- @main's 5 segments in order: the first host stretch, the three regions, the last host stretch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds every unscoped buffer at the last boundary's contents `W5`. -/
theorem run3 : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: every weakly fair execution of @main terminates, nothing faulting, and every argument array ends as
    launched. -/
theorem frame3 : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c)⟩) (run3 m ρ)

end Cert.KernelIdeal.Run3

end
-- ==== Proof.RefRead.lean ====
/-
  The reference program's run, read one host operation at a time (the generated run and its
  read-at-an-index lemmas), gathered under one import for the modules that compare the two sides.
-/
import proofs.«168839_j16673063043431_2_alg».proof.Proof.Gen.ReferenceIdeal.Read
-- ==== Proof.Spec.lean ====
/-
  The specification: what the plain reference computes, index by index, on extended reals.

  Two token streams are read from the two images (token n of an image is the spatial position
  (n / 64, n % 64), its features the 256 channels there). Each stream is projected three times
  (query, key, value) by a linear map with a bias. The first output attends from the first
  stream's queries to the SECOND stream's keys and mixes the FIRST stream's values; the second
  output exchanges the roles of the two streams. The attention weights are the softmax of the
  score row, computed with the row's maximum subtracted, and there is no scaling of the scores.
  The outputs are laid out like the inputs: channel d of spatial position (h, w) is feature d of
  token h * 64 + w.
-/
import Idealize.ShloMosaic.PureOps.Ideal
import Idealize.ShloMosaic.Lib.ValueIdx

noncomputable section

open scoped BigOperators

namespace Cert.Spec

open Idealize.ShloMosaic Idealize.ShloMosaic.ValueIdx

/-- An image batch: 4 images, 256 channels, 64 by 64 positions. -/
abbrev S4x256x64x64 : Shape := ⟨4, ![4, 256, 64, 64]⟩
/-- A projection's weight matrix, (output feature, input feature). -/
abbrev S256x256 : Shape := ⟨2, ![256, 256]⟩
/-- A projection's bias. -/
abbrev S256 : Shape := ⟨1, ![256]⟩

/-- Feature `c` of token `n` of image `b`: channel `c` at the spatial position (n / 64, n % 64). -/
def tok (X : S4x256x64x64.Idx → EReal) (b : Fin 4) (n : Fin 4096) (c : Fin 256) : EReal :=
  X (ix4 b c (⟨n.val / 64, by have := n.isLt; omega⟩ : Fin 64) (⟨n.val % 64, Nat.mod_lt _ (by decide)⟩ : Fin 64))

/-- A linear projection of the tokens: feature `d` of token `n` is the sum over the input features of
    the token times row `d` of the weight matrix, plus the bias. -/
def proj (X : S4x256x64x64.Idx → EReal) (W : S256x256.Idx → EReal) (bias : S256.Idx → EReal)
    (b : Fin 4) (n : Fin 4096) (d : Fin 256) : EReal :=
  (∑ c : Fin 256, tok X b n c * W (ix2 d c)) + bias (ix1 d)

/-- The score of query token `n` against key token `mm`: the inner product of their features, unscaled. -/
def score (Q Kk : Fin 4 → Fin 4096 → Fin 256 → EReal) (b : Fin 4) (n mm : Fin 4096) : EReal :=
  ∑ c : Fin 256, Q b n c * Kk b mm c

/-- The maximum of score row `n`: the fold of `max` over the row from −∞, and once more against −∞. -/
def rowMax (S : Fin 4 → Fin 4096 → Fin 4096 → EReal) (b : Fin 4) (n : Fin 4096) : EReal :=
  max ⊥ ((Finset.univ : Finset (Fin 4096)).fold max ⊥ fun mm => S b n mm)

/-- The softmax denominator of row `n`: the sum of the exponentials of the scores less the row's maximum. -/
def den (S : Fin 4 → Fin 4096 → Fin 4096 → EReal) (b : Fin 4) (n : Fin 4096) : EReal :=
  ∑ mm : Fin 4096, Ideal.exp (S b n mm - rowMax S b n)

/-- Feature `d` of the attention output at token `n`: the softmax weights of row `n` applied to the values. -/
def attn (S : Fin 4 → Fin 4096 → Fin 4096 → EReal) (Vv : Fin 4 → Fin 4096 → Fin 256 → EReal)
    (b : Fin 4) (n : Fin 4096) (d : Fin 256) : EReal :=
  ∑ mm : Fin 4096, Ideal.div (Ideal.exp (S b n mm - rowMax S b n)) (den S b n) * Vv b mm d

/-- The token of the spatial position (h, w). -/
def pos (h w : Fin 64) : Fin 4096 := ⟨h.val * 64 + w.val, by have := h.isLt; have := w.isLt; omega⟩

/-- The first output: queries of the first stream against keys of the second, values of the first. -/
def G1 (X1 X2 : S4x256x64x64.Idx → EReal) (Wq : S256x256.Idx → EReal) (bq : S256.Idx → EReal)
    (Wk : S256x256.Idx → EReal) (bk : S256.Idx → EReal) (Wv : S256x256.Idx → EReal) (bv : S256.Idx → EReal) :
    S4x256x64x64.Idx → EReal := fun i =>
  attn (score (proj X1 Wq bq) (proj X2 Wk bk)) (proj X1 Wv bv) (i 0) (pos (i 2) (i 3)) (i 1)

/-- The second output: queries of the second stream against keys of the first, values of the second. -/
def G2 (X1 X2 : S4x256x64x64.Idx → EReal) (Wq : S256x256.Idx → EReal) (bq : S256.Idx → EReal)
    (Wk : S256x256.Idx → EReal) (bk : S256.Idx → EReal) (Wv : S256x256.Idx → EReal) (bv : S256.Idx → EReal) :
    S4x256x64x64.Idx → EReal := fun i =>
  attn (score (proj X2 Wq bq) (proj X1 Wk bk)) (proj X2 Wv bv) (i 0) (pos (i 2) (i 3)) (i 1)

/-- The second output is the first with the two streams exchanged. -/
theorem G2_eq_G1_swap (X1 X2 : S4x256x64x64.Idx → EReal) (Wq : S256x256.Idx → EReal) (bq : S256.Idx → EReal)
    (Wk : S256x256.Idx → EReal) (bk : S256.Idx → EReal) (Wv : S256x256.Idx → EReal) (bv : S256.Idx → EReal) :
    G2 X1 X2 Wq bq Wk bk Wv bv = G1 X2 X1 Wq bq Wk bk Wv bv := rfl

/-- The outputs at an index given by its coordinates. -/
theorem G1_ix4 (X1 X2 : S4x256x64x64.Idx → EReal) (Wq : S256x256.Idx → EReal) (bq : S256.Idx → EReal)
    (Wk : S256x256.Idx → EReal) (bk : S256.Idx → EReal) (Wv : S256x256.Idx → EReal) (bv : S256.Idx → EReal)
    (b : Fin 4) (d : Fin 256) (h w : Fin 64) :
    G1 X1 X2 Wq bq Wk bk Wv bv (ix4 b d h w)
      = attn (score (proj X1 Wq bq) (proj X2 Wk bk)) (proj X1 Wv bv) b (pos h w) d := rfl
theorem G2_ix4 (X1 X2 : S4x256x64x64.Idx → EReal) (Wq : S256x256.Idx → EReal) (bq : S256.Idx → EReal)
    (Wk : S256x256.Idx → EReal) (bk : S256.Idx → EReal) (Wv : S256x256.Idx → EReal) (bv : S256.Idx → EReal)
    (b : Fin 4) (d : Fin 256) (h w : Fin 64) :
    G2 X1 X2 Wq bq Wk bk Wv bv (ix4 b d h w)
      = attn (score (proj X2 Wq bq) (proj X1 Wk bk)) (proj X2 Wv bv) b (pos h w) d := rfl

/-! ### The row maximum -/

/-- The row maximum is the supremum of the row. -/
theorem rowMax_eq_sup (S : Fin 4 → Fin 4096 → Fin 4096 → EReal) (b : Fin 4) (n : Fin 4096) :
    rowMax S b n = (Finset.univ : Finset (Fin 4096)).sup fun mm => S b n mm := by
  unfold rowMax
  rw [max_eq_right bot_le]
  rfl

/-- Every score of the row is at most the row maximum. -/
theorem rowMax_ge (S : Fin 4 → Fin 4096 → Fin 4096 → EReal) (b : Fin 4) (n mm : Fin 4096) :
    S b n mm ≤ rowMax S b n := by
  rw [rowMax_eq_sup]
  exact Finset.le_sup (f := fun mm => S b n mm) (Finset.mem_univ mm)

/-- The row maximum is one of the row's scores. -/
theorem rowMax_attained (S : Fin 4 → Fin 4096 → Fin 4096 → EReal) (b : Fin 4) (n : Fin 4096) :
    ∃ mm : Fin 4096, rowMax S b n = S b n mm := by
  rw [rowMax_eq_sup]
  obtain ⟨mm, -, h⟩ := Finset.exists_mem_eq_sup (Finset.univ : Finset (Fin 4096))
    ⟨(0 : Fin 4096), Finset.mem_univ _⟩ (fun mm => S b n mm)
  exact ⟨mm, h⟩

end Cert.Spec

end
-- ==== Proof.RefIsSpec.lean ====
/-
  The reference program computes the specification.

  The reference's run ends with each result at the composed term of its host operations. Read one
  operation at a time at an index given by its coordinates: the reshape and the transpose read the
  image at a token's spatial position; a contraction with a weight matrix plus the broadcast bias is
  a projection; the batched contraction of two projections over the features is the score; the
  reduce with a maximum body from −∞, followed by the maximum against −∞, is the row maximum; the
  sum from 0 of the exponentials of the shifted scores is the denominator; the quotient is the
  softmax weight; the batched contraction over the key tokens with the values is the attention
  output; the last transpose and reshape lay it out like the images. The second result is the
  same composition with the two image arguments exchanged.
-/
import proofs.«168839_j16673063043431_2_alg».proof.Proof.RefRead
import proofs.«168839_j16673063043431_2_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- An image batch's contents at the ideal instance. -/
abbrev Img : Type := (⟨S4x256x64x64, .f32⟩ : BufTy).Contents (Elt Ideal)
/-- A weight matrix's contents. -/
abbrev Mat : Type := (⟨S256x256, .f32⟩ : BufTy).Contents (Elt Ideal)
/-- A bias vector's contents. -/
abbrev Vec : Type := (⟨S256, .f32⟩ : BufTy).Contents (Elt Ideal)

/-! ### The token streams and the six projections -/

/-- The reshape followed by the transpose reads the image at the token's spatial position. -/
theorem v1_ix (x0 : Img) (b : Fin 4) (n : Fin 4096) (c : Fin 256) :
    val_main_v1 (F := Ideal) x0 (ix3 b n c) = Spec.tok x0 b n c := by
  rw [val_main_v1_apply, val_main_v0_apply]
  unfold Spec.tok
  refine congrArg x0 (funext fun a => Fin.ext ?_)
  have hb := b.isLt; have hn := n.isLt; have hc := c.isLt
  match a with
  | ⟨0, _⟩ => show ((b.val * 256 + c.val) * 4096 + n.val) / 1048576 = b.val; omega
  | ⟨1, _⟩ => show ((b.val * 256 + c.val) * 4096 + n.val) / 4096 % 256 = c.val; omega
  | ⟨2, _⟩ => show ((b.val * 256 + c.val) * 4096 + n.val) / 64 % 64 = n.val / 64; omega
  | ⟨3, _⟩ => show ((b.val * 256 + c.val) * 4096 + n.val) % 64 = n.val % 64; omega

/-- A projection: the contraction with the weight matrix's row, plus the broadcast bias. -/
theorem v7_ix (x0 : Img) (x2 : Mat) (x3 : Vec) (b : Fin 4) (n : Fin 4096) (d : Fin 256) :
    val_main_v7 (F := Ideal) x0 x2 x3 (ix3 b n d) = Spec.proj x0 x2 x3 b n d := by
  rw [val_main_v7_apply, val_main_v4_apply, val_main_v6_apply, val_main_v5_apply]
  unfold Spec.proj
  rw [Ideal.addf_def]
  congr 1
  · refine Finset.sum_congr rfl fun k _ => ?_
    have e1 : lidx_main_v4 (ix3 b n d) k = ix3 b n k :=
      funext fun a => Fin.ext (by match a with | ⟨0, _⟩ => rfl | ⟨1, _⟩ => rfl | ⟨2, _⟩ => rfl)
    have e2 : ridx_main_v4 (ix3 b n d) k = ix2 d k :=
      funext fun a => Fin.ext (by match a with | ⟨0, _⟩ => rfl | ⟨1, _⟩ => rfl)
    rw [e1, e2, v1_ix]
  · exact congrArg x3 (funext fun a => Fin.ext (by match a with | ⟨0, _⟩ => rfl))

/-- The second stream's tokens are read the same way. -/
theorem v3_eq (x1 : Img) : val_main_v3 (F := Ideal) x1 = val_main_v1 (F := Ideal) x1 := rfl
/-- The other five projections are the first one at other operands. -/
theorem v11_eq (x0 : Img) (x4 : Mat) (x5 : Vec) :
    val_main_v11 (F := Ideal) x0 x4 x5 = val_main_v7 (F := Ideal) x0 x4 x5 := rfl
theorem v15_eq (x0 : Img) (x6 : Mat) (x7 : Vec) :
    val_main_v15 (F := Ideal) x0 x6 x7 = val_main_v7 (F := Ideal) x0 x6 x7 := rfl
theorem v19_eq (x1 : Img) (x2 : Mat) (x3 : Vec) :
    val_main_v19 (F := Ideal) x1 x2 x3 = val_main_v7 (F := Ideal) x1 x2 x3 := rfl
theorem v23_eq (x1 : Img) (x4 : Mat) (x5 : Vec) :
    val_main_v23 (F := Ideal) x1 x4 x5 = val_main_v7 (F := Ideal) x1 x4 x5 := rfl
theorem v27_eq (x1 : Img) (x6 : Mat) (x7 : Vec) :
    val_main_v27 (F := Ideal) x1 x6 x7 = val_main_v7 (F := Ideal) x1 x6 x7 := rfl

/-! ### The scores -/

/-- The score of query token `n` of the first operand stream against key token `mm` of the second. -/
theorem v28_ix (x0 x1 : Img) (x2 : Mat) (x3 : Vec) (x4 : Mat) (x5 : Vec) (b : Fin 4) (n mm : Fin 4096) :
    val_main_v28 (F := Ideal) x0 x1 x2 x3 x4 x5 (ix3 b n mm)
      = Spec.score (Spec.proj x0 x2 x3) (Spec.proj x1 x4 x5) b n mm := by
  rw [val_main_v28_apply]
  unfold Spec.score
  refine Finset.sum_congr rfl fun k _ => ?_
  have e1 : lidx_main_v28 (ix3 b n mm) k = ix3 b n k :=
    funext fun a => Fin.ext (by match a with | ⟨0, _⟩ => rfl | ⟨1, _⟩ => rfl | ⟨2, _⟩ => rfl)
  have e2 : ridx_main_v28 (ix3 b n mm) k = ix3 b mm k :=
    funext fun a => Fin.ext (by match a with | ⟨0, _⟩ => rfl | ⟨1, _⟩ => rfl | ⟨2, _⟩ => rfl)
  rw [e1, e2, v7_ix, v23_eq, v7_ix]

/-! ### The softmax rows -/

/-- The pattern of −∞ is the bottom element. -/
theorem ofBits_neg_inf : Ideal.ofBits .f32 0xFF800000#32 = (⊥ : EReal) := by
  simp [Ideal.ofBits, Ideal.ieee]

/-- A row index with the key coordinate put back. -/
theorem lift_ix3 (h : S4x4096x4096.Reduces [2] S4x4096) (b : Fin 4) (n : Fin 4096)
    (k : Fin (S4x4096x4096.size 2)) : h.lift (ix2 b n) k = ix3 b n (⟨k.val, k.isLt⟩ : Fin 4096) := by
  funext c; apply Fin.ext
  match c with
  | ⟨0, _⟩ => rfl
  | ⟨1, _⟩ => rfl
  | ⟨2, _⟩ => rfl

/-- The reduce with a maximum body over the key axis, from −∞, is the fold of `max` over the row. -/
theorem reduceMax_ix (x : FVec Ideal S4x4096x4096 .f32) (b : Fin 4) (n : Fin 4096) :
    Host.reduce FloatOps.maximumf x (val_main_cst (F := Ideal)) reducesTo_S4x4096x4096_S4x4096_d2 h_S_ (ix2 b n)
      = (Finset.univ : Finset (Fin 4096)).fold max ⊥ fun mm => x (ix3 b n mm) := by
  have h : S4x4096x4096.Reduces [2] S4x4096 := by decide
  rw [Host.reduce_eq_fold_single FloatOps.maximumf x _ reducesTo_S4x4096x4096_S4x4096_d2 h h_S_]
  have hc : val_main_cst (F := Ideal) (Shape.Idx.first h_S_) = (⊥ : EReal) :=
    (val_main_cst_apply _).trans ofBits_neg_inf
  rw [hc]
  have hf : (x ∘ h.lift (ix2 b n)) = fun k : Fin 4096 => x (ix3 b n k) :=
    funext fun k => congrArg x (lift_ix3 h b n k)
  exact congrArg (fun f => Finset.fold max ⊥ f (Finset.univ : Finset (Fin 4096))) hf

/-- The row maximum: the reduce, then the maximum against the broadcast −∞. -/
theorem v31_ix (x0 x1 : Img) (x2 : Mat) (x3 : Vec) (x4 : Mat) (x5 : Vec) (b : Fin 4) (n : Fin 4096) :
    val_main_v31 (F := Ideal) x0 x1 x2 x3 x4 x5 (ix2 b n)
      = Spec.rowMax (Spec.score (Spec.proj x0 x2 x3) (Spec.proj x1 x4 x5)) b n := by
  rw [val_main_v31_apply, val_main_v30_apply, val_main_cst_0_apply, Ideal.ofBits_def, ofBits_neg_inf,
    Ideal.maximumf_def]
  unfold val_main_v29
  refine (congrArg (max ⊥) (reduceMax_ix (val_main_v28 (F := Ideal) x0 x1 x2 x3 x4 x5) b n)).trans ?_
  unfold Spec.rowMax
  refine congrArg (max ⊥) (congrArg (fun f => Finset.fold max ⊥ f (Finset.univ : Finset (Fin 4096)))
    (funext fun mm => ?_))
  exact v28_ix x0 x1 x2 x3 x4 x5 b n mm

/-- The exponential of a score less its row's maximum. -/
theorem v35_ix (x0 x1 : Img) (x2 : Mat) (x3 : Vec) (x4 : Mat) (x5 : Vec) (b : Fin 4) (n mm : Fin 4096) :
    val_main_v35 (F := Ideal) x0 x1 x2 x3 x4 x5 (ix3 b n mm)
      = Ideal.exp (Spec.score (Spec.proj x0 x2 x3) (Spec.proj x1 x4 x5) b n mm
          - Spec.rowMax (Spec.score (Spec.proj x0 x2 x3) (Spec.proj x1 x4 x5)) b n) := by
  rw [val_main_v35_apply, val_main_v34_apply, val_main_v33_apply, val_main_v32_apply,
    Ideal.hostUnary_exp_def, Ideal.subf_def, v28_ix]
  have e : idx_main_v32 (idx_main_v33 (ix3 b n mm)) = ix2 b n :=
    funext fun a => Fin.ext (by match a with | ⟨0, _⟩ => rfl | ⟨1, _⟩ => rfl)
  rw [e, v31_ix]

/-- The softmax denominator: the sum over the row from the initial value 0. -/
theorem v36_ix (x0 x1 : Img) (x2 : Mat) (x3 : Vec) (x4 : Mat) (x5 : Vec) (b : Fin 4) (n : Fin 4096) :
    val_main_v36 (F := Ideal) x0 x1 x2 x3 x4 x5 (ix2 b n)
      = Spec.den (Spec.score (Spec.proj x0 x2 x3) (Spec.proj x1 x4 x5)) b n := by
  rw [val_main_v36_apply, val_main_cst_1_apply, Ideal.ofBits_def, Ideal.ofBits_zero_f32, zero_add]
  unfold Spec.den
  refine Finset.sum_congr rfl fun k _ => ?_
  have e : idx_main_v36 (ix2 b n) k = ix3 b n k :=
    funext fun a => Fin.ext (by match a with | ⟨0, _⟩ => rfl | ⟨1, _⟩ => rfl | ⟨2, _⟩ => rfl)
  rw [e, v35_ix]

/-- The softmax weight: the exponential over the row's denominator. -/
theorem v39_ix (x0 x1 : Img) (x2 : Mat) (x3 : Vec) (x4 : Mat) (x5 : Vec) (b : Fin 4) (n mm : Fin 4096) :
    val_main_v39 (F := Ideal) x0 x1 x2 x3 x4 x5 (ix3 b n mm)
      = Ideal.div (Ideal.exp (Spec.score (Spec.proj x0 x2 x3) (Spec.proj x1 x4 x5) b n mm
            - Spec.rowMax (Spec.score (Spec.proj x0 x2 x3) (Spec.proj x1 x4 x5)) b n))
          (Spec.den (Spec.score (Spec.proj x0 x2 x3) (Spec.proj x1 x4 x5)) b n) := by
  rw [val_main_v39_apply, val_main_v38_apply, val_main_v37_apply, Ideal.hostDivf_def, v35_ix]
  have e : idx_main_v37 (idx_main_v38 (ix3 b n mm)) = ix2 b n :=
    funext fun a => Fin.ext (by match a with | ⟨0, _⟩ => rfl | ⟨1, _⟩ => rfl)
  rw [e, v36_ix]

/-! ### The attention output and its layout -/

/-- The weights of row `n` applied to the first stream's values. -/
theorem v52_ix (x0 x1 : Img) (x2 : Mat) (x3 : Vec) (x4 : Mat) (x5 : Vec) (x6 : Mat) (x7 : Vec)
    (b : Fin 4) (n : Fin 4096) (d : Fin 256) :
    val_main_v52 (F := Ideal) x0 x1 x2 x3 x4 x5 x6 x7 (ix3 b n d)
      = Spec.attn (Spec.score (Spec.proj x0 x2 x3) (Spec.proj x1 x4 x5)) (Spec.proj x0 x6 x7) b n d := by
  rw [val_main_v52_apply]
  unfold Spec.attn
  refine Finset.sum_congr rfl fun k _ => ?_
  have e1 : lidx_main_v52 (ix3 b n d) k = ix3 b n k :=
    funext fun a => Fin.ext (by match a with | ⟨0, _⟩ => rfl | ⟨1, _⟩ => rfl | ⟨2, _⟩ => rfl)
  have e2 : ridx_main_v52 (ix3 b n d) k = ix3 b k d :=
    funext fun a => Fin.ext (by match a with | ⟨0, _⟩ => rfl | ⟨1, _⟩ => rfl | ⟨2, _⟩ => rfl)
  rw [e1, e2, v39_ix, v15_eq, v7_ix]

/-- The transpose and the reshape put feature `d` of token h * 64 + w at channel `d`, position (h, w). -/
theorem v55_eq_G1 (x0 x1 : Img) (x2 : Mat) (x3 : Vec) (x4 : Mat) (x5 : Vec) (x6 : Mat) (x7 : Vec) :
    val_main_v55 (F := Ideal) x0 x1 x2 x3 x4 x5 x6 x7 = Spec.G1 x0 x1 x2 x3 x4 x5 x6 x7 := by
  funext i
  obtain ⟨b, d, h, w, rfl⟩ : ∃ (b : Fin 4) (d : Fin 256) (h w : Fin 64), i = ix4 b d h w :=
    ⟨i 0, i 1, i 2, i 3, eq_ix4 i⟩
  rw [val_main_v55_apply, val_main_v54_apply, Spec.G1_ix4]
  have e : idx_main_v54 (idx_main_v55 (ix4 b d h w)) = ix3 b (Spec.pos h w) d :=
    funext fun a => Fin.ext (by
      have hb := b.isLt; have hd := d.isLt; have hh := h.isLt; have hw := w.isLt
      match a with
      | ⟨0, _⟩ => show (((b.val * 256 + d.val) * 64 + h.val) * 64 + w.val) / 1048576 = b.val; omega
      | ⟨1, _⟩ => show (((b.val * 256 + d.val) * 64 + h.val) * 64 + w.val) % 4096 = h.val * 64 + w.val; omega
      | ⟨2, _⟩ => show (((b.val * 256 + d.val) * 64 + h.val) * 64 + w.val) / 4096 % 256 = d.val; omega)
  rw [e, v52_ix]

/-- The second output's operations are the first's with the two streams exchanged. -/
theorem v57_swap (x0 x1 : Img) (x2 : Mat) (x3 : Vec) (x4 : Mat) (x5 : Vec) (x6 : Mat) (x7 : Vec) :
    val_main_v57 (F := Ideal) x0 x1 x2 x3 x4 x5 x6 x7 = val_main_v55 (F := Ideal) x1 x0 x2 x3 x4 x5 x6 x7 := rfl

theorem v57_eq_G2 (x0 x1 : Img) (x2 : Mat) (x3 : Vec) (x4 : Mat) (x5 : Vec) (x6 : Mat) (x7 : Vec) :
    val_main_v57 (F := Ideal) x0 x1 x2 x3 x4 x5 x6 x7 = Spec.G2 x0 x1 x2 x3 x4 x5 x6 x7 :=
  (v57_swap x0 x1 x2 x3 x4 x5 x6 x7).trans
    ((v55_eq_G1 x1 x0 x2 x3 x4 x5 x6 x7).trans (Spec.G2_eq_G1_swap x0 x1 x2 x3 x4 x5 x6 x7).symm)

/-! ### The run's two results -/

/-- The first result of the reference's run is the first output of the specification. -/
theorem result0_eq (m : (ℓ : Loc nD τ sig) → Buf (Elt Ideal) ℓ) (c : Dev nD) :
    Cert.ReferenceIdeal.Value.res_main_v55 (F := Ideal) m c
      = Spec.G1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v55_eq m c).trans (v55_eq_G1 _ _ _ _ _ _ _ _)

/-- The second result of the reference's run is the second output of the specification. -/
theorem result1_eq (m : (ℓ : Loc nD τ sig) → Buf (Elt Ideal) ℓ) (c : Dev nD) :
    Cert.ReferenceIdeal.Value.res_main_v57 (F := Ideal) m c
      = Spec.G2 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v57_eq m c).trans (v57_eq_G2 _ _ _ _ _ _ _ _)

end Cert.ReferenceIdeal.RefSpec

end
-- ==== Proof.AttnStep.lean ====
/-
  One key tile of the attention kernel as a pure function. The kernel keeps, for each of its two streams,
  a running maximum `m`, a running denominator `l` (both one column per query row) and a running numerator
  `acc` (one row of channels per query row). A key tile updates the six of them from the query tile and the
  key and value tiles; the first key tile of a query tile starts from the reset values (−∞, 0, 0); the last
  one divides each numerator by its denominator and transposes the quotient into the output tile.
  Stream 1 pairs the first stream's queries and values with the second stream's keys; stream 2 the reverse.
-/
import proofs.«168839_j16673063043431_2_alg».proof.Proof.Gen.KernelIdeal.Skeleton

noncomputable section

namespace Cert.KernelIdeal.AttnStep

open Idealize.ShloMosaic Cert.KernelIdeal Cert.KernelIdeal.Gen

variable {F : FTy → Type} [FloatOps F]

/-- The six accumulators: maximum, denominator, numerator of stream 1, then of stream 2. -/
structure Acc (F : FTy → Type) where
  m1 : Vec F S4x512x1 .f32
  l1 : Vec F S4x512x1 .f32
  a1 : Vec F S4x512x256 .f32
  m2 : Vec F S4x512x1 .f32
  l2 : Vec F S4x512x1 .f32
  a2 : Vec F S4x512x256 .f32

/-- The values a query tile starts from: the maxima at −∞, the sums at zero. -/
def reset : Acc F := ⟨k2_pay6, k2_pay7, k2_pay8, k2_pay9, k2_pay10, k2_pay11⟩

/-- One key tile: `q1 k1 v1` are the first stream's query, key and value tiles, `q2 k2 v2` the second's. -/
def step (q1 : Vec F S4x512x256 .bf16) (k1 v1 : Vec F S4x256x256 .bf16) (q2 : Vec F S4x512x256 .bf16) (k2 v2 : Vec F S4x256x256 .bf16)
    (s : Acc F) : Acc F where
  m1 := k2_pay22 (k2_pay17 q1 k2 s.m1)
  l1 := k2_pay20 (k2_pay18 q1 k2 s.m1 s.m1) (k2_pay19 q1 k2 s.m1) s.l1
  a1 := k2_pay21 (k2_pay13 v1) (k2_pay18 q1 k2 s.m1 s.m1) (k2_pay19 q1 k2 s.m1) s.a1
  m2 := k2_pay3 (k2_pay24 (k2_pay12 k1) (k2_pay14 q2) s.m2)
  l2 := k2_pay1 (k2_pay25 (k2_pay12 k1) (k2_pay14 q2) s.m2 s.m2) (k2_pay26 (k2_pay12 k1) (k2_pay14 q2) s.m2) s.l2
  a2 := k2_pay2 (k2_pay15 v2) (k2_pay25 (k2_pay12 k1) (k2_pay14 q2) s.m2 s.m2) (k2_pay26 (k2_pay12 k1) (k2_pay14 q2) s.m2) s.a2

/-- The two output tiles a query tile ends with: each numerator over its denominator, channels first. -/
def out1 (s : Acc F) : Vec F S4x256x512 .f32 := k2_pay4 s.a1 s.l1
def out2 (s : Acc F) : Vec F S4x256x512 .f32 := k2_pay5 s.a2 s.l2

end Cert.KernelIdeal.AttnStep

end
-- ==== Proof.AttnPayload.lean ====
/-
  The attention kernel's payloads read at an index, on extended reals. The scores of a query tile against a
  key tile are the sums over the 256 channels of the products; the block maximum of a query row is the fold of
  max from −∞ over the key rows' scores, at least every score and equal to one of them; the new running
  maximum is the old one against the block maximum; the rescaling factor and the weights are exponentials of
  differences with the new maximum; the running denominator and numerator are the rescaled old ones plus the
  block's sums; the output tile is the numerator over the denominator, channels first; the reset values are
  −∞, 0, 0. The second stream's payloads are the same functions of its own operands.
-/
import proofs.«168839_j16673063043431_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnPayload

open Idealize.ShloMosaic Idealize.ShloMosaic.ValueIdx Cert.KernelIdeal Cert.KernelIdeal.Gen
open scoped BigOperators

/-- The score of query row `r` against key row `j` of batch `b`: the sum over the channels. -/
abbrev sc (q : FVec Ideal S4x512x256 .bf16) (k : FVec Ideal S4x256x256 .bf16) (b : Fin 4) (r : Fin 512) (j : Fin 256) : EReal :=
  ∑ ch : Fin 256, q (ix3 b r ch) * k (ix3 b j ch)

/-! ## The two matrix products read at an index

Both products have batch axis 0 on both operands and one contracting axis. The scores contract the last axis of
both operands; the second product contracts the left operand's last axis with the right operand's middle axis. -/

theorem scores_lhs0 (i : S4x512x256.Idx) (c : dot_S4x512x256_S4x256x256_S4x512x256_2_2_1_1_0_0.contr.Idx) :
    (dot_S4x512x256_S4x256x256_S4x512x256_2_2_1_1_0_0.lhsIdx i c 0).val = (i 0).val := by
  unfold DotDims.lhsIdx
  rw [dif_pos (show (0 : Fin S4x512x256.rank) ∈ dot_S4x512x256_S4x256x256_S4x512x256_2_2_1_1_0_0.lhsBatch by decide)]
  rfl
theorem scores_lhs1 (i : S4x512x256.Idx) (c : dot_S4x512x256_S4x256x256_S4x512x256_2_2_1_1_0_0.contr.Idx) :
    (dot_S4x512x256_S4x256x256_S4x512x256_2_2_1_1_0_0.lhsIdx i c 1).val = (i 1).val := by
  unfold DotDims.lhsIdx
  rw [dif_neg (show ¬(1 : Fin S4x512x256.rank) ∈ dot_S4x512x256_S4x256x256_S4x512x256_2_2_1_1_0_0.lhsBatch by decide), dif_pos (show (1 : Fin S4x512x256.rank) ∈ dot_S4x512x256_S4x256x256_S4x512x256_2_2_1_1_0_0.lhsNonContracting by decide)]
  rfl
theorem scores_lhs2 (i : S4x512x256.Idx) (c : dot_S4x512x256_S4x256x256_S4x512x256_2_2_1_1_0_0.contr.Idx) :
    (dot_S4x512x256_S4x256x256_S4x512x256_2_2_1_1_0_0.lhsIdx i c 2).val = (c ⟨0, by decide⟩).val :=
  dot_S4x512x256_S4x256x256_S4x512x256_2_2_1_1_0_0.lhsIdx_val_of_single rfl i c
theorem scores_rhs0 (i : S4x512x256.Idx) (c : dot_S4x512x256_S4x256x256_S4x512x256_2_2_1_1_0_0.contr.Idx) :
    (dot_S4x512x256_S4x256x256_S4x512x256_2_2_1_1_0_0.rhsIdx i c 0).val = (i 0).val := by
  unfold DotDims.rhsIdx
  rw [dif_pos (show (0 : Fin S4x256x256.rank) ∈ dot_S4x512x256_S4x256x256_S4x512x256_2_2_1_1_0_0.rhsBatch by decide)]
  rfl
theorem scores_rhs1 (i : S4x512x256.Idx) (c : dot_S4x512x256_S4x256x256_S4x512x256_2_2_1_1_0_0.contr.Idx) :
    (dot_S4x512x256_S4x256x256_S4x512x256_2_2_1_1_0_0.rhsIdx i c 1).val = (i 2).val := by
  unfold DotDims.rhsIdx
  rw [dif_neg (show ¬(1 : Fin S4x256x256.rank) ∈ dot_S4x512x256_S4x256x256_S4x512x256_2_2_1_1_0_0.rhsBatch by decide), dif_pos (show (1 : Fin S4x256x256.rank) ∈ dot_S4x512x256_S4x256x256_S4x512x256_2_2_1_1_0_0.rhsNonContracting by decide)]
  rfl
theorem scores_rhs2 (i : S4x512x256.Idx) (c : dot_S4x512x256_S4x256x256_S4x512x256_2_2_1_1_0_0.contr.Idx) :
    (dot_S4x512x256_S4x256x256_S4x512x256_2_2_1_1_0_0.rhsIdx i c 2).val = (c ⟨0, by decide⟩).val :=
  dot_S4x512x256_S4x256x256_S4x512x256_2_2_1_1_0_0.rhsIdx_val_of_single rfl i c

/-- The scores' product into the zero accumulator, read at `(b, r, j)`. -/
theorem scores_apply (q : FVec Ideal S4x512x256 .bf16) (k : FVec Ideal S4x256x256 .bf16) (b : Fin 4) (r : Fin 512) (j : Fin 256) :
    matmul dot_S4x512x256_S4x256x256_S4x512x256_2_2_1_1_0_0 none q k (constant (F := Ideal) S4x512x256 .f32 0x00000000#32) (ix3 b r j)
      = sc q k b r j := by
  refine (Ideal.matmul_constant_zero_apply dot_S4x512x256_S4x256x256_S4x512x256_2_2_1_1_0_0 none q k (ix3 b r j)).trans ?_
  rw [← Equiv.sum_comp (contrEquiv1 dot_S4x512x256_S4x256x256_S4x512x256_2_2_1_1_0_0 256 rfl rfl).symm]
  refine Finset.sum_congr rfl fun ch _ => ?_
  have hk := contrEquiv1_symm_val dot_S4x512x256_S4x256x256_S4x512x256_2_2_1_1_0_0 256 rfl rfl ch
  have el : dot_S4x512x256_S4x256x256_S4x512x256_2_2_1_1_0_0.lhsIdx (ix3 b r j) ((contrEquiv1 dot_S4x512x256_S4x256x256_S4x512x256_2_2_1_1_0_0 256 rfl rfl).symm ch) = ix3 b r ch := funext fun a => Fin.ext (by
    match a with
    | ⟨0, _⟩ => exact scores_lhs0 _ _
    | ⟨1, _⟩ => exact scores_lhs1 _ _
    | ⟨2, _⟩ => exact (scores_lhs2 _ _).trans hk)
  have er : dot_S4x512x256_S4x256x256_S4x512x256_2_2_1_1_0_0.rhsIdx (ix3 b r j) ((contrEquiv1 dot_S4x512x256_S4x256x256_S4x512x256_2_2_1_1_0_0 256 rfl rfl).symm ch) = ix3 b j ch := funext fun a => Fin.ext (by
    match a with
    | ⟨0, _⟩ => exact scores_rhs0 _ _
    | ⟨1, _⟩ => exact scores_rhs1 _ _
    | ⟨2, _⟩ => exact (scores_rhs2 _ _).trans hk)
  rw [el, er]

theorem pay16_apply (q : FVec Ideal S4x512x256 .bf16) (k : FVec Ideal S4x256x256 .bf16) (b : Fin 4) (r : Fin 512) (j : Fin 256) :
    k2_pay16 (F := Ideal) q k (ix3 b r j) = sc q k b r j := by
  unfold k2_pay16
  simp only [shapeCast_self]
  exact scores_apply q k b r j

theorem pay23_apply (q : FVec Ideal S4x512x256 .bf16) (k : FVec Ideal S4x256x256 .bf16) (b : Fin 4) (r : Fin 512) (j : Fin 256) :
    k2_pay23 (F := Ideal) k q (ix3 b r j) = sc q k b r j := by
  unfold k2_pay23
  exact scores_apply q k b r j

/-! ## Shape casts to the same shape -/

theorem pay22_eq (m : FVec Ideal S4x512x1 .f32) : k2_pay22 (F := Ideal) m = m := by
  unfold k2_pay22; exact shapeCast_self _ _
theorem pay3_eq (m : FVec Ideal S4x512x1 .f32) : k2_pay3 (F := Ideal) m = m := by
  unfold k2_pay3; exact shapeCast_self _ _
theorem pay12_eq (x : FVec Ideal S4x256x256 .bf16) : k2_pay12 (F := Ideal) x = x := by
  unfold k2_pay12; exact shapeCast_self _ _
theorem pay13_eq (x : FVec Ideal S4x256x256 .bf16) : k2_pay13 (F := Ideal) x = x := by
  unfold k2_pay13; exact shapeCast_self _ _
theorem pay14_eq (x : FVec Ideal S4x512x256 .bf16) : k2_pay14 (F := Ideal) x = x := by
  unfold k2_pay14; exact shapeCast_self _ _
theorem pay15_eq (x : FVec Ideal S4x256x256 .bf16) : k2_pay15 (F := Ideal) x = x := by
  unfold k2_pay15; exact shapeCast_self _ _

/-! ## The keepdims column: `[a, b] → [a, b, 1]` and `[a, b, 1] → [a, b, c]` -/

/-- An `[a, b]` array cast to `[a, b, 1]` reads, at `(i, j, u)`, the operand at `(i, j)`, whatever the unit coordinate `u`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` column broadcast to `[a, b, c]` reads, at `(i, j, l)`, the column at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## The two lane reductions read at an index -/

/-- The index a reduction over the last axis reads: the reduced index with the lane inserted. -/
theorem lift_last (b : Fin 4) (r : Fin 512) (j : Fin 256) :
    Facts₀.reduces_S4x512x256_S4x512.lift (ix2 b r) j = ix3 b r j :=
  funext fun a => Fin.ext (by match a with | ⟨0, _⟩ => rfl | ⟨1, _⟩ => rfl | ⟨2, _⟩ => rfl)

/-- The word `0xFF800000` is `-∞`. -/
theorem ofBits_negInf_f32 : Ideal.ofBits .f32 0xFF800000#32 = ⊥ := by simp [Ideal.ofBits, Ideal.ieee]

/-- A lane sum from the zero word, read at `(b, r)`. -/
theorem laneSum_apply (src : FVec Ideal S4x512x256 .f32) (b : Fin 4) (r : Fin 512) :
    multiReduction (F := Ideal) .add [2] S4x512 src 0x00000000#32 Facts₀.reduces_S4x512x256_S4x512 (.inl rfl) rfl (ix2 b r)
      = ∑ j : Fin 256, src (ix3 b r j) := by
  refine (Ideal.multiReduction_add_single src 0x00000000#32 Facts₀.reduces_S4x512x256_S4x512 (.inl rfl) rfl (ix2 b r)).trans ?_
  exact Finset.sum_congr rfl fun j _ => congrArg src (lift_last b r j)

/-- A lane maximum from the word of `-∞`, read at `(b, r)`: the fold of `max` from `⊥` over the lanes. -/
theorem laneMax_apply (src : FVec Ideal S4x512x256 .f32) (b : Fin 4) (r : Fin 512) :
    multiReduction (F := Ideal) .maximumf [2] S4x512 src 0xFF800000#32 Facts₀.reduces_S4x512x256_S4x512 (.inl rfl) rfl (ix2 b r)
      = (Finset.univ : Finset (Fin 256)).fold max ⊥ (fun j => src (ix3 b r j)) := by
  refine (Ideal.multiReduction_maximumf_single src 0xFF800000#32 Facts₀.reduces_S4x512x256_S4x512 (.inl rfl) rfl (ix2 b r)).trans ?_
  show (Finset.univ : Finset (Fin 256)).fold max (Ideal.ofBits .f32 0xFF800000#32) (fun j => src (Facts₀.reduces_S4x512x256_S4x512.lift (ix2 b r) j)) = _
  rw [ofBits_negInf_f32]
  exact congrArg (fun f => Finset.fold max (⊥ : EReal) f (Finset.univ : Finset (Fin 256))) (funext fun j => congrArg src (lift_last b r j))

/-! ## The running maximum -/

/-- The block maximum of row `r`: the fold of `max` from `⊥` over the key rows' scores. -/
def rowMax (q : FVec Ideal S4x512x256 .bf16) (k : FVec Ideal S4x256x256 .bf16) (b : Fin 4) (r : Fin 512) : EReal :=
  (Finset.univ : Finset (Fin 256)).fold max ⊥ (fun j => sc q k b r j)

/-- Every score of the row is below the block maximum … -/
theorem pay17_ge (q : FVec Ideal S4x512x256 .bf16) (k : FVec Ideal S4x256x256 .bf16) (b : Fin 4) (r : Fin 512) :
    ∀ j, sc q k b r j ≤ rowMax q k b r := fun j =>
  (Finset.le_fold_max _).mpr (Or.inr ⟨j, Finset.mem_univ j, le_rfl⟩)

/-- … and the block maximum is one of them. -/
theorem pay17_attained (q : FVec Ideal S4x512x256 .bf16) (k : FVec Ideal S4x256x256 .bf16) (b : Fin 4) (r : Fin 512) :
    ∃ j, rowMax q k b r = sc q k b r j := by
  obtain ⟨j0, _, hj0⟩ := Finset.exists_max_image (Finset.univ : Finset (Fin 256)) (fun j => sc q k b r j) ⟨0, Finset.mem_univ _⟩
  exact ⟨j0, le_antisymm ((Finset.fold_max_le _).mpr ⟨bot_le, fun x hx => hj0 x hx⟩) (pay17_ge q k b r j0)⟩

/-- The lane maximum of the scores, through the keepdims cast, is the block maximum. -/
theorem blockMax_apply (src : FVec Ideal S4x512x256 .f32) (b : Fin 4) (r : Fin 512) :
    shapeCast S4x512x1 (multiReduction (F := Ideal) .maximumf [2] S4x512 src 0xFF800000#32 Facts₀.reduces_S4x512x256_S4x512 (.inl rfl) rfl)
        Facts₀.shapeCasts_S4x512_S4x512x1 (ix3 b r (0 : Fin 1))
      = (Finset.univ : Finset (Fin 256)).fold max ⊥ (fun j => src (ix3 b r j)) :=
  (shapeCast_ab_ab1_apply _ Facts₀.shapeCasts_S4x512_S4x512x1 b r 0).trans (laneMax_apply src b r)

theorem pay17_apply (q : FVec Ideal S4x512x256 .bf16) (k : FVec Ideal S4x256x256 .bf16) (m : FVec Ideal S4x512x1 .f32)
    (b : Fin 4) (r : Fin 512) :
    k2_pay17 (F := Ideal) q k m (ix3 b r (0 : Fin 1)) = max (m (ix3 b r (0 : Fin 1))) (rowMax q k b r) := by
  unfold k2_pay17
  refine (maximumf_apply _ _ _).trans ?_
  refine congrArg (max (m (ix3 b r (0 : Fin 1)))) ?_
  refine (blockMax_apply _ b r).trans ?_
  unfold rowMax
  exact congrArg (fun f => Finset.fold max (⊥ : EReal) f (Finset.univ : Finset (Fin 256))) (funext fun j => pay16_apply q k b r j)

/-! ## The exponentials -/

/-- An exponential at an index is the exponential of the element. -/
theorem exp_apply {s : Shape} {φ : FTy} (a : FVec Ideal s φ) (i : s.Idx) : exp a i = Ideal.exp (a i) := rfl

theorem pay18_apply (q : FVec Ideal S4x512x256 .bf16) (k : FVec Ideal S4x256x256 .bf16) (m m' : FVec Ideal S4x512x1 .f32)
    (b : Fin 4) (r : Fin 512) :
    k2_pay18 (F := Ideal) q k m m' (ix3 b r (0 : Fin 1))
      = Ideal.exp (m' (ix3 b r (0 : Fin 1)) - k2_pay17 (F := Ideal) q k m (ix3 b r (0 : Fin 1))) := by
  unfold k2_pay18
  exact (exp_apply _ _).trans (congrArg Ideal.exp (subf_apply _ _ _))

theorem pay19_apply (q : FVec Ideal S4x512x256 .bf16) (k : FVec Ideal S4x256x256 .bf16) (m : FVec Ideal S4x512x1 .f32)
    (b : Fin 4) (r : Fin 512) (j : Fin 256) :
    k2_pay19 (F := Ideal) q k m (ix3 b r j)
      = Ideal.exp (sc q k b r j - k2_pay17 (F := Ideal) q k m (ix3 b r (0 : Fin 1))) := by
  unfold k2_pay19
  refine (exp_apply _ _).trans (congrArg Ideal.exp ?_)
  refine (subf_apply _ _ _).trans ?_
  exact congrArg₂ (· - ·) (pay16_apply q k b r j)
    (broadcastTo_ab1_abc_apply (k2_pay17 (F := Ideal) q k m) Facts₀.broadcasts_S4x512x1_S4x512x256 b r j)

/-! ## The running sum and the running accumulator -/

theorem pay20_apply (a : FVec Ideal S4x512x1 .f32) (p : FVec Ideal S4x512x256 .f32) (l : FVec Ideal S4x512x1 .f32)
    (b : Fin 4) (r : Fin 512) :
    k2_pay20 (F := Ideal) a p l (ix3 b r (0 : Fin 1))
      = a (ix3 b r (0 : Fin 1)) * l (ix3 b r (0 : Fin 1)) + ∑ j : Fin 256, p (ix3 b r j) := by
  unfold k2_pay20
  refine (congrFun (shapeCast_self _ _) _).trans ?_
  refine (addf_apply _ _ _).trans ?_
  refine congrArg₂ (· + ·) (mulf_apply a l _) ?_
  exact (shapeCast_ab_ab1_apply _ Facts₀.shapeCasts_S4x512_S4x512x1 b r 0).trans (laneSum_apply p b r)

theorem pv_lhs0 (i : S4x512x256.Idx) (c : dot_S4x512x256_S4x256x256_S4x512x256_2_1_1_2_0_0.contr.Idx) :
    (dot_S4x512x256_S4x256x256_S4x512x256_2_1_1_2_0_0.lhsIdx i c 0).val = (i 0).val := by
  unfold DotDims.lhsIdx
  rw [dif_pos (show (0 : Fin S4x512x256.rank) ∈ dot_S4x512x256_S4x256x256_S4x512x256_2_1_1_2_0_0.lhsBatch by decide)]
  rfl
theorem pv_lhs1 (i : S4x512x256.Idx) (c : dot_S4x512x256_S4x256x256_S4x512x256_2_1_1_2_0_0.contr.Idx) :
    (dot_S4x512x256_S4x256x256_S4x512x256_2_1_1_2_0_0.lhsIdx i c 1).val = (i 1).val := by
  unfold DotDims.lhsIdx
  rw [dif_neg (show ¬(1 : Fin S4x512x256.rank) ∈ dot_S4x512x256_S4x256x256_S4x512x256_2_1_1_2_0_0.lhsBatch by decide), dif_pos (show (1 : Fin S4x512x256.rank) ∈ dot_S4x512x256_S4x256x256_S4x512x256_2_1_1_2_0_0.lhsNonContracting by decide)]
  rfl
theorem pv_lhs2 (i : S4x512x256.Idx) (c : dot_S4x512x256_S4x256x256_S4x512x256_2_1_1_2_0_0.contr.Idx) :
    (dot_S4x512x256_S4x256x256_S4x512x256_2_1_1_2_0_0.lhsIdx i c 2).val = (c ⟨0, by decide⟩).val :=
  dot_S4x512x256_S4x256x256_S4x512x256_2_1_1_2_0_0.lhsIdx_val_of_single rfl i c
theorem pv_rhs0 (i : S4x512x256.Idx) (c : dot_S4x512x256_S4x256x256_S4x512x256_2_1_1_2_0_0.contr.Idx) :
    (dot_S4x512x256_S4x256x256_S4x512x256_2_1_1_2_0_0.rhsIdx i c 0).val = (i 0).val := by
  unfold DotDims.rhsIdx
  rw [dif_pos (show (0 : Fin S4x256x256.rank) ∈ dot_S4x512x256_S4x256x256_S4x512x256_2_1_1_2_0_0.rhsBatch by decide)]
  rfl
theorem pv_rhs1 (i : S4x512x256.Idx) (c : dot_S4x512x256_S4x256x256_S4x512x256_2_1_1_2_0_0.contr.Idx) :
    (dot_S4x512x256_S4x256x256_S4x512x256_2_1_1_2_0_0.rhsIdx i c 1).val = (c ⟨0, by decide⟩).val :=
  dot_S4x512x256_S4x256x256_S4x512x256_2_1_1_2_0_0.rhsIdx_val_of_single rfl i c
theorem pv_rhs2 (i : S4x512x256.Idx) (c : dot_S4x512x256_S4x256x256_S4x512x256_2_1_1_2_0_0.contr.Idx) :
    (dot_S4x512x256_S4x256x256_S4x512x256_2_1_1_2_0_0.rhsIdx i c 2).val = (i 2).val := by
  unfold DotDims.rhsIdx
  rw [dif_neg (show ¬(2 : Fin S4x256x256.rank) ∈ dot_S4x512x256_S4x256x256_S4x512x256_2_1_1_2_0_0.rhsBatch by decide), dif_pos (show (2 : Fin S4x256x256.rank) ∈ dot_S4x512x256_S4x256x256_S4x512x256_2_1_1_2_0_0.rhsNonContracting by decide)]
  rfl

/-- The probabilities' product with the values into the zero accumulator, read at `(b, r, d)`. -/
theorem pv_apply (p : FVec Ideal S4x512x256 .bf16) (v : FVec Ideal S4x256x256 .bf16) (b : Fin 4) (r : Fin 512) (d : Fin 256) :
    matmul dot_S4x512x256_S4x256x256_S4x512x256_2_1_1_2_0_0 none p v (constant (F := Ideal) S4x512x256 .f32 0x00000000#32) (ix3 b r d)
      = ∑ j : Fin 256, p (ix3 b r j) * v (ix3 b j d) := by
  refine (Ideal.matmul_constant_zero_apply dot_S4x512x256_S4x256x256_S4x512x256_2_1_1_2_0_0 none p v (ix3 b r d)).trans ?_
  rw [← Equiv.sum_comp (contrEquiv1 dot_S4x512x256_S4x256x256_S4x512x256_2_1_1_2_0_0 256 rfl rfl).symm]
  refine Finset.sum_congr rfl fun j _ => ?_
  have hk := contrEquiv1_symm_val dot_S4x512x256_S4x256x256_S4x512x256_2_1_1_2_0_0 256 rfl rfl j
  have el : dot_S4x512x256_S4x256x256_S4x512x256_2_1_1_2_0_0.lhsIdx (ix3 b r d) ((contrEquiv1 dot_S4x512x256_S4x256x256_S4x512x256_2_1_1_2_0_0 256 rfl rfl).symm j) = ix3 b r j := funext fun a => Fin.ext (by
    match a with
    | ⟨0, _⟩ => exact pv_lhs0 _ _
    | ⟨1, _⟩ => exact pv_lhs1 _ _
    | ⟨2, _⟩ => exact (pv_lhs2 _ _).trans hk)
  have er : dot_S4x512x256_S4x256x256_S4x512x256_2_1_1_2_0_0.rhsIdx (ix3 b r d) ((contrEquiv1 dot_S4x512x256_S4x256x256_S4x512x256_2_1_1_2_0_0 256 rfl rfl).symm j) = ix3 b j d := funext fun a => Fin.ext (by
    match a with
    | ⟨0, _⟩ => exact pv_rhs0 _ _
    | ⟨1, _⟩ => exact (pv_rhs1 _ _).trans hk
    | ⟨2, _⟩ => exact pv_rhs2 _ _)
  rw [el, er]

theorem pay21_apply (v : FVec Ideal S4x256x256 .bf16) (a : FVec Ideal S4x512x1 .f32) (p acc : FVec Ideal S4x512x256 .f32)
    (b : Fin 4) (r : Fin 512) (d : Fin 256) :
    k2_pay21 (F := Ideal) v a p acc (ix3 b r d)
      = a (ix3 b r (0 : Fin 1)) * acc (ix3 b r d) + ∑ j : Fin 256, p (ix3 b r j) * v (ix3 b j d) := by
  unfold k2_pay21
  refine (congrFun (shapeCast_self _ _) _).trans ?_
  refine (addf_apply _ _ _).trans ?_
  refine congrArg₂ (· + ·) ?_ ?_
  · exact (mulf_apply _ _ _).trans
      (congrArg (· * acc (ix3 b r d)) (broadcastTo_ab1_abc_apply a Facts₀.broadcasts_S4x512x1_S4x512x256 b r d))
  · exact (pv_apply (truncf .bf16 p Facts₀.bitsLt_bf16_f32) v b r d).trans (Finset.sum_congr rfl fun j _ => rfl)

/-! ## The normalized output, transposed -/

theorem pay4_apply (acc : FVec Ideal S4x512x256 .f32) (l : FVec Ideal S4x512x1 .f32) (b : Fin 4) (r : Fin 512) (d : Fin 256) :
    k2_pay4 (F := Ideal) acc l (ix3 b d r) = Ideal.div (acc (ix3 b r d)) (l (ix3 b r (0 : Fin 1))) := by
  unfold k2_pay4
  refine (transpose_ix3_021_apply _ Facts₀.transposes_S4x512x256_p0_2_1_S4x256x512 b d r).trans ?_
  refine (divf_apply _ _ _).trans ?_
  exact congrArg (Ideal.div (acc (ix3 b r d))) (broadcastTo_ab1_abc_apply l Facts₀.broadcasts_S4x512x1_S4x512x256 b r d)

/-! ## The reset values -/

theorem pay6_eq (i : S4x512x1.Idx) : k2_pay6 (F := Ideal) i = (⊥ : EReal) := by
  unfold k2_pay6
  exact (congrFun (shapeCast_self _ _) _).trans ofBits_negInf_f32
theorem pay6_apply (b : Fin 4) (r : Fin 512) : k2_pay6 (F := Ideal) (ix3 b r (0 : Fin 1)) = (⊥ : EReal) := pay6_eq _
theorem pay7_eq (i : S4x512x1.Idx) : k2_pay7 (F := Ideal) i = (0 : EReal) := by
  unfold k2_pay7
  exact (congrFun (shapeCast_self _ _) _).trans Ideal.ofBits_zero_f32
theorem pay7_apply (b : Fin 4) (r : Fin 512) : k2_pay7 (F := Ideal) (ix3 b r (0 : Fin 1)) = (0 : EReal) := pay7_eq _
theorem pay8_eq (i : S4x512x256.Idx) : k2_pay8 (F := Ideal) i = (0 : EReal) := by
  unfold k2_pay8
  exact (congrFun (shapeCast_self _ _) _).trans Ideal.ofBits_zero_f32
theorem pay8_apply (b : Fin 4) (r : Fin 512) (d : Fin 256) : k2_pay8 (F := Ideal) (ix3 b r d) = (0 : EReal) := pay8_eq _

/-! ## The second stream: the same values -/

theorem pay24_apply (q : FVec Ideal S4x512x256 .bf16) (k : FVec Ideal S4x256x256 .bf16) (m : FVec Ideal S4x512x1 .f32)
    (b : Fin 4) (r : Fin 512) :
    k2_pay24 (F := Ideal) k q m (ix3 b r (0 : Fin 1)) = max (m (ix3 b r (0 : Fin 1))) (rowMax q k b r) := by
  unfold k2_pay24
  refine (maximumf_apply _ _ _).trans ?_
  refine congrArg (max (m (ix3 b r (0 : Fin 1)))) ?_
  refine (blockMax_apply _ b r).trans ?_
  unfold rowMax
  exact congrArg (fun f => Finset.fold max (⊥ : EReal) f (Finset.univ : Finset (Fin 256))) (funext fun j => pay23_apply q k b r j)

theorem pay24_ge (q : FVec Ideal S4x512x256 .bf16) (k : FVec Ideal S4x256x256 .bf16) (b : Fin 4) (r : Fin 512) :
    ∀ j, sc q k b r j ≤ rowMax q k b r := pay17_ge q k b r
theorem pay24_attained (q : FVec Ideal S4x512x256 .bf16) (k : FVec Ideal S4x256x256 .bf16) (b : Fin 4) (r : Fin 512) :
    ∃ j, rowMax q k b r = sc q k b r j := pay17_attained q k b r

theorem pay25_apply (q : FVec Ideal S4x512x256 .bf16) (k : FVec Ideal S4x256x256 .bf16) (m m' : FVec Ideal S4x512x1 .f32)
    (b : Fin 4) (r : Fin 512) :
    k2_pay25 (F := Ideal) k q m m' (ix3 b r (0 : Fin 1))
      = Ideal.exp (m' (ix3 b r (0 : Fin 1)) - k2_pay24 (F := Ideal) k q m (ix3 b r (0 : Fin 1))) := by
  unfold k2_pay25
  exact (exp_apply _ _).trans (congrArg Ideal.exp (subf_apply _ _ _))

theorem pay26_apply (q : FVec Ideal S4x512x256 .bf16) (k : FVec Ideal S4x256x256 .bf16) (m : FVec Ideal S4x512x1 .f32)
    (b : Fin 4) (r : Fin 512) (j : Fin 256) :
    k2_pay26 (F := Ideal) k q m (ix3 b r j)
      = Ideal.exp (sc q k b r j - k2_pay24 (F := Ideal) k q m (ix3 b r (0 : Fin 1))) := by
  unfold k2_pay26
  refine (exp_apply _ _).trans (congrArg Ideal.exp ?_)
  refine (subf_apply _ _ _).trans ?_
  exact congrArg₂ (· - ·) (pay23_apply q k b r j)
    (broadcastTo_ab1_abc_apply (k2_pay24 (F := Ideal) k q m) Facts₀.broadcasts_S4x512x1_S4x512x256 b r j)

theorem pay1_apply (a : FVec Ideal S4x512x1 .f32) (p : FVec Ideal S4x512x256 .f32) (l : FVec Ideal S4x512x1 .f32)
    (b : Fin 4) (r : Fin 512) :
    k2_pay1 (F := Ideal) a p l (ix3 b r (0 : Fin 1))
      = a (ix3 b r (0 : Fin 1)) * l (ix3 b r (0 : Fin 1)) + ∑ j : Fin 256, p (ix3 b r j) := by
  unfold k2_pay1
  refine (congrFun (shapeCast_self _ _) _).trans ?_
  refine (addf_apply _ _ _).trans ?_
  refine congrArg₂ (· + ·) (mulf_apply a l _) ?_
  exact (shapeCast_ab_ab1_apply _ Facts₀.shapeCasts_S4x512_S4x512x1 b r 0).trans (laneSum_apply p b r)

theorem pay2_apply (v : FVec Ideal S4x256x256 .bf16) (a : FVec Ideal S4x512x1 .f32) (p acc : FVec Ideal S4x512x256 .f32)
    (b : Fin 4) (r : Fin 512) (d : Fin 256) :
    k2_pay2 (F := Ideal) v a p acc (ix3 b r d)
      = a (ix3 b r (0 : Fin 1)) * acc (ix3 b r d) + ∑ j : Fin 256, p (ix3 b r j) * v (ix3 b j d) := by
  unfold k2_pay2
  refine (congrFun (shapeCast_self _ _) _).trans ?_
  refine (addf_apply _ _ _).trans ?_
  refine congrArg₂ (· + ·) ?_ ?_
  · exact (mulf_apply _ _ _).trans
      (congrArg (· * acc (ix3 b r d)) (broadcastTo_ab1_abc_apply a Facts₀.broadcasts_S4x512x1_S4x512x256 b r d))
  · exact (pv_apply (truncf .bf16 p Facts₀.bitsLt_bf16_f32) v b r d).trans (Finset.sum_congr rfl fun j _ => rfl)

theorem pay5_apply (acc : FVec Ideal S4x512x256 .f32) (l : FVec Ideal S4x512x1 .f32) (b : Fin 4) (r : Fin 512) (d : Fin 256) :
    k2_pay5 (F := Ideal) acc l (ix3 b d r) = Ideal.div (acc (ix3 b r d)) (l (ix3 b r (0 : Fin 1))) := by
  unfold k2_pay5
  refine (transpose_ix3_021_apply _ Facts₀.transposes_S4x512x256_p0_2_1_S4x256x512 b d r).trans ?_
  refine (divf_apply _ _ _).trans ?_
  exact congrArg (Ideal.div (acc (ix3 b r d))) (broadcastTo_ab1_abc_apply l Facts₀.broadcasts_S4x512x1_S4x512x256 b r d)

theorem pay9_eq (i : S4x512x1.Idx) : k2_pay9 (F := Ideal) i = (⊥ : EReal) := by
  unfold k2_pay9
  exact (congrFun (shapeCast_self _ _) _).trans ofBits_negInf_f32
theorem pay9_apply (b : Fin 4) (r : Fin 512) : k2_pay9 (F := Ideal) (ix3 b r (0 : Fin 1)) = (⊥ : EReal) := pay9_eq _
theorem pay10_eq (i : S4x512x1.Idx) : k2_pay10 (F := Ideal) i = (0 : EReal) := by
  unfold k2_pay10
  exact (congrFun (shapeCast_self _ _) _).trans Ideal.ofBits_zero_f32
theorem pay10_apply (b : Fin 4) (r : Fin 512) : k2_pay10 (F := Ideal) (ix3 b r (0 : Fin 1)) = (0 : EReal) := pay10_eq _
theorem pay11_eq (i : S4x512x256.Idx) : k2_pay11 (F := Ideal) i = (0 : EReal) := by
  unfold k2_pay11
  exact (congrFun (shapeCast_self _ _) _).trans Ideal.ofBits_zero_f32
theorem pay11_apply (b : Fin 4) (r : Fin 512) (d : Fin 256) : k2_pay11 (F := Ideal) (ix3 b r d) = (0 : EReal) := pay11_eq _

end Cert.KernelIdeal.AttnPayload

end
-- ==== Proof.LibOnlineSoftmax.lean ====
/-
  The online softmax. A row of scores is read block by block, keeping a running maximum m, a running
  denominator l and a running numerator acc, from m = −∞, l = 0, acc = 0: with m' the maximum of m and the
  block's maximum, l' = exp (m - m') * l + ∑ exp (s - m') and acc' = exp (m - m') * acc + ∑ exp (s - m') * v,
  the sums over the block. For real scores and values the three are, after at least one block, the real sums
  relative to the shift m, and acc / l does not depend on the shift: it is the softmax of the row applied to
  the values, ∑ (exp (s - M) / ∑ exp (s - M)) * v, for the row's maximum M (or any other real M).
-/
import Idealize.ShloMosaic.PureOps.Ideal
noncomputable section
namespace Cert.LibOnlineSoftmax
open Idealize.ShloMosaic
variable {K : Type} [Fintype K]

/-- the running maximum after j blocks, from the blocks' maxima -/
def runMax (bm : ℕ → EReal) : ℕ → EReal
  | 0 => ⊥
  | j + 1 => max (runMax bm j) (bm j)
/-- the running denominator after j blocks -/
def runDen (s : ℕ → K → EReal) (bm : ℕ → EReal) : ℕ → EReal
  | 0 => 0
  | j + 1 => Ideal.exp (runMax bm j - runMax bm (j + 1)) * runDen s bm j + ∑ k, Ideal.exp (s j k - runMax bm (j + 1))
/-- the running numerator after j blocks -/
def runNum (s v : ℕ → K → EReal) (bm : ℕ → EReal) : ℕ → EReal
  | 0 => 0
  | j + 1 => Ideal.exp (runMax bm j - runMax bm (j + 1)) * runNum s v bm j + ∑ k, Ideal.exp (s j k - runMax bm (j + 1)) * v j k

/-! ### Real sums inside the extended reals -/

/-- the embedding of the reals commutes with finite sums -/
theorem coe_sum {ι : Type} (t : Finset ι) (f : ι → ℝ) :
    ((∑ i ∈ t, f i : ℝ) : EReal) = ∑ i ∈ t, (f i : EReal) := by
  induction t using Finset.cons_induction with
  | empty => simp
  | cons a t ha ih => rw [Finset.sum_cons, Finset.sum_cons, EReal.coe_add, ih]

/-- the exponential of a difference of two reals is the real exponential -/
theorem exp_coe_sub (a b : ℝ) :
    Ideal.exp ((a : EReal) - (b : EReal)) = ((Real.exp (a - b) : ℝ) : EReal) := by
  rw [← EReal.coe_sub, Ideal.exp_coe]

/-- changing the shift from m to m' multiplies every weight by exp (m - m') -/
theorem exp_rescale (a m m' : ℝ) : Real.exp (m - m') * Real.exp (a - m) = Real.exp (a - m') := by
  rw [← Real.exp_add]; congr 1; ring

/-! ### The real denominator and numerator relative to a shift -/

/-- the sum of the weights exp (s - m) over the first j blocks -/
def den (s : ℕ → K → ℝ) (j : ℕ) (m : ℝ) : ℝ :=
  ∑ i ∈ Finset.range j, ∑ k, Real.exp (s i k - m)
/-- the weighted sum of the values over the first j blocks -/
def num (s v : ℕ → K → ℝ) (j : ℕ) (m : ℝ) : ℝ :=
  ∑ i ∈ Finset.range j, ∑ k, Real.exp (s i k - m) * v i k

theorem den_succ (s : ℕ → K → ℝ) (j : ℕ) (m : ℝ) :
    den s (j + 1) m = den s j m + ∑ k, Real.exp (s j k - m) := by
  unfold den; rw [Finset.sum_range_succ]
theorem num_succ (s v : ℕ → K → ℝ) (j : ℕ) (m : ℝ) :
    num s v (j + 1) m = num s v j m + ∑ k, Real.exp (s j k - m) * v j k := by
  unfold num; rw [Finset.sum_range_succ]

theorem den_rescale (s : ℕ → K → ℝ) (j : ℕ) (m m' : ℝ) :
    Real.exp (m - m') * den s j m = den s j m' := by
  unfold den
  rw [Finset.mul_sum]
  refine Finset.sum_congr rfl fun i _ => ?_
  rw [Finset.mul_sum]
  exact Finset.sum_congr rfl fun k _ => exp_rescale _ _ _
theorem num_rescale (s v : ℕ → K → ℝ) (j : ℕ) (m m' : ℝ) :
    Real.exp (m - m') * num s v j m = num s v j m' := by
  unfold num
  rw [Finset.mul_sum]
  refine Finset.sum_congr rfl fun i _ => ?_
  rw [Finset.mul_sum]
  refine Finset.sum_congr rfl fun k _ => ?_
  rw [← mul_assoc, exp_rescale]

theorem den_pos [Nonempty K] (s : ℕ → K → ℝ) (j : ℕ) (hj : 0 < j) (m : ℝ) : 0 < den s j m := by
  unfold den
  exact Finset.sum_pos (fun i _ => Finset.sum_pos (fun k _ => Real.exp_pos _) Finset.univ_nonempty)
    (Finset.nonempty_range_iff.mpr hj.ne')

/-! ### One block's contribution -/

theorem block_den (s : ℕ → K → ℝ) (j : ℕ) (m : ℝ) :
    ∑ k, Ideal.exp ((s j k : EReal) - (m : EReal)) = ((∑ k, Real.exp (s j k - m) : ℝ) : EReal) := by
  rw [coe_sum]; exact Finset.sum_congr rfl fun k _ => exp_coe_sub _ _
theorem block_num (s v : ℕ → K → ℝ) (j : ℕ) (m : ℝ) :
    ∑ k, Ideal.exp ((s j k : EReal) - (m : EReal)) * (v j k : EReal)
      = ((∑ k, Real.exp (s j k - m) * v j k : ℝ) : EReal) := by
  rw [coe_sum]
  refine Finset.sum_congr rfl fun k _ => ?_
  rw [exp_coe_sub, EReal.coe_mul]

/-! ### The invariant of the running triple -/

/-- after at least one block the running maximum is a real m, and the running denominator and
    numerator are the real sums relative to the shift m -/
theorem invariant (s v : ℕ → K → ℝ) (bm : ℕ → EReal) (hbm_at : ∀ j, ∃ k, bm j = (s j k : EReal))
    (j : ℕ) :
    ∃ m : ℝ, runMax bm (j + 1) = (m : EReal)
      ∧ runDen (fun j k => (s j k : EReal)) bm (j + 1) = ((den s (j + 1) m : ℝ) : EReal)
      ∧ runNum (fun j k => (s j k : EReal)) (fun j k => (v j k : EReal)) bm (j + 1)
          = ((num s v (j + 1) m : ℝ) : EReal) := by
  induction j with
  | zero =>
    obtain ⟨k0, hk0⟩ := hbm_at 0
    have hm : runMax bm (0 + 1) = ((s 0 k0 : ℝ) : EReal) := by
      show max ⊥ (bm 0) = _
      rw [hk0]; exact max_eq_right bot_le
    refine ⟨s 0 k0, hm, ?_, ?_⟩
    · show Ideal.exp (runMax bm 0 - runMax bm (0 + 1)) * 0
          + ∑ k, Ideal.exp ((s 0 k : EReal) - runMax bm (0 + 1)) = _
      rw [hm, mul_zero, zero_add, block_den, den_succ]
      simp [den]
    · show Ideal.exp (runMax bm 0 - runMax bm (0 + 1)) * 0
          + ∑ k, Ideal.exp ((s 0 k : EReal) - runMax bm (0 + 1)) * (v 0 k : EReal) = _
      rw [hm, mul_zero, zero_add, block_num, num_succ]
      simp [num]
  | succ j ih =>
    obtain ⟨m, hm, hD, hN⟩ := ih
    obtain ⟨k1, hk1⟩ := hbm_at (j + 1)
    have hm' : runMax bm (j + 1 + 1) = ((max m (s (j + 1) k1) : ℝ) : EReal) := by
      show max (runMax bm (j + 1)) (bm (j + 1)) = _
      rw [hm, hk1, EReal.coe_strictMono.monotone.map_max]
    refine ⟨max m (s (j + 1) k1), hm', ?_, ?_⟩
    · show Ideal.exp (runMax bm (j + 1) - runMax bm (j + 1 + 1))
            * runDen (fun j k => (s j k : EReal)) bm (j + 1)
          + ∑ k, Ideal.exp ((s (j + 1) k : EReal) - runMax bm (j + 1 + 1)) = _
      rw [hm', hm, hD, exp_coe_sub, block_den, ← EReal.coe_mul, ← EReal.coe_add, den_rescale,
        ← den_succ]
    · show Ideal.exp (runMax bm (j + 1) - runMax bm (j + 1 + 1))
            * runNum (fun j k => (s j k : EReal)) (fun j k => (v j k : EReal)) bm (j + 1)
          + ∑ k, Ideal.exp ((s (j + 1) k : EReal) - runMax bm (j + 1 + 1)) * (v (j + 1) k : EReal) = _
      rw [hm', hm, hN, exp_coe_sub, block_num, ← EReal.coe_mul, ← EReal.coe_add, num_rescale,
        ← num_succ]

/-! ### The quotient does not depend on the shift -/

theorem ratio_shift (s v : ℕ → K → ℝ) (J : ℕ) (m M : ℝ) (hL : den s J M ≠ 0) :
    num s v J m * (1 / den s J m)
      = ∑ j ∈ Finset.range J, ∑ k, Real.exp (s j k - M) * (1 / den s J M) * v j k := by
  have hc : Real.exp (M - m) ≠ 0 := (Real.exp_pos _).ne'
  rw [← num_rescale s v J M m, ← den_rescale s J M m]
  have h1 : Real.exp (M - m) * num s v J M * (1 / (Real.exp (M - m) * den s J M))
      = num s v J M * (1 / den s J M) := by
    field_simp
  rw [h1]
  unfold num
  rw [Finset.sum_mul]
  refine Finset.sum_congr rfl fun j _ => ?_
  rw [Finset.sum_mul]
  refine Finset.sum_congr rfl fun k _ => ?_
  ring

/-! ### The online softmax equals the two-pass softmax -/

theorem online_softmax [Nonempty K] (J : ℕ) (hJ : 0 < J) (s v : ℕ → K → ℝ) (bm : ℕ → EReal)
    (hbm_ge : ∀ j k, (s j k : EReal) ≤ bm j) (hbm_at : ∀ j, ∃ k, bm j = (s j k : EReal))
    (M : EReal) (hM_ge : ∀ j < J, ∀ k, (s j k : EReal) ≤ M) (hM_at : ∃ j < J, ∃ k, M = (s j k : EReal)) :
    Ideal.div (runNum (fun j k => (s j k : EReal)) (fun j k => (v j k : EReal)) bm J) (runDen (fun j k => (s j k : EReal)) bm J)
      = ∑ j ∈ Finset.range J, ∑ k, Ideal.div (Ideal.exp ((s j k : EReal) - M)) (∑ j' ∈ Finset.range J, ∑ k', Ideal.exp ((s j' k' : EReal) - M)) * (v j k : EReal) := by
  obtain ⟨j0, -, k0, hMk⟩ := hM_at
  subst hMk
  obtain ⟨J', rfl⟩ : ∃ J', J = J' + 1 := ⟨J - 1, by omega⟩
  obtain ⟨m, -, hD, hN⟩ := invariant s v bm hbm_at J'
  have hLm : den s (J' + 1) m ≠ 0 := (den_pos s (J' + 1) hJ m).ne'
  have hLM : den s (J' + 1) (s j0 k0) ≠ 0 := (den_pos s (J' + 1) hJ (s j0 k0)).ne'
  have hden : ∑ j' ∈ Finset.range (J' + 1), ∑ k', Ideal.exp ((s j' k' : EReal) - (s j0 k0 : EReal))
      = ((den s (J' + 1) (s j0 k0) : ℝ) : EReal) := by
    unfold den
    rw [coe_sum]
    exact Finset.sum_congr rfl fun j _ => block_den s j (s j0 k0)
  rw [hD, hN, Ideal.div_coe hLm, ← EReal.coe_mul, ratio_shift s v (J' + 1) m (s j0 k0) hLM, hden,
    coe_sum]
  refine Finset.sum_congr rfl fun j _ => ?_
  rw [coe_sum]
  refine Finset.sum_congr rfl fun k _ => ?_
  rw [Ideal.div_coe hLM, exp_coe_sub, EReal.coe_mul, EReal.coe_mul]

end Cert.LibOnlineSoftmax
-- ==== Proof.LibOnlineSoftmaxFlat.lean ====
/-
  The online softmax over one flat key axis. An axis of J * B keys is cut into J blocks of B: a sum over the
  axis is the sum over the blocks of the sums inside the blocks; the running triple after J blocks reads only
  the first J block maxima; and its quotient is the softmax-weighted sum of the values over the flat axis,
  also with the sums written from the initial value 0. Stated for any J and B, and for 16 blocks of 256 keys
  on an axis of 4096.
-/
import proofs.«168839_j16673063043431_2_alg».proof.Proof.LibOnlineSoftmax
noncomputable section
namespace Cert.LibOnlineSoftmax
open Idealize.ShloMosaic

/-! ### A flat axis of J * B keys cut into J blocks of B -/

theorem blk_lt {J B j : ℕ} (hj : j < J) (k : Fin B) : j * B + (k : ℕ) < J * B :=
  calc j * B + (k : ℕ) < j * B + B := Nat.add_lt_add_left k.isLt _
    _ = (j + 1) * B := (Nat.succ_mul j B).symm
    _ ≤ J * B := Nat.mul_le_mul_right B hj

/-- entry k of block j of a flat family; zero for a block index outside the J blocks -/
def blk {α : Type} [Zero α] {J B : ℕ} (f : Fin (J * B) → α) (j : ℕ) (k : Fin B) : α :=
  if h : j < J then f ⟨j * B + (k : ℕ), blk_lt h k⟩ else 0

theorem blk_apply {α : Type} [Zero α] {J B : ℕ} (f : Fin (J * B) → α) {j : ℕ} (hj : j < J)
    (k : Fin B) : blk f j k = f ⟨j * B + (k : ℕ), blk_lt hj k⟩ := dif_pos hj

/-- a sum over the flat axis is the sum over the blocks of the sums inside the blocks -/
theorem sum_blocks {α : Type} [AddCommMonoid α] {J B : ℕ} (f : Fin (J * B) → α) :
    ∑ n : Fin (J * B), f n = ∑ j ∈ Finset.range J, ∑ k : Fin B, blk f j k := by
  rw [← (finProdFinEquiv (m := J) (n := B)).sum_comp f, Fintype.sum_prod_type, Finset.sum_range]
  refine Finset.sum_congr rfl fun j _ => Finset.sum_congr rfl fun k _ => ?_
  rw [blk_apply f j.isLt k]
  congr 1
  apply Fin.ext
  simp only [finProdFinEquiv_apply_val]
  ring

/-! ### The running triple only reads the first J block maxima -/

theorem run_congr {K : Type} [Fintype K] (s v : ℕ → K → EReal) (bm bm' : ℕ → EReal) (J : ℕ)
    (h : ∀ j < J, bm j = bm' j) (j : ℕ) :
    j ≤ J → runMax bm j = runMax bm' j ∧ runDen s bm j = runDen s bm' j
      ∧ runNum s v bm j = runNum s v bm' j := by
  induction j with
  | zero => intro _; exact ⟨rfl, rfl, rfl⟩
  | succ j ih =>
    intro hj
    obtain ⟨h1, h2, h3⟩ := ih (by omega)
    have hm : runMax bm (j + 1) = runMax bm' (j + 1) := by
      show max (runMax bm j) (bm j) = max (runMax bm' j) (bm' j)
      rw [h1, h j (by omega)]
    refine ⟨hm, ?_, ?_⟩
    · show Ideal.exp (runMax bm j - runMax bm (j + 1)) * runDen s bm j
            + ∑ k, Ideal.exp (s j k - runMax bm (j + 1))
          = Ideal.exp (runMax bm' j - runMax bm' (j + 1)) * runDen s bm' j
            + ∑ k, Ideal.exp (s j k - runMax bm' (j + 1))
      rw [h1, hm, h2]
    · show Ideal.exp (runMax bm j - runMax bm (j + 1)) * runNum s v bm j
            + ∑ k, Ideal.exp (s j k - runMax bm (j + 1)) * v j k
          = Ideal.exp (runMax bm' j - runMax bm' (j + 1)) * runNum s v bm' j
            + ∑ k, Ideal.exp (s j k - runMax bm' (j + 1)) * v j k
      rw [h1, hm, h3]

/-- the online quotient as one real number, for any real shift Mr; only the first J block maxima
    need to be attained -/
theorem online_softmax_core {K : Type} [Fintype K] [Nonempty K] (J : ℕ) (hJ : 0 < J)
    (s v : ℕ → K → ℝ) (bm : ℕ → EReal) (hbm_at : ∀ j < J, ∃ k, bm j = (s j k : EReal)) (Mr : ℝ) :
    Ideal.div (runNum (fun j k => (s j k : EReal)) (fun j k => (v j k : EReal)) bm J)
        (runDen (fun j k => (s j k : EReal)) bm J)
      = ((∑ j ∈ Finset.range J, ∑ k, Real.exp (s j k - Mr) * (1 / den s J Mr) * v j k : ℝ) : EReal) := by
  classical
  let bm' : ℕ → EReal := fun j => if j < J then bm j else (s j (Classical.arbitrary K) : EReal)
  have hbm' : ∀ j, ∃ k, bm' j = (s j k : EReal) := by
    intro j
    by_cases hj : j < J
    · obtain ⟨k, hk⟩ := hbm_at j hj
      exact ⟨k, by simp only [bm', if_pos hj, hk]⟩
    · exact ⟨Classical.arbitrary K, by simp only [bm', if_neg hj]⟩
  have hagree : ∀ j < J, bm j = bm' j := fun j hj => by simp only [bm', if_pos hj]
  obtain ⟨-, hD', hN'⟩ := run_congr (fun j k => (s j k : EReal)) (fun j k => (v j k : EReal))
    bm bm' J hagree J le_rfl
  obtain ⟨J', rfl⟩ : ∃ J', J = J' + 1 := ⟨J - 1, by omega⟩
  obtain ⟨m, -, hD, hN⟩ := invariant s v bm' hbm' J'
  have hLm : den s (J' + 1) m ≠ 0 := (den_pos s (J' + 1) hJ m).ne'
  have hLM : den s (J' + 1) Mr ≠ 0 := (den_pos s (J' + 1) hJ Mr).ne'
  rw [hD', hN', hD, hN, Ideal.div_coe hLm, ← EReal.coe_mul, ratio_shift s v (J' + 1) m Mr hLM]

/-! ### The flat reference -/

theorem den_flat {J B : ℕ} (s : Fin (J * B) → ℝ) (Mr : ℝ) :
    den (blk s) J Mr = ∑ n, Real.exp (s n - Mr) := by
  unfold den
  rw [sum_blocks (fun n => Real.exp (s n - Mr))]
  refine Finset.sum_congr rfl fun j hj => Finset.sum_congr rfl fun k _ => ?_
  have hj' := Finset.mem_range.mp hj
  rw [blk_apply _ hj', blk_apply _ hj']

/-- the online quotient over J blocks of B keys equals the softmax-weighted sum over the flat axis
    of J * B keys, for any real M that is one of the scores -/
theorem online_softmax_flat (J B : ℕ) (hJ : 0 < J) (hB : 0 < B) (s v : Fin (J * B) → ℝ)
    (bm : ℕ → EReal) (hbm_at : ∀ j < J, ∃ k, bm j = ((blk s j k : ℝ) : EReal))
    (M : EReal) (hM_at : ∃ n, M = (s n : EReal)) :
    Ideal.div (runNum (fun j k => ((blk s j k : ℝ) : EReal)) (fun j k => ((blk v j k : ℝ) : EReal)) bm J)
        (runDen (fun j k => ((blk s j k : ℝ) : EReal)) bm J)
      = ∑ n : Fin (J * B), Ideal.div (Ideal.exp ((s n : EReal) - M))
          (∑ n' : Fin (J * B), Ideal.exp ((s n' : EReal) - M)) * (v n : EReal) := by
  obtain ⟨n0, rfl⟩ := hM_at
  haveI : Nonempty (Fin B) := ⟨⟨0, hB⟩⟩
  rw [online_softmax_core J hJ (blk s) (blk v) bm hbm_at (s n0)]
  have hL : ∑ n' : Fin (J * B), Ideal.exp ((s n' : EReal) - (s n0 : EReal))
      = ((den (blk s) J (s n0) : ℝ) : EReal) := by
    rw [den_flat, coe_sum]
    exact Finset.sum_congr rfl fun n _ => exp_coe_sub _ _
  have hLM : den (blk s) J (s n0) ≠ 0 := (den_pos (blk s) J hJ (s n0)).ne'
  have hterm : ∀ n : Fin (J * B),
      Ideal.div (Ideal.exp ((s n : EReal) - (s n0 : EReal))) ((den (blk s) J (s n0) : ℝ) : EReal)
          * (v n : EReal)
        = ((Real.exp (s n - s n0) * (1 / den (blk s) J (s n0)) * v n : ℝ) : EReal) := by
    intro n
    rw [Ideal.div_coe hLM, exp_coe_sub, EReal.coe_mul, EReal.coe_mul]
  rw [hL, Finset.sum_congr rfl fun n _ => hterm n, ← coe_sum]
  congr 1
  rw [sum_blocks (fun n => Real.exp (s n - s n0) * (1 / den (blk s) J (s n0)) * v n)]
  refine Finset.sum_congr rfl fun j hj => Finset.sum_congr rfl fun k _ => ?_
  have hj' := Finset.mem_range.mp hj
  rw [blk_apply _ hj', blk_apply _ hj', blk_apply _ hj']

/-- the same with the reference's denominator written as a reduction from the initial value 0 -/
theorem online_softmax_flat_zero_add (J B : ℕ) (hJ : 0 < J) (hB : 0 < B) (s v : Fin (J * B) → ℝ)
    (bm : ℕ → EReal) (hbm_at : ∀ j < J, ∃ k, bm j = ((blk s j k : ℝ) : EReal))
    (M : EReal) (hM_at : ∃ n, M = (s n : EReal)) :
    Ideal.div (runNum (fun j k => ((blk s j k : ℝ) : EReal)) (fun j k => ((blk v j k : ℝ) : EReal)) bm J)
        (runDen (fun j k => ((blk s j k : ℝ) : EReal)) bm J)
      = ∑ n : Fin (J * B), Ideal.div (Ideal.exp ((s n : EReal) - M))
          (0 + ∑ n' : Fin (J * B), Ideal.exp ((s n' : EReal) - M)) * (v n : EReal) := by
  simp only [zero_add]
  exact online_softmax_flat J B hJ hB s v bm hbm_at M hM_at

/-- the same with both of the reference's sums written as reductions from the initial value 0 -/
theorem online_softmax_flat_zero_add_both (J B : ℕ) (hJ : 0 < J) (hB : 0 < B)
    (s v : Fin (J * B) → ℝ)
    (bm : ℕ → EReal) (hbm_at : ∀ j < J, ∃ k, bm j = ((blk s j k : ℝ) : EReal))
    (M : EReal) (hM_at : ∃ n, M = (s n : EReal)) :
    Ideal.div (runNum (fun j k => ((blk s j k : ℝ) : EReal)) (fun j k => ((blk v j k : ℝ) : EReal)) bm J)
        (runDen (fun j k => ((blk s j k : ℝ) : EReal)) bm J)
      = 0 + ∑ n : Fin (J * B), Ideal.div (Ideal.exp ((s n : EReal) - M))
          (0 + ∑ n' : Fin (J * B), Ideal.exp ((s n' : EReal) - M)) * (v n : EReal) := by
  simp only [zero_add]
  exact online_softmax_flat J B hJ hB s v bm hbm_at M hM_at

/-! ### Sixteen blocks of 256 keys on an axis of 4096 -/

/-- entry k of block j of a family on 4096 keys; zero for j ≥ 16 -/
def blk4096 (f : Fin 4096 → ℝ) (j : ℕ) (k : Fin 256) : ℝ :=
  if h : j < 16 then f ⟨j * 256 + (k : ℕ), by have := k.isLt; omega⟩ else 0

theorem blk4096_apply (f : Fin 4096 → ℝ) {j : ℕ} (hj : j < 16) (k : Fin 256) :
    blk4096 f j k = f ⟨j * 256 + (k : ℕ), by have := k.isLt; omega⟩ := dif_pos hj

theorem blk4096_eq (f : Fin 4096 → ℝ) : blk4096 f = blk (J := 16) (B := 256) f := rfl

theorem online_softmax_4096 (s v : Fin 4096 → ℝ)
    (bm : ℕ → EReal) (hbm_at : ∀ j < 16, ∃ k, bm j = (blk4096 s j k : EReal))
    (M : EReal) (hM_at : ∃ n, M = (s n : EReal)) :
    Ideal.div (runNum (fun j k => (blk4096 s j k : EReal)) (fun j k => (blk4096 v j k : EReal)) bm 16)
        (runDen (fun j k => (blk4096 s j k : EReal)) bm 16)
      = ∑ n : Fin 4096, Ideal.div (Ideal.exp ((s n : EReal) - M))
          (∑ n' : Fin 4096, Ideal.exp ((s n' : EReal) - M)) * (v n : EReal) :=
  online_softmax_flat 16 256 (by norm_num) (by norm_num) s v bm hbm_at M hM_at

theorem online_softmax_4096_zero_add (s v : Fin 4096 → ℝ)
    (bm : ℕ → EReal) (hbm_at : ∀ j < 16, ∃ k, bm j = (blk4096 s j k : EReal))
    (M : EReal) (hM_at : ∃ n, M = (s n : EReal)) :
    Ideal.div (runNum (fun j k => (blk4096 s j k : EReal)) (fun j k => (blk4096 v j k : EReal)) bm 16)
        (runDen (fun j k => (blk4096 s j k : EReal)) bm 16)
      = ∑ n : Fin 4096, Ideal.div (Ideal.exp ((s n : EReal) - M))
          (0 + ∑ n' : Fin 4096, Ideal.exp ((s n' : EReal) - M)) * (v n : EReal) :=
  online_softmax_flat_zero_add 16 256 (by norm_num) (by norm_num) s v bm hbm_at M hM_at

theorem online_softmax_4096_zero_add_both (s v : Fin 4096 → ℝ)
    (bm : ℕ → EReal) (hbm_at : ∀ j < 16, ∃ k, bm j = (blk4096 s j k : EReal))
    (M : EReal) (hM_at : ∃ n, M = (s n : EReal)) :
    Ideal.div (runNum (fun j k => (blk4096 s j k : EReal)) (fun j k => (blk4096 v j k : EReal)) bm 16)
        (runDen (fun j k => (blk4096 s j k : EReal)) bm 16)
      = 0 + ∑ n : Fin 4096, Ideal.div (Ideal.exp ((s n : EReal) - M))
          (0 + ∑ n' : Fin 4096, Ideal.exp ((s n' : EReal) - M)) * (v n : EReal) :=
  online_softmax_flat_zero_add_both 16 256 (by norm_num) (by norm_num) s v bm hbm_at M hM_at

end Cert.LibOnlineSoftmax
-- ==== Proof.AttnAcc.lean ====
/-
  The accumulators of the attention kernel, grid point by grid point, are the running maximum, the running
  denominator and the running numerator of the online softmax over the key blocks seen so far; the output tile a
  query tile ends with is their quotient, hence (for real inputs) the softmax-weighted sum of the values over
  the whole key axis.
-/
import proofs.«168839_j16673063043431_2_alg».proof.Proof.AttnStep
import proofs.«168839_j16673063043431_2_alg».proof.Proof.AttnPayload
import proofs.«168839_j16673063043431_2_alg».proof.Proof.LibOnlineSoftmaxFlat
import Idealize.ShloMosaic.Lib.ValueIdx

noncomputable section

namespace Cert.KernelIdeal.AttnAcc

open Idealize.ShloMosaic Idealize.ShloMosaic.ValueIdx Cert.KernelIdeal Cert.LibOnlineSoftmax

/-! ## The accumulators at a grid point -/

section Generic
variable {F : FTy → Type} [FloatOps F]

/-- The accumulators after grid point t: a key tile whose index is a multiple of 16 starts a query tile from
    the reset values, every other one continues from the point before. -/
def accAt (T0 : ℕ → Vec F S4x512x256 .bf16) (T1 T2 : ℕ → Vec F S4x256x256 .bf16)
    (T3 : ℕ → Vec F S4x512x256 .bf16) (T4 T5 : ℕ → Vec F S4x256x256 .bf16) : ℕ → AttnStep.Acc F
  | 0 => AttnStep.step (T0 0) (T1 0) (T2 0) (T3 0) (T4 0) (T5 0) AttnStep.reset
  | n + 1 =>
    if (n + 1) % 16 = 0 then
      AttnStep.step (T0 (n + 1)) (T1 (n + 1)) (T2 (n + 1)) (T3 (n + 1)) (T4 (n + 1)) (T5 (n + 1)) AttnStep.reset
    else
      AttnStep.step (T0 (n + 1)) (T1 (n + 1)) (T2 (n + 1)) (T3 (n + 1)) (T4 (n + 1)) (T5 (n + 1))
        (accAt T0 T1 T2 T3 T4 T5 n)

theorem accAt_first (T0 : ℕ → Vec F S4x512x256 .bf16) (T1 T2 : ℕ → Vec F S4x256x256 .bf16)
    (T3 : ℕ → Vec F S4x512x256 .bf16) (T4 T5 : ℕ → Vec F S4x256x256 .bf16) {t : ℕ} (h : t % 16 = 0) :
    accAt T0 T1 T2 T3 T4 T5 t
      = AttnStep.step (T0 t) (T1 t) (T2 t) (T3 t) (T4 t) (T5 t) AttnStep.reset := by
  cases t with
  | zero => rfl
  | succ n => rw [accAt]; exact if_pos h

theorem accAt_next (T0 : ℕ → Vec F S4x512x256 .bf16) (T1 T2 : ℕ → Vec F S4x256x256 .bf16)
    (T3 : ℕ → Vec F S4x512x256 .bf16) (T4 T5 : ℕ → Vec F S4x256x256 .bf16) {t : ℕ} (h : t % 16 ≠ 0) :
    accAt T0 T1 T2 T3 T4 T5 t
      = AttnStep.step (T0 t) (T1 t) (T2 t) (T3 t) (T4 t) (T5 t) (accAt T0 T1 T2 T3 T4 T5 (t - 1)) := by
  cases t with
  | zero => exact absurd rfl h
  | succ n => rw [accAt]; exact if_neg h

end Generic

/-! ## One key tile, read at a query row -/

section Step
open Cert.KernelIdeal.AttnPayload Cert.KernelIdeal.Gen

variable (q1 : FVec Ideal S4x512x256 .bf16) (k1 v1 : FVec Ideal S4x256x256 .bf16)
  (q2 : FVec Ideal S4x512x256 .bf16) (k2 v2 : FVec Ideal S4x256x256 .bf16) (s : AttnStep.Acc Ideal)
  (b : Fin 4) (r : Fin 512)

theorem step_m1 :
    (AttnStep.step q1 k1 v1 q2 k2 v2 s).m1 (ix3 b r (0 : Fin 1))
      = max (s.m1 (ix3 b r (0 : Fin 1))) (rowMax q1 k2 b r) := by
  show k2_pay22 (F := Ideal) (k2_pay17 (F := Ideal) q1 k2 s.m1) (ix3 b r (0 : Fin 1)) = _
  exact (congrFun (pay22_eq _) _).trans (pay17_apply q1 k2 s.m1 b r)

theorem step_l1 :
    (AttnStep.step q1 k1 v1 q2 k2 v2 s).l1 (ix3 b r (0 : Fin 1))
      = Ideal.exp (s.m1 (ix3 b r (0 : Fin 1)) - max (s.m1 (ix3 b r (0 : Fin 1))) (rowMax q1 k2 b r))
          * s.l1 (ix3 b r (0 : Fin 1))
        + ∑ j : Fin 256, Ideal.exp (sc q1 k2 b r j - max (s.m1 (ix3 b r (0 : Fin 1))) (rowMax q1 k2 b r)) := by
  show k2_pay20 (F := Ideal) (k2_pay18 (F := Ideal) q1 k2 s.m1 s.m1) (k2_pay19 (F := Ideal) q1 k2 s.m1) s.l1
      (ix3 b r (0 : Fin 1)) = _
  refine (pay20_apply _ _ _ b r).trans ?_
  refine congrArg₂ (· + ·) (congrArg (· * s.l1 (ix3 b r (0 : Fin 1))) ?_) (Finset.sum_congr rfl fun j _ => ?_)
  · exact (pay18_apply q1 k2 s.m1 s.m1 b r).trans
      (congrArg (fun x => Ideal.exp (s.m1 (ix3 b r (0 : Fin 1)) - x)) (pay17_apply q1 k2 s.m1 b r))
  · exact (pay19_apply q1 k2 s.m1 b r j).trans
      (congrArg (fun x => Ideal.exp (sc q1 k2 b r j - x)) (pay17_apply q1 k2 s.m1 b r))

theorem step_a1 (d : Fin 256) :
    (AttnStep.step q1 k1 v1 q2 k2 v2 s).a1 (ix3 b r d)
      = Ideal.exp (s.m1 (ix3 b r (0 : Fin 1)) - max (s.m1 (ix3 b r (0 : Fin 1))) (rowMax q1 k2 b r))
          * s.a1 (ix3 b r d)
        + ∑ j : Fin 256, Ideal.exp (sc q1 k2 b r j - max (s.m1 (ix3 b r (0 : Fin 1))) (rowMax q1 k2 b r))
            * v1 (ix3 b j d) := by
  show k2_pay21 (F := Ideal) (k2_pay13 (F := Ideal) v1) (k2_pay18 (F := Ideal) q1 k2 s.m1 s.m1)
      (k2_pay19 (F := Ideal) q1 k2 s.m1) s.a1 (ix3 b r d) = _
  refine (pay21_apply _ _ _ s.a1 b r d).trans ?_
  refine congrArg₂ (· + ·) (congrArg (· * s.a1 (ix3 b r d)) ?_) (Finset.sum_congr rfl fun j _ => ?_)
  · exact (pay18_apply q1 k2 s.m1 s.m1 b r).trans
      (congrArg (fun x => Ideal.exp (s.m1 (ix3 b r (0 : Fin 1)) - x)) (pay17_apply q1 k2 s.m1 b r))
  · refine congrArg₂ (· * ·) ?_ (congrFun (pay13_eq v1) _)
    exact (pay19_apply q1 k2 s.m1 b r j).trans
      (congrArg (fun x => Ideal.exp (sc q1 k2 b r j - x)) (pay17_apply q1 k2 s.m1 b r))

theorem pay24_eq_max (m : FVec Ideal S4x512x1 .f32) :
    k2_pay24 (F := Ideal) (k2_pay12 (F := Ideal) k1) (k2_pay14 (F := Ideal) q2) m (ix3 b r (0 : Fin 1))
      = max (m (ix3 b r (0 : Fin 1))) (rowMax q2 k1 b r) := by
  rw [pay12_eq, pay14_eq]
  exact pay24_apply q2 k1 m b r

theorem step_m2 :
    (AttnStep.step q1 k1 v1 q2 k2 v2 s).m2 (ix3 b r (0 : Fin 1))
      = max (s.m2 (ix3 b r (0 : Fin 1))) (rowMax q2 k1 b r) := by
  show k2_pay3 (F := Ideal) (k2_pay24 (F := Ideal) (k2_pay12 (F := Ideal) k1) (k2_pay14 (F := Ideal) q2) s.m2)
      (ix3 b r (0 : Fin 1)) = _
  exact (congrFun (pay3_eq _) _).trans (pay24_eq_max k1 q2 b r s.m2)

theorem step_l2 :
    (AttnStep.step q1 k1 v1 q2 k2 v2 s).l2 (ix3 b r (0 : Fin 1))
      = Ideal.exp (s.m2 (ix3 b r (0 : Fin 1)) - max (s.m2 (ix3 b r (0 : Fin 1))) (rowMax q2 k1 b r))
          * s.l2 (ix3 b r (0 : Fin 1))
        + ∑ j : Fin 256, Ideal.exp (sc q2 k1 b r j - max (s.m2 (ix3 b r (0 : Fin 1))) (rowMax q2 k1 b r)) := by
  show k2_pay1 (F := Ideal)
      (k2_pay25 (F := Ideal) (k2_pay12 (F := Ideal) k1) (k2_pay14 (F := Ideal) q2) s.m2 s.m2)
      (k2_pay26 (F := Ideal) (k2_pay12 (F := Ideal) k1) (k2_pay14 (F := Ideal) q2) s.m2) s.l2
      (ix3 b r (0 : Fin 1)) = _
  rw [pay12_eq, pay14_eq]
  refine (pay1_apply _ _ _ b r).trans ?_
  refine congrArg₂ (· + ·) (congrArg (· * s.l2 (ix3 b r (0 : Fin 1))) ?_) (Finset.sum_congr rfl fun j _ => ?_)
  · exact (pay25_apply q2 k1 s.m2 s.m2 b r).trans
      (congrArg (fun x => Ideal.exp (s.m2 (ix3 b r (0 : Fin 1)) - x)) (pay24_apply q2 k1 s.m2 b r))
  · exact (pay26_apply q2 k1 s.m2 b r j).trans
      (congrArg (fun x => Ideal.exp (sc q2 k1 b r j - x)) (pay24_apply q2 k1 s.m2 b r))

theorem step_a2 (d : Fin 256) :
    (AttnStep.step q1 k1 v1 q2 k2 v2 s).a2 (ix3 b r d)
      = Ideal.exp (s.m2 (ix3 b r (0 : Fin 1)) - max (s.m2 (ix3 b r (0 : Fin 1))) (rowMax q2 k1 b r))
          * s.a2 (ix3 b r d)
        + ∑ j : Fin 256, Ideal.exp (sc q2 k1 b r j - max (s.m2 (ix3 b r (0 : Fin 1))) (rowMax q2 k1 b r))
            * v2 (ix3 b j d) := by
  show k2_pay2 (F := Ideal) (k2_pay15 (F := Ideal) v2)
      (k2_pay25 (F := Ideal) (k2_pay12 (F := Ideal) k1) (k2_pay14 (F := Ideal) q2) s.m2 s.m2)
      (k2_pay26 (F := Ideal) (k2_pay12 (F := Ideal) k1) (k2_pay14 (F := Ideal) q2) s.m2) s.a2 (ix3 b r d) = _
  rw [pay12_eq, pay14_eq, pay15_eq]
  refine (pay2_apply _ _ _ s.a2 b r d).trans ?_
  refine congrArg₂ (· + ·) (congrArg (· * s.a2 (ix3 b r d)) ?_) (Finset.sum_congr rfl fun j _ => ?_)
  · exact (pay25_apply q2 k1 s.m2 s.m2 b r).trans
      (congrArg (fun x => Ideal.exp (s.m2 (ix3 b r (0 : Fin 1)) - x)) (pay24_apply q2 k1 s.m2 b r))
  · refine congrArg (· * v2 (ix3 b j d)) ?_
    exact (pay26_apply q2 k1 s.m2 b r j).trans
      (congrArg (fun x => Ideal.exp (sc q2 k1 b r j - x)) (pay24_apply q2 k1 s.m2 b r))

end Step

/-! ## The two projection arrays and their blocks -/

theorem qrow_lt {t : ℕ} (ht : t < 128) (r : Fin 512) : 512 * (t / 16) + (r : ℕ) < 4096 := by
  have := r.isLt; omega
theorem krow_lt (t : ℕ) (j : Fin 256) : 256 * (t % 16) + (j : ℕ) < 4096 := by
  have := j.isLt; omega
theorem chq_lt (ch : Fin 256) : (ch : ℕ) < 768 := by have := ch.isLt; omega
theorem chk_lt (ch : Fin 256) : 256 + (ch : ℕ) < 768 := by have := ch.isLt; omega
theorem chv_lt (d : Fin 256) : 512 + (d : ℕ) < 768 := by have := d.isLt; omega
theorem blkrow_lt {j : ℕ} (hj : j < 16) (k : Fin 256) : 256 * j + (k : ℕ) < 4096 := by
  have := k.isLt; omega
theorem outrow_lt {qi : ℕ} (hq : qi < 8) (r : Fin 512) : 512 * qi + (r : ℕ) < 4096 := by
  have := r.isLt; omega

/-- The six tiles of grid point t = 16 * (query tile) + (key tile) are blocks of the two arrays of fused
    projections: channels 0-255 are the queries, 256-511 the keys, 512-767 the values. -/
structure Tiles (A B : S4x4096x768.Idx → EReal)
    (T0 : ℕ → Vec Ideal S4x512x256 .bf16) (T1 T2 : ℕ → Vec Ideal S4x256x256 .bf16)
    (T3 : ℕ → Vec Ideal S4x512x256 .bf16) (T4 T5 : ℕ → Vec Ideal S4x256x256 .bf16) : Prop where
  hT0 : ∀ (t : ℕ) (ht : t < 128) (b : Fin 4) (r : Fin 512) (ch : Fin 256),
    T0 t (ix3 b r ch) = A (ix3 b ⟨512 * (t / 16) + r, qrow_lt ht r⟩ ⟨ch, chq_lt ch⟩)
  hT1 : ∀ (t : ℕ) (_ht : t < 128) (b : Fin 4) (j : Fin 256) (ch : Fin 256),
    T1 t (ix3 b j ch) = A (ix3 b ⟨256 * (t % 16) + j, krow_lt t j⟩ ⟨256 + ch, chk_lt ch⟩)
  hT2 : ∀ (t : ℕ) (_ht : t < 128) (b : Fin 4) (j : Fin 256) (d : Fin 256),
    T2 t (ix3 b j d) = A (ix3 b ⟨256 * (t % 16) + j, krow_lt t j⟩ ⟨512 + d, chv_lt d⟩)
  hT3 : ∀ (t : ℕ) (ht : t < 128) (b : Fin 4) (r : Fin 512) (ch : Fin 256),
    T3 t (ix3 b r ch) = B (ix3 b ⟨512 * (t / 16) + r, qrow_lt ht r⟩ ⟨ch, chq_lt ch⟩)
  hT4 : ∀ (t : ℕ) (_ht : t < 128) (b : Fin 4) (j : Fin 256) (ch : Fin 256),
    T4 t (ix3 b j ch) = B (ix3 b ⟨256 * (t % 16) + j, krow_lt t j⟩ ⟨256 + ch, chk_lt ch⟩)
  hT5 : ∀ (t : ℕ) (_ht : t < 128) (b : Fin 4) (j : Fin 256) (d : Fin 256),
    T5 t (ix3 b j d) = B (ix3 b ⟨256 * (t % 16) + j, krow_lt t j⟩ ⟨512 + d, chv_lt d⟩)

/-- The score of query row n of the array A against key row mm of the array B. -/
def sA (A B : S4x4096x768.Idx → EReal) (b : Fin 4) (n mm : Fin 4096) : EReal :=
  ∑ ch : Fin 256, A (ix3 b n ⟨ch, chq_lt ch⟩) * B (ix3 b mm ⟨256 + ch, chk_lt ch⟩)

/-- Channel d of value row mm of the array A. -/
def vA (A : S4x4096x768.Idx → EReal) (b : Fin 4) (mm : Fin 4096) (d : Fin 256) : EReal :=
  A (ix3 b mm ⟨512 + d, chv_lt d⟩)

/-- Entry k of block j of a family on the 4096 keys cut into 16 blocks of 256; zero for j ≥ 16. -/
def blkE (f : Fin 4096 → EReal) (j : ℕ) (k : Fin 256) : EReal :=
  if h : j < 16 then f ⟨256 * j + k, blkrow_lt h k⟩ else 0

theorem blkE_apply (f : Fin 4096 → EReal) {j : ℕ} (hj : j < 16) (k : Fin 256) :
    blkE f j k = f ⟨256 * j + k, blkrow_lt hj k⟩ := dif_pos hj

/-- The maximum of block j of a family on the 4096 keys: the fold of max from ⊥. -/
def bmE (f : Fin 4096 → EReal) (j : ℕ) : EReal :=
  (Finset.univ : Finset (Fin 256)).fold max ⊥ (blkE f j)

/-! ## The invariant -/

/-- Row r of batch b of the state s carries, for both streams, the running maximum, denominator and numerator
    of the first j key blocks of the query row n. -/
def RowInv (A B : S4x4096x768.Idx → EReal) (s : AttnStep.Acc Ideal) (b : Fin 4) (r : Fin 512) (n : Fin 4096)
    (j : ℕ) : Prop :=
  s.m1 (ix3 b r (0 : Fin 1)) = runMax (bmE (sA A B b n)) j
  ∧ s.l1 (ix3 b r (0 : Fin 1)) = runDen (blkE (sA A B b n)) (bmE (sA A B b n)) j
  ∧ (∀ d : Fin 256, s.a1 (ix3 b r d)
      = runNum (blkE (sA A B b n)) (blkE fun mm => vA A b mm d) (bmE (sA A B b n)) j)
  ∧ s.m2 (ix3 b r (0 : Fin 1)) = runMax (bmE (sA B A b n)) j
  ∧ s.l2 (ix3 b r (0 : Fin 1)) = runDen (blkE (sA B A b n)) (bmE (sA B A b n)) j
  ∧ (∀ d : Fin 256, s.a2 (ix3 b r d)
      = runNum (blkE (sA B A b n)) (blkE fun mm => vA B b mm d) (bmE (sA B A b n)) j)

section Inv
open Cert.KernelIdeal.AttnPayload Cert.KernelIdeal.Gen

theorem rowInv_reset (A B : S4x4096x768.Idx → EReal) (b : Fin 4) (r : Fin 512) (n : Fin 4096) :
    RowInv A B (AttnStep.reset (F := Ideal)) b r n 0 :=
  ⟨pay6_apply b r, pay7_apply b r, fun d => pay8_apply b r d,
    pay9_apply b r, pay10_apply b r, fun d => pay11_apply b r d⟩

/-- One stream's three accumulators through one key tile, from the three recursions' own equations. -/
theorem triple_step (S : ℕ → Fin 256 → EReal) (V : Fin 256 → ℕ → Fin 256 → EReal) (bm : ℕ → EReal) (j : ℕ)
    (scr : Fin 256 → EReal) (val : Fin 256 → Fin 256 → EReal) (rm m l : EReal) (a : Fin 256 → EReal)
    (hS : ∀ k, scr k = S j k) (hV : ∀ k d, val k d = V d j k) (hrm : rm = bm j)
    (hm : m = runMax bm j) (hl : l = runDen S bm j) (ha : ∀ d, a d = runNum S (V d) bm j) :
    max m rm = runMax bm (j + 1)
    ∧ Ideal.exp (m - max m rm) * l + ∑ k : Fin 256, Ideal.exp (scr k - max m rm) = runDen S bm (j + 1)
    ∧ ∀ d, Ideal.exp (m - max m rm) * a d + ∑ k : Fin 256, Ideal.exp (scr k - max m rm) * val k d
        = runNum S (V d) bm (j + 1) := by
  subst hrm hm hl
  refine ⟨rfl, ?_, fun d => ?_⟩
  · show _ = Ideal.exp (runMax bm j - max (runMax bm j) (bm j)) * runDen S bm j
        + ∑ k, Ideal.exp (S j k - max (runMax bm j) (bm j))
    exact congrArg _ (Finset.sum_congr rfl fun k _ => by rw [hS k])
  · show _ = Ideal.exp (runMax bm j - max (runMax bm j) (bm j)) * runNum S (V d) bm j
        + ∑ k, Ideal.exp (S j k - max (runMax bm j) (bm j)) * V d j k
    rw [ha d]
    exact congrArg _ (Finset.sum_congr rfl fun k _ => by rw [hS k, hV k d])

end Inv

section Main
open Cert.KernelIdeal.AttnPayload Cert.KernelIdeal.Gen

variable {A B : S4x4096x768.Idx → EReal}
  {T0 : ℕ → Vec Ideal S4x512x256 .bf16} {T1 T2 : ℕ → Vec Ideal S4x256x256 .bf16}
  {T3 : ℕ → Vec Ideal S4x512x256 .bf16} {T4 T5 : ℕ → Vec Ideal S4x256x256 .bf16}

/-- The key tile of grid point t takes the invariant of the query row from t % 16 blocks to one more. -/
theorem rowInv_step (hT : Tiles A B T0 T1 T2 T3 T4 T5) {t : ℕ} (ht : t < 128) (s : AttnStep.Acc Ideal)
    (b : Fin 4) (r : Fin 512)
    (h : RowInv A B s b r ⟨512 * (t / 16) + r, qrow_lt ht r⟩ (t % 16)) :
    RowInv A B (AttnStep.step (T0 t) (T1 t) (T2 t) (T3 t) (T4 t) (T5 t) s) b r
      ⟨512 * (t / 16) + r, qrow_lt ht r⟩ (t % 16 + 1) := by
  have hk : t % 16 < 16 := Nat.mod_lt _ (by norm_num)
  have hS1 : ∀ k, sc (T0 t) (T4 t) b r k
      = blkE (sA A B b ⟨512 * (t / 16) + r, qrow_lt ht r⟩) (t % 16) k := by
    intro k
    rw [blkE_apply _ hk k]
    exact Finset.sum_congr rfl fun ch _ => by rw [hT.hT0 t ht b r ch, hT.hT4 t ht b k ch]
  have hV1 : ∀ k d, T2 t (ix3 b k d) = blkE (fun mm => vA A b mm d) (t % 16) k := by
    intro k d
    rw [blkE_apply _ hk k]
    exact hT.hT2 t ht b k d
  have hrm1 : rowMax (T0 t) (T4 t) b r = bmE (sA A B b ⟨512 * (t / 16) + r, qrow_lt ht r⟩) (t % 16) :=
    congrArg (fun f => Finset.fold max (⊥ : EReal) f (Finset.univ : Finset (Fin 256))) (funext hS1)
  have hS2 : ∀ k, sc (T3 t) (T1 t) b r k
      = blkE (sA B A b ⟨512 * (t / 16) + r, qrow_lt ht r⟩) (t % 16) k := by
    intro k
    rw [blkE_apply _ hk k]
    exact Finset.sum_congr rfl fun ch _ => by rw [hT.hT3 t ht b r ch, hT.hT1 t ht b k ch]
  have hV2 : ∀ k d, T5 t (ix3 b k d) = blkE (fun mm => vA B b mm d) (t % 16) k := by
    intro k d
    rw [blkE_apply _ hk k]
    exact hT.hT5 t ht b k d
  have hrm2 : rowMax (T3 t) (T1 t) b r = bmE (sA B A b ⟨512 * (t / 16) + r, qrow_lt ht r⟩) (t % 16) :=
    congrArg (fun f => Finset.fold max (⊥ : EReal) f (Finset.univ : Finset (Fin 256))) (funext hS2)
  obtain ⟨hm1, hl1, ha1, hm2, hl2, ha2⟩ := h
  obtain ⟨e1, e2, e3⟩ := triple_step (blkE (sA A B b ⟨512 * (t / 16) + r, qrow_lt ht r⟩))
    (fun d => blkE fun mm => vA A b mm d) (bmE (sA A B b ⟨512 * (t / 16) + r, qrow_lt ht r⟩)) (t % 16)
    (fun k => sc (T0 t) (T4 t) b r k) (fun k d => T2 t (ix3 b k d)) (rowMax (T0 t) (T4 t) b r)
    (s.m1 (ix3 b r (0 : Fin 1))) (s.l1 (ix3 b r (0 : Fin 1))) (fun d => s.a1 (ix3 b r d))
    hS1 hV1 hrm1 hm1 hl1 ha1
  obtain ⟨f1, f2, f3⟩ := triple_step (blkE (sA B A b ⟨512 * (t / 16) + r, qrow_lt ht r⟩))
    (fun d => blkE fun mm => vA B b mm d) (bmE (sA B A b ⟨512 * (t / 16) + r, qrow_lt ht r⟩)) (t % 16)
    (fun k => sc (T3 t) (T1 t) b r k) (fun k d => T5 t (ix3 b k d)) (rowMax (T3 t) (T1 t) b r)
    (s.m2 (ix3 b r (0 : Fin 1))) (s.l2 (ix3 b r (0 : Fin 1))) (fun d => s.a2 (ix3 b r d))
    hS2 hV2 hrm2 hm2 hl2 ha2
  exact ⟨(step_m1 (T0 t) (T1 t) (T2 t) (T3 t) (T4 t) (T5 t) s b r).trans e1,
    (step_l1 (T0 t) (T1 t) (T2 t) (T3 t) (T4 t) (T5 t) s b r).trans e2,
    fun d => (step_a1 (T0 t) (T1 t) (T2 t) (T3 t) (T4 t) (T5 t) s b r d).trans (e3 d),
    (step_m2 (T0 t) (T1 t) (T2 t) (T3 t) (T4 t) (T5 t) s b r).trans f1,
    (step_l2 (T0 t) (T1 t) (T2 t) (T3 t) (T4 t) (T5 t) s b r).trans f2,
    fun d => (step_a2 (T0 t) (T1 t) (T2 t) (T3 t) (T4 t) (T5 t) s b r d).trans (f3 d)⟩

/-- After grid point t = 16 * qi + kj the accumulators of query row 512 * qi + r are the running triple of the
    first kj + 1 key blocks, for both streams. -/
theorem acc_inv (hT : Tiles A B T0 T1 T2 T3 T4 T5) {t : ℕ} (ht : t < 128) (b : Fin 4) (r : Fin 512) :
    RowInv A B (accAt T0 T1 T2 T3 T4 T5 t) b r ⟨512 * (t / 16) + r, qrow_lt ht r⟩ (t % 16 + 1) := by
  induction t with
  | zero =>
    rw [accAt_first T0 T1 T2 T3 T4 T5 (t := 0) rfl]
    exact rowInv_step hT ht _ b r (rowInv_reset A B b r _)
  | succ t ih =>
    by_cases h : (t + 1) % 16 = 0
    · rw [accAt_first T0 T1 T2 T3 T4 T5 h]
      refine rowInv_step hT ht _ b r ?_
      rw [h]
      exact rowInv_reset A B b r _
    · rw [accAt_next T0 T1 T2 T3 T4 T5 h, Nat.add_sub_cancel]
      have ht' : t < 128 := by omega
      have ih' := ih ht'
      have hn : (⟨512 * (t / 16) + r, qrow_lt ht' r⟩ : Fin 4096)
          = ⟨512 * ((t + 1) / 16) + r, qrow_lt ht r⟩ := Fin.ext (by simp only; omega)
      have hj : t % 16 + 1 = (t + 1) % 16 := by omega
      rw [hn, hj] at ih'
      exact rowInv_step hT ht _ b r ih'

/-- The first output tile of query tile qi: the quotient of the running numerator and denominator of all 16
    key blocks. -/
theorem out1_eq (hT : Tiles A B T0 T1 T2 T3 T4 T5) {qi : ℕ} (hq : qi < 8) (b : Fin 4) (r : Fin 512)
    (d : Fin 256) :
    AttnStep.out1 (accAt T0 T1 T2 T3 T4 T5 (16 * qi + 15)) (ix3 b d r)
      = Ideal.div
          (runNum (blkE (sA A B b ⟨512 * qi + r, outrow_lt hq r⟩)) (blkE fun mm => vA A b mm d)
            (bmE (sA A B b ⟨512 * qi + r, outrow_lt hq r⟩)) 16)
          (runDen (blkE (sA A B b ⟨512 * qi + r, outrow_lt hq r⟩))
            (bmE (sA A B b ⟨512 * qi + r, outrow_lt hq r⟩)) 16) := by
  have ht : 16 * qi + 15 < 128 := by omega
  have hinv := acc_inv hT ht b r
  have hn : (⟨512 * ((16 * qi + 15) / 16) + r, qrow_lt ht r⟩ : Fin 4096)
      = ⟨512 * qi + r, outrow_lt hq r⟩ := Fin.ext (by simp only; omega)
  have hj : (16 * qi + 15) % 16 + 1 = 16 := by omega
  rw [hn, hj] at hinv
  obtain ⟨-, hl1, ha1, -, -, -⟩ := hinv
  refine (pay4_apply _ _ b r d).trans ?_
  rw [ha1 d, hl1]

/-- The second output tile of query tile qi, likewise, with the two arrays exchanged. -/
theorem out2_eq (hT : Tiles A B T0 T1 T2 T3 T4 T5) {qi : ℕ} (hq : qi < 8) (b : Fin 4) (r : Fin 512)
    (d : Fin 256) :
    AttnStep.out2 (accAt T0 T1 T2 T3 T4 T5 (16 * qi + 15)) (ix3 b d r)
      = Ideal.div
          (runNum (blkE (sA B A b ⟨512 * qi + r, outrow_lt hq r⟩)) (blkE fun mm => vA B b mm d)
            (bmE (sA B A b ⟨512 * qi + r, outrow_lt hq r⟩)) 16)
          (runDen (blkE (sA B A b ⟨512 * qi + r, outrow_lt hq r⟩))
            (bmE (sA B A b ⟨512 * qi + r, outrow_lt hq r⟩)) 16) := by
  have ht : 16 * qi + 15 < 128 := by omega
  have hinv := acc_inv hT ht b r
  have hn : (⟨512 * ((16 * qi + 15) / 16) + r, qrow_lt ht r⟩ : Fin 4096)
      = ⟨512 * qi + r, outrow_lt hq r⟩ := Fin.ext (by simp only; omega)
  have hj : (16 * qi + 15) % 16 + 1 = 16 := by omega
  rw [hn, hj] at hinv
  obtain ⟨-, -, -, -, hl2, ha2⟩ := hinv
  refine (pay5_apply _ _ b r d).trans ?_
  rw [ha2 d, hl2]

end Main

/-! ## The quotient is the softmax-weighted sum over the whole key axis -/

/-- The fold of max from ⊥ over a nonempty finite family is one of its members. -/
theorem fold_max_attained {ι : Type} [Fintype ι] [Nonempty ι] (f : ι → EReal) :
    ∃ i, (Finset.univ : Finset ι).fold max ⊥ f = f i := by
  obtain ⟨i0, _, hi0⟩ := Finset.exists_max_image (Finset.univ : Finset ι) f Finset.univ_nonempty
  exact ⟨i0, le_antisymm ((Finset.fold_max_le _).mpr ⟨bot_le, fun x hx => hi0 x hx⟩)
    ((Finset.le_fold_max _).mpr (Or.inr ⟨i0, Finset.mem_univ _, le_rfl⟩))⟩

/-- The blocks of a real family, embedded, are the embedded blocks. -/
theorem blkE_coe (f : Fin 4096 → ℝ) :
    blkE (fun mm => (f mm : EReal)) = fun j k => ((blk4096 f j k : ℝ) : EReal) := by
  funext j k
  by_cases h : j < 16
  · rw [blkE_apply _ h k, blk4096_apply f h k]
    have e : (⟨256 * j + k, blkrow_lt h k⟩ : Fin 4096)
        = ⟨j * 256 + (k : ℕ), by have := k.isLt; omega⟩ := Fin.ext (by simp only; omega)
    rw [e]
  · unfold blkE blk4096
    rw [dif_neg h, dif_neg h]
    exact EReal.coe_zero.symm

/-- The online quotient over the 16 blocks of a real score family and a real value family is the
    softmax-weighted sum of the values, for any M that is one of the scores. -/
theorem row_softmax (sR vR : Fin 4096 → ℝ) (M : EReal) (hM : ∃ mm, M = (sR mm : EReal)) :
    Ideal.div
        (runNum (blkE fun mm => (sR mm : EReal)) (blkE fun mm => (vR mm : EReal))
          (bmE fun mm => (sR mm : EReal)) 16)
        (runDen (blkE fun mm => (sR mm : EReal)) (bmE fun mm => (sR mm : EReal)) 16)
      = ∑ mm : Fin 4096, Ideal.div (Ideal.exp ((sR mm : EReal) - M))
          (∑ mm' : Fin 4096, Ideal.exp ((sR mm' : EReal) - M)) * (vR mm : EReal) := by
  have hbm_at : ∀ j < 16, ∃ k, bmE (fun mm => (sR mm : EReal)) j = ((blk4096 sR j k : ℝ) : EReal) := by
    intro j _
    obtain ⟨k, hk⟩ := fold_max_attained (blkE (fun mm => (sR mm : EReal)) j)
    exact ⟨k, hk.trans (congrFun (congrFun (blkE_coe sR) j) k)⟩
  generalize bmE (fun mm => (sR mm : EReal)) = bm at hbm_at ⊢
  rw [blkE_coe sR, blkE_coe vR]
  exact online_softmax_4096 sR vR bm hbm_at M hM

/-- The same for any two families that are embedded real families. -/
theorem quot_softmax_gen (sE vE : Fin 4096 → EReal)
    (hs : ∃ sR : Fin 4096 → ℝ, sE = fun mm => (sR mm : EReal))
    (hv : ∃ vR : Fin 4096 → ℝ, vE = fun mm => (vR mm : EReal))
    (M : EReal) (hM : ∃ mm, M = sE mm) :
    Ideal.div (runNum (blkE sE) (blkE vE) (bmE sE) 16) (runDen (blkE sE) (bmE sE) 16)
      = ∑ mm : Fin 4096, Ideal.div (Ideal.exp (sE mm - M))
          (∑ mm' : Fin 4096, Ideal.exp (sE mm' - M)) * vE mm := by
  obtain ⟨sR, rfl⟩ := hs
  obtain ⟨vR, rfl⟩ := hv
  exact row_softmax sR vR M hM

section Payoff
open Cert.KernelIdeal.AttnPayload Cert.KernelIdeal.Gen

variable {A B : S4x4096x768.Idx → EReal}
  {T0 : ℕ → Vec Ideal S4x512x256 .bf16} {T1 T2 : ℕ → Vec Ideal S4x256x256 .bf16}
  {T3 : ℕ → Vec Ideal S4x512x256 .bf16} {T4 T5 : ℕ → Vec Ideal S4x256x256 .bf16}

/-- The scores of two real arrays are real. -/
theorem sA_real (hA : ∀ i, ∃ x : ℝ, A i = (x : EReal)) (hB : ∀ i, ∃ x : ℝ, B i = (x : EReal))
    (b : Fin 4) (n : Fin 4096) : ∃ sR : Fin 4096 → ℝ, sA A B b n = fun mm => (sR mm : EReal) := by
  choose Ar hAr using hA
  choose Br hBr using hB
  refine ⟨fun mm => ∑ ch : Fin 256, Ar (ix3 b n ⟨ch, chq_lt ch⟩) * Br (ix3 b mm ⟨256 + ch, chk_lt ch⟩), ?_⟩
  funext mm
  unfold sA
  rw [coe_sum]
  exact Finset.sum_congr rfl fun ch _ => by rw [hAr, hBr, EReal.coe_mul]

/-- The values of a real array are real. -/
theorem vA_real (hA : ∀ i, ∃ x : ℝ, A i = (x : EReal)) (b : Fin 4) (d : Fin 256) :
    ∃ vR : Fin 4096 → ℝ, (fun mm => vA A b mm d) = fun mm => (vR mm : EReal) := by
  choose Ar hAr using hA
  exact ⟨fun mm => Ar (ix3 b mm ⟨512 + d, chv_lt d⟩), funext fun mm => hAr _⟩

/-- The online quotient of a query row of real arrays is the softmax-weighted sum of the values over the whole
    key axis, for any M that is one of the row's scores. -/
theorem quot_softmax (hA : ∀ i, ∃ x : ℝ, A i = (x : EReal)) (hB : ∀ i, ∃ x : ℝ, B i = (x : EReal))
    (b : Fin 4) (n : Fin 4096) (d : Fin 256) (M : EReal) (hM : ∃ mm, M = sA A B b n mm) :
    Ideal.div
        (runNum (blkE (sA A B b n)) (blkE fun mm => vA A b mm d) (bmE (sA A B b n)) 16)
        (runDen (blkE (sA A B b n)) (bmE (sA A B b n)) 16)
      = ∑ mm : Fin 4096, Ideal.div (Ideal.exp (sA A B b n mm - M))
          (∑ mm' : Fin 4096, Ideal.exp (sA A B b n mm' - M)) * vA A b mm d := by
  exact quot_softmax_gen (sA A B b n) (fun mm => vA A b mm d) (sA_real hA hB b n) (vA_real hA b d) M hM

/-- The reference's row maximum is one of the row's scores. -/
theorem rowmax_attained (b : Fin 4) (n : Fin 4096) :
    ∃ mm, max ⊥ ((Finset.univ : Finset (Fin 4096)).fold max ⊥ fun mm : Fin 4096 => sA A B b n mm)
      = sA A B b n mm := by
  obtain ⟨mm, hmm⟩ := fold_max_attained (fun mm : Fin 4096 => sA A B b n mm)
  exact ⟨mm, (max_eq_right bot_le).trans hmm⟩

/-- The first output tile of query tile qi, for real arrays: the softmax of the query row's scores against all
    4096 keys of the other stream, applied to this stream's values. -/
theorem out1_softmax (hT : Tiles A B T0 T1 T2 T3 T4 T5)
    (hA : ∀ i, ∃ x : ℝ, A i = (x : EReal)) (hB : ∀ i, ∃ x : ℝ, B i = (x : EReal))
    {qi : ℕ} (hq : qi < 8) (b : Fin 4) (r : Fin 512) (d : Fin 256) :
    AttnStep.out1 (accAt T0 T1 T2 T3 T4 T5 (16 * qi + 15)) (ix3 b d r)
      = ∑ mm : Fin 4096,
          Ideal.div
            (Ideal.exp (sA A B b ⟨512 * qi + r, outrow_lt hq r⟩ mm
              - max ⊥ ((Finset.univ : Finset (Fin 4096)).fold max ⊥
                  fun mm : Fin 4096 => sA A B b ⟨512 * qi + r, outrow_lt hq r⟩ mm)))
            (∑ mm' : Fin 4096,
              Ideal.exp (sA A B b ⟨512 * qi + r, outrow_lt hq r⟩ mm'
                - max ⊥ ((Finset.univ : Finset (Fin 4096)).fold max ⊥
                    fun mm : Fin 4096 => sA A B b ⟨512 * qi + r, outrow_lt hq r⟩ mm)))
            * vA A b mm d :=
  (out1_eq hT hq b r d).trans
    (quot_softmax hA hB b ⟨512 * qi + r, outrow_lt hq r⟩ d _
      (rowmax_attained b ⟨512 * qi + r, outrow_lt hq r⟩))

/-- The second output tile, likewise, with the two arrays exchanged. -/
theorem out2_softmax (hT : Tiles A B T0 T1 T2 T3 T4 T5)
    (hA : ∀ i, ∃ x : ℝ, A i = (x : EReal)) (hB : ∀ i, ∃ x : ℝ, B i = (x : EReal))
    {qi : ℕ} (hq : qi < 8) (b : Fin 4) (r : Fin 512) (d : Fin 256) :
    AttnStep.out2 (accAt T0 T1 T2 T3 T4 T5 (16 * qi + 15)) (ix3 b d r)
      = ∑ mm : Fin 4096,
          Ideal.div
            (Ideal.exp (sA B A b ⟨512 * qi + r, outrow_lt hq r⟩ mm
              - max ⊥ ((Finset.univ : Finset (Fin 4096)).fold max ⊥
                  fun mm : Fin 4096 => sA B A b ⟨512 * qi + r, outrow_lt hq r⟩ mm)))
            (∑ mm' : Fin 4096,
              Ideal.exp (sA B A b ⟨512 * qi + r, outrow_lt hq r⟩ mm'
                - max ⊥ ((Finset.univ : Finset (Fin 4096)).fold max ⊥
                    fun mm : Fin 4096 => sA B A b ⟨512 * qi + r, outrow_lt hq r⟩ mm)))
            * vA B b mm d :=
  (out2_eq hT hq b r d).trans
    (quot_softmax hB hA b ⟨512 * qi + r, outrow_lt hq r⟩ d _
      (rowmax_attained b ⟨512 * qi + r, outrow_lt hq r⟩))

end Payoff

end Cert.KernelIdeal.AttnAcc
-- ==== Proof.AttnPieces.lean ====
/-
  The pieces the attention kernel's runs found, read back as values. In each control case (first, middle,
  last key tile) the run stores each of the six accumulators whole, so what a case leaves in an accumulator
  is the payload of its last store; the loads feeding that payload read whole buffers (and, at the first key
  tile, the reset value stored just before). Field by field this is one step of the pure recurrence from the
  accumulators the case found, respectively from the reset values; the two output tiles stored at the last
  key tile are the step's two quotients.
-/
import proofs.«168839_j16673063043431_2_alg».proof.Proof.AttnFrame
import proofs.«168839_j16673063043431_2_alg».proof.Proof.AttnStep
import Idealize.ShloMosaic.Lib.Pipeline.Value
import Idealize.ShloMosaic.Lib.Tactic

set_option maxRecDepth 16384

noncomputable section

namespace Cert.KernelIdeal.Attn

open Idealize.ShloMosaic Idealize.ShloMosaic.TcCoe Idealize.ShloMosaic.Tactic
open Idealize.SL.Sem

open Cert.KernelIdeal Cert.KernelIdeal.Gen

variable {F : FTy → Type} [FloatOps F]

/-! ## The pieces each case's run found, read back: they are the step's fields -/

theorem pieces_hz3 : (![0, 0, 0] : Fin 3 → Nat) = fun _ => 0 := funext fun a => by fin_cases a <;> rfl

/-- Six accumulators that are field by field those of `s` are `s`. -/
theorem pieces_acc_mk_eq (s : AttnStep.Acc F) {a0 a1 : Vec F S4x512x1 .f32} {a2 : Vec F S4x512x256 .f32}
    {a3 a4 : Vec F S4x512x1 .f32} {a5 : Vec F S4x512x256 .f32}
    (h0 : a0 = s.m1) (h1 : a1 = s.l1) (h2 : a2 = s.a1) (h3 : a3 = s.m2) (h4 : a4 = s.l2) (h5 : a5 = s.a2) :
    AttnStep.Acc.mk a0 a1 a2 a3 a4 a5 = s := by
  subst h0 h1 h2 h3 h4 h5; rfl

/-- The pieces case A's run found for accumulator 0, read back. -/
theorem canon2_A_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.1
      = (AttnStep.step x0 x1 x2 x3 x4 x5 AttnStep.reset).m1 := by
  unfold kernelRun2_A
  dsimp only
  sl_unfold_words
  rw [View.canon_cons_unit_zero (S := S4x512x1) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case A's run found for accumulator 1, read back. -/
theorem canon2_A_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.1
      = (AttnStep.step x0 x1 x2 x3 x4 x5 AttnStep.reset).l1 := by
  unfold kernelRun2_A
  dsimp only
  sl_unfold_words
  rw [View.canon_cons_unit_zero (S := S4x512x1) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case A's run found for accumulator 2, read back. -/
theorem canon2_A_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.1
      = (AttnStep.step x0 x1 x2 x3 x4 x5 AttnStep.reset).a1 := by
  unfold kernelRun2_A
  dsimp only
  sl_unfold_words
  rw [View.canon_cons_unit_zero (S := S4x512x256) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case A's run found for accumulator 3, read back. -/
theorem canon2_A_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.1
      = (AttnStep.step x0 x1 x2 x3 x4 x5 AttnStep.reset).m2 := by
  unfold kernelRun2_A
  dsimp only
  sl_unfold_words
  rw [View.canon_cons_unit_zero (S := S4x512x1) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case A's run found for accumulator 4, read back. -/
theorem canon2_A_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.1
      = (AttnStep.step x0 x1 x2 x3 x4 x5 AttnStep.reset).l2 := by
  unfold kernelRun2_A
  dsimp only
  sl_unfold_words
  rw [View.canon_cons_unit_zero (S := S4x512x1) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case A's run found for accumulator 5, read back. -/
theorem canon2_A_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    View.canon (kernelRun2_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5).2.2.2.2.2.2.2.1
      = (AttnStep.step x0 x1 x2 x3 x4 x5 AttnStep.reset).a2 := by
  unfold kernelRun2_A
  dsimp only
  sl_unfold_words
  rw [View.canon_cons_unit_zero (S := S4x512x256) pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 0, read back. -/
theorem canon2_B_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1
      = (AttnStep.step x0 x1 x2 x3 x4 x5 ⟨xs0, xs1, xs2, xs3, xs4, xs5⟩).m1 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 1, read back. -/
theorem canon2_B_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1
      = (AttnStep.step x0 x1 x2 x3 x4 x5 ⟨xs0, xs1, xs2, xs3, xs4, xs5⟩).l1 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 2, read back. -/
theorem canon2_B_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1
      = (AttnStep.step x0 x1 x2 x3 x4 x5 ⟨xs0, xs1, xs2, xs3, xs4, xs5⟩).a1 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 3, read back. -/
theorem canon2_B_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1
      = (AttnStep.step x0 x1 x2 x3 x4 x5 ⟨xs0, xs1, xs2, xs3, xs4, xs5⟩).m2 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 4, read back. -/
theorem canon2_B_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1
      = (AttnStep.step x0 x1 x2 x3 x4 x5 ⟨xs0, xs1, xs2, xs3, xs4, xs5⟩).l2 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case B's run found for accumulator 5, read back. -/
theorem canon2_B_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1
      = (AttnStep.step x0 x1 x2 x3 x4 x5 ⟨xs0, xs1, xs2, xs3, xs4, xs5⟩).a2 := by
  unfold kernelRun2_B
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 0, read back. -/
theorem canon2_C_0 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.1
      = (AttnStep.step x0 x1 x2 x3 x4 x5 ⟨xs0, xs1, xs2, xs3, xs4, xs5⟩).m1 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 1, read back. -/
theorem canon2_C_1 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.1
      = (AttnStep.step x0 x1 x2 x3 x4 x5 ⟨xs0, xs1, xs2, xs3, xs4, xs5⟩).l1 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 2, read back. -/
theorem canon2_C_2 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.1
      = (AttnStep.step x0 x1 x2 x3 x4 x5 ⟨xs0, xs1, xs2, xs3, xs4, xs5⟩).a1 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 3, read back. -/
theorem canon2_C_3 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.1
      = (AttnStep.step x0 x1 x2 x3 x4 x5 ⟨xs0, xs1, xs2, xs3, xs4, xs5⟩).m2 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 4, read back. -/
theorem canon2_C_4 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.1
      = (AttnStep.step x0 x1 x2 x3 x4 x5 ⟨xs0, xs1, xs2, xs3, xs4, xs5⟩).l2 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The pieces case C's run found for accumulator 5, read back. -/
theorem canon2_C_5 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.2.2.2.2.2.2.1
      = (AttnStep.step x0 x1 x2 x3 x4 x5 ⟨xs0, xs1, xs2, xs3, xs4, xs5⟩).a2 := by
  unfold kernelRun2_C
  dsimp only
  sl_unfold_words
  rw [View.canon_unit_zero pieces_hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The piece the last key tile's run found for output 6, read back. -/
theorem canon2_C_out6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).1
      = AttnStep.out1 (AttnStep.step x0 x1 x2 x3 x4 x5 ⟨xs0, xs1, xs2, xs3, xs4, xs5⟩) := by
  unfold kernelRun2_C
  dsimp only
  sl_unfold_words
  rw [View.canon_unit_zero pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-- The piece the last key tile's run found for output 7, read back. -/
theorem canon2_C_out7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    View.canon (kernelRun2_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5).2.1
      = AttnStep.out2 (AttnStep.step x0 x1 x2 x3 x4 x5 ⟨xs0, xs1, xs2, xs3, xs4, xs5⟩) := by
  unfold kernelRun2_C
  dsimp only
  sl_unfold_words
  rw [View.canon_unit_zero pieces_hz3]
  simp only [View.readCov_unit_zero (S := S4x512x1) _ pieces_hz3, View.readCov_unit_zero (S := S4x512x256) _ pieces_hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4x512x1) pieces_hz3, View.ld_unit_zero (S := S4x512x256) pieces_hz3, View.ld_unit_zero (S := S4x256x256) pieces_hz3, View.ld_unit_zero (S := S4x256x512) pieces_hz3]
  rfl

/-! ## What each case leaves, as the step -/

/-- What case A leaves in accumulator 0 is the step's `m1`. -/
theorem sout2_A_0_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).m1 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case A leaves in accumulator 1 is the step's `l1`. -/
theorem sout2_A_1_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).l1 := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case A leaves in accumulator 2 is the step's `a1`. -/
theorem sout2_A_2_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).a1 := by
  unfold sout2_A_2
  rw [View.read_writes_eq_canon _ _ _ (scover2_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case A leaves in accumulator 3 is the step's `m2`. -/
theorem sout2_A_3_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).m2 := by
  unfold sout2_A_3
  rw [View.read_writes_eq_canon _ _ _ (scover2_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case A leaves in accumulator 4 is the step's `l2`. -/
theorem sout2_A_4_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).l2 := by
  unfold sout2_A_4
  rw [View.read_writes_eq_canon _ _ _ (scover2_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case A leaves in accumulator 5 is the step's `a2`. -/
theorem sout2_A_5_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    sout2_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 = (AttnStep.step x0 x1 x2 x3 x4 x5 AttnStep.reset).a2 := by
  unfold sout2_A_5
  rw [View.read_writes_eq_canon _ _ _ (scover2_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)]
  exact canon2_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5

/-- What case B leaves in accumulator 0 is the step's `m1`. -/
theorem sout2_B_0_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).m1 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case B leaves in accumulator 1 is the step's `l1`. -/
theorem sout2_B_1_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).l1 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case B leaves in accumulator 2 is the step's `a1`. -/
theorem sout2_B_2_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).a1 := by
  unfold sout2_B_2
  rw [View.read_writes_eq_canon _ _ _ (scover2_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case B leaves in accumulator 3 is the step's `m2`. -/
theorem sout2_B_3_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).m2 := by
  unfold sout2_B_3
  rw [View.read_writes_eq_canon _ _ _ (scover2_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case B leaves in accumulator 4 is the step's `l2`. -/
theorem sout2_B_4_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).l2 := by
  unfold sout2_B_4
  rw [View.read_writes_eq_canon _ _ _ (scover2_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case B leaves in accumulator 5 is the step's `a2`. -/
theorem sout2_B_5_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).a2 := by
  unfold sout2_B_5
  rw [View.read_writes_eq_canon _ _ _ (scover2_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 0 is the step's `m1`. -/
theorem sout2_C_0_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).m1 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 1 is the step's `l1`. -/
theorem sout2_C_1_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).l1 := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 2 is the step's `a1`. -/
theorem sout2_C_2_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).a1 := by
  unfold sout2_C_2
  rw [View.read_writes_eq_canon _ _ _ (scover2_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 3 is the step's `m2`. -/
theorem sout2_C_3_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).m2 := by
  unfold sout2_C_3
  rw [View.read_writes_eq_canon _ _ _ (scover2_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 4 is the step's `l2`. -/
theorem sout2_C_4_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).l2 := by
  unfold sout2_C_4
  rw [View.read_writes_eq_canon _ _ _ (scover2_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What case C leaves in accumulator 5 is the step's `a2`. -/
theorem sout2_C_5_eq (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    sout2_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = (AttnStep.step x0 x1 x2 x3 x4 x5 ⟨xs0, xs1, xs2, xs3, xs4, xs5⟩).a2 := by
  unfold sout2_C_5
  rw [View.read_writes_eq_canon _ _ _ (scover2_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What the last key tile leaves in output 6's staging buffer is the step's `out1`. -/
theorem out_C_6 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    out2_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = AttnStep.out1 (AttnStep.step x0 x1 x2 x3 x4 x5 ⟨xs0, xs1, xs2, xs3, xs4, xs5⟩) := by
  unfold out2_C_6
  rw [View.read_writes_eq_canon _ _ _ (cover2_C_6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_out6 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- What the last key tile leaves in output 7's staging buffer is the step's `out2`. -/
theorem out_C_7 (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    out2_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5 = AttnStep.out2 (AttnStep.step x0 x1 x2 x3 x4 x5 ⟨xs0, xs1, xs2, xs3, xs4, xs5⟩) := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)]
  exact canon2_C_out7 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5

/-- Case A's six accumulators are one step from the reset values. -/
theorem pieces_A (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) :
    (AttnStep.Acc.mk (sout2_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
        (sout2_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
        (sout2_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
        (sout2_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
        (sout2_A_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
        (sout2_A_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5) : AttnStep.Acc F)
      = AttnStep.step x0 x1 x2 x3 x4 x5 AttnStep.reset :=
  pieces_acc_mk_eq (AttnStep.step x0 x1 x2 x3 x4 x5 AttnStep.reset)
    (sout2_A_0_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
    (sout2_A_1_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
    (sout2_A_2_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
    (sout2_A_3_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
    (sout2_A_4_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)
    (sout2_A_5_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5)

/-- Case B's six accumulators are one step from the accumulators it found. -/
theorem pieces_B (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : ¬cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    (AttnStep.Acc.mk (sout2_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_B_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_B_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_B_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5) : AttnStep.Acc F)
      = AttnStep.step x0 x1 x2 x3 x4 x5 ⟨xs0, xs1, xs2, xs3, xs4, xs5⟩ :=
  pieces_acc_mk_eq (AttnStep.step x0 x1 x2 x3 x4 x5 ⟨xs0, xs1, xs2, xs3, xs4, xs5⟩)
    (sout2_B_0_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_B_1_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_B_2_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_B_3_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_B_4_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_B_5_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)

/-- Case C's six accumulators are one step from the accumulators it found. -/
theorem pieces_C (c : Dev nD) (i : grid2.Coords) (arg2 : Memref sig .tc .vmem S4x512x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x512x256 .bf16) (harg5 : arg5.IsWhole) (arg6 : Memref sig .tc .vmem S4x256x256 .bf16) (harg6 : arg6.IsWhole) (arg7 : Memref sig .tc .vmem S4x256x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x512x1 .f32) (harg10 : arg10.IsWhole) (arg11 : Memref sig .tc .vmem S4x512x1 .f32) (harg11 : arg11.IsWhole) (arg12 : Memref sig .tc .vmem S4x512x256 .f32) (harg12 : arg12.IsWhole) (arg13 : Memref sig .tc .vmem S4x512x1 .f32) (harg13 : arg13.IsWhole) (arg14 : Memref sig .tc .vmem S4x512x1 .f32) (harg14 : arg14.IsWhole) (arg15 : Memref sig .tc .vmem S4x512x256 .f32) (harg15 : arg15.IsWhole) (hc0 : ¬cond2_0 i) (hc1 : cond2_1 i) (x0 : Vec F S4x512x256 .bf16) (x1 : Vec F S4x256x256 .bf16) (x2 : Vec F S4x256x256 .bf16) (x3 : Vec F S4x512x256 .bf16) (x4 : Vec F S4x256x256 .bf16) (x5 : Vec F S4x256x256 .bf16) (xs0 : Vec F S4x512x1 .f32) (xs1 : Vec F S4x512x1 .f32) (xs2 : Vec F S4x512x256 .f32) (xs3 : Vec F S4x512x1 .f32) (xs4 : Vec F S4x512x1 .f32) (xs5 : Vec F S4x512x256 .f32) :
    (AttnStep.Acc.mk (sout2_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_C_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_C_4 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
        (sout2_C_5 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5) : AttnStep.Acc F)
      = AttnStep.step x0 x1 x2 x3 x4 x5 ⟨xs0, xs1, xs2, xs3, xs4, xs5⟩ :=
  pieces_acc_mk_eq (AttnStep.step x0 x1 x2 x3 x4 x5 ⟨xs0, xs1, xs2, xs3, xs4, xs5⟩)
    (sout2_C_0_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_C_1_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_C_2_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_C_3_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_C_4_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)
    (sout2_C_5_eq c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 xs0 xs1 xs2 xs3 xs4 xs5)

end Cert.KernelIdeal.Attn

end
-- ==== Proof.AttnLink.lean ====
/- The link between the attention region's accumulation and the pure recursion on key tiles. The region's proof
   data name what the two outputs' staging buffers and the six accumulators hold after every grid point as the
   control case of the point (first, middle or last key tile of its query tile) run over the point's input blocks
   and what the point before left. Each case's accumulators are one step of the pure recursion, from the reset
   values at a first key tile; the last key tile's outputs are the two quotients of that step. Hence, by induction
   on the point, the accumulators after point `t` are the recursion `AttnAcc.accAt` over the windows' blocks,
   and the outputs at the end of a query tile are its `out1` and `out2`. -/
import proofs.«168839_j16673063043431_2_alg».proof.Proof.AttnFrame
import proofs.«168839_j16673063043431_2_alg».proof.Proof.AttnAcc
import proofs.«168839_j16673063043431_2_alg».proof.Proof.AttnPieces

set_option maxRecDepth 16384

noncomputable section

namespace Cert.KernelIdeal.Attn

open Idealize.ShloMosaic Idealize.ShloMosaic.TcCoe
open Idealize.SL.Sem
open Cert.KernelIdeal Cert.KernelIdeal.Gen

variable {F : FTy → Type} [FloatOps F]

-- the TensorCore's buffer contents when the region is entered
variable (V : (c : Dev nD) → (b : Ref sig .tc) → Buf (Elt F) ((c : Thread nD τ).loc b))

/-! ## The accumulators after every grid point are the pure recursion's

The accumulation `outsAt2` runs, at each grid point, the case the point is in over the point's input blocks and
what the point before left; each case's six accumulators are one `AttnStep.step` (from the reset values at the
first key tile of a query tile), and the last key tile's two outputs are `AttnStep.out1` / `out2` of that step.
So, point by point, the six accumulators are `AttnAcc.accAt` of the windows' blocks. -/

/-- The six accumulators of an accumulation state. -/
def accOf (o : Outs2 F) : AttnStep.Acc F :=
  ⟨o.2.2.1, o.2.2.2.1, o.2.2.2.2.1, o.2.2.2.2.2.1, o.2.2.2.2.2.2.1, o.2.2.2.2.2.2.2⟩

theorem accOf_mk (o6 o7 : Vec F S4x256x512 .f32) (s0 s1 : Vec F S4x512x1 .f32) (s2 : Vec F S4x512x256 .f32)
    (s3 s4 : Vec F S4x512x1 .f32) (s5 : Vec F S4x512x256 .f32) :
    accOf (o6, o7, s0, s1, s2, s3, s4, s5) = ⟨s0, s1, s2, s3, s4, s5⟩ := rfl

theorem N2_pos : 0 < cfg2.N := by have h : cfg2.N = 128 := N_2; omega

/-- Window 0's block at grid point `t`, as a function of the point's number (the first point's block past the grid). -/
def T0 (c : Dev nD) : ℕ → Vec F S4x512x256 .bf16 :=
  fun t => if h : t < cfg2.N then iblk2 V c 0 ⟨t, h⟩ else iblk2 V c 0 ⟨0, N2_pos⟩
theorem T0_eq (c : Dev nD) (t : ℕ) (ht : t < cfg2.N) : T0 V c t = iblk2 V c 0 ⟨t, ht⟩ := dif_pos ht
/-- Window 1's block at grid point `t`, as a function of the point's number (the first point's block past the grid). -/
def T1 (c : Dev nD) : ℕ → Vec F S4x256x256 .bf16 :=
  fun t => if h : t < cfg2.N then iblk2 V c 1 ⟨t, h⟩ else iblk2 V c 1 ⟨0, N2_pos⟩
theorem T1_eq (c : Dev nD) (t : ℕ) (ht : t < cfg2.N) : T1 V c t = iblk2 V c 1 ⟨t, ht⟩ := dif_pos ht
/-- Window 2's block at grid point `t`, as a function of the point's number (the first point's block past the grid). -/
def T2 (c : Dev nD) : ℕ → Vec F S4x256x256 .bf16 :=
  fun t => if h : t < cfg2.N then iblk2 V c 2 ⟨t, h⟩ else iblk2 V c 2 ⟨0, N2_pos⟩
theorem T2_eq (c : Dev nD) (t : ℕ) (ht : t < cfg2.N) : T2 V c t = iblk2 V c 2 ⟨t, ht⟩ := dif_pos ht
/-- Window 3's block at grid point `t`, as a function of the point's number (the first point's block past the grid). -/
def T3 (c : Dev nD) : ℕ → Vec F S4x512x256 .bf16 :=
  fun t => if h : t < cfg2.N then iblk2 V c 3 ⟨t, h⟩ else iblk2 V c 3 ⟨0, N2_pos⟩
theorem T3_eq (c : Dev nD) (t : ℕ) (ht : t < cfg2.N) : T3 V c t = iblk2 V c 3 ⟨t, ht⟩ := dif_pos ht
/-- Window 4's block at grid point `t`, as a function of the point's number (the first point's block past the grid). -/
def T4 (c : Dev nD) : ℕ → Vec F S4x256x256 .bf16 :=
  fun t => if h : t < cfg2.N then iblk2 V c 4 ⟨t, h⟩ else iblk2 V c 4 ⟨0, N2_pos⟩
theorem T4_eq (c : Dev nD) (t : ℕ) (ht : t < cfg2.N) : T4 V c t = iblk2 V c 4 ⟨t, ht⟩ := dif_pos ht
/-- Window 5's block at grid point `t`, as a function of the point's number (the first point's block past the grid). -/
def T5 (c : Dev nD) : ℕ → Vec F S4x256x256 .bf16 :=
  fun t => if h : t < cfg2.N then iblk2 V c 5 ⟨t, h⟩ else iblk2 V c 5 ⟨0, N2_pos⟩
theorem T5_eq (c : Dev nD) (t : ℕ) (ht : t < cfg2.N) : T5 V c t = iblk2 V c 5 ⟨t, ht⟩ := dif_pos ht

/-- By induction on the point: a first key tile is one step from the reset values, any other one step from what
    the point before left. -/
theorem acc_link_aux (c : Dev nD) : ∀ (n : ℕ) (hn : n < cfg2.N),
    accOf (outsAt2 V c n hn) = AttnAcc.accAt (T0 V c) (T1 V c) (T2 V c) (T3 V c) (T4 V c) (T5 V c) n := by
  intro n
  induction n using Nat.strong_induction_on with
  | _ n ih =>
    intro hn
    generalize ht : (⟨n, hn⟩ : Fin cfg2.N) = t
    have hv : t.val = n := by rw [← ht]
    by_cases h0 : t.val % 16 = 0
    · have h1 : ¬t.val % 16 = 15 := by omega
      have e : outsAt2 V c n hn = outsAt2 V c t.val t.isLt := by subst ht; rfl
      rw [e, outsAt2_A V c t h0 h1, accOf_mk, ← hv, AttnAcc.accAt_first _ _ _ _ _ _ h0,
        T0_eq V c t.val t.isLt, T1_eq V c t.val t.isLt, T2_eq V c t.val t.isLt, T3_eq V c t.val t.isLt, T4_eq V c t.val t.isLt, T5_eq V c t.val t.isLt]
      exact pieces_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)
    · have hlt : t.val - 1 < cfg2.N := Nat.lt_of_le_of_lt (Nat.sub_le _ _) t.isLt
      have ihp := ih (t.val - 1) (by omega) hlt
      have e : outsAt2 V c n hn = outsAt2 V c t.val t.isLt := by subst ht; rfl
      by_cases h1 : t.val % 16 = 15
      · rw [e, outsAt2_C V c t h0 h1, accOf_mk, ← hv, AttnAcc.accAt_next _ _ _ _ _ _ h0, ← ihp,
          T0_eq V c t.val t.isLt, T1_eq V c t.val t.isLt, T2_eq V c t.val t.isLt, T3_eq V c t.val t.isLt, T4_eq V c t.val t.isLt, T5_eq V c t.val t.isLt]
        exact pieces_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) hlt).2.2.1 (outsAt2 V c (t.val - 1) hlt).2.2.2.1 (outsAt2 V c (t.val - 1) hlt).2.2.2.2.1 (outsAt2 V c (t.val - 1) hlt).2.2.2.2.2.1 (outsAt2 V c (t.val - 1) hlt).2.2.2.2.2.2.1 (outsAt2 V c (t.val - 1) hlt).2.2.2.2.2.2.2
      · rw [e, outsAt2_B V c t h0 h1, accOf_mk, ← hv, AttnAcc.accAt_next _ _ _ _ _ _ h0, ← ihp,
          T0_eq V c t.val t.isLt, T1_eq V c t.val t.isLt, T2_eq V c t.val t.isLt, T3_eq V c t.val t.isLt, T4_eq V c t.val t.isLt, T5_eq V c t.val t.isLt]
        exact pieces_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) hlt).2.2.1 (outsAt2 V c (t.val - 1) hlt).2.2.2.1 (outsAt2 V c (t.val - 1) hlt).2.2.2.2.1 (outsAt2 V c (t.val - 1) hlt).2.2.2.2.2.1 (outsAt2 V c (t.val - 1) hlt).2.2.2.2.2.2.1 (outsAt2 V c (t.val - 1) hlt).2.2.2.2.2.2.2

/-- The six accumulators after grid point `t`. -/
theorem acc_link (c : Dev nD) (t : Fin cfg2.N) :
    accOf (outsAt2 V c t.val t.isLt) = AttnAcc.accAt (T0 V c) (T1 V c) (T2 V c) (T3 V c) (T4 V c) (T5 V c) t.val :=
  acc_link_aux V c t.val t.isLt

/-- The two outputs' staging buffers of an accumulation state. -/
def out6Of (o : Outs2 F) : Vec F S4x256x512 .f32 := o.1
def out7Of (o : Outs2 F) : Vec F S4x256x512 .f32 := o.2.1
theorem out6Of_mk (o6 o7 : Vec F S4x256x512 .f32) (s0 s1 : Vec F S4x512x1 .f32) (s2 : Vec F S4x512x256 .f32)
    (s3 s4 : Vec F S4x512x1 .f32) (s5 : Vec F S4x512x256 .f32) : out6Of (o6, o7, s0, s1, s2, s3, s4, s5) = o6 := rfl
theorem out7Of_mk (o6 o7 : Vec F S4x256x512 .f32) (s0 s1 : Vec F S4x512x1 .f32) (s2 : Vec F S4x512x256 .f32)
    (s3 s4 : Vec F S4x512x1 .f32) (s5 : Vec F S4x512x256 .f32) : out7Of (o6, o7, s0, s1, s2, s3, s4, s5) = o7 := rfl

theorem out6Of_link (c : Dev nD) (t : Fin cfg2.N) (h1 : t.val % 16 = 15) :
    out6Of (outsAt2 V c t.val t.isLt) = AttnStep.out1 (AttnAcc.accAt (T0 V c) (T1 V c) (T2 V c) (T3 V c) (T4 V c) (T5 V c) t.val) := by
  have h0 : ¬t.val % 16 = 0 := by omega
  have hlt : t.val - 1 < cfg2.N := Nat.lt_of_le_of_lt (Nat.sub_le _ _) t.isLt
  rw [outsAt2_C V c t h0 h1, out6Of_mk, AttnAcc.accAt_next _ _ _ _ _ _ h0, ← acc_link_aux V c (t.val - 1) hlt,
    T0_eq V c t.val t.isLt, T1_eq V c t.val t.isLt, T2_eq V c t.val t.isLt, T3_eq V c t.val t.isLt, T4_eq V c t.val t.isLt, T5_eq V c t.val t.isLt]
  exact out_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) hlt).2.2.1 (outsAt2 V c (t.val - 1) hlt).2.2.2.1 (outsAt2 V c (t.val - 1) hlt).2.2.2.2.1 (outsAt2 V c (t.val - 1) hlt).2.2.2.2.2.1 (outsAt2 V c (t.val - 1) hlt).2.2.2.2.2.2.1 (outsAt2 V c (t.val - 1) hlt).2.2.2.2.2.2.2

theorem out7Of_link (c : Dev nD) (t : Fin cfg2.N) (h1 : t.val % 16 = 15) :
    out7Of (outsAt2 V c t.val t.isLt) = AttnStep.out2 (AttnAcc.accAt (T0 V c) (T1 V c) (T2 V c) (T3 V c) (T4 V c) (T5 V c) t.val) := by
  have h0 : ¬t.val % 16 = 0 := by omega
  have hlt : t.val - 1 < cfg2.N := Nat.lt_of_le_of_lt (Nat.sub_le _ _) t.isLt
  rw [outsAt2_C V c t h0 h1, out7Of_mk, AttnAcc.accAt_next _ _ _ _ _ _ h0, ← acc_link_aux V c (t.val - 1) hlt,
    T0_eq V c t.val t.isLt, T1_eq V c t.val t.isLt, T2_eq V c t.val t.isLt, T3_eq V c t.val t.isLt, T4_eq V c t.val t.isLt, T5_eq V c t.val t.isLt]
  exact out_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) scM2_4 (Memref.isWhole_whole _) scM2_5 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) hlt).2.2.1 (outsAt2 V c (t.val - 1) hlt).2.2.2.1 (outsAt2 V c (t.val - 1) hlt).2.2.2.2.1 (outsAt2 V c (t.val - 1) hlt).2.2.2.2.2.1 (outsAt2 V c (t.val - 1) hlt).2.2.2.2.2.2.1 (outsAt2 V c (t.val - 1) hlt).2.2.2.2.2.2.2

/-- The first output's staging buffer after the last key tile of a query tile. -/
theorem out6_link (c : Dev nD) (t : Fin cfg2.N) (h1 : t.val % 16 = 15) :
    (outsAt2 V c t.val t.isLt).1 = AttnStep.out1 (AttnAcc.accAt (T0 V c) (T1 V c) (T2 V c) (T3 V c) (T4 V c) (T5 V c) t.val) :=
  out6Of_link V c t h1

/-- The second output's. -/
theorem out7_link (c : Dev nD) (t : Fin cfg2.N) (h1 : t.val % 16 = 15) :
    (outsAt2 V c t.val t.isLt).2.1 = AttnStep.out2 (AttnAcc.accAt (T0 V c) (T1 V c) (T2 V c) (T3 V c) (T4 V c) (T5 V c) t.val) :=
  out7Of_link V c t h1

end Cert.KernelIdeal.Attn

end
-- ==== Proof.LinearValue.lean ====
/- The two linear-projection kernels' output block at an index, at the ideal instance (every float an extended
   real, every format change the identity): for input blocks `x0` [1,256,512], `x1` [768,256], `x2` [768],
   the block the body leaves is, at `(0, n, d)`, `∑ ch, x0 (0, ch, n) * x1 (d, ch) + x2 d`: the matmul contracts
   the left operand's axis 0 with the right operand's axis 1 into the zero accumulator, the bias row is broadcast
   over the rows, and the leading unit axis is dropped on the way in and added on the way out. -/
import proofs.«168839_j16673063043431_2_alg».proof.Proof.LinearI
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LinValue

open Cert.KernelIdeal Cert.KernelIdeal.Gen
open Idealize.ShloMosaic Idealize.ShloMosaic.ValueIdx
open scoped BigOperators

/-! ## The zero offsets of the whole-buffer rectangles -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The matmul's operand indices

Both kernels' matmul has the same dimension numbers: the left operand [256,512] contracts its axis 0, the right
operand [768,256] its axis 1; the result [512,768] is indexed by the left operand's axis 1, then the right
operand's axis 0. -/

/-- The dimension numbers of `x0ᵀ · x1ᵀ`. -/
abbrev DD : DotDims S256x512 S768x256 S512x768 := dot_S256x512_S768x256_S512x768_0_1_1_0_n_n

theorem lhs_0 (i : S512x768.Idx) (q : DD.contr.Idx) : (DD.lhsIdx i q 0).val = (q ⟨0, by decide⟩).val :=
  DD.lhsIdx_val_of_single rfl i q
theorem lhs_1 (i : S512x768.Idx) (q : DD.contr.Idx) : (DD.lhsIdx i q 1).val = (i 0).val := by
  unfold DotDims.lhsIdx
  rw [dif_neg (show ¬(1 : Fin S256x512.rank) ∈ DD.lhsBatch by decide), dif_pos (show (1 : Fin S256x512.rank) ∈ DD.lhsNonContracting by decide)]
  rfl
theorem rhs_0 (i : S512x768.Idx) (q : DD.contr.Idx) : (DD.rhsIdx i q 0).val = (i 1).val := by
  unfold DotDims.rhsIdx
  rw [dif_neg (show ¬(0 : Fin S768x256.rank) ∈ DD.rhsBatch by decide), dif_pos (show (0 : Fin S768x256.rank) ∈ DD.rhsNonContracting by decide)]
  rfl
theorem rhs_1 (i : S512x768.Idx) (q : DD.contr.Idx) : (DD.rhsIdx i q 1).val = (q ⟨0, by decide⟩).val :=
  DD.rhsIdx_val_of_single rfl i q

/-- The product into the zero accumulator at `(n, d)`: the sum over the 256 channels of the left operand at
    `(ch, n)` times the right operand at `(d, ch)`. -/
theorem mm_apply (a : FVec Ideal S256x512 .bf16) (b : FVec Ideal S768x256 .bf16) (n : Fin 512) (d : Fin 768) :
    matmul DD none a b (constant (F := Ideal) S512x768 .f32 0x00000000#32) (ix2 n d)
      = ∑ ch : Fin 256, a (ix2 ch n) * b (ix2 d ch) := by
  simp only [matmul]
  rw [Ideal.matmul_constant_zero_apply, ← Equiv.sum_comp (contrEquiv1 DD 256 rfl rfl).symm]
  refine Finset.sum_congr rfl fun k _ => ?_
  have hk := contrEquiv1_symm_val DD 256 rfl rfl k
  have el : DD.lhsIdx (ix2 n d) ((contrEquiv1 DD 256 rfl rfl).symm k) = ix2 k n := funext fun ax => Fin.ext (by
    match ax with
    | ⟨0, _⟩ => exact (lhs_0 _ _).trans hk
    | ⟨1, _⟩ => exact lhs_1 _ _)
  have er : DD.rhsIdx (ix2 n d) ((contrEquiv1 DD 256 rfl rfl).symm k) = ix2 d k := funext fun ax => Fin.ext (by
    match ax with
    | ⟨0, _⟩ => exact rhs_0 _ _
    | ⟨1, _⟩ => exact (rhs_1 _ _).trans hk)
  rw [el, er]

/-! ## Region 0's payload and output block at an index -/

/-- The payload of kernel 0's one store, read at `(0, n, d)`: the shape casts, the format changes (the identity
    on extended reals) and the broadcast read through, the product read as its sum over the channel. -/
theorem k0_pay1_apply (x0 : Vec Ideal S1x256x512 .f32) (x1 : Vec Ideal S768x256 .f32) (x2 : Vec Ideal S768 .f32)
    (n : Fin 512) (d : Fin 768) :
    k0_pay1 (F := Ideal) x0 x1 x2 (ix3 (0 : Fin 1) n d)
      = (∑ ch : Fin 256, x0 (ix3 (0 : Fin 1) ch n) * x1 (ix2 d ch)) + x2 (ix1 d) := by
  unfold k0_pay1
  rw [shapeCast_ab_1ab_apply, truncf_apply, addf_apply, mm_apply, broadcastTo_1b_ab_apply, shapeCast_a_1a_apply,
    shapeCast_self]
  simp only [truncf_apply, shapeCast_1ab_ab_apply, shapeCast_self]

/-- Kernel 0's output block, as a function of the three input blocks, at `(0, n, d)`: the one whole store
    leaves its payload, and each whole load reads its block. -/
theorem out0_3_apply (x0 : Vec Ideal S1x256x512 .f32) (x1 : Vec Ideal S768x256 .f32) (x2 : Vec Ideal S768 .f32)
    (n : Fin 512) (d : Fin 768) :
    Lin.out0_3 (F := Ideal) x0 x1 x2 (ix3 (0 : Fin 1) n d)
      = (∑ ch : Fin 256, x0 (ix3 (0 : Fin 1) ch n) * x1 (ix2 d ch)) + x2 (ix1 d) := by
  unfold Lin.out0_3
  rw [View.canon_unit_zero hz3, View.ld_unit_zero hz3, View.ld_unit_zero hz2, View.ld_unit_zero hz1]
  exact k0_pay1_apply x0 x1 x2 n d

/-! ## Region 1's payload and output block at an index -/

/-- The payload of kernel 1's one store, read at `(0, n, d)`: the shape casts, the format changes (the identity
    on extended reals) and the broadcast read through, the product read as its sum over the channel. -/
theorem k1_pay1_apply (x0 : Vec Ideal S1x256x512 .f32) (x1 : Vec Ideal S768x256 .f32) (x2 : Vec Ideal S768 .f32)
    (n : Fin 512) (d : Fin 768) :
    k1_pay1 (F := Ideal) x0 x1 x2 (ix3 (0 : Fin 1) n d)
      = (∑ ch : Fin 256, x0 (ix3 (0 : Fin 1) ch n) * x1 (ix2 d ch)) + x2 (ix1 d) := by
  unfold k1_pay1
  rw [shapeCast_ab_1ab_apply, truncf_apply, addf_apply, mm_apply, broadcastTo_1b_ab_apply, shapeCast_a_1a_apply,
    shapeCast_self]
  simp only [truncf_apply, shapeCast_1ab_ab_apply, shapeCast_self]

/-- Kernel 1's output block, as a function of the three input blocks, at `(0, n, d)`: the one whole store
    leaves its payload, and each whole load reads its block. -/
theorem out1_3_apply (x0 : Vec Ideal S1x256x512 .f32) (x1 : Vec Ideal S768x256 .f32) (x2 : Vec Ideal S768 .f32)
    (n : Fin 512) (d : Fin 768) :
    Lin.out1_3 (F := Ideal) x0 x1 x2 (ix3 (0 : Fin 1) n d)
      = (∑ ch : Fin 256, x0 (ix3 (0 : Fin 1) ch n) * x1 (ix2 d ch)) + x2 (ix1 d) := by
  unfold Lin.out1_3
  rw [View.canon_unit_zero hz3, View.ld_unit_zero hz3, View.ld_unit_zero hz2, View.ld_unit_zero hz1]
  exact k1_pay1_apply x0 x1 x2 n d

end Cert.KernelIdeal.LinValue

end
-- ==== Proof.LinearFinal.lean ====
/- From blocks to the array, for the two linear-projection regions at the ideal instance: each region's output
   array [4, 4096, 768] ends holding, at `(b, n, d)`, `∑ ch, t (b, ch, n) * w (d, ch) + bias d` of the three
   arrays `t` [4, 256, 4096], `w` [768, 256], `bias` [768] the region finds. Point `p` of the 4 × 8 grid reads
   image `p / 8`'s tokens `512 (p % 8) …` (all channels) and the whole weight and bias, and writes image
   `p / 8`'s rows `512 (p % 8) …` of the output; the 32 blocks tile the output array. -/
import proofs.«168839_j16673063043431_2_alg».proof.Proof.LinearValue

noncomputable section

namespace Cert.KernelIdeal.LinFinal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! # The projection, index by index -/

/-- Feature `d` of token `n` of image `b`: the token's 256 channels against row `d` of the weight, plus the bias. -/
def linAt (t : S4x256x4096.Idx → EReal) (w : S768x256.Idx → EReal) (bias : S768.Idx → EReal)
    (b : Fin 4) (n : Fin 4096) (d : Fin 768) : EReal :=
  (∑ ch : Fin 256, t (ix3 b ch n) * w (ix2 d ch)) + bias (ix1 d)

/-- The whole projected array. -/
def linG (t : S4x256x4096.Idx → EReal) (w : S768x256.Idx → EReal) (bias : S768.Idx → EReal) : S4x4096x768.Idx → EReal :=
  fun i => linAt t w bias (i 0) (i 1) (i 2)

theorem linG_ix3 (t : S4x256x4096.Idx → EReal) (w : S768x256.Idx → EReal) (bias : S768.Idx → EReal)
    (b : Fin 4) (n : Fin 4096) (d : Fin 768) :
    linG t w bias (ix3 b n d) = (∑ ch : Fin 256, t (ix3 b ch n) * w (ix2 d ch)) + bias (ix1 d) := rfl

-- the TensorCore's buffer contents when a region is entered
variable (V : (c : Dev nD) → (b : Ref sig .tc) → Buf (Elt Ideal) ((c : Thread nD τ).loc b))

/-! # Region 0 -/

/-- The printed index maps, decided over the grid of 4 × 8 points: point `t` is image `t / 8`, token block `t % 8`;
    the activation window moves with the output window, the weight and the bias windows do not move. -/
theorem idx_facts0 : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 1) = 0
    ∧ win0_3.index t (0 : Fin 3) = t.val / 8 ∧ win0_3.index t (1 : Fin 3) = t.val % 8 ∧ win0_3.index t (2 : Fin 3) = 0 :=
  (by decide +kernel : ∀ t : Fin grid0.N, _)

/-- The activation window's block at point `t`: image `t / 8`, all channels, tokens `512 (t % 8) …`. -/
theorem iblk0_0_apply (c : Dev nD) (t : Fin cfg0.N) (x : S1x256x512.Idx) (k : S4x256x4096.Idx)
    (hk0 : (k 0).val = t.val / 8) (hk1 : (k 1).val = (x 1).val) (hk2 : (k 2).val = 512 * (t.val % 8) + (x 2).val) :
    (Lin.iblk0 V c 0 t : Vec Ideal S1x256x512 .f32) x = (V c (Pipeline.arrRef spec0 0) : S4x256x4096.Idx → EReal) k := by
  obtain ⟨e0, e1, e2, -⟩ := idx_facts0 t
  have hx0 : (x 0).val < 1 := (x 0).isLt
  unfold Lin.iblk0
  rw [View.read_apply]
  show V c main_v0 _ = V c main_v0 _
  refine congrArg _ ?_
  funext a
  apply Fin.ext
  match a with
  | ⟨0, _⟩ => show win0_0.index t 0 * 1 + 1 * (x 0).val = (k 0).val; rw [e0, hk0]; omega
  | ⟨1, _⟩ => show win0_0.index t 1 * 256 + 1 * (x 1).val = (k 1).val; rw [e1, hk1]; omega
  | ⟨2, _⟩ => show win0_0.index t 2 * 512 + 1 * (x 2).val = (k 2).val; rw [e2, hk2]; omega

/-- The weight window's block at every point is the whole weight. -/
theorem iblk0_1_apply (c : Dev nD) (t : Fin cfg0.N) (x : S768x256.Idx) :
    (Lin.iblk0 V c 1 t : Vec Ideal S768x256 .f32) x = (V c (Pipeline.arrRef spec0 1) : S768x256.Idx → EReal) x := by
  obtain ⟨-, -, -, e3, e4, -⟩ := idx_facts0 t
  unfold Lin.iblk0
  rw [View.read_apply]
  show V c main_v2 _ = V c main_v2 _
  refine congrArg _ ?_
  funext a
  apply Fin.ext
  match a with
  | ⟨0, _⟩ => show win0_1.index t 0 * 768 + 1 * (x 0).val = (x 0).val; rw [e3]; omega
  | ⟨1, _⟩ => show win0_1.index t 1 * 256 + 1 * (x 1).val = (x 1).val; rw [e4]; omega

/-- The bias window's block at every point is the whole bias. -/
theorem iblk0_2_apply (c : Dev nD) (t : Fin cfg0.N) (x : S768.Idx) :
    (Lin.iblk0 V c 2 t : Vec Ideal S768 .f32) x = (V c (Pipeline.arrRef spec0 2) : S768.Idx → EReal) x := by
  obtain ⟨-, -, -, -, -, e5, -⟩ := idx_facts0 t
  unfold Lin.iblk0
  rw [View.read_apply]
  show V c main_v3 _ = V c main_v3 _
  refine congrArg _ ?_
  funext a
  apply Fin.ext
  match a with
  | ⟨0, _⟩ => show win0_2.index t 0 * 768 + 1 * (x 0).val = (x 0).val; rw [e5]; omega

/-- The body's output block of input blocks that are the slices above of arrays `T`, `W`, `B` is, at a block
    index `j`, the projection `linG T W B` at the array index `i` under it. -/
theorem out0_at (x0 : Vec Ideal S1x256x512 .f32) (x1 : Vec Ideal S768x256 .f32) (x2 : Vec Ideal S768 .f32)
    (T : S4x256x4096.Idx → EReal) (W : S768x256.Idx → EReal) (B : S768.Idx → EReal) (p : Nat)
    (h0 : ∀ (x : S1x256x512.Idx) (k : S4x256x4096.Idx), (k 0).val = p / 8 → (k 1).val = (x 1).val →
      (k 2).val = 512 * (p % 8) + (x 2).val → x0 x = T k)
    (h1 : ∀ x, x1 x = W x) (h2 : ∀ x, x2 x = B x)
    (j : S1x512x768.Idx) (i : S4x4096x768.Idx) (hi0 : (i 0).val = p / 8)
    (hi1 : (i 1).val = 512 * (p % 8) + (j 1).val) (hi2 : (i 2).val = (j 2).val) :
    Lin.out0_3 (F := Ideal) x0 x1 x2 j = linG T W B i := by
  obtain ⟨u, n, d, rfl⟩ : ∃ (u : Fin 1) (n : Fin 512) (d : Fin 768), j = ix3 u n d := ⟨j 0, j 1, j 2, eq_ix3 j⟩
  obtain ⟨b, nn, d', rfl⟩ : ∃ (b : Fin 4) (nn : Fin 4096) (d' : Fin 768), i = ix3 b nn d' := ⟨i 0, i 1, i 2, eq_ix3 i⟩
  obtain rfl : u = 0 := Subsingleton.elim _ _
  obtain rfl : d' = d := Fin.ext hi2
  rw [LinValue.out0_3_apply, linG_ix3, h2]
  refine congrArg (· + B (ix1 d')) (Finset.sum_congr rfl fun ch _ => ?_)
  rw [h0 (ix3 (0 : Fin 1) ch n) (ix3 b ch nn) hi0 rfl hi1, h1]

/-- What point `t` writes back is block `t` of the projection of the arrays as the region finds them. -/
theorem flushed0_eq (c : Dev nD) (t : Fin cfg0.N) :
    (Lin.dat0 (F := Ideal) V c).flushed 3 t = ((cfg0.win 3).blk t).view.read (Elt Ideal)
      (linG (V c (Pipeline.arrRef spec0 0)) (V c (Pipeline.arrRef spec0 1)) (V c (Pipeline.arrRef spec0 2))) := by
  show (cfg0.win 3).cut (grid0.coords t) ((Lin.dat0 V c).after 3 t) = _
  rw [Lin.after0_3]
  obtain ⟨-, -, -, -, -, -, e6, e7, e8⟩ := idx_facts0 t
  funext j
  rw [View.read_apply]
  show Lin.out0_3 (Lin.iblk0 V c 0 t) (Lin.iblk0 V c 1 t) (Lin.iblk0 V c 2 t) j
    = linG (V c main_v0) (V c main_v2) (V c main_v3) (((cfg0.win 3).blk t).view.emb j)
  have hj0 : (j 0).val < 1 := (j 0).isLt
  refine out0_at (Lin.iblk0 V c 0 t) (Lin.iblk0 V c 1 t) (Lin.iblk0 V c 2 t) _ _ _ t.val
    (fun x k a0 a1 a2 => iblk0_0_apply V c t x k a0 a1 a2) (iblk0_1_apply V c t) (iblk0_2_apply V c t) j _ ?_ ?_ ?_
  · show win0_3.index t 0 * 1 + 1 * (j 0).val = t.val / 8; rw [e6]; omega
  · show win0_3.index t 1 * 512 + 1 * (j 1).val = 512 * (t.val % 8) + (j 1).val; rw [e7]; omega
  · show win0_3.index t 2 * 768 + 1 * (j 2).val = (j 2).val; rw [e8]; omega

/-- An index of the output array is in point `t`'s block iff each coordinate is in the block's range on its axis. -/
theorem mem_blk0 (t : Fin cfg0.N) (i : S4x4096x768.Idx) :
    i ∈ ((cfg0.win 3).blk t).view.set ↔ ∀ a : Fin 3, win0_3.index t a * S1x512x768.size a ≤ (i a).val
      ∧ (i a).val < win0_3.index t a * S1x512x768.size a + S1x512x768.size a := by
  show i ∈ ((View.whole main_v4).slice (win0_3.rect t)).set ↔ _
  rw [View.set_slice_whole, Rect.mem_set_unit]
  exact Iff.rfl

/-- Every index of the output array is in the block of the point of its image and its token block. -/
theorem cover0 (i : S4x4096x768.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 768 := (i 2).isLt
  have hN : cfg0.N = 32 := N_0
  obtain ⟨t, ht⟩ : ∃ t : Fin cfg0.N, t.val = (i 0).val * 8 + (i 1).val / 512 :=
    ⟨⟨(i 0).val * 8 + (i 1).val / 512, by rw [hN]; omega⟩, rfl⟩
  obtain ⟨-, -, -, -, -, -, e6, e7, e8⟩ := idx_facts0 t
  refine ⟨t, flush0_3 t, ?_⟩
  rw [mem_blk0]
  intro a
  match a with
  | ⟨0, _⟩ => show win0_3.index t 0 * 1 ≤ (i 0).val ∧ (i 0).val < win0_3.index t 0 * 1 + 1; rw [e6]; omega
  | ⟨1, _⟩ => show win0_3.index t 1 * 512 ≤ (i 1).val ∧ (i 1).val < win0_3.index t 1 * 512 + 512; rw [e7]; omega
  | ⟨2, _⟩ => show win0_3.index t 2 * 768 ≤ (i 2).val ∧ (i 2).val < win0_3.index t 2 * 768 + 768; rw [e8]; omega

/-- The output array after region 0: the projection of the arrays as the region finds them, everywhere. -/
theorem final0 (c : Dev nD) : (Lin.dat0 (F := Ideal) V c).arrAt 3 cfg0.N
    = linG (V c (Pipeline.arrRef spec0 0)) (V c (Pipeline.arrRef spec0 1)) (V c (Pipeline.arrRef spec0 2)) :=
  (Lin.dat0 V c).arrAt_eq_of_cover 3 _ (fun t _ => flushed0_eq V c t) cover0

/-! # Region 1 -/

/-- The printed index maps, decided over the grid of 4 × 8 points: point `t` is image `t / 8`, token block `t % 8`;
    the activation window moves with the output window, the weight and the bias windows do not move. -/
theorem idx_facts1 : ∀ t : Fin cfg1.N,
    win1_0.index t (0 : Fin 3) = t.val / 8 ∧ win1_0.index t (1 : Fin 3) = 0 ∧ win1_0.index t (2 : Fin 3) = t.val % 8
    ∧ win1_1.index t (0 : Fin 2) = 0 ∧ win1_1.index t (1 : Fin 2) = 0
    ∧ win1_2.index t (0 : Fin 1) = 0
    ∧ win1_3.index t (0 : Fin 3) = t.val / 8 ∧ win1_3.index t (1 : Fin 3) = t.val % 8 ∧ win1_3.index t (2 : Fin 3) = 0 :=
  (by decide +kernel : ∀ t : Fin grid1.N, _)

/-- The activation window's block at point `t`: image `t / 8`, all channels, tokens `512 (t % 8) …`. -/
theorem iblk1_0_apply (c : Dev nD) (t : Fin cfg1.N) (x : S1x256x512.Idx) (k : S4x256x4096.Idx)
    (hk0 : (k 0).val = t.val / 8) (hk1 : (k 1).val = (x 1).val) (hk2 : (k 2).val = 512 * (t.val % 8) + (x 2).val) :
    (Lin.iblk1 V c 0 t : Vec Ideal S1x256x512 .f32) x = (V c (Pipeline.arrRef spec1 0) : S4x256x4096.Idx → EReal) k := by
  obtain ⟨e0, e1, e2, -⟩ := idx_facts1 t
  have hx0 : (x 0).val < 1 := (x 0).isLt
  unfold Lin.iblk1
  rw [View.read_apply]
  show V c main_v1 _ = V c main_v1 _
  refine congrArg _ ?_
  funext a
  apply Fin.ext
  match a with
  | ⟨0, _⟩ => show win1_0.index t 0 * 1 + 1 * (x 0).val = (k 0).val; rw [e0, hk0]; omega
  | ⟨1, _⟩ => show win1_0.index t 1 * 256 + 1 * (x 1).val = (k 1).val; rw [e1, hk1]; omega
  | ⟨2, _⟩ => show win1_0.index t 2 * 512 + 1 * (x 2).val = (k 2).val; rw [e2, hk2]; omega

/-- The weight window's block at every point is the whole weight. -/
theorem iblk1_1_apply (c : Dev nD) (t : Fin cfg1.N) (x : S768x256.Idx) :
    (Lin.iblk1 V c 1 t : Vec Ideal S768x256 .f32) x = (V c (Pipeline.arrRef spec1 1) : S768x256.Idx → EReal) x := by
  obtain ⟨-, -, -, e3, e4, -⟩ := idx_facts1 t
  unfold Lin.iblk1
  rw [View.read_apply]
  show V c main_v2 _ = V c main_v2 _
  refine congrArg _ ?_
  funext a
  apply Fin.ext
  match a with
  | ⟨0, _⟩ => show win1_1.index t 0 * 768 + 1 * (x 0).val = (x 0).val; rw [e3]; omega
  | ⟨1, _⟩ => show win1_1.index t 1 * 256 + 1 * (x 1).val = (x 1).val; rw [e4]; omega

/-- The bias window's block at every point is the whole bias. -/
theorem iblk1_2_apply (c : Dev nD) (t : Fin cfg1.N) (x : S768.Idx) :
    (Lin.iblk1 V c 2 t : Vec Ideal S768 .f32) x = (V c (Pipeline.arrRef spec1 2) : S768.Idx → EReal) x := by
  obtain ⟨-, -, -, -, -, e5, -⟩ := idx_facts1 t
  unfold Lin.iblk1
  rw [View.read_apply]
  show V c main_v3 _ = V c main_v3 _
  refine congrArg _ ?_
  funext a
  apply Fin.ext
  match a with
  | ⟨0, _⟩ => show win1_2.index t 0 * 768 + 1 * (x 0).val = (x 0).val; rw [e5]; omega

/-- The body's output block of input blocks that are the slices above of arrays `T`, `W`, `B` is, at a block
    index `j`, the projection `linG T W B` at the array index `i` under it. -/
theorem out1_at (x0 : Vec Ideal S1x256x512 .f32) (x1 : Vec Ideal S768x256 .f32) (x2 : Vec Ideal S768 .f32)
    (T : S4x256x4096.Idx → EReal) (W : S768x256.Idx → EReal) (B : S768.Idx → EReal) (p : Nat)
    (h0 : ∀ (x : S1x256x512.Idx) (k : S4x256x4096.Idx), (k 0).val = p / 8 → (k 1).val = (x 1).val →
      (k 2).val = 512 * (p % 8) + (x 2).val → x0 x = T k)
    (h1 : ∀ x, x1 x = W x) (h2 : ∀ x, x2 x = B x)
    (j : S1x512x768.Idx) (i : S4x4096x768.Idx) (hi0 : (i 0).val = p / 8)
    (hi1 : (i 1).val = 512 * (p % 8) + (j 1).val) (hi2 : (i 2).val = (j 2).val) :
    Lin.out1_3 (F := Ideal) x0 x1 x2 j = linG T W B i := by
  obtain ⟨u, n, d, rfl⟩ : ∃ (u : Fin 1) (n : Fin 512) (d : Fin 768), j = ix3 u n d := ⟨j 0, j 1, j 2, eq_ix3 j⟩
  obtain ⟨b, nn, d', rfl⟩ : ∃ (b : Fin 4) (nn : Fin 4096) (d' : Fin 768), i = ix3 b nn d' := ⟨i 0, i 1, i 2, eq_ix3 i⟩
  obtain rfl : u = 0 := Subsingleton.elim _ _
  obtain rfl : d' = d := Fin.ext hi2
  rw [LinValue.out1_3_apply, linG_ix3, h2]
  refine congrArg (· + B (ix1 d')) (Finset.sum_congr rfl fun ch _ => ?_)
  rw [h0 (ix3 (0 : Fin 1) ch n) (ix3 b ch nn) hi0 rfl hi1, h1]

/-- What point `t` writes back is block `t` of the projection of the arrays as the region finds them. -/
theorem flushed1_eq (c : Dev nD) (t : Fin cfg1.N) :
    (Lin.dat1 (F := Ideal) V c).flushed 3 t = ((cfg1.win 3).blk t).view.read (Elt Ideal)
      (linG (V c (Pipeline.arrRef spec1 0)) (V c (Pipeline.arrRef spec1 1)) (V c (Pipeline.arrRef spec1 2))) := by
  show (cfg1.win 3).cut (grid1.coords t) ((Lin.dat1 V c).after 3 t) = _
  rw [Lin.after1_3]
  obtain ⟨-, -, -, -, -, -, e6, e7, e8⟩ := idx_facts1 t
  funext j
  rw [View.read_apply]
  show Lin.out1_3 (Lin.iblk1 V c 0 t) (Lin.iblk1 V c 1 t) (Lin.iblk1 V c 2 t) j
    = linG (V c main_v1) (V c main_v2) (V c main_v3) (((cfg1.win 3).blk t).view.emb j)
  have hj0 : (j 0).val < 1 := (j 0).isLt
  refine out1_at (Lin.iblk1 V c 0 t) (Lin.iblk1 V c 1 t) (Lin.iblk1 V c 2 t) _ _ _ t.val
    (fun x k a0 a1 a2 => iblk1_0_apply V c t x k a0 a1 a2) (iblk1_1_apply V c t) (iblk1_2_apply V c t) j _ ?_ ?_ ?_
  · show win1_3.index t 0 * 1 + 1 * (j 0).val = t.val / 8; rw [e6]; omega
  · show win1_3.index t 1 * 512 + 1 * (j 1).val = 512 * (t.val % 8) + (j 1).val; rw [e7]; omega
  · show win1_3.index t 2 * 768 + 1 * (j 2).val = (j 2).val; rw [e8]; omega

/-- An index of the output array is in point `t`'s block iff each coordinate is in the block's range on its axis. -/
theorem mem_blk1 (t : Fin cfg1.N) (i : S4x4096x768.Idx) :
    i ∈ ((cfg1.win 3).blk t).view.set ↔ ∀ a : Fin 3, win1_3.index t a * S1x512x768.size a ≤ (i a).val
      ∧ (i a).val < win1_3.index t a * S1x512x768.size a + S1x512x768.size a := by
  show i ∈ ((View.whole main_v5).slice (win1_3.rect t)).set ↔ _
  rw [View.set_slice_whole, Rect.mem_set_unit]
  exact Iff.rfl

/-- Every index of the output array is in the block of the point of its image and its token block. -/
theorem cover1 (i : S4x4096x768.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 768 := (i 2).isLt
  have hN : cfg1.N = 32 := N_1
  obtain ⟨t, ht⟩ : ∃ t : Fin cfg1.N, t.val = (i 0).val * 8 + (i 1).val / 512 :=
    ⟨⟨(i 0).val * 8 + (i 1).val / 512, by rw [hN]; omega⟩, rfl⟩
  obtain ⟨-, -, -, -, -, -, e6, e7, e8⟩ := idx_facts1 t
  refine ⟨t, flush1_3 t, ?_⟩
  rw [mem_blk1]
  intro a
  match a with
  | ⟨0, _⟩ => show win1_3.index t 0 * 1 ≤ (i 0).val ∧ (i 0).val < win1_3.index t 0 * 1 + 1; rw [e6]; omega
  | ⟨1, _⟩ => show win1_3.index t 1 * 512 ≤ (i 1).val ∧ (i 1).val < win1_3.index t 1 * 512 + 512; rw [e7]; omega
  | ⟨2, _⟩ => show win1_3.index t 2 * 768 ≤ (i 2).val ∧ (i 2).val < win1_3.index t 2 * 768 + 768; rw [e8]; omega

/-- The output array after region 1: the projection of the arrays as the region finds them, everywhere. -/
theorem final1 (c : Dev nD) : (Lin.dat1 (F := Ideal) V c).arrAt 3 cfg1.N
    = linG (V c (Pipeline.arrRef spec1 0)) (V c (Pipeline.arrRef spec1 1)) (V c (Pipeline.arrRef spec1 2)) :=
  (Lin.dat1 V c).arrAt_eq_of_cover 3 _ (fun t _ => flushed1_eq V c t) cover1

end Cert.KernelIdeal.LinFinal

end
-- ==== Proof.HostIn.lean ====
/- What the four host operations before the kernels leave, read at an index, at the ideal instance. The two
   images [4, 256, 64, 64] are reshaped to token streams [4, 256, 4096] (token n is the position (n / 64, n % 64));
   the three projections' weights [256, 256] are laid one under another into one [768, 256] matrix and their biases
   [256] into one [768] vector: rows 0 … 255 the query projection, 256 … 511 the key projection, 512 … 767 the value
   projection. So the fused linear map of a stream, read at the feature 256 j + d, is projection j at feature d. -/
import proofs.«168839_j16673063043431_2_alg».proof.Proof.Gen.KernelIdeal.Launch
import proofs.«168839_j16673063043431_2_alg».proof.Proof.Spec
import proofs.«168839_j16673063043431_2_alg».proof.Proof.LinearFinal
import Idealize.ShloMosaic.Lib.StableHlo.Run
import Idealize.ShloMosaic.Lib.ValueIdx
import Idealize.ShloMosaic.Lib.Pipeline.Value

noncomputable section

namespace Cert.KernelIdeal.HostIn

open Cert.KernelIdeal Cert.KernelIdeal.Gen
open Idealize.ShloMosaic Idealize.ShloMosaic.ValueIdx Idealize.SL.Sem
open scoped BigOperators

-- the buffers' contents before the host operations; never unfolded
variable (V0 : Valuation τ sig (Elt Ideal))

/-! ## The four results as terms of the arguments -/

theorem v0_eq : (StableHlo.after (hostOps0 (F := Ideal)) V0 (Proc.devRef .tc main_v0) : S4x256x4096.Idx → EReal)
    = shapeCast S4x256x4096 (V0 (Proc.devRef .tc main_arg0)) shapeCasts_S4x256x64x64_S4x256x4096 := by
  after_results; rfl

theorem v1_eq : (StableHlo.after (hostOps0 (F := Ideal)) V0 (Proc.devRef .tc main_v1) : S4x256x4096.Idx → EReal)
    = shapeCast S4x256x4096 (V0 (Proc.devRef .tc main_arg1)) shapeCasts_S4x256x64x64_S4x256x4096 := by
  after_results; rfl

theorem v2_eq : (StableHlo.after (hostOps0 (F := Ideal)) V0 (Proc.devRef .tc main_v2) : S768x256.Idx → EReal)
    = concatenate S768x256 0 [⟨S256x256, V0 (Proc.devRef .tc main_arg2)⟩, ⟨S256x256, V0 (Proc.devRef .tc main_arg4)⟩,
        ⟨S256x256, V0 (Proc.devRef .tc main_arg6)⟩] concatenates_S256x256_S256x256_S256x256_S768x256_d0 := by
  after_results; rfl

theorem v3_eq : (StableHlo.after (hostOps0 (F := Ideal)) V0 (Proc.devRef .tc main_v3) : S768.Idx → EReal)
    = concatenate S768 0 [⟨S256, V0 (Proc.devRef .tc main_arg3)⟩, ⟨S256, V0 (Proc.devRef .tc main_arg5)⟩,
        ⟨S256, V0 (Proc.devRef .tc main_arg7)⟩] concatenates_S256_S256_S256_S768_d0 := by
  after_results; rfl

/-- The `j`-th of three. -/
def sel3 {α : Type} (a b c : α) : Fin 3 → α
  | 0 => a
  | 1 => b
  | 2 => c

/-! ## A reshaped image read at a token -/

/-- An image batch viewed as token streams reads, at (image, channel, token), the image at the token's position. -/
theorem tokens_apply (X : S4x256x64x64.Idx → EReal) (b : Fin 4) (ch : Fin 256) (n : Fin 4096) :
    shapeCast S4x256x4096 X shapeCasts_S4x256x64x64_S4x256x4096 (ix3 b ch n) = Spec.tok X b n ch := by
  unfold Spec.tok
  refine shapeCast_apply X _ (ix3 b ch n) _ ?_
  rw [Shape.rowMajor_val_four, Shape.rowMajor_val_three]
  show ((b.val * 256 + ch.val) * 64 + n.val / 64) * 64 + n.val % 64 = (b.val * 256 + ch.val) * 4096 + n.val
  omega

theorem v0_apply (b : Fin 4) (ch : Fin 256) (n : Fin 4096) :
    (StableHlo.after (hostOps0 (F := Ideal)) V0 (Proc.devRef .tc main_v0) : S4x256x4096.Idx → EReal) (ix3 b ch n)
      = Spec.tok (V0 (Proc.devRef .tc main_arg0)) b n ch := by
  rw [v0_eq, tokens_apply]

theorem v1_apply (b : Fin 4) (ch : Fin 256) (n : Fin 4096) :
    (StableHlo.after (hostOps0 (F := Ideal)) V0 (Proc.devRef .tc main_v1) : S4x256x4096.Idx → EReal) (ix3 b ch n)
      = Spec.tok (V0 (Proc.devRef .tc main_arg1)) b n ch := by
  rw [v1_eq, tokens_apply]

/-! ## The stacked weights and biases read at a row -/

/-- Three [256, 256] matrices laid one under another read, at row `256 j + d`, matrix `j` at row `d`. -/
theorem stackW_apply (W0 W1 W2 : S256x256.Idx → EReal) (j : Fin 3) (d : Fin 256) (ch : Fin 256) (r : Fin 768)
    (hr : r.val = 256 * j.val + d.val) :
    concatenate S768x256 0 [⟨S256x256, W0⟩, ⟨S256x256, W1⟩, ⟨S256x256, W2⟩]
        concatenates_S256x256_S256x256_S256x256_S768x256_d0 (ix2 r ch)
      = (sel3 W0 W1 W2 j) (ix2 d ch) := by
  have hi : ∀ b : Fin S256x256.rank, b.cast (rfl : S256x256.rank = S768x256.rank) ≠ (0 : Fin S768x256.rank) →
      ((ix2 d ch : S256x256.Idx) b).val = ((ix2 r ch : S768x256.Idx) (b.cast rfl)).val := fun b hb => by
    match b with
    | ⟨0, _⟩ => exact absurd rfl hb
    | ⟨1, _⟩ => rfl
  match j with
  | 0 =>
    exact concatenate_apply_piece (0 : Fin S768x256.rank) _ _ (ix2 r ch) 0 (by show (0 : Nat) < 3; decide) S256x256 W0 rfl rfl 0 rfl
      (ix2 d ch) hi (by show 0 + d.val = r.val; rw [hr]; simp)
  | 1 =>
    exact concatenate_apply_piece (0 : Fin S768x256.rank) _ _ (ix2 r ch) 1 (by show (1 : Nat) < 3; decide) S256x256 W1 rfl rfl 256 rfl
      (ix2 d ch) hi (by show 256 + d.val = r.val; rw [hr]; simp)
  | 2 =>
    exact concatenate_apply_piece (0 : Fin S768x256.rank) _ _ (ix2 r ch) 2 (by show (2 : Nat) < 3; decide) S256x256 W2 rfl rfl 512 rfl
      (ix2 d ch) hi (by show 512 + d.val = r.val; rw [hr]; simp)

/-- Three [256] vectors laid end to end read, at `256 j + d`, vector `j` at `d`. -/
theorem stackB_apply (B0 B1 B2 : S256.Idx → EReal) (j : Fin 3) (d : Fin 256) (r : Fin 768)
    (hr : r.val = 256 * j.val + d.val) :
    concatenate S768 0 [⟨S256, B0⟩, ⟨S256, B1⟩, ⟨S256, B2⟩] concatenates_S256_S256_S256_S768_d0 (ix1 r)
      = (sel3 B0 B1 B2 j) (ix1 d) := by
  have hi : ∀ b : Fin S256.rank, b.cast (rfl : S256.rank = S768.rank) ≠ (0 : Fin S768.rank) →
      ((ix1 d : S256.Idx) b).val = ((ix1 r : S768.Idx) (b.cast rfl)).val := fun b hb => by
    match b with
    | ⟨0, _⟩ => exact absurd rfl hb
  match j with
  | 0 =>
    exact concatenate_apply_piece (0 : Fin S768.rank) _ _ (ix1 r) 0 (by show (0 : Nat) < 3; decide) S256 B0 rfl rfl 0 rfl
      (ix1 d) hi (by show 0 + d.val = r.val; rw [hr]; simp)
  | 1 =>
    exact concatenate_apply_piece (0 : Fin S768.rank) _ _ (ix1 r) 1 (by show (1 : Nat) < 3; decide) S256 B1 rfl rfl 256 rfl
      (ix1 d) hi (by show 256 + d.val = r.val; rw [hr]; simp)
  | 2 =>
    exact concatenate_apply_piece (0 : Fin S768.rank) _ _ (ix1 r) 2 (by show (2 : Nat) < 3; decide) S256 B2 rfl rfl 512 rfl
      (ix1 d) hi (by show 512 + d.val = r.val; rw [hr]; simp)

/-! ## The stacked arrays after the host operations -/

/-- Row `256 j + d` of the stack. -/
def rowOf (j : Fin 3) (d : Fin 256) : Fin 768 := ⟨256 * j.val + d.val, by have := j.isLt; have := d.isLt; omega⟩
theorem rowOf_val (j : Fin 3) (d : Fin 256) : (rowOf j d).val = 256 * j.val + d.val := rfl

theorem v2_apply (j : Fin 3) (d ch : Fin 256) (r : Fin 768) (hr : r.val = 256 * j.val + d.val) :
    (StableHlo.after (hostOps0 (F := Ideal)) V0 (Proc.devRef .tc main_v2) : S768x256.Idx → EReal) (ix2 r ch)
      = (sel3 (V0 (Proc.devRef .tc main_arg2)) (V0 (Proc.devRef .tc main_arg4)) (V0 (Proc.devRef .tc main_arg6)) j : S256x256.Idx → EReal) (ix2 d ch) := by
  rw [v2_eq]; exact stackW_apply _ _ _ j d ch r hr
theorem v2_q (d ch : Fin 256) : (StableHlo.after (hostOps0 (F := Ideal)) V0 (Proc.devRef .tc main_v2) : S768x256.Idx → EReal) (ix2 (rowOf 0 d) ch) = V0 (Proc.devRef .tc main_arg2) (ix2 d ch) :=
  v2_apply V0 0 d ch _ rfl
theorem v2_k (d ch : Fin 256) : (StableHlo.after (hostOps0 (F := Ideal)) V0 (Proc.devRef .tc main_v2) : S768x256.Idx → EReal) (ix2 (rowOf 1 d) ch) = V0 (Proc.devRef .tc main_arg4) (ix2 d ch) :=
  v2_apply V0 1 d ch _ rfl
theorem v2_v (d ch : Fin 256) : (StableHlo.after (hostOps0 (F := Ideal)) V0 (Proc.devRef .tc main_v2) : S768x256.Idx → EReal) (ix2 (rowOf 2 d) ch) = V0 (Proc.devRef .tc main_arg6) (ix2 d ch) :=
  v2_apply V0 2 d ch _ rfl

theorem v3_apply (j : Fin 3) (d : Fin 256) (r : Fin 768) (hr : r.val = 256 * j.val + d.val) :
    (StableHlo.after (hostOps0 (F := Ideal)) V0 (Proc.devRef .tc main_v3) : S768.Idx → EReal) (ix1 r)
      = (sel3 (V0 (Proc.devRef .tc main_arg3)) (V0 (Proc.devRef .tc main_arg5)) (V0 (Proc.devRef .tc main_arg7)) j : S256.Idx → EReal) (ix1 d) := by
  rw [v3_eq]; exact stackB_apply _ _ _ j d r hr
theorem v3_q (d : Fin 256) : (StableHlo.after (hostOps0 (F := Ideal)) V0 (Proc.devRef .tc main_v3) : S768.Idx → EReal) (ix1 (rowOf 0 d)) = V0 (Proc.devRef .tc main_arg3) (ix1 d) :=
  v3_apply V0 0 d _ rfl
theorem v3_k (d : Fin 256) : (StableHlo.after (hostOps0 (F := Ideal)) V0 (Proc.devRef .tc main_v3) : S768.Idx → EReal) (ix1 (rowOf 1 d)) = V0 (Proc.devRef .tc main_arg5) (ix1 d) :=
  v3_apply V0 1 d _ rfl
theorem v3_v (d : Fin 256) : (StableHlo.after (hostOps0 (F := Ideal)) V0 (Proc.devRef .tc main_v3) : S768.Idx → EReal) (ix1 (rowOf 2 d)) = V0 (Proc.devRef .tc main_arg7) (ix1 d) :=
  v3_apply V0 2 d _ rfl

/-! ## The fused linear map is the three projections -/

/-- The fused linear map of a token stream against stacked weights and biases, read at feature `256 j + d`, is the
    projection by weight `j` and bias `j` at feature `d`. -/
theorem linG_stack (t : S4x256x4096.Idx → EReal) (X : S4x256x64x64.Idx → EReal)
    (ht : ∀ (b : Fin 4) (ch : Fin 256) (n : Fin 4096), t (ix3 b ch n) = Spec.tok X b n ch)
    (W0 W1 W2 : S256x256.Idx → EReal) (B0 B1 B2 : S256.Idx → EReal)
    (j : Fin 3) (b : Fin 4) (n : Fin 4096) (d : Fin 256) (r : Fin 768) (hr : r.val = 256 * j.val + d.val) :
    LinFinal.linG t
        (concatenate S768x256 0 [⟨S256x256, W0⟩, ⟨S256x256, W1⟩, ⟨S256x256, W2⟩] concatenates_S256x256_S256x256_S256x256_S768x256_d0)
        (concatenate S768 0 [⟨S256, B0⟩, ⟨S256, B1⟩, ⟨S256, B2⟩] concatenates_S256_S256_S256_S768_d0) (ix3 b n r)
      = Spec.proj X (sel3 W0 W1 W2 j) (sel3 B0 B1 B2 j) b n d := by
  rw [LinFinal.linG_ix3]
  unfold Spec.proj
  rw [stackB_apply B0 B1 B2 j d r hr]
  refine congrArg (fun s : EReal => s + sel3 B0 B1 B2 j (ix1 d)) (Finset.sum_congr rfl fun ch _ => ?_)
  rw [ht, stackW_apply W0 W1 W2 j d ch r hr]

/-- Stream 1 (image `main_arg0`): the fused linear map of its tokens, read at feature `256 j + d`, is projection `j`
    (0 the queries', 1 the keys', 2 the values') of the image's tokens at feature `d`. -/
theorem lin0 (j : Fin 3) (b : Fin 4) (n : Fin 4096) (d : Fin 256) (r : Fin 768) (hr : r.val = 256 * j.val + d.val) :
    LinFinal.linG (StableHlo.after (hostOps0 (F := Ideal)) V0 (Proc.devRef .tc main_v0)) (StableHlo.after (hostOps0 (F := Ideal)) V0 (Proc.devRef .tc main_v2)) (StableHlo.after (hostOps0 (F := Ideal)) V0 (Proc.devRef .tc main_v3)) (ix3 b n r)
      = Spec.proj (V0 (Proc.devRef .tc main_arg0))
          (sel3 (V0 (Proc.devRef .tc main_arg2)) (V0 (Proc.devRef .tc main_arg4)) (V0 (Proc.devRef .tc main_arg6)) j)
          (sel3 (V0 (Proc.devRef .tc main_arg3)) (V0 (Proc.devRef .tc main_arg5)) (V0 (Proc.devRef .tc main_arg7)) j) b n d := by
  rw [v2_eq, v3_eq]
  exact linG_stack _ _ (v0_apply V0) _ _ _ _ _ _ j b n d r hr

theorem lin0_q (b : Fin 4) (n : Fin 4096) (d : Fin 256) :
    LinFinal.linG (StableHlo.after (hostOps0 (F := Ideal)) V0 (Proc.devRef .tc main_v0)) (StableHlo.after (hostOps0 (F := Ideal)) V0 (Proc.devRef .tc main_v2)) (StableHlo.after (hostOps0 (F := Ideal)) V0 (Proc.devRef .tc main_v3)) (ix3 b n (rowOf 0 d))
      = Spec.proj (V0 (Proc.devRef .tc main_arg0)) (V0 (Proc.devRef .tc main_arg2)) (V0 (Proc.devRef .tc main_arg3)) b n d :=
  lin0 V0 0 b n d _ rfl
theorem lin0_k (b : Fin 4) (n : Fin 4096) (d : Fin 256) :
    LinFinal.linG (StableHlo.after (hostOps0 (F := Ideal)) V0 (Proc.devRef .tc main_v0)) (StableHlo.after (hostOps0 (F := Ideal)) V0 (Proc.devRef .tc main_v2)) (StableHlo.after (hostOps0 (F := Ideal)) V0 (Proc.devRef .tc main_v3)) (ix3 b n (rowOf 1 d))
      = Spec.proj (V0 (Proc.devRef .tc main_arg0)) (V0 (Proc.devRef .tc main_arg4)) (V0 (Proc.devRef .tc main_arg5)) b n d :=
  lin0 V0 1 b n d _ rfl
theorem lin0_v (b : Fin 4) (n : Fin 4096) (d : Fin 256) :
    LinFinal.linG (StableHlo.after (hostOps0 (F := Ideal)) V0 (Proc.devRef .tc main_v0)) (StableHlo.after (hostOps0 (F := Ideal)) V0 (Proc.devRef .tc main_v2)) (StableHlo.after (hostOps0 (F := Ideal)) V0 (Proc.devRef .tc main_v3)) (ix3 b n (rowOf 2 d))
      = Spec.proj (V0 (Proc.devRef .tc main_arg0)) (V0 (Proc.devRef .tc main_arg6)) (V0 (Proc.devRef .tc main_arg7)) b n d :=
  lin0 V0 2 b n d _ rfl

/-- Stream 2 (image `main_arg1`): the fused linear map of its tokens, read at feature `256 j + d`, is projection `j`
    (0 the queries', 1 the keys', 2 the values') of the image's tokens at feature `d`. -/
theorem lin1 (j : Fin 3) (b : Fin 4) (n : Fin 4096) (d : Fin 256) (r : Fin 768) (hr : r.val = 256 * j.val + d.val) :
    LinFinal.linG (StableHlo.after (hostOps0 (F := Ideal)) V0 (Proc.devRef .tc main_v1)) (StableHlo.after (hostOps0 (F := Ideal)) V0 (Proc.devRef .tc main_v2)) (StableHlo.after (hostOps0 (F := Ideal)) V0 (Proc.devRef .tc main_v3)) (ix3 b n r)
      = Spec.proj (V0 (Proc.devRef .tc main_arg1))
          (sel3 (V0 (Proc.devRef .tc main_arg2)) (V0 (Proc.devRef .tc main_arg4)) (V0 (Proc.devRef .tc main_arg6)) j)
          (sel3 (V0 (Proc.devRef .tc main_arg3)) (V0 (Proc.devRef .tc main_arg5)) (V0 (Proc.devRef .tc main_arg7)) j) b n d := by
  rw [v2_eq, v3_eq]
  exact linG_stack _ _ (v1_apply V0) _ _ _ _ _ _ j b n d r hr

theorem lin1_q (b : Fin 4) (n : Fin 4096) (d : Fin 256) :
    LinFinal.linG (StableHlo.after (hostOps0 (F := Ideal)) V0 (Proc.devRef .tc main_v1)) (StableHlo.after (hostOps0 (F := Ideal)) V0 (Proc.devRef .tc main_v2)) (StableHlo.after (hostOps0 (F := Ideal)) V0 (Proc.devRef .tc main_v3)) (ix3 b n (rowOf 0 d))
      = Spec.proj (V0 (Proc.devRef .tc main_arg1)) (V0 (Proc.devRef .tc main_arg2)) (V0 (Proc.devRef .tc main_arg3)) b n d :=
  lin1 V0 0 b n d _ rfl
theorem lin1_k (b : Fin 4) (n : Fin 4096) (d : Fin 256) :
    LinFinal.linG (StableHlo.after (hostOps0 (F := Ideal)) V0 (Proc.devRef .tc main_v1)) (StableHlo.after (hostOps0 (F := Ideal)) V0 (Proc.devRef .tc main_v2)) (StableHlo.after (hostOps0 (F := Ideal)) V0 (Proc.devRef .tc main_v3)) (ix3 b n (rowOf 1 d))
      = Spec.proj (V0 (Proc.devRef .tc main_arg1)) (V0 (Proc.devRef .tc main_arg4)) (V0 (Proc.devRef .tc main_arg5)) b n d :=
  lin1 V0 1 b n d _ rfl
theorem lin1_v (b : Fin 4) (n : Fin 4096) (d : Fin 256) :
    LinFinal.linG (StableHlo.after (hostOps0 (F := Ideal)) V0 (Proc.devRef .tc main_v1)) (StableHlo.after (hostOps0 (F := Ideal)) V0 (Proc.devRef .tc main_v2)) (StableHlo.after (hostOps0 (F := Ideal)) V0 (Proc.devRef .tc main_v3)) (ix3 b n (rowOf 2 d))
      = Spec.proj (V0 (Proc.devRef .tc main_arg1)) (V0 (Proc.devRef .tc main_arg6)) (V0 (Proc.devRef .tc main_arg7)) b n d :=
  lin1 V0 2 b n d _ rfl

end Cert.KernelIdeal.HostIn

end
-- ==== Proof.RealClosure.lean ====
/-
  The extended reals the specification computes from real inputs are real: a sum of products of reals plus a real is
  (the coercion of) a real, so the linear projections and the scores are.
-/
import proofs.«168839_j16673063043431_2_alg».proof.Proof.Spec
import proofs.«168839_j16673063043431_2_alg».proof.Proof.LinearFinal
import proofs.«168839_j16673063043431_2_alg».proof.Proof.LibOnlineSoftmax

noncomputable section

open scoped BigOperators

namespace Cert.Spec.RealClosure

open Idealize.ShloMosaic Idealize.ShloMosaic.ValueIdx Cert.KernelIdeal

/-- A finite sum of products of reals is real. -/
theorem sum_mul_real {ι : Type} (s : Finset ι) (f g : ι → EReal)
    (hf : ∀ i, ∃ x : ℝ, f i = (x : EReal)) (hg : ∀ i, ∃ x : ℝ, g i = (x : EReal)) :
    ∃ x : ℝ, (∑ i ∈ s, f i * g i) = (x : EReal) := by
  choose f' hf' using hf
  choose g' hg' using hg
  refine ⟨∑ i ∈ s, f' i * g' i, ?_⟩
  rw [Cert.LibOnlineSoftmax.coe_sum]
  exact Finset.sum_congr rfl fun i _ => by rw [hf' i, hg' i, EReal.coe_mul]

/-- A finite sum of products of reals plus a real is real. -/
theorem sum_mul_add_real {ι : Type} (s : Finset ι) (f g : ι → EReal) (c : EReal)
    (hf : ∀ i, ∃ x : ℝ, f i = (x : EReal)) (hg : ∀ i, ∃ x : ℝ, g i = (x : EReal)) (hc : ∃ x : ℝ, c = (x : EReal)) :
    ∃ x : ℝ, (∑ i ∈ s, f i * g i) + c = (x : EReal) := by
  obtain ⟨y, hy⟩ := sum_mul_real s f g hf hg
  obtain ⟨c', hc'⟩ := hc
  exact ⟨y + c', by rw [hy, hc', EReal.coe_add]⟩

/-- A projection of real tokens by a real weight and bias is real. -/
theorem proj_real (X : S4x256x64x64.Idx → EReal) (W : S256x256.Idx → EReal) (bias : S256.Idx → EReal)
    (hX : ∀ i, ∃ x : ℝ, X i = (x : EReal)) (hW : ∀ i, ∃ x : ℝ, W i = (x : EReal))
    (hb : ∀ i, ∃ x : ℝ, bias i = (x : EReal)) :
    ∀ b n d, ∃ x : ℝ, proj X W bias b n d = (x : EReal) := fun b n d => by
  unfold proj tok
  exact sum_mul_add_real Finset.univ _ _ _ (fun _ => hX _) (fun _ => hW _) (hb _)

/-- The projected array of real tokens, weight and bias is real. -/
theorem linG_real (t : Cert.KernelIdeal.S4x256x4096.Idx → EReal) (w : Cert.KernelIdeal.S768x256.Idx → EReal)
    (bias : Cert.KernelIdeal.S768.Idx → EReal)
    (ht : ∀ i, ∃ x : ℝ, t i = (x : EReal)) (hw : ∀ i, ∃ x : ℝ, w i = (x : EReal))
    (hb : ∀ i, ∃ x : ℝ, bias i = (x : EReal)) :
    ∀ i, ∃ x : ℝ, Cert.KernelIdeal.LinFinal.linG t w bias i = (x : EReal) := fun i => by
  unfold Cert.KernelIdeal.LinFinal.linG Cert.KernelIdeal.LinFinal.linAt
  exact sum_mul_add_real Finset.univ _ _ _ (fun _ => ht _) (fun _ => hw _) (hb _)

/-- The scores of real queries against real keys are real. -/
theorem score_real (Q Kk : Fin 4 → Fin 4096 → Fin 256 → EReal)
    (hQ : ∀ b n c, ∃ x : ℝ, Q b n c = (x : EReal)) (hK : ∀ b n c, ∃ x : ℝ, Kk b n c = (x : EReal)) :
    ∀ b n mm, ∃ x : ℝ, score Q Kk b n mm = (x : EReal) := fun b n mm => by
  unfold score
  exact sum_mul_real Finset.univ _ _ (fun c => hQ b n c) (fun c => hK b mm c)

end Cert.Spec.RealClosure

end
-- ==== Proof.QkvSpec.lean ====
/- The glue between the kernel's arrays and the specification, at the ideal instance. After the host operations
   and the two linear regions, stream 1's fused projection `Aof` and stream 2's `Bof` hold, at feature
   `256 j + d` of token `n`, projection `j` (query, key, value) of the stream's token at feature `d`. So the
   attention kernel's scores and values, read off these arrays, are the specification's scores of the projected
   queries against the other stream's projected keys, and its projected values; real inputs give real arrays; and
   the softmax-weighted sum over the keys written with the kernel's row maximum is the specification's attention. -/
import proofs.«168839_j16673063043431_2_alg».proof.Proof.HostIn
import proofs.«168839_j16673063043431_2_alg».proof.Proof.Spec
import proofs.«168839_j16673063043431_2_alg».proof.Proof.RealClosure
import proofs.«168839_j16673063043431_2_alg».proof.Proof.AttnAcc

noncomputable section

namespace Cert.KernelIdeal.QkvSpec

open Cert.KernelIdeal Cert.KernelIdeal.Gen
open Idealize.ShloMosaic Idealize.ShloMosaic.ValueIdx Idealize.SL.Sem
open Cert.KernelIdeal.AttnAcc (sA vA chq_lt chk_lt chv_lt)

open scoped BigOperators

/-! ## The host tail's reshape -/

/-- A token stream viewed as an image batch reads, at (image, channel, row, column), the stream at the
    position's token. -/
theorem tail_apply (X : S4x256x4096.Idx → EReal) (b : Fin 4) (d : Fin 256) (h w : Fin 64) :
    shapeCast S4x256x64x64 X shapeCasts_S4x256x4096_S4x256x64x64 (ix4 b d h w) = X (ix3 b d (Spec.pos h w)) := by
  refine shapeCast_apply X _ (ix4 b d h w) _ ?_
  rw [Shape.rowMajor_val_four, Shape.rowMajor_val_three]
  show (b.val * 256 + d.val) * 4096 + (h.val * 64 + w.val) = ((b.val * 256 + d.val) * 64 + h.val) * 64 + w.val
  omega

-- the buffers' contents before the host operations; never unfolded
variable (V0 : Valuation τ sig (Elt Ideal))

/-! ## The two fused projections -/

/-- Stream 1's fused projection: what region 0 leaves, over the arrays the host operations leave. -/
abbrev Aof : S4x4096x768.Idx → EReal :=
  LinFinal.linG (StableHlo.after (hostOps0 (F := Ideal)) V0 (Proc.devRef .tc main_v0)) (StableHlo.after (hostOps0 (F := Ideal)) V0 (Proc.devRef .tc main_v2)) (StableHlo.after (hostOps0 (F := Ideal)) V0 (Proc.devRef .tc main_v3))
/-- Stream 2's fused projection: what region 1 leaves. -/
abbrev Bof : S4x4096x768.Idx → EReal :=
  LinFinal.linG (StableHlo.after (hostOps0 (F := Ideal)) V0 (Proc.devRef .tc main_v1)) (StableHlo.after (hostOps0 (F := Ideal)) V0 (Proc.devRef .tc main_v2)) (StableHlo.after (hostOps0 (F := Ideal)) V0 (Proc.devRef .tc main_v3))

/-! ## Scores and values

Feature `ch` of a token is its query feature, `256 + ch` its key feature, `512 + d` its value feature. The sums
and entries below are written out, with the bounds of the feature indices as arbitrary proofs, so that any
definition that unfolds to them matches. -/

theorem qrow (ch : Fin 256) (h : (ch : ℕ) < 768) : ((⟨ch, h⟩ : Fin 768) : ℕ) = 256 * ((0 : Fin 3) : ℕ) + ch := by
  show (ch : ℕ) = 256 * 0 + ch; omega
theorem krow (ch : Fin 256) (h : 256 + (ch : ℕ) < 768) : ((⟨256 + ch, h⟩ : Fin 768) : ℕ) = 256 * ((1 : Fin 3) : ℕ) + ch := by
  show 256 + (ch : ℕ) = 256 * 1 + ch; omega
theorem vrow (d : Fin 256) (h : 512 + (d : ℕ) < 768) : ((⟨512 + d, h⟩ : Fin 768) : ℕ) = 256 * ((2 : Fin 3) : ℕ) + d := by
  show 512 + (d : ℕ) = 256 * 2 + d; omega

/-- Stream 1's query features are its projected queries, and so on for the six (stream, projection) pairs. -/
theorem Aof_q (b : Fin 4) (n : Fin 4096) (ch : Fin 256) (h : (ch : ℕ) < 768) :
    Aof V0 (ix3 b n ⟨ch, h⟩) = Spec.proj (V0 (Proc.devRef .tc main_arg0)) (V0 (Proc.devRef .tc main_arg2)) (V0 (Proc.devRef .tc main_arg3)) b n ch := HostIn.lin0 V0 0 b n ch _ (qrow ch h)
theorem Aof_k (b : Fin 4) (n : Fin 4096) (ch : Fin 256) (h : 256 + (ch : ℕ) < 768) :
    Aof V0 (ix3 b n ⟨256 + ch, h⟩) = Spec.proj (V0 (Proc.devRef .tc main_arg0)) (V0 (Proc.devRef .tc main_arg4)) (V0 (Proc.devRef .tc main_arg5)) b n ch := HostIn.lin0 V0 1 b n ch _ (krow ch h)
theorem Aof_v (b : Fin 4) (n : Fin 4096) (d : Fin 256) (h : 512 + (d : ℕ) < 768) :
    Aof V0 (ix3 b n ⟨512 + d, h⟩) = Spec.proj (V0 (Proc.devRef .tc main_arg0)) (V0 (Proc.devRef .tc main_arg6)) (V0 (Proc.devRef .tc main_arg7)) b n d := HostIn.lin0 V0 2 b n d _ (vrow d h)
theorem Bof_q (b : Fin 4) (n : Fin 4096) (ch : Fin 256) (h : (ch : ℕ) < 768) :
    Bof V0 (ix3 b n ⟨ch, h⟩) = Spec.proj (V0 (Proc.devRef .tc main_arg1)) (V0 (Proc.devRef .tc main_arg2)) (V0 (Proc.devRef .tc main_arg3)) b n ch := HostIn.lin1 V0 0 b n ch _ (qrow ch h)
theorem Bof_k (b : Fin 4) (n : Fin 4096) (ch : Fin 256) (h : 256 + (ch : ℕ) < 768) :
    Bof V0 (ix3 b n ⟨256 + ch, h⟩) = Spec.proj (V0 (Proc.devRef .tc main_arg1)) (V0 (Proc.devRef .tc main_arg4)) (V0 (Proc.devRef .tc main_arg5)) b n ch := HostIn.lin1 V0 1 b n ch _ (krow ch h)
theorem Bof_v (b : Fin 4) (n : Fin 4096) (d : Fin 256) (h : 512 + (d : ℕ) < 768) :
    Bof V0 (ix3 b n ⟨512 + d, h⟩) = Spec.proj (V0 (Proc.devRef .tc main_arg1)) (V0 (Proc.devRef .tc main_arg6)) (V0 (Proc.devRef .tc main_arg7)) b n d := HostIn.lin1 V0 2 b n d _ (vrow d h)

/-- Stream 1's queries against stream 2's keys. -/
theorem score_spec (b : Fin 4) (n mm : Fin 4096) (h1 : ∀ ch : Fin 256, (ch : ℕ) < 768)
    (h2 : ∀ ch : Fin 256, 256 + (ch : ℕ) < 768) :
    (∑ ch : Fin 256, Aof V0 (ix3 b n ⟨ch, h1 ch⟩) * Bof V0 (ix3 b mm ⟨256 + ch, h2 ch⟩))
      = Spec.score (Spec.proj (V0 (Proc.devRef .tc main_arg0)) (V0 (Proc.devRef .tc main_arg2)) (V0 (Proc.devRef .tc main_arg3))) (Spec.proj (V0 (Proc.devRef .tc main_arg1)) (V0 (Proc.devRef .tc main_arg4)) (V0 (Proc.devRef .tc main_arg5))) b n mm := by
  unfold Spec.score
  exact Finset.sum_congr rfl fun ch _ => congrArg₂ (· * ·) (Aof_q V0 b n ch _) (Bof_k V0 b mm ch _)

/-- Stream 2's queries against stream 1's keys. -/
theorem score_spec' (b : Fin 4) (n mm : Fin 4096) (h1 : ∀ ch : Fin 256, (ch : ℕ) < 768)
    (h2 : ∀ ch : Fin 256, 256 + (ch : ℕ) < 768) :
    (∑ ch : Fin 256, Bof V0 (ix3 b n ⟨ch, h1 ch⟩) * Aof V0 (ix3 b mm ⟨256 + ch, h2 ch⟩))
      = Spec.score (Spec.proj (V0 (Proc.devRef .tc main_arg1)) (V0 (Proc.devRef .tc main_arg2)) (V0 (Proc.devRef .tc main_arg3))) (Spec.proj (V0 (Proc.devRef .tc main_arg0)) (V0 (Proc.devRef .tc main_arg4)) (V0 (Proc.devRef .tc main_arg5))) b n mm := by
  unfold Spec.score
  exact Finset.sum_congr rfl fun ch _ => congrArg₂ (· * ·) (Bof_q V0 b n ch _) (Aof_k V0 b mm ch _)

/-- Stream 1's queries against stream 2's keys, in the attention module's words. -/
theorem sA_spec (b : Fin 4) (n mm : Fin 4096) :
    sA (Aof V0) (Bof V0) b n mm = Spec.score (Spec.proj (V0 (Proc.devRef .tc main_arg0)) (V0 (Proc.devRef .tc main_arg2)) (V0 (Proc.devRef .tc main_arg3))) (Spec.proj (V0 (Proc.devRef .tc main_arg1)) (V0 (Proc.devRef .tc main_arg4)) (V0 (Proc.devRef .tc main_arg5))) b n mm :=
  score_spec V0 b n mm chq_lt chk_lt

/-- Stream 1's values. -/
theorem vA_spec (b : Fin 4) (mm : Fin 4096) (d : Fin 256) :
    vA (Aof V0) b mm d = Spec.proj (V0 (Proc.devRef .tc main_arg0)) (V0 (Proc.devRef .tc main_arg6)) (V0 (Proc.devRef .tc main_arg7)) b mm d := Aof_v V0 b mm d (chv_lt d)

/-- Stream 2's queries against stream 1's keys. -/
theorem sA_spec' (b : Fin 4) (n mm : Fin 4096) :
    sA (Bof V0) (Aof V0) b n mm = Spec.score (Spec.proj (V0 (Proc.devRef .tc main_arg1)) (V0 (Proc.devRef .tc main_arg2)) (V0 (Proc.devRef .tc main_arg3))) (Spec.proj (V0 (Proc.devRef .tc main_arg0)) (V0 (Proc.devRef .tc main_arg4)) (V0 (Proc.devRef .tc main_arg5))) b n mm :=
  score_spec' V0 b n mm chq_lt chk_lt

/-- Stream 2's values. -/
theorem vA_spec' (b : Fin 4) (mm : Fin 4096) (d : Fin 256) :
    vA (Bof V0) b mm d = Spec.proj (V0 (Proc.devRef .tc main_arg1)) (V0 (Proc.devRef .tc main_arg6)) (V0 (Proc.devRef .tc main_arg7)) b mm d := Bof_v V0 b mm d (chv_lt d)

/-! ## Real inputs give real arrays -/

/-- A reshaped image of reals is real. -/
theorem tokens_real (X : S4x256x64x64.Idx → EReal) (hX : ∀ i, ∃ x : ℝ, X i = (x : EReal)) :
    ∀ i, ∃ x : ℝ, shapeCast S4x256x4096 X shapeCasts_S4x256x64x64_S4x256x4096 i = (x : EReal) := fun i => by
  obtain ⟨b, ch, n, rfl⟩ : ∃ (b : Fin 4) (ch : Fin 256) (n : Fin 4096), i = ix3 b ch n := ⟨i 0, i 1, i 2, eq_ix3 i⟩
  rw [HostIn.tokens_apply]
  unfold Spec.tok
  exact hX _

/-- Three real matrices laid one under another are a real matrix. -/
theorem stackW_real (W0 W1 W2 : S256x256.Idx → EReal) (h0 : ∀ i, ∃ x : ℝ, W0 i = (x : EReal))
    (h1 : ∀ i, ∃ x : ℝ, W1 i = (x : EReal)) (h2 : ∀ i, ∃ x : ℝ, W2 i = (x : EReal)) :
    ∀ i, ∃ x : ℝ, concatenate S768x256 0 [⟨S256x256, W0⟩, ⟨S256x256, W1⟩, ⟨S256x256, W2⟩]
      concatenates_S256x256_S256x256_S256x256_S768x256_d0 i = (x : EReal) := fun i => by
  obtain ⟨r, ch, rfl⟩ : ∃ (r : Fin 768) (ch : Fin 256), i = ix2 r ch := ⟨i 0, i 1, eq_ix2 i⟩
  have hr : r.val < 768 := r.isLt
  by_cases c0 : r.val < 256
  · rw [HostIn.stackW_apply W0 W1 W2 0 ⟨r.val, c0⟩ ch r (by show r.val = 256 * 0 + r.val; omega)]
    exact h0 _
  · by_cases c1 : r.val < 512
    · rw [HostIn.stackW_apply W0 W1 W2 1 ⟨r.val - 256, by omega⟩ ch r (by show r.val = 256 * 1 + (r.val - 256); omega)]
      exact h1 _
    · rw [HostIn.stackW_apply W0 W1 W2 2 ⟨r.val - 512, by omega⟩ ch r (by show r.val = 256 * 2 + (r.val - 512); omega)]
      exact h2 _

/-- Three real vectors laid end to end are a real vector. -/
theorem stackB_real (B0 B1 B2 : S256.Idx → EReal) (h0 : ∀ i, ∃ x : ℝ, B0 i = (x : EReal))
    (h1 : ∀ i, ∃ x : ℝ, B1 i = (x : EReal)) (h2 : ∀ i, ∃ x : ℝ, B2 i = (x : EReal)) :
    ∀ i, ∃ x : ℝ, concatenate S768 0 [⟨S256, B0⟩, ⟨S256, B1⟩, ⟨S256, B2⟩]
      concatenates_S256_S256_S256_S768_d0 i = (x : EReal) := fun i => by
  obtain ⟨r, rfl⟩ : ∃ r : Fin 768, i = ix1 r := ⟨i 0, eq_ix1 i⟩
  have hr : r.val < 768 := r.isLt
  by_cases c0 : r.val < 256
  · rw [HostIn.stackB_apply B0 B1 B2 0 ⟨r.val, c0⟩ r (by show r.val = 256 * 0 + r.val; omega)]
    exact h0 _
  · by_cases c1 : r.val < 512
    · rw [HostIn.stackB_apply B0 B1 B2 1 ⟨r.val - 256, by omega⟩ r (by show r.val = 256 * 1 + (r.val - 256); omega)]
      exact h1 _
    · rw [HostIn.stackB_apply B0 B1 B2 2 ⟨r.val - 512, by omega⟩ r (by show r.val = 256 * 2 + (r.val - 512); omega)]
      exact h2 _

/-- Stream 1's fused projection of real inputs is real. -/
theorem Aof_real (h0 : ∀ i, ∃ x : ℝ, (V0 (Proc.devRef .tc main_arg0)) i = (x : EReal))
    (h2 : ∀ i, ∃ x : ℝ, (V0 (Proc.devRef .tc main_arg2)) i = (x : EReal)) (h3 : ∀ i, ∃ x : ℝ, (V0 (Proc.devRef .tc main_arg3)) i = (x : EReal))
    (h4 : ∀ i, ∃ x : ℝ, (V0 (Proc.devRef .tc main_arg4)) i = (x : EReal)) (h5 : ∀ i, ∃ x : ℝ, (V0 (Proc.devRef .tc main_arg5)) i = (x : EReal))
    (h6 : ∀ i, ∃ x : ℝ, (V0 (Proc.devRef .tc main_arg6)) i = (x : EReal)) (h7 : ∀ i, ∃ x : ℝ, (V0 (Proc.devRef .tc main_arg7)) i = (x : EReal)) :
    ∀ i, ∃ x : ℝ, Aof V0 i = (x : EReal) := by
  refine Spec.RealClosure.linG_real _ _ _ ?_ ?_ ?_
  · rw [HostIn.v0_eq]; exact tokens_real _ h0
  · rw [HostIn.v2_eq]; exact stackW_real _ _ _ h2 h4 h6
  · rw [HostIn.v3_eq]; exact stackB_real _ _ _ h3 h5 h7

/-- Stream 2's fused projection of real inputs is real. -/
theorem Bof_real (h1 : ∀ i, ∃ x : ℝ, (V0 (Proc.devRef .tc main_arg1)) i = (x : EReal))
    (h2 : ∀ i, ∃ x : ℝ, (V0 (Proc.devRef .tc main_arg2)) i = (x : EReal)) (h3 : ∀ i, ∃ x : ℝ, (V0 (Proc.devRef .tc main_arg3)) i = (x : EReal))
    (h4 : ∀ i, ∃ x : ℝ, (V0 (Proc.devRef .tc main_arg4)) i = (x : EReal)) (h5 : ∀ i, ∃ x : ℝ, (V0 (Proc.devRef .tc main_arg5)) i = (x : EReal))
    (h6 : ∀ i, ∃ x : ℝ, (V0 (Proc.devRef .tc main_arg6)) i = (x : EReal)) (h7 : ∀ i, ∃ x : ℝ, (V0 (Proc.devRef .tc main_arg7)) i = (x : EReal)) :
    ∀ i, ∃ x : ℝ, Bof V0 i = (x : EReal) := by
  refine Spec.RealClosure.linG_real _ _ _ ?_ ?_ ?_
  · rw [HostIn.v1_eq]; exact tokens_real _ h1
  · rw [HostIn.v2_eq]; exact stackW_real _ _ _ h2 h4 h6
  · rw [HostIn.v3_eq]; exact stackB_real _ _ _ h3 h5 h7

/-! ## The attention -/

/-- A softmax-weighted sum written over a score row `s` and a value column `v` with the row maximum `M` is the
    specification's attention, once `s` and `v` are the specification's score row and value column. -/
theorem attn_of (S : Fin 4 → Fin 4096 → Fin 4096 → EReal) (Vv : Fin 4 → Fin 4096 → Fin 256 → EReal)
    (b : Fin 4) (n : Fin 4096) (d : Fin 256) (s v : Fin 4096 → EReal)
    (hs : ∀ mm, s mm = S b n mm) (hv : ∀ mm, v mm = Vv b mm d) (M : EReal)
    (hM : M = max ⊥ ((Finset.univ : Finset (Fin 4096)).fold max ⊥ s)) :
    (∑ mm : Fin 4096, Ideal.div (Ideal.exp (s mm - M)) (∑ mm' : Fin 4096, Ideal.exp (s mm' - M)) * v mm)
      = Spec.attn S Vv b n d := by
  obtain rfl : s = fun mm => S b n mm := funext hs
  obtain rfl : v = fun mm => Vv b mm d := funext hv
  subst hM
  rfl

/-- Stream 1's softmax-weighted sum of its values over the keys of stream 2, written over the kernel's arrays
    with the row maximum `M`, is the specification's attention. -/
theorem attn_spec (b : Fin 4) (n : Fin 4096) (d : Fin 256) (M : EReal)
    (hM : M = max ⊥ ((Finset.univ : Finset (Fin 4096)).fold max ⊥ fun mm : Fin 4096 => sA (Aof V0) (Bof V0) b n mm)) :
    (∑ mm : Fin 4096, Ideal.div (Ideal.exp (sA (Aof V0) (Bof V0) b n mm - M))
        (∑ mm' : Fin 4096, Ideal.exp (sA (Aof V0) (Bof V0) b n mm' - M)) * vA (Aof V0) b mm d)
      = Spec.attn (Spec.score (Spec.proj (V0 (Proc.devRef .tc main_arg0)) (V0 (Proc.devRef .tc main_arg2)) (V0 (Proc.devRef .tc main_arg3))) (Spec.proj (V0 (Proc.devRef .tc main_arg1)) (V0 (Proc.devRef .tc main_arg4)) (V0 (Proc.devRef .tc main_arg5))))
          (Spec.proj (V0 (Proc.devRef .tc main_arg0)) (V0 (Proc.devRef .tc main_arg6)) (V0 (Proc.devRef .tc main_arg7))) b n d :=
  attn_of _ _ b n d _ _ (fun mm => sA_spec V0 b n mm) (fun mm => vA_spec V0 b mm d) M hM

/-- Stream 2's, over the keys of stream 1. -/
theorem attn_spec' (b : Fin 4) (n : Fin 4096) (d : Fin 256) (M : EReal)
    (hM : M = max ⊥ ((Finset.univ : Finset (Fin 4096)).fold max ⊥ fun mm : Fin 4096 => sA (Bof V0) (Aof V0) b n mm)) :
    (∑ mm : Fin 4096, Ideal.div (Ideal.exp (sA (Bof V0) (Aof V0) b n mm - M))
        (∑ mm' : Fin 4096, Ideal.exp (sA (Bof V0) (Aof V0) b n mm' - M)) * vA (Bof V0) b mm d)
      = Spec.attn (Spec.score (Spec.proj (V0 (Proc.devRef .tc main_arg1)) (V0 (Proc.devRef .tc main_arg2)) (V0 (Proc.devRef .tc main_arg3))) (Spec.proj (V0 (Proc.devRef .tc main_arg0)) (V0 (Proc.devRef .tc main_arg4)) (V0 (Proc.devRef .tc main_arg5))))
          (Spec.proj (V0 (Proc.devRef .tc main_arg1)) (V0 (Proc.devRef .tc main_arg6)) (V0 (Proc.devRef .tc main_arg7))) b n d :=
  attn_of _ _ b n d _ _ (fun mm => sA_spec' V0 b n mm) (fun mm => vA_spec' V0 b mm d) M hM

end Cert.KernelIdeal.QkvSpec

end
-- ==== Proof.AttnBlocks.lean ====
/-
  The attention region's windows, block by block. The grid has 8 query tiles by 16 key tiles, the key
  axis innermost: point `t` is query tile `t / 16` and key tile `t % 16`. Each of the two projected
  arrays [4, 4096, 768] holds, per token, the 256 query features, then the 256 key features, then the
  256 value features. A query window's block is the 512 tokens of the query tile, all four images,
  columns 0 … 255; a key window's block the 256 tokens of the key tile, columns 256 … 511; a value
  window's block the same tokens, columns 512 … 767. Each output window's block index is
  (0, 0, query tile): all four images, all 256 channels, the 512 tokens of the query tile.
-/
import proofs.«168839_j16673063043431_2_alg».proof.Proof.Gen.KernelIdeal.Launch
import proofs.«168839_j16673063043431_2_alg».proof.Proof.Gen.KernelIdeal.Points
import Idealize.ShloMosaic.Lib.ValueIdx

noncomputable section

namespace Cert.KernelIdeal.AttnBlocks

open Cert.KernelIdeal Cert.KernelIdeal.Gen
open Idealize.ShloMosaic Idealize.ShloMosaic.TcCoe Idealize.SL.Sem Idealize.ShloMosaic.ValueIdx

variable {F : FTy → Type} [FloatOps F]

-- the TensorCore's buffer contents when the region is entered
variable (V : (c : Dev nD) → (b : Ref sig .tc) → Buf (Elt F) ((c : Thread nD τ).loc b))

/-- The grid has 128 points. -/
theorem t_lt (t : Fin cfg2.N) : t.val < 128 := by
  have h : cfg2.N = 128 := N_2
  have := t.isLt
  omega

/-! # The printed index maps, decided over the grid -/

/-- Window 0 (queries of the first projected array): block index (0, query tile, 0). -/
theorem idx2_0 : ∀ t : Fin cfg2.N,
    win2_0.index t (0 : Fin 3) = 0 ∧ win2_0.index t (1 : Fin 3) = t.val / 16 ∧ win2_0.index t (2 : Fin 3) = 0 :=
  (by decide +kernel : ∀ t : Fin grid2.N, _)
/-- Window 1 (keys of the first projected array): block index (0, key tile, 1). -/
theorem idx2_1 : ∀ t : Fin cfg2.N,
    win2_1.index t (0 : Fin 3) = 0 ∧ win2_1.index t (1 : Fin 3) = t.val % 16 ∧ win2_1.index t (2 : Fin 3) = 1 :=
  (by decide +kernel : ∀ t : Fin grid2.N, _)
/-- Window 2 (values of the first projected array): block index (0, key tile, 2). -/
theorem idx2_2 : ∀ t : Fin cfg2.N,
    win2_2.index t (0 : Fin 3) = 0 ∧ win2_2.index t (1 : Fin 3) = t.val % 16 ∧ win2_2.index t (2 : Fin 3) = 2 :=
  (by decide +kernel : ∀ t : Fin grid2.N, _)
/-- Window 3 (queries of the second projected array): block index (0, query tile, 0). -/
theorem idx2_3 : ∀ t : Fin cfg2.N,
    win2_3.index t (0 : Fin 3) = 0 ∧ win2_3.index t (1 : Fin 3) = t.val / 16 ∧ win2_3.index t (2 : Fin 3) = 0 :=
  (by decide +kernel : ∀ t : Fin grid2.N, _)
/-- Window 4 (keys of the second projected array): block index (0, key tile, 1). -/
theorem idx2_4 : ∀ t : Fin cfg2.N,
    win2_4.index t (0 : Fin 3) = 0 ∧ win2_4.index t (1 : Fin 3) = t.val % 16 ∧ win2_4.index t (2 : Fin 3) = 1 :=
  (by decide +kernel : ∀ t : Fin grid2.N, _)
/-- Window 5 (values of the second projected array): block index (0, key tile, 2). -/
theorem idx2_5 : ∀ t : Fin cfg2.N,
    win2_5.index t (0 : Fin 3) = 0 ∧ win2_5.index t (1 : Fin 3) = t.val % 16 ∧ win2_5.index t (2 : Fin 3) = 2 :=
  (by decide +kernel : ∀ t : Fin grid2.N, _)
/-- Window 6 (the first output): block index (0, 0, query tile), at every key tile. -/
theorem idx2_6 : ∀ t : Fin cfg2.N,
    win2_6.index t (0 : Fin 3) = 0 ∧ win2_6.index t (1 : Fin 3) = 0 ∧ win2_6.index t (2 : Fin 3) = t.val / 16 :=
  (by decide +kernel : ∀ t : Fin grid2.N, _)
/-- Window 7 (the second output): block index (0, 0, query tile), at every key tile. -/
theorem idx2_7 : ∀ t : Fin cfg2.N,
    win2_7.index t (0 : Fin 3) = 0 ∧ win2_7.index t (1 : Fin 3) = 0 ∧ win2_7.index t (2 : Fin 3) = t.val / 16 :=
  (by decide +kernel : ∀ t : Fin grid2.N, _)

/-- The first output window's block index as a function. -/
theorem index2_6 (t : Fin cfg2.N) : win2_6.index t = ![0, 0, t.val / 16] := by
  obtain ⟨e0, e1, e2⟩ := idx2_6 t
  funext a
  match a with
  | ⟨0, _⟩ => exact e0
  | ⟨1, _⟩ => exact e1
  | ⟨2, _⟩ => exact e2

/-- The second output window's block index as a function. -/
theorem index2_7 (t : Fin cfg2.N) : win2_7.index t = ![0, 0, t.val / 16] := by
  obtain ⟨e0, e1, e2⟩ := idx2_7 t
  funext a
  match a with
  | ⟨0, _⟩ => exact e0
  | ⟨1, _⟩ => exact e1
  | ⟨2, _⟩ => exact e2

/-! # The six input blocks, read off the arrays as the region finds them -/

/-- Window 0's block at point `t` under an array index with the block's offsets added: all four images,
    query tile `t / 16`'s 512 tokens, the query features (columns 0 … 255 of the projected array). -/
theorem blk2_0_at (c : Dev nD) (t : Fin cfg2.N) (x : S4x512x256.Idx) (k : S4x4096x768.Idx)
    (hk0 : (k 0).val = (x 0).val) (hk1 : (k 1).val = 512 * (t.val / 16) + (x 1).val)
    (hk2 : (k 2).val = (x 2).val) :
    (((cfg2.win 0).blk t).view.read (Elt F) (V c (Pipeline.arrRef spec2 0)) : Vec F S4x512x256 .bf16) x
      = (V c main_v4 : Vec F S4x4096x768 .bf16) k := by
  obtain ⟨e0, e1, e2⟩ := idx2_0 t
  rw [View.read_apply]
  show V c main_v4 _ = V c main_v4 _
  refine congrArg _ ?_
  funext a
  apply Fin.ext
  match a with
  | ⟨0, _⟩ => show win2_0.index t 0 * 4 + 1 * (x 0).val = (k 0).val; rw [e0, hk0]; omega
  | ⟨1, _⟩ => show win2_0.index t 1 * 512 + 1 * (x 1).val = (k 1).val; rw [e1, hk1]; omega
  | ⟨2, _⟩ => show win2_0.index t 2 * 256 + 1 * (x 2).val = (k 2).val; rw [e2, hk2]; omega

/-- The same at coordinates. -/
theorem blk2_0 (c : Dev nD) (t : Fin cfg2.N) (b : Fin 4) (r : Fin 512) (ch : Fin 256) :
    (((cfg2.win 0).blk t).view.read (Elt F) (V c (Pipeline.arrRef spec2 0)) : Vec F S4x512x256 .bf16) (ix3 b r ch)
      = (V c main_v4 : Vec F S4x4096x768 .bf16)
          (ix3 b (⟨512 * (t.val / 16) + r.val, by have := t_lt t; have := r.isLt; omega⟩ : Fin 4096)
            (⟨ch.val, by have := ch.isLt; omega⟩ : Fin 768)) :=
  blk2_0_at V c t _ _ rfl rfl rfl

/-- Window 1's block at point `t` under an array index with the block's offsets added: all four images,
    key tile `t % 16`'s 256 tokens, the key features (columns 256 … 511 of the projected array). -/
theorem blk2_1_at (c : Dev nD) (t : Fin cfg2.N) (x : S4x256x256.Idx) (k : S4x4096x768.Idx)
    (hk0 : (k 0).val = (x 0).val) (hk1 : (k 1).val = 256 * (t.val % 16) + (x 1).val)
    (hk2 : (k 2).val = 256 + (x 2).val) :
    (((cfg2.win 1).blk t).view.read (Elt F) (V c (Pipeline.arrRef spec2 1)) : Vec F S4x256x256 .bf16) x
      = (V c main_v4 : Vec F S4x4096x768 .bf16) k := by
  obtain ⟨e0, e1, e2⟩ := idx2_1 t
  rw [View.read_apply]
  show V c main_v4 _ = V c main_v4 _
  refine congrArg _ ?_
  funext a
  apply Fin.ext
  match a with
  | ⟨0, _⟩ => show win2_1.index t 0 * 4 + 1 * (x 0).val = (k 0).val; rw [e0, hk0]; omega
  | ⟨1, _⟩ => show win2_1.index t 1 * 256 + 1 * (x 1).val = (k 1).val; rw [e1, hk1]; omega
  | ⟨2, _⟩ => show win2_1.index t 2 * 256 + 1 * (x 2).val = (k 2).val; rw [e2, hk2]; omega

/-- The same at coordinates. -/
theorem blk2_1 (c : Dev nD) (t : Fin cfg2.N) (b : Fin 4) (r : Fin 256) (ch : Fin 256) :
    (((cfg2.win 1).blk t).view.read (Elt F) (V c (Pipeline.arrRef spec2 1)) : Vec F S4x256x256 .bf16) (ix3 b r ch)
      = (V c main_v4 : Vec F S4x4096x768 .bf16)
          (ix3 b (⟨256 * (t.val % 16) + r.val, by have := t_lt t; have := r.isLt; omega⟩ : Fin 4096)
            (⟨256 + ch.val, by have := ch.isLt; omega⟩ : Fin 768)) :=
  blk2_1_at V c t _ _ rfl rfl rfl

/-- Window 2's block at point `t` under an array index with the block's offsets added: all four images,
    key tile `t % 16`'s 256 tokens, the value features (columns 512 … 767 of the projected array). -/
theorem blk2_2_at (c : Dev nD) (t : Fin cfg2.N) (x : S4x256x256.Idx) (k : S4x4096x768.Idx)
    (hk0 : (k 0).val = (x 0).val) (hk1 : (k 1).val = 256 * (t.val % 16) + (x 1).val)
    (hk2 : (k 2).val = 512 + (x 2).val) :
    (((cfg2.win 2).blk t).view.read (Elt F) (V c (Pipeline.arrRef spec2 2)) : Vec F S4x256x256 .bf16) x
      = (V c main_v4 : Vec F S4x4096x768 .bf16) k := by
  obtain ⟨e0, e1, e2⟩ := idx2_2 t
  rw [View.read_apply]
  show V c main_v4 _ = V c main_v4 _
  refine congrArg _ ?_
  funext a
  apply Fin.ext
  match a with
  | ⟨0, _⟩ => show win2_2.index t 0 * 4 + 1 * (x 0).val = (k 0).val; rw [e0, hk0]; omega
  | ⟨1, _⟩ => show win2_2.index t 1 * 256 + 1 * (x 1).val = (k 1).val; rw [e1, hk1]; omega
  | ⟨2, _⟩ => show win2_2.index t 2 * 256 + 1 * (x 2).val = (k 2).val; rw [e2, hk2]; omega

/-- The same at coordinates. -/
theorem blk2_2 (c : Dev nD) (t : Fin cfg2.N) (b : Fin 4) (r : Fin 256) (ch : Fin 256) :
    (((cfg2.win 2).blk t).view.read (Elt F) (V c (Pipeline.arrRef spec2 2)) : Vec F S4x256x256 .bf16) (ix3 b r ch)
      = (V c main_v4 : Vec F S4x4096x768 .bf16)
          (ix3 b (⟨256 * (t.val % 16) + r.val, by have := t_lt t; have := r.isLt; omega⟩ : Fin 4096)
            (⟨512 + ch.val, by have := ch.isLt; omega⟩ : Fin 768)) :=
  blk2_2_at V c t _ _ rfl rfl rfl

/-- Window 3's block at point `t` under an array index with the block's offsets added: all four images,
    query tile `t / 16`'s 512 tokens, the query features (columns 0 … 255 of the projected array). -/
theorem blk2_3_at (c : Dev nD) (t : Fin cfg2.N) (x : S4x512x256.Idx) (k : S4x4096x768.Idx)
    (hk0 : (k 0).val = (x 0).val) (hk1 : (k 1).val = 512 * (t.val / 16) + (x 1).val)
    (hk2 : (k 2).val = (x 2).val) :
    (((cfg2.win 3).blk t).view.read (Elt F) (V c (Pipeline.arrRef spec2 3)) : Vec F S4x512x256 .bf16) x
      = (V c main_v5 : Vec F S4x4096x768 .bf16) k := by
  obtain ⟨e0, e1, e2⟩ := idx2_3 t
  rw [View.read_apply]
  show V c main_v5 _ = V c main_v5 _
  refine congrArg _ ?_
  funext a
  apply Fin.ext
  match a with
  | ⟨0, _⟩ => show win2_3.index t 0 * 4 + 1 * (x 0).val = (k 0).val; rw [e0, hk0]; omega
  | ⟨1, _⟩ => show win2_3.index t 1 * 512 + 1 * (x 1).val = (k 1).val; rw [e1, hk1]; omega
  | ⟨2, _⟩ => show win2_3.index t 2 * 256 + 1 * (x 2).val = (k 2).val; rw [e2, hk2]; omega

/-- The same at coordinates. -/
theorem blk2_3 (c : Dev nD) (t : Fin cfg2.N) (b : Fin 4) (r : Fin 512) (ch : Fin 256) :
    (((cfg2.win 3).blk t).view.read (Elt F) (V c (Pipeline.arrRef spec2 3)) : Vec F S4x512x256 .bf16) (ix3 b r ch)
      = (V c main_v5 : Vec F S4x4096x768 .bf16)
          (ix3 b (⟨512 * (t.val / 16) + r.val, by have := t_lt t; have := r.isLt; omega⟩ : Fin 4096)
            (⟨ch.val, by have := ch.isLt; omega⟩ : Fin 768)) :=
  blk2_3_at V c t _ _ rfl rfl rfl

/-- Window 4's block at point `t` under an array index with the block's offsets added: all four images,
    key tile `t % 16`'s 256 tokens, the key features (columns 256 … 511 of the projected array). -/
theorem blk2_4_at (c : Dev nD) (t : Fin cfg2.N) (x : S4x256x256.Idx) (k : S4x4096x768.Idx)
    (hk0 : (k 0).val = (x 0).val) (hk1 : (k 1).val = 256 * (t.val % 16) + (x 1).val)
    (hk2 : (k 2).val = 256 + (x 2).val) :
    (((cfg2.win 4).blk t).view.read (Elt F) (V c (Pipeline.arrRef spec2 4)) : Vec F S4x256x256 .bf16) x
      = (V c main_v5 : Vec F S4x4096x768 .bf16) k := by
  obtain ⟨e0, e1, e2⟩ := idx2_4 t
  rw [View.read_apply]
  show V c main_v5 _ = V c main_v5 _
  refine congrArg _ ?_
  funext a
  apply Fin.ext
  match a with
  | ⟨0, _⟩ => show win2_4.index t 0 * 4 + 1 * (x 0).val = (k 0).val; rw [e0, hk0]; omega
  | ⟨1, _⟩ => show win2_4.index t 1 * 256 + 1 * (x 1).val = (k 1).val; rw [e1, hk1]; omega
  | ⟨2, _⟩ => show win2_4.index t 2 * 256 + 1 * (x 2).val = (k 2).val; rw [e2, hk2]; omega

/-- The same at coordinates. -/
theorem blk2_4 (c : Dev nD) (t : Fin cfg2.N) (b : Fin 4) (r : Fin 256) (ch : Fin 256) :
    (((cfg2.win 4).blk t).view.read (Elt F) (V c (Pipeline.arrRef spec2 4)) : Vec F S4x256x256 .bf16) (ix3 b r ch)
      = (V c main_v5 : Vec F S4x4096x768 .bf16)
          (ix3 b (⟨256 * (t.val % 16) + r.val, by have := t_lt t; have := r.isLt; omega⟩ : Fin 4096)
            (⟨256 + ch.val, by have := ch.isLt; omega⟩ : Fin 768)) :=
  blk2_4_at V c t _ _ rfl rfl rfl

/-- Window 5's block at point `t` under an array index with the block's offsets added: all four images,
    key tile `t % 16`'s 256 tokens, the value features (columns 512 … 767 of the projected array). -/
theorem blk2_5_at (c : Dev nD) (t : Fin cfg2.N) (x : S4x256x256.Idx) (k : S4x4096x768.Idx)
    (hk0 : (k 0).val = (x 0).val) (hk1 : (k 1).val = 256 * (t.val % 16) + (x 1).val)
    (hk2 : (k 2).val = 512 + (x 2).val) :
    (((cfg2.win 5).blk t).view.read (Elt F) (V c (Pipeline.arrRef spec2 5)) : Vec F S4x256x256 .bf16) x
      = (V c main_v5 : Vec F S4x4096x768 .bf16) k := by
  obtain ⟨e0, e1, e2⟩ := idx2_5 t
  rw [View.read_apply]
  show V c main_v5 _ = V c main_v5 _
  refine congrArg _ ?_
  funext a
  apply Fin.ext
  match a with
  | ⟨0, _⟩ => show win2_5.index t 0 * 4 + 1 * (x 0).val = (k 0).val; rw [e0, hk0]; omega
  | ⟨1, _⟩ => show win2_5.index t 1 * 256 + 1 * (x 1).val = (k 1).val; rw [e1, hk1]; omega
  | ⟨2, _⟩ => show win2_5.index t 2 * 256 + 1 * (x 2).val = (k 2).val; rw [e2, hk2]; omega

/-- The same at coordinates. -/
theorem blk2_5 (c : Dev nD) (t : Fin cfg2.N) (b : Fin 4) (r : Fin 256) (ch : Fin 256) :
    (((cfg2.win 5).blk t).view.read (Elt F) (V c (Pipeline.arrRef spec2 5)) : Vec F S4x256x256 .bf16) (ix3 b r ch)
      = (V c main_v5 : Vec F S4x4096x768 .bf16)
          (ix3 b (⟨256 * (t.val % 16) + r.val, by have := t_lt t; have := r.isLt; omega⟩ : Fin 4096)
            (⟨512 + ch.val, by have := ch.isLt; omega⟩ : Fin 768)) :=
  blk2_5_at V c t _ _ rfl rfl rfl

end Cert.KernelIdeal.AttnBlocks

end
-- ==== Proof.AttnCover.lean ====
/-
  From blocks to arrays, for the attention region's two outputs. An output window's block index is
  (0, 0, query tile) at every point, and the block is written back only at the last key tile of each
  query tile, the points t = 16 q + 15. The eight blocks written back tile the array [4, 256, 4096]:
  token n of the array lies in query tile n / 512, at offset n % 512. So the array after the region
  is, at (b, d, n), what the flushing point of tile n / 512 leaves at (b, d, n % 512).
-/
import proofs.«168839_j16673063043431_2_alg».proof.Proof.AttnBlocks
import Idealize.ShloMosaic.Lib.Pipeline.Value

noncomputable section

namespace Cert.KernelIdeal.AttnCover

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)

variable {F : FTy → Type} [FloatOps F]

/-- The flushing point of the query tile of token `n` is a point of the grid. -/
theorem flushPt_lt (n : Fin 4096) : 16 * (n.val / 512) + 15 < cfg2.N := by
  have h : cfg2.N = 128 := N_2
  have := n.isLt
  omega

/-- The array assembled from a family of blocks, one per grid point: at (b, d, n), the block of the flushing
    point of token `n`'s query tile, at (b, d, n % 512). Only the flushing points' blocks are read. -/
def assemble (O : Fin cfg2.N → Vec F S4x256x512 .f32) : Vec F S4x256x4096 .f32 := fun i =>
  O ⟨16 * ((i 2).val / 512) + 15, flushPt_lt (i 2)⟩
    (ix3 (i 0 : Fin 4) (i 1 : Fin 256) (⟨(i 2).val % 512, Nat.mod_lt _ (by decide)⟩ : Fin 512))

/-- The assembled array at coordinates. -/
theorem assemble_ix3 (O : Fin cfg2.N → Vec F S4x256x512 .f32) (b : Fin 4) (d : Fin 256) (n : Fin 4096) :
    assemble O (ix3 b d n)
      = O ⟨16 * (n.val / 512) + 15, flushPt_lt n⟩ (ix3 b d (⟨n.val % 512, Nat.mod_lt _ (by decide)⟩ : Fin 512)) := rfl

/-- The assembled array under a block index of a flushing point, with the block's offset added. -/
theorem assemble_at (O : Fin cfg2.N → Vec F S4x256x512 .f32) (t : Fin cfg2.N) (ht : t.val % 16 = 15)
    (j : S4x256x512.Idx) (i : S4x256x4096.Idx) (h0 : (i 0).val = (j 0).val) (h1 : (i 1).val = (j 1).val)
    (h2 : (i 2).val = 512 * (t.val / 16) + (j 2).val) : assemble O i = O t j := by
  unfold assemble
  have hj2 : (j 2).val < 512 := (j 2).isLt
  have e : (⟨16 * ((i 2).val / 512) + 15, flushPt_lt (i 2)⟩ : Fin cfg2.N) = t :=
    Fin.ext (by show 16 * ((i 2).val / 512) + 15 = t.val; rw [h2]; omega)
  have e' : ix3 (i 0 : Fin 4) (i 1 : Fin 256) (⟨(i 2).val % 512, Nat.mod_lt _ (by decide)⟩ : Fin 512) = j :=
    funext fun a => Fin.ext (by
      match a with
      | ⟨0, _⟩ => exact h0
      | ⟨1, _⟩ => exact h1
      | ⟨2, _⟩ => show (i 2).val % 512 = (j 2).val; rw [h2]; omega)
  rw [e]
  exact congrArg (O t) e'

/-- An index of output 0's array is in point `t`'s block iff each coordinate is in the block's range on its axis. -/
theorem mem_blk6 (t : Fin cfg2.N) (i : S4x256x4096.Idx) :
    i ∈ ((cfg2.win 6).blk t).view.set ↔ ∀ a : Fin 3, win2_6.index t a * S4x256x512.size a ≤ (i a).val
      ∧ (i a).val < win2_6.index t a * S4x256x512.size a + S4x256x512.size a := by
  show i ∈ ((View.whole main_v6_0).slice (win2_6.rect t)).set ↔ _
  rw [View.set_slice_whole, Rect.mem_set_unit]
  exact Iff.rfl

/-- Every index of the array is in the block of the flushing point of its query tile. -/
theorem cover6 (i : S4x256x4096.Idx) :
    ∃ t : Fin cfg2.N, (cfg2.win 6).flush t = true ∧ i ∈ ((cfg2.win 6).blk t).view.set := by
  have hi0 : (i 0).val < 4 := (i 0).isLt
  have hi1 : (i 1).val < 256 := (i 1).isLt
  have hi2 : (i 2).val < 4096 := (i 2).isLt
  obtain ⟨t, ht⟩ : ∃ t : Fin cfg2.N, t.val = 16 * ((i 2).val / 512) + 15 := ⟨⟨_, flushPt_lt (i 2)⟩, rfl⟩
  obtain ⟨e0, e1, e2⟩ := AttnBlocks.idx2_6 t
  refine ⟨t, (flush2_6 t).mpr (by omega), ?_⟩
  rw [mem_blk6]
  intro a
  match a with
  | ⟨0, _⟩ => show win2_6.index t 0 * 4 ≤ (i 0).val ∧ (i 0).val < win2_6.index t 0 * 4 + 4; rw [e0]; omega
  | ⟨1, _⟩ => show win2_6.index t 1 * 256 ≤ (i 1).val ∧ (i 1).val < win2_6.index t 1 * 256 + 256; rw [e1]; omega
  | ⟨2, _⟩ => show win2_6.index t 2 * 512 ≤ (i 2).val ∧ (i 2).val < win2_6.index t 2 * 512 + 512; rw [e2, ht]; omega

/-- What a flushing point writes back is its block of the assembled array. -/
theorem flushed6_eq {c : Dev nD} (dat : Dat τ (Elt F) Unit ℕ (UR sig nD τ) ℕ cfg2 c)
    (O : Fin cfg2.N → Vec F S4x256x512 .f32) (h : ∀ t : Fin cfg2.N, t.val % 16 = 15 → dat.after 6 t = O t)
    (t : Fin cfg2.N) (ht : t.val % 16 = 15) :
    dat.flushed 6 t = ((cfg2.win 6).blk t).view.read (Elt F) (assemble O) := by
  show (cfg2.win 6).cut (grid2.coords t) (dat.after 6 t) = _
  rw [h t ht]
  obtain ⟨e0, e1, e2⟩ := AttnBlocks.idx2_6 t
  funext j
  rw [View.read_apply]
  show O t j = assemble O (((cfg2.win 6).blk t).view.emb j)
  refine (assemble_at O t ht j _ ?_ ?_ ?_).symm
  · show win2_6.index t 0 * 4 + 1 * (j 0).val = (j 0).val; rw [e0]; omega
  · show win2_6.index t 1 * 256 + 1 * (j 1).val = (j 1).val; rw [e1]; omega
  · show win2_6.index t 2 * 512 + 1 * (j 2).val = 512 * (t.val / 16) + (j 2).val; rw [e2]; omega

/-- Output 0's array after the region, whole: the blocks the flushing points leave, assembled. -/
theorem arrAt6_of {c : Dev nD} (dat : Dat τ (Elt F) Unit ℕ (UR sig nD τ) ℕ cfg2 c)
    (O : Fin cfg2.N → Vec F S4x256x512 .f32) (h : ∀ t : Fin cfg2.N, t.val % 16 = 15 → dat.after 6 t = O t) :
    dat.arrAt 6 cfg2.N = assemble O :=
  dat.arrAt_eq_of_cover 6 _ (fun t hf => flushed6_eq dat O h t ((flush2_6 t).mp hf)) cover6

/-- An index of output 1's array is in point `t`'s block iff each coordinate is in the block's range on its axis. -/
theorem mem_blk7 (t : Fin cfg2.N) (i : S4x256x4096.Idx) :
    i ∈ ((cfg2.win 7).blk t).view.set ↔ ∀ a : Fin 3, win2_7.index t a * S4x256x512.size a ≤ (i a).val
      ∧ (i a).val < win2_7.index t a * S4x256x512.size a + S4x256x512.size a := by
  show i ∈ ((View.whole main_v6_1).slice (win2_7.rect t)).set ↔ _
  rw [View.set_slice_whole, Rect.mem_set_unit]
  exact Iff.rfl

/-- Every index of the array is in the block of the flushing point of its query tile. -/
theorem cover7 (i : S4x256x4096.Idx) :
    ∃ t : Fin cfg2.N, (cfg2.win 7).flush t = true ∧ i ∈ ((cfg2.win 7).blk t).view.set := by
  have hi0 : (i 0).val < 4 := (i 0).isLt
  have hi1 : (i 1).val < 256 := (i 1).isLt
  have hi2 : (i 2).val < 4096 := (i 2).isLt
  obtain ⟨t, ht⟩ : ∃ t : Fin cfg2.N, t.val = 16 * ((i 2).val / 512) + 15 := ⟨⟨_, flushPt_lt (i 2)⟩, rfl⟩
  obtain ⟨e0, e1, e2⟩ := AttnBlocks.idx2_7 t
  refine ⟨t, (flush2_7 t).mpr (by omega), ?_⟩
  rw [mem_blk7]
  intro a
  match a with
  | ⟨0, _⟩ => show win2_7.index t 0 * 4 ≤ (i 0).val ∧ (i 0).val < win2_7.index t 0 * 4 + 4; rw [e0]; omega
  | ⟨1, _⟩ => show win2_7.index t 1 * 256 ≤ (i 1).val ∧ (i 1).val < win2_7.index t 1 * 256 + 256; rw [e1]; omega
  | ⟨2, _⟩ => show win2_7.index t 2 * 512 ≤ (i 2).val ∧ (i 2).val < win2_7.index t 2 * 512 + 512; rw [e2, ht]; omega

/-- What a flushing point writes back is its block of the assembled array. -/
theorem flushed7_eq {c : Dev nD} (dat : Dat τ (Elt F) Unit ℕ (UR sig nD τ) ℕ cfg2 c)
    (O : Fin cfg2.N → Vec F S4x256x512 .f32) (h : ∀ t : Fin cfg2.N, t.val % 16 = 15 → dat.after 7 t = O t)
    (t : Fin cfg2.N) (ht : t.val % 16 = 15) :
    dat.flushed 7 t = ((cfg2.win 7).blk t).view.read (Elt F) (assemble O) := by
  show (cfg2.win 7).cut (grid2.coords t) (dat.after 7 t) = _
  rw [h t ht]
  obtain ⟨e0, e1, e2⟩ := AttnBlocks.idx2_7 t
  funext j
  rw [View.read_apply]
  show O t j = assemble O (((cfg2.win 7).blk t).view.emb j)
  refine (assemble_at O t ht j _ ?_ ?_ ?_).symm
  · show win2_7.index t 0 * 4 + 1 * (j 0).val = (j 0).val; rw [e0]; omega
  · show win2_7.index t 1 * 256 + 1 * (j 1).val = (j 1).val; rw [e1]; omega
  · show win2_7.index t 2 * 512 + 1 * (j 2).val = 512 * (t.val / 16) + (j 2).val; rw [e2]; omega

/-- Output 1's array after the region, whole: the blocks the flushing points leave, assembled. -/
theorem arrAt7_of {c : Dev nD} (dat : Dat τ (Elt F) Unit ℕ (UR sig nD τ) ℕ cfg2 c)
    (O : Fin cfg2.N → Vec F S4x256x512 .f32) (h : ∀ t : Fin cfg2.N, t.val % 16 = 15 → dat.after 7 t = O t) :
    dat.arrAt 7 cfg2.N = assemble O :=
  dat.arrAt_eq_of_cover 7 _ (fun t hf => flushed7_eq dat O h t ((flush2_7 t).mp hf)) cover7

end Cert.KernelIdeal.AttnCover

end
-- ==== Proof.AttnSpec.lean ====
/-
  The attention region's first output array, index by index, is the specification's attention, and likewise
  the second: the array is assembled from the flushing points' blocks; a flushing point's block is the quotient of
  the accumulated numerator by the accumulated denominator of its query tile; for real projected arrays that
  quotient is the softmax of the whole score row applied to the values; and the projected arrays hold the
  specification's projections, so their scores and values are the specification's.
-/
import proofs.«168839_j16673063043431_2_alg».proof.Proof.AttnAcc
import proofs.«168839_j16673063043431_2_alg».proof.Proof.QkvSpec
import proofs.«168839_j16673063043431_2_alg».proof.Proof.AttnCover

noncomputable section

namespace Cert.KernelIdeal.AttnSpec

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)
open scoped BigOperators

-- the TensorCore's buffer contents when the attention region is entered
variable (V : (c : Dev nD) → (b : Ref sig .tc) → Buf (Elt Ideal) ((c : Thread nD τ).loc b))

/-! # The tiles of a grid point are blocks of the two projected arrays -/

/-- Families of tiles that are the six input windows' blocks at every grid point are tiles of the two arrays of
    fused projections the region finds. -/
theorem tiles_of_blocks (c : Dev nD)
    (T0 : ℕ → Vec Ideal S4x512x256 .bf16) (T1 T2 : ℕ → Vec Ideal S4x256x256 .bf16)
    (T3 : ℕ → Vec Ideal S4x512x256 .bf16) (T4 T5 : ℕ → Vec Ideal S4x256x256 .bf16)
    (h0 : ∀ (t : ℕ) (ht : t < cfg2.N), T0 t = ((cfg2.win 0).blk ⟨t, ht⟩).view.read (Elt Ideal) (V c (Pipeline.arrRef spec2 0)))
    (h1 : ∀ (t : ℕ) (ht : t < cfg2.N), T1 t = ((cfg2.win 1).blk ⟨t, ht⟩).view.read (Elt Ideal) (V c (Pipeline.arrRef spec2 1)))
    (h2 : ∀ (t : ℕ) (ht : t < cfg2.N), T2 t = ((cfg2.win 2).blk ⟨t, ht⟩).view.read (Elt Ideal) (V c (Pipeline.arrRef spec2 2)))
    (h3 : ∀ (t : ℕ) (ht : t < cfg2.N), T3 t = ((cfg2.win 3).blk ⟨t, ht⟩).view.read (Elt Ideal) (V c (Pipeline.arrRef spec2 3)))
    (h4 : ∀ (t : ℕ) (ht : t < cfg2.N), T4 t = ((cfg2.win 4).blk ⟨t, ht⟩).view.read (Elt Ideal) (V c (Pipeline.arrRef spec2 4)))
    (h5 : ∀ (t : ℕ) (ht : t < cfg2.N), T5 t = ((cfg2.win 5).blk ⟨t, ht⟩).view.read (Elt Ideal) (V c (Pipeline.arrRef spec2 5))) :
    AttnAcc.Tiles (V c main_v4 : S4x4096x768.Idx → EReal) (V c main_v5 : S4x4096x768.Idx → EReal) T0 T1 T2 T3 T4 T5 := by
  have hN : cfg2.N = 128 := N_2
  refine ⟨?_, ?_, ?_, ?_, ?_, ?_⟩
  · intro t ht b r ch
    rw [h0 t (by omega)]
    exact AttnBlocks.blk2_0 V c ⟨t, by omega⟩ b r ch
  · intro t ht b j ch
    rw [h1 t (by omega)]
    exact AttnBlocks.blk2_1 V c ⟨t, by omega⟩ b j ch
  · intro t ht b j d
    rw [h2 t (by omega)]
    exact AttnBlocks.blk2_2 V c ⟨t, by omega⟩ b j d
  · intro t ht b r ch
    rw [h3 t (by omega)]
    exact AttnBlocks.blk2_3 V c ⟨t, by omega⟩ b r ch
  · intro t ht b j ch
    rw [h4 t (by omega)]
    exact AttnBlocks.blk2_4 V c ⟨t, by omega⟩ b j ch
  · intro t ht b j d
    rw [h5 t (by omega)]
    exact AttnBlocks.blk2_5 V c ⟨t, by omega⟩ b j d

/-! # An output array as the softmax over the whole row -/

/-- Row `n % 512` of query tile `n / 512` is row `n`. -/
theorem row_eq (n : Fin 4096) (h : n.val / 512 < 8) :
    (⟨512 * (n.val / 512) + ((⟨n.val % 512, Nat.mod_lt _ (by decide)⟩ : Fin 512) : ℕ),
      AttnAcc.outrow_lt h (⟨n.val % 512, Nat.mod_lt _ (by decide)⟩ : Fin 512)⟩ : Fin 4096) = n :=
  Fin.ext (by show 512 * (n.val / 512) + n.val % 512 = n.val; omega)

/-- The softmax of score row `s` applied to the value column `v`, with the row's maximum subtracted. -/
def smx (s v : Fin 4096 → EReal) : EReal :=
  ∑ mm : Fin 4096, Ideal.div (Ideal.exp (s mm - max ⊥ ((Finset.univ : Finset (Fin 4096)).fold max ⊥ s)))
    (∑ mm' : Fin 4096, Ideal.exp (s mm' - max ⊥ ((Finset.univ : Finset (Fin 4096)).fold max ⊥ s))) * v mm

variable {A B : S4x4096x768.Idx → EReal}
  {T0 : ℕ → Vec Ideal S4x512x256 .bf16} {T1 T2 : ℕ → Vec Ideal S4x256x256 .bf16}
  {T3 : ℕ → Vec Ideal S4x512x256 .bf16} {T4 T5 : ℕ → Vec Ideal S4x256x256 .bf16}

/-- The first output array, for real projected arrays: at (b, d, n) the softmax of stream 1's query row `n`
    against all of stream 2's keys, applied to stream 1's values. -/
theorem arr6_softmax {c : Dev nD} (dat : Dat τ (Elt Ideal) Unit ℕ (UR sig nD τ) ℕ cfg2 c)
    (O : Fin cfg2.N → Vec Ideal S4x256x512 .f32) (hafter : ∀ t : Fin cfg2.N, t.val % 16 = 15 → dat.after 6 t = O t)
    (hlink : ∀ t : Fin cfg2.N, t.val % 16 = 15 → O t = AttnStep.out1 (AttnAcc.accAt T0 T1 T2 T3 T4 T5 t.val))
    (hT : AttnAcc.Tiles A B T0 T1 T2 T3 T4 T5)
    (hA : ∀ i, ∃ x : ℝ, A i = (x : EReal)) (hB : ∀ i, ∃ x : ℝ, B i = (x : EReal))
    (b : Fin 4) (d : Fin 256) (n : Fin 4096) :
    (dat.arrAt 6 cfg2.N : S4x256x4096.Idx → EReal) (ix3 b d n)
      = smx (fun mm => AttnAcc.sA A B b n mm) (fun mm => AttnAcc.vA A b mm d) := by
  have hq : n.val / 512 < 8 := by have := n.isLt; omega
  refine (congrFun (AttnCover.arrAt6_of dat O hafter) (ix3 b d n)).trans ?_
  rw [AttnCover.assemble_ix3,
    hlink ⟨16 * (n.val / 512) + 15, AttnCover.flushPt_lt n⟩ (by show (16 * (n.val / 512) + 15) % 16 = 15; omega)]
  have e := AttnAcc.out1_softmax hT hA hB hq b (⟨n.val % 512, Nat.mod_lt _ (by decide)⟩ : Fin 512) d
  rw [row_eq n hq] at e
  exact e

/-- The second output array, likewise with the two streams exchanged. -/
theorem arr7_softmax {c : Dev nD} (dat : Dat τ (Elt Ideal) Unit ℕ (UR sig nD τ) ℕ cfg2 c)
    (O : Fin cfg2.N → Vec Ideal S4x256x512 .f32) (hafter : ∀ t : Fin cfg2.N, t.val % 16 = 15 → dat.after 7 t = O t)
    (hlink : ∀ t : Fin cfg2.N, t.val % 16 = 15 → O t = AttnStep.out2 (AttnAcc.accAt T0 T1 T2 T3 T4 T5 t.val))
    (hT : AttnAcc.Tiles A B T0 T1 T2 T3 T4 T5)
    (hA : ∀ i, ∃ x : ℝ, A i = (x : EReal)) (hB : ∀ i, ∃ x : ℝ, B i = (x : EReal))
    (b : Fin 4) (d : Fin 256) (n : Fin 4096) :
    (dat.arrAt 7 cfg2.N : S4x256x4096.Idx → EReal) (ix3 b d n)
      = smx (fun mm => AttnAcc.sA B A b n mm) (fun mm => AttnAcc.vA B b mm d) := by
  have hq : n.val / 512 < 8 := by have := n.isLt; omega
  refine (congrFun (AttnCover.arrAt7_of dat O hafter) (ix3 b d n)).trans ?_
  rw [AttnCover.assemble_ix3,
    hlink ⟨16 * (n.val / 512) + 15, AttnCover.flushPt_lt n⟩ (by show (16 * (n.val / 512) + 15) % 16 = 15; omega)]
  have e := AttnAcc.out2_softmax hT hA hB hq b (⟨n.val % 512, Nat.mod_lt _ (by decide)⟩ : Fin 512) d
  rw [row_eq n hq] at e
  exact e

/-! # The projected arrays' softmax is the specification's attention -/

-- the buffers' contents before the host operations
variable (V0 : Valuation τ sig (Elt Ideal))

/-- Stream 1's queries against stream 2's keys, applied to stream 1's values. -/
theorem smx_spec1 (b : Fin 4) (d : Fin 256) (n : Fin 4096) :
    smx (fun mm => AttnAcc.sA (QkvSpec.Aof V0) (QkvSpec.Bof V0) b n mm) (fun mm => AttnAcc.vA (QkvSpec.Aof V0) b mm d)
      = Spec.attn
          (Spec.score (Spec.proj (V0 (Proc.devRef .tc main_arg0)) (V0 (Proc.devRef .tc main_arg2)) (V0 (Proc.devRef .tc main_arg3)))
            (Spec.proj (V0 (Proc.devRef .tc main_arg1)) (V0 (Proc.devRef .tc main_arg4)) (V0 (Proc.devRef .tc main_arg5))))
          (Spec.proj (V0 (Proc.devRef .tc main_arg0)) (V0 (Proc.devRef .tc main_arg6)) (V0 (Proc.devRef .tc main_arg7))) b n d :=
  QkvSpec.attn_spec V0 b n d _ rfl

/-- Stream 2's queries against stream 1's keys, applied to stream 2's values. -/
theorem smx_spec2 (b : Fin 4) (d : Fin 256) (n : Fin 4096) :
    smx (fun mm => AttnAcc.sA (QkvSpec.Bof V0) (QkvSpec.Aof V0) b n mm) (fun mm => AttnAcc.vA (QkvSpec.Bof V0) b mm d)
      = Spec.attn
          (Spec.score (Spec.proj (V0 (Proc.devRef .tc main_arg1)) (V0 (Proc.devRef .tc main_arg2)) (V0 (Proc.devRef .tc main_arg3)))
            (Spec.proj (V0 (Proc.devRef .tc main_arg0)) (V0 (Proc.devRef .tc main_arg4)) (V0 (Proc.devRef .tc main_arg5))))
          (Spec.proj (V0 (Proc.devRef .tc main_arg1)) (V0 (Proc.devRef .tc main_arg6)) (V0 (Proc.devRef .tc main_arg7))) b n d :=
  QkvSpec.attn_spec' V0 b n d _ rfl

/-! # The two results -/

/-- The first output array, viewed as an image batch, is the specification's first output of the arguments. -/
theorem out_spec1 {c : Dev nD} (dat : Dat τ (Elt Ideal) Unit ℕ (UR sig nD τ) ℕ cfg2 c)
    (O : Fin cfg2.N → Vec Ideal S4x256x512 .f32) (hafter : ∀ t : Fin cfg2.N, t.val % 16 = 15 → dat.after 6 t = O t)
    (hlink : ∀ t : Fin cfg2.N, t.val % 16 = 15 → O t = AttnStep.out1 (AttnAcc.accAt T0 T1 T2 T3 T4 T5 t.val))
    (hT : AttnAcc.Tiles (QkvSpec.Aof V0) (QkvSpec.Bof V0) T0 T1 T2 T3 T4 T5)
    (hA : ∀ i, ∃ x : ℝ, QkvSpec.Aof V0 i = (x : EReal)) (hB : ∀ i, ∃ x : ℝ, QkvSpec.Bof V0 i = (x : EReal)) :
    shapeCast S4x256x64x64 (dat.arrAt 6 cfg2.N : S4x256x4096.Idx → EReal) shapeCasts_S4x256x4096_S4x256x64x64
      = Spec.G1 (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) := by
  funext i
  obtain ⟨b, d, h, w, rfl⟩ : ∃ (b : Fin 4) (d : Fin 256) (h w : Fin 64), i = ix4 b d h w :=
    ⟨i 0, i 1, i 2, i 3, eq_ix4 i⟩
  rw [QkvSpec.tail_apply, Spec.G1_ix4, arr6_softmax dat O hafter hlink hT hA hB b d (Spec.pos h w)]
  exact smx_spec1 V0 b d (Spec.pos h w)

/-- The second output array, viewed as an image batch, is the specification's second output of the arguments. -/
theorem out_spec2 {c : Dev nD} (dat : Dat τ (Elt Ideal) Unit ℕ (UR sig nD τ) ℕ cfg2 c)
    (O : Fin cfg2.N → Vec Ideal S4x256x512 .f32) (hafter : ∀ t : Fin cfg2.N, t.val % 16 = 15 → dat.after 7 t = O t)
    (hlink : ∀ t : Fin cfg2.N, t.val % 16 = 15 → O t = AttnStep.out2 (AttnAcc.accAt T0 T1 T2 T3 T4 T5 t.val))
    (hT : AttnAcc.Tiles (QkvSpec.Aof V0) (QkvSpec.Bof V0) T0 T1 T2 T3 T4 T5)
    (hA : ∀ i, ∃ x : ℝ, QkvSpec.Aof V0 i = (x : EReal)) (hB : ∀ i, ∃ x : ℝ, QkvSpec.Bof V0 i = (x : EReal)) :
    shapeCast S4x256x64x64 (dat.arrAt 7 cfg2.N : S4x256x4096.Idx → EReal) shapeCasts_S4x256x4096_S4x256x64x64
      = Spec.G2 (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) := by
  funext i
  obtain ⟨b, d, h, w, rfl⟩ : ∃ (b : Fin 4) (d : Fin 256) (h w : Fin 64), i = ix4 b d h w :=
    ⟨i 0, i 1, i 2, i 3, eq_ix4 i⟩
  rw [QkvSpec.tail_apply, Spec.G2_ix4, arr7_softmax dat O hafter hlink hT hA hB b d (Spec.pos h w)]
  exact smx_spec2 V0 b d (Spec.pos h w)

end Cert.KernelIdeal.AttnSpec

end
-- ==== Proof.AttnCore.lean ====
/-
  The attention region computes the specification's two outputs, stated at the region's entry contents: when
  the two arrays the region reads are the fused projections of real arguments, each of its two output arrays,
  viewed as an image batch, is the specification's output of those arguments. The tiles the pure recurrence
  runs over are the input windows' blocks; the staging buffers at the last key tile of a query tile hold the
  recurrence's two quotients; the flushed blocks tile the arrays.
-/
import proofs.«168839_j16673063043431_2_alg».proof.Proof.AttnLink
import proofs.«168839_j16673063043431_2_alg».proof.Proof.AttnSpec

noncomputable section

namespace Cert.KernelIdeal.AttnCore

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)

-- the TensorCore's buffer contents when the attention region is entered
variable (V : (c : Dev nD) → (b : Ref sig .tc) → Buf (Elt Ideal) ((c : Thread nD τ).loc b))
-- the buffers' contents before the first host stretch
variable (V0 : Valuation τ sig (Elt Ideal))

/-- The first output array of the attention region, viewed as an image batch, is the specification's
    first output, once the region's two input arrays are the fused projections of real arguments. -/
theorem out6_core (c : Dev nD) (hA : V c main_v4 = QkvSpec.Aof V0) (hB : V c main_v5 = QkvSpec.Bof V0)
    (r0 : ∀ i, ∃ x : ℝ, (V0 (Proc.devRef .tc main_arg0)) i = (x : EReal))
    (r1 : ∀ i, ∃ x : ℝ, (V0 (Proc.devRef .tc main_arg1)) i = (x : EReal))
    (r2 : ∀ i, ∃ x : ℝ, (V0 (Proc.devRef .tc main_arg2)) i = (x : EReal))
    (r3 : ∀ i, ∃ x : ℝ, (V0 (Proc.devRef .tc main_arg3)) i = (x : EReal))
    (r4 : ∀ i, ∃ x : ℝ, (V0 (Proc.devRef .tc main_arg4)) i = (x : EReal))
    (r5 : ∀ i, ∃ x : ℝ, (V0 (Proc.devRef .tc main_arg5)) i = (x : EReal))
    (r6 : ∀ i, ∃ x : ℝ, (V0 (Proc.devRef .tc main_arg6)) i = (x : EReal))
    (r7 : ∀ i, ∃ x : ℝ, (V0 (Proc.devRef .tc main_arg7)) i = (x : EReal)) :
    shapeCast S4x256x64x64 ((Attn.dat2 V c).arrAt 6 cfg2.N : S4x256x4096.Idx → EReal) shapeCasts_S4x256x4096_S4x256x64x64
      = Spec.G1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  have hT := AttnSpec.tiles_of_blocks V c (Attn.T0 V c) (Attn.T1 V c) (Attn.T2 V c) (Attn.T3 V c) (Attn.T4 V c) (Attn.T5 V c)
    (Attn.T0_eq V c) (Attn.T1_eq V c) (Attn.T2_eq V c) (Attn.T3_eq V c) (Attn.T4_eq V c) (Attn.T5_eq V c)
  rw [hA, hB] at hT
  exact AttnSpec.out_spec1 V0 (Attn.dat2 V c) (fun t => (Attn.outsAt2 V c t.val t.isLt).1) (fun t _ => Attn.after2_6 V c t)
    (fun t ht => Attn.out6_link V c t ht) hT
    (QkvSpec.Aof_real V0 r0 r2 r3 r4 r5 r6 r7) (QkvSpec.Bof_real V0 r1 r2 r3 r4 r5 r6 r7)

/-- The second output array of the attention region, viewed as an image batch, is the specification's
    second output, once the region's two input arrays are the fused projections of real arguments. -/
theorem out7_core (c : Dev nD) (hA : V c main_v4 = QkvSpec.Aof V0) (hB : V c main_v5 = QkvSpec.Bof V0)
    (r0 : ∀ i, ∃ x : ℝ, (V0 (Proc.devRef .tc main_arg0)) i = (x : EReal))
    (r1 : ∀ i, ∃ x : ℝ, (V0 (Proc.devRef .tc main_arg1)) i = (x : EReal))
    (r2 : ∀ i, ∃ x : ℝ, (V0 (Proc.devRef .tc main_arg2)) i = (x : EReal))
    (r3 : ∀ i, ∃ x : ℝ, (V0 (Proc.devRef .tc main_arg3)) i = (x : EReal))
    (r4 : ∀ i, ∃ x : ℝ, (V0 (Proc.devRef .tc main_arg4)) i = (x : EReal))
    (r5 : ∀ i, ∃ x : ℝ, (V0 (Proc.devRef .tc main_arg5)) i = (x : EReal))
    (r6 : ∀ i, ∃ x : ℝ, (V0 (Proc.devRef .tc main_arg6)) i = (x : EReal))
    (r7 : ∀ i, ∃ x : ℝ, (V0 (Proc.devRef .tc main_arg7)) i = (x : EReal)) :
    shapeCast S4x256x64x64 ((Attn.dat2 V c).arrAt 7 cfg2.N : S4x256x4096.Idx → EReal) shapeCasts_S4x256x4096_S4x256x64x64
      = Spec.G2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  have hT := AttnSpec.tiles_of_blocks V c (Attn.T0 V c) (Attn.T1 V c) (Attn.T2 V c) (Attn.T3 V c) (Attn.T4 V c) (Attn.T5 V c)
    (Attn.T0_eq V c) (Attn.T1_eq V c) (Attn.T2_eq V c) (Attn.T3_eq V c) (Attn.T4_eq V c) (Attn.T5_eq V c)
  rw [hA, hB] at hT
  exact AttnSpec.out_spec2 V0 (Attn.dat2 V c) (fun t => (Attn.outsAt2 V c t.val t.isLt).2.1) (fun t _ => Attn.after2_7 V c t)
    (fun t ht => Attn.out7_link V c t ht) hT
    (QkvSpec.Aof_real V0 r0 r2 r3 r4 r5 r6 r7) (QkvSpec.Bof_real V0 r1 r2 r3 r4 r5 r6 r7)

end Cert.KernelIdeal.AttnCore

end
-- ==== Proof.FiniteInputs.lean ====
/-
  From the precondition to real inputs. The precondition says of each of the eight input arrays that every
  entry's absolute value is below +∞: a conjunction of eight reductions by "and" of elementwise comparisons,
  each equal to 1. An extended real whose absolute value is below +∞ is a real number, so under the
  precondition every entry of every input array is a real number.
-/
import proofs.«168839_j16673063043431_2_alg».proof.Pre_finite_inputs
import Idealize.ShloMosaic.PureOps.Ideal
import Idealize.ShloMosaic.Lib.ReduceAll
import Idealize.ShloMosaic.Lib.ValueIdx
noncomputable section
namespace Cert.Proof.Finite
open Idealize.ShloMosaic Cert.Pre_finite_inputs

/-- the shape of rank 0 has one index -/
instance : Subsingleton S_.Idx := ⟨fun a b => funext fun d => d.elim0⟩

theorem ofBool_eq_one {b : Bool} : BitVec.ofBool b = 1#1 ↔ b = true := by cases b <;> decide

/-- the pattern 0x7F800000 denotes +∞ -/
theorem ofBits_inf : Ideal.ofBits .f32 0x7F800000#32 = ⊤ := by simp [Ideal.ofBits, Ideal.ieee]

/-- a value whose absolute value is below +∞ is a real number -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  unfold Ideal.cmp at h
  have hlt : max x (-x) < ⊤ := by simpa [ofBool_eq_one] using h
  induction x using EReal.rec with
  | bot => simp at hlt
  | coe r => exact ⟨r, rfl⟩
  | top => simp at hlt

/-- an array every entry of which has absolute value below the broadcast +∞ has real entries -/
theorem all_real {s : Shape} (x : FVec Ideal s .f32)
    (bc : S_.BroadcastsInDim s (![] : Fin 0 → Fin s.rank))
    (h : ∀ i, cmpf .olt (Host.absf x) (broadcastInDim s ![] bc (constant (F := Ideal) S_ .f32 0x7F800000#32)) i = 1#1)
    (i : s.Idx) : ∃ r : ℝ, x i = (r : EReal) :=
  real_of_abs_lt_inf (x i) (h i)

/-- a conjunction of two masks that is 1 at an index has both masks 1 there -/
theorem andi_vec_eq_one {s : Shape} (a b : IVec s 1) (i : s.Idx) (h : andi a b i = 1#1) :
    a i = 1#1 ∧ b i = 1#1 := IntOp.andi_eq_one.1 h

/-- under the precondition "every input is finite", every entry of every input is a real number -/
theorem finite_of_pre [Cert.Pre_finite_inputs.Facts]
    (x0 x1 : FVec Ideal S4x256x64x64 .f32) (x2 : FVec Ideal S256x256 .f32) (x3 : FVec Ideal S256 .f32)
    (x4 : FVec Ideal S256x256 .f32) (x5 : FVec Ideal S256 .f32) (x6 : FVec Ideal S256x256 .f32)
    (x7 : FVec Ideal S256 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  have h0 := congrFun h ValueIdx.ix0
  dsimp only [Cert.Pre_finite_inputs.fn, Cert.Pre_finite_inputs.fn_part1,
    Cert.Pre_finite_inputs.fn_part2] at h0
  obtain ⟨h0, e7⟩ := andi_vec_eq_one _ _ _ h0
  obtain ⟨h0, e6⟩ := andi_vec_eq_one _ _ _ h0
  obtain ⟨h0, e5⟩ := andi_vec_eq_one _ _ _ h0
  obtain ⟨h0, e4⟩ := andi_vec_eq_one _ _ _ h0
  obtain ⟨h0, e3⟩ := andi_vec_eq_one _ _ _ h0
  obtain ⟨h0, e2⟩ := andi_vec_eq_one _ _ _ h0
  obtain ⟨e0, e1⟩ := andi_vec_eq_one _ _ _ h0
  exact ⟨all_real x0 _ (Host.reduce_andi_all _ _ _ _ _ e0), all_real x1 _ (Host.reduce_andi_all _ _ _ _ _ e1),
    all_real x2 _ (Host.reduce_andi_all _ _ _ _ _ e2), all_real x3 _ (Host.reduce_andi_all _ _ _ _ _ e3),
    all_real x4 _ (Host.reduce_andi_all _ _ _ _ _ e4), all_real x5 _ (Host.reduce_andi_all _ _ _ _ _ e5),
    all_real x6 _ (Host.reduce_andi_all _ _ _ _ _ e6), all_real x7 _ (Host.reduce_andi_all _ _ _ _ _ e7)⟩

end Cert.Proof.Finite
-- ==== Proof.KernelIsSpec.lean ====
/-
  The kernel program computes the specification. Its run ends with every unscoped buffer at the contents the
  four host stretches and the three regions compose. The two results are the last stretch's reshapes of the
  attention region's two output arrays; that region finds, in its two input arrays, what the two linear regions
  left: the fused projections of the two token streams the first stretch prepared from the arguments. Under the
  precondition the arguments are real, so the attention region's output arrays, reshaped, are the specification's
  two outputs of the arguments.
-/
import proofs.«168839_j16673063043431_2_alg».proof.Proof.Run3I
import proofs.«168839_j16673063043431_2_alg».proof.Proof.AttnCore
import proofs.«168839_j16673063043431_2_alg».proof.Proof.FiniteInputs
import proofs.«168839_j16673063043431_2_alg».proof.Defs

noncomputable section

namespace Cert.KernelIdeal.KernelSpec

open Cert.KernelIdeal Cert.KernelIdeal.Gen
open Idealize.ShloMosaic Idealize.ShloMosaic.TcCoe Idealize.SL.Sem Idealize.ShloMosaic.ValueIdx
open Idealize.ShloMosaic.Rounds
open Idealize.ShloMosaic.Pipeline (Dat)

variable (m : (ℓ : Loc nD τ sig) → Buf (Elt Ideal) ℓ) (ρ : Dev nD → PrngReg)

/-! # What the attention region finds in its two input arrays -/

/-- Stream 1's array: what region 0 left, the fused projection of the first stretch's arrays. -/
theorem Aof_eq (c : Dev nD) : Run3.V3 m ρ c main_v4 = QkvSpec.Aof (Run3.W0 m ρ c) :=
  (Run3.V3_v4 m ρ c).trans (LinFinal.final0 (Run3.V1 m ρ) c)

/-- Stream 2's array: what region 1 left; region 0 did not change region 1's input arrays. -/
theorem Bof_eq (c : Dev nD) : Run3.V3 m ρ c main_v5 = QkvSpec.Bof (Run3.W0 m ρ c) := by
  refine (Run3.V3_v5 m ρ c).trans ((LinFinal.final1 (Run3.V2 m ρ) c).trans ?_)
  show LinFinal.linG (Run3.V2 m ρ c main_v1) (Run3.V2 m ρ c main_v2) (Run3.V2 m ρ c main_v3) = _
  rw [Run3.V2_of_ne m ρ c main_v1 (by decide), Run3.V2_of_ne m ρ c main_v2 (by decide),
    Run3.V2_of_ne m ρ c main_v3 (by decide)]

/-! # The two results -/

/-- The first result is the specification's first output of the arguments. -/
theorem v7_spec [Cert.Pre_finite_inputs.Facts] (hpre : Cert.Pre_KernelIdeal m) (c : Dev nD) :
    Run3.W5 m ρ c (Proc.devRef .tc main_v7) = Spec.G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨r0, r1, r2, r3, r4, r5, r6, r7⟩ := Cert.Proof.Finite.finite_of_pre _ _ _ _ _ _ _ _ (hpre c)
  rw [Run3.W5_v7, Run3.W4_v6_0]
  exact AttnCore.out6_core (Run3.V3 m ρ) (Run3.W0 m ρ c) c (Aof_eq m ρ c) (Bof_eq m ρ c) r0 r1 r2 r3 r4 r5 r6 r7

/-- The second result is the specification's second output of the arguments. -/
theorem v8_spec [Cert.Pre_finite_inputs.Facts] (hpre : Cert.Pre_KernelIdeal m) (c : Dev nD) :
    Run3.W5 m ρ c (Proc.devRef .tc main_v8) = Spec.G2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨r0, r1, r2, r3, r4, r5, r6, r7⟩ := Cert.Proof.Finite.finite_of_pre _ _ _ _ _ _ _ _ (hpre c)
  rw [Run3.W5_v8, Run3.W4_v6_1]
  exact AttnCore.out7_core (Run3.V3 m ρ) (Run3.W0 m ρ c) c (Aof_eq m ρ c) (Bof_eq m ρ c) r0 r1 r2 r3 r4 r5 r6 r7

/-! # The run -/

/-- THE KERNEL'S RUN: under the precondition, every weakly fair execution of @main terminates, nothing faulting,
    with the two result buffers at the specification's two outputs of the arguments and the arguments unchanged. -/
theorem kernel_run [Cert.KernelIdeal.Facts] [Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v7) = Spec.G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v8) = Spec.G2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (Run3.mem_uc main_v7 (by decide))).trans (v7_spec m ρ hpre c),
     (h c _ (Run3.mem_uc main_v8 (by decide))).trans (v8_spec m ρ hpre c),
     (h c _ (Run3.mem_uc main_arg0 (by decide))).trans (Run3.W5_main_arg0 m ρ c),
     (h c _ (Run3.mem_uc main_arg1 (by decide))).trans (Run3.W5_main_arg1 m ρ c),
     (h c _ (Run3.mem_uc main_arg2 (by decide))).trans (Run3.W5_main_arg2 m ρ c),
     (h c _ (Run3.mem_uc main_arg3 (by decide))).trans (Run3.W5_main_arg3 m ρ c),
     (h c _ (Run3.mem_uc main_arg4 (by decide))).trans (Run3.W5_main_arg4 m ρ c),
     (h c _ (Run3.mem_uc main_arg5 (by decide))).trans (Run3.W5_main_arg5 m ρ c),
     (h c _ (Run3.mem_uc main_arg6 (by decide))).trans (Run3.W5_main_arg6 m ρ c),
     (h c _ (Run3.mem_uc main_arg7 (by decide))).trans (Run3.W5_main_arg7 m ρ c)⟩) (Run3.run3 m ρ)

end Cert.KernelIdeal.KernelSpec

end
-- ==== Proof.lean ====
/-
  The certificate's claims. The kernel program is three pallas_calls: the two streams' fused query / key /
  value projections (one matrix product and a bias each), then a flash-attention kernel that walks the keys
  tile by tile keeping a running maximum, denominator and numerator per query row, and divides at the end.
  The reference computes the same projections, the full score matrix, its row softmax and the weighted sum
  of the values. On extended reals with finite inputs the two agree: the running sums, rescaled at each
  step by exp (old maximum − new maximum), are the softmax's sums taken against the final maximum, and a
  quotient of two such sums does not depend on the shift. The frames (every execution terminates, faults
  nowhere, leaves the arguments as they were) come from running each kernel's body at every grid point.
-/
import proofs.«168839_j16673063043431_2_alg».proof.Defs
import proofs.«168839_j16673063043431_2_alg».proof.Proof.Gen.Kernel
import proofs.«168839_j16673063043431_2_alg».proof.Proof.Gen.KernelIdeal
import proofs.«168839_j16673063043431_2_alg».proof.Proof.Gen.ReferenceIdeal
import proofs.«168839_j16673063043431_2_alg».proof.Proof.Gen.Pre_finite_inputs
import proofs.«168839_j16673063043431_2_alg».proof.Proof.Run3B
import proofs.«168839_j16673063043431_2_alg».proof.Proof.Run3I
import proofs.«168839_j16673063043431_2_alg».proof.Proof.RefIsSpec
import proofs.«168839_j16673063043431_2_alg».proof.Proof.KernelIsSpec
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Run3.frame3 (F := Bits) m ρ

/-- So does the idealized program. -/
theorem frame_ki : Cert.frame_KernelIdeal := fun m ρ _ => Cert.KernelIdeal.Run3.frame3 (F := Ideal) m ρ

/-- The reference is host operations only: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the arguments. -/
theorem algebraic : Cert.algebraic_KernelIdeal_ReferenceIdeal := by
  intro m ρ m' ρ' hpre hagree
  refine ⟨_, _, Cert.KernelIdeal.KernelSpec.kernel_run m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.RefSpec.result0_eq m' c, h0, h1, h2, h3, h4, h5, h6, h7]
  · obtain ⟨h0, h1, h2, h3, h4, h5, h6, h7⟩ := hagree c
    rw [Cert.ReferenceIdeal.RefSpec.result1_eq m' c, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
